-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S50000x256 : Shape := ⟨2, ![50000, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x256 .f32) (main_arg1 : IVec S131072 32) (main_arg2 : FVec F S50000x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 32 := constantI S_ 32 50000#32
  let main_v11 : IVec S131072 32 := broadcastInDim S131072 ![] bcast_S_S131072 main_c_3
  let main_v12 : IVec S131072 1 := cmpi .slt main_arg1 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x256 : Shape := ⟨2, ![131072, 256]⟩
abbrev S131072 : Shape := ⟨1, ![131072]⟩
abbrev S50000x256 : Shape := ⟨2, ![50000, 256]⟩
abbrev S256x128 : Shape := ⟨2, ![256, 128]⟩
abbrev S4096x256 : Shape := ⟨2, ![4096, 256]⟩
abbrev S8x128 : Shape := ⟨2, ![8, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩
abbrev S131072x1 : Shape := ⟨2, ![131072, 1]⟩
abbrev S32x4096 : Shape := ⟨2, ![32, 4096]⟩
abbrev S32 : Shape := ⟨1, ![32]⟩
abbrev S1x131072 : Shape := ⟨2, ![1, 131072]⟩
abbrev S400x128 : Shape := ⟨2, ![400, 128]⟩
abbrev S1x4096 : Shape := ⟨2, ![1, 4096]⟩
abbrev S1000x256 : Shape := ⟨2, ![1000, 256]⟩
abbrev S1000x1 : Shape := ⟨2, ![1000, 1]⟩
abbrev S1024x256 : Shape := ⟨2, ![1024, 256]⟩
abbrev S1x1024 : Shape := ⟨2, ![1, 1024]⟩
abbrev S1000x1024 : Shape := ⟨2, ![1000, 1024]⟩
abbrev S1000 : Shape := ⟨1, ![1000]⟩

abbrev nBuf : Space → Nat
  | .hbm => 39
  | .vmem => 18
  | .smem => 2
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S50000x256, .f32⟩
  | .hbm, ⟨3, _⟩ => ⟨S131072x256, .bf16⟩
  | .hbm, ⟨4, _⟩ => ⟨S256x128, .f32⟩
  | .hbm, ⟨5, _⟩ => ⟨S_, .f32⟩
  | .hbm, ⟨6, _⟩ => ⟨S_, .f32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x256, .bf16⟩
  | .hbm, ⟨28, _⟩ => ⟨S32x4096, .i32⟩
  | .hbm, ⟨29, _⟩ => ⟨S_, .i32⟩
  | .hbm, ⟨30, _⟩ => ⟨S_, .i32⟩
  | .hbm, ⟨31, _⟩ => ⟨S1x131072, .i32⟩
  | .hbm, ⟨32, _⟩ => ⟨S50000x256, .f32⟩
  | .hbm, ⟨33, _⟩ => ⟨S400x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S8x128, .f32⟩
  | .local _ .vmem, ⟨5, _⟩ => ⟨S8x128, .f32⟩
  | .local _ .vmem, ⟨6, _⟩ => ⟨S4096x256, .bf16⟩
  | .local _ .vmem, ⟨7, _⟩ => ⟨S4096x256, .bf16⟩
  | .local _ .vmem, ⟨8, _⟩ => ⟨S1x4096, .i32⟩
  | .local _ .vmem, ⟨9, _⟩ => ⟨S1x4096, .i32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S8x128, .f32⟩
  | .local _ .vmem, ⟨15, _⟩ => ⟨S8x128, .f32⟩
  | .local _ .vmem, ⟨16, _⟩ => ⟨S1000x1, .f32⟩
  | .local _ .vmem, ⟨17, _⟩ => ⟨S1000x256, .f32⟩
  | .local _ .smem, ⟨0, _⟩ => ⟨S32, .i32⟩
  | .local _ .smem, ⟨1, _⟩ => ⟨S32, .i32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_v1_0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_c_4 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v18 : Ref sig .tc := ⟨.smem, 0, rfl⟩
abbrev main_v19 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![50, 32], ![false, false]⟩

abbrev pre1 : Pipeline.Prefetch sig := ⟨2, ![main_v18.idx, main_v19.idx], fun | 0 => main_v18.names | 1 => main_v19.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v6 : Index := Scalar.indexCast arg1
  ![v6.toNat]
def k1_mult1 : BitVec 32 :=
  let c0_i32_7 : BitVec 32 := 0#32
  let c1024_i32 : BitVec 32 := 1024#32
  let v20 : BitVec 32 := Scalar.muli c0_i32_7 c1024_i32
  v20
def k1_off2 (c0_i32_7 : BitVec 32) : Fin 2 → Nat :=
  let c1024_i32 : BitVec 32 := 1024#32
  let v20 : BitVec 32 := Scalar.muli c0_i32_7 c1024_i32
  let v21 : BitVec 32 := v20
  let v22 : Index := Scalar.indexCast v21
  let c0_8 : Index := 0#32
  ![v22.toNat, 0]
def k1_off3 (c0_i32_7 : BitVec 32) : Fin 2 → Nat :=
  let c0_9 : Index := 0#32
  let c1024_i32 : BitVec 32 := 1024#32
  let v20 : BitVec 32 := Scalar.muli c0_i32_7 c1024_i32
  let v21 : BitVec 32 := v20
  let v25 : Index := Scalar.indexCast v21
  ![0, v25.toNat]
def k1_mult2 : BitVec 32 :=
  let c1_i32_11 : BitVec 32 := 1#32
  let c1024_i32_12 : BitVec 32 := 1024#32
  let v44 : BitVec 32 := Scalar.muli c1_i32_11 c1024_i32_12
  v44
def k1_mult3 : BitVec 32 :=
  let c2_i32 : BitVec 32 := 2#32
  let c1024_i32_17 : BitVec 32 := 1024#32
  let v68 : BitVec 32 := Scalar.muli c2_i32 c1024_i32_17
  v68
def k1_mult4 : BitVec 32 :=
  let c3_i32 : BitVec 32 := 3#32
  let c1024_i32_22 : BitVec 32 := 1024#32
  let v92 : BitVec 32 := Scalar.muli c3_i32 c1024_i32_22
  v92
def k1_cond3 (i : grid1.Coords) : BitVec 1 :=
  let arg1 : BitVec 32 := BitVec.ofNat 32 (i 1).val
  let c31_i32 : BitVec 32 := 31#32
  let v15 : BitVec 1 := Scalar.cmpi .eq arg1 c31_i32
  let v16 : BitVec 32 := Scalar.extui v15
  let c0_i32_3 : BitVec 32 := 0#32
  let v17 : BitVec 1 := Scalar.cmpi .ne v16 c0_i32_3
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  reduces_S4096x1_S1 : S4096x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S32x4096 : S131072.ShapeCasts S32x4096
  reducesTo_S32x4096_S32_d1 : S32x4096.ReducesTo [1] S32
  shapeCasts_S131072_S1x131072 : S131072.ShapeCasts S1x131072
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  numel1_S1 : S1.numel = 1
  h_S1024x256 : 0 < S1024x256.numel
  shapeCasts_S1024x256_S1024x256 : S1024x256.ShapeCasts S1024x256
  h_S1x1024 : 0 < S1x1024.numel
  shapeCasts_S1x1024_S1x1024 : S1x1024.ShapeCasts S1x1024
  iota_S1000x1_d0_w32 : S1000x1.Iotas .tc 32 [0]
  broadcasts_S1000x1_S1000x1024 : S1000x1.Broadcasts S1000x1024
  broadcasts_S1x1024_S1000x1024 : S1x1024.Broadcasts S1000x1024
  natLt_1_32 : 1 < 32
  reduces_S1000x1024_S1000 : S1000x1024.Reduces [1] S1000
  shapeCasts_S1000_S1000x1 : S1000.ShapeCasts S1000x1
  broadcasts_S1000x1_S1000x256 : S1000x1.Broadcasts S1000x256
  reduces_S1000x256_S1000 : S1000x256.Reduces [1] S1000
  reduces_S1000x1_S1 : S1000x1.Reduces [0] S1
  reducesTo_S400x128_S_d0_1 : S400x128.ReducesTo [0, 1] S_
  gather_S131072_S131072x1_S131072_n_0_n_n_0_1_1_wf : GatherDims.WF S131072 S131072x1 S131072 [] [0] [] [0] [] 1 ![1]
  gather_S131072x256_S131072x1_S131072x256_1_0_n_n_0_1_1256_wf : GatherDims.WF S131072x256 S131072x1 S131072x256 [1] [0] [] [0] [] 1 ![1, 256]
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .bf16 = 32 ∨ (Rect.block (s := S131072x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S256x128.size a
  hwx0_2 : ∀ i : grid0.Coords, EltTy.bits .f32 = 32 ∨ (Rect.block (s := S256x128) S8x128.size (cc0_transform_2 i) (hinb0_2 i)).WholeWords (EltTy.packing .f32)
  hrank1 : 0 < grid1.rank
  k1_off1_inb : ∀ i : grid1.Coords, ∀ a, (k1_off1 i) a + S1.size a ≤ S32.size a
  k1_mult1_dvd : 1024 ∣ k1_mult1.toNat
  k1_off2_inb : ∀ (r : Fin 4), ∀ a, (k1_off2 (BitVec.ofNat 32 r.val)) a + S1024x256.size a ≤ S4096x256.size a
  k1_off3_inb : ∀ (r : Fin 4), ∀ a, (k1_off3 (BitVec.ofNat 32 r.val)) a + S1x1024.size a ≤ S1x4096.size a
  k1_mult2_dvd : 1024 ∣ k1_mult2.toNat
  k1_mult3_dvd : 1024 ∣ k1_mult3.toNat
  k1_mult4_dvd : 1024 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .bf16 = 32 ∨ (Rect.block (s := S131072x256) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x131072.size a
  hwx1_1 : ∀ i : grid1.Coords, EltTy.bits .i32 = 32 ∨ (Rect.block (s := S1x131072) S1x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S400x128.size a
  hwx1_4 : ∀ i : grid1.Coords, EltTy.bits .f32 = 32 ∨ (Rect.block (s := S400x128) S8x128.size (cc1_transform_4 i) (hinb1_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v16) S4096x256.size reads1_0 false false 2 stage1_0 sem1_0 nbuf1_0 hstage1_0

abbrev spec1_1 : Pipeline.WinSpec sig grid1.rank :=
  Pipeline.WinSpec.ofSpec (Memref.whole main_v20) S1x4096.size reads1_1 false false 2 stage1_1 sem1_1 nbuf1_1 hstage1_1

abbrev spec1_2 : Pipeline.WinSpec sig grid1.rank :=
  Pipeline.WinSpec.ofSpec (Memref.whole main_arg2) S1000x256.size reads1_2 false false 2 stage1_2 sem1_2 nbuf1_2 hstage1_2

abbrev spec1_3 : Pipeline.WinSpec sig grid1.rank :=
  Pipeline.WinSpec.ofSpec (Memref.whole main_v21_0) S1000x256.size reads1_3 true false 2 stage1_3 sem1_3 nbuf1_3 hstage1_3

abbrev spec1_4 : Pipeline.WinSpec sig grid1.rank :=
  Pipeline.WinSpec.ofSpec (Memref.whole main_v21_1) S8x128.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 | 1 => cc1_transform_1 | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | ⟨_ + 5, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | ⟨_ + 5, h⟩ => absurd h (Nat.not_lt.2 (Nat.le_add_left _ _))
abbrev idle1 : Fin 5 → grid1.Coords → Bool := fun | 0 => fun _ => false | 1 => fun _ => false | 2 => fun _ => false | 3 => fun i => !(k1_cond3 i == 1#1) | 4 => fun i => !(k1_cond3 i == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S131072x256 : Shape := ⟨2, ![131072, 256]⟩
abbrev S131072 : Shape := ⟨1, ![131072]⟩
abbrev S50000x256 : Shape := ⟨2, ![50000, 256]⟩
abbrev S_ : Shape := ⟨0, ![]⟩
abbrev S131072x1 : Shape := ⟨2, ![131072, 1]⟩
abbrev S50000 : Shape := ⟨1, ![50000]⟩

abbrev nBuf : Space → Nat
  | .hbm => 61
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S50000x256, .f32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x1, .f32⟩
  | .hbm, ⟨8, _⟩ => ⟨S_, .f32⟩
  | .hbm, ⟨9, _⟩ => ⟨S131072x1, .f32⟩
  | .hbm, ⟨10, _⟩ => ⟨S131072x1, .f32⟩
  | .hbm, ⟨11, _⟩ => ⟨S131072x256, .f32⟩
  | .hbm, ⟨12, _⟩ => ⟨S131072x256, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x256, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S131072, .f32⟩
  | .hbm, ⟨30, _⟩ => ⟨S_, .f32⟩
  | .hbm, ⟨31, _⟩ => ⟨S50000, .f32⟩
  | .hbm, ⟨32, _⟩ => ⟨S131072x1, .i32⟩
  | .hbm, ⟨33, _⟩ => ⟨S50000, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072, .f32⟩
  | .hbm, ⟨43, _⟩ => ⟨S_, .f32⟩
  | .hbm, ⟨44, _⟩ => ⟨S131072, .f32⟩
  | .hbm, ⟨45, _⟩ => ⟨S131072, .f32⟩
  | .hbm, ⟨46, _⟩ => ⟨S_, .f32⟩
  | .hbm, ⟨47, _⟩ => ⟨S131072, .f32⟩
  | .hbm, ⟨48, _⟩ => ⟨S131072, .f32⟩
  | .hbm, ⟨49, _⟩ => ⟨S131072x256, .f32⟩
  | .hbm, ⟨50, _⟩ => ⟨S131072x1, .f32⟩
  | .hbm, ⟨51, _⟩ => ⟨S131072x256, .f32⟩
  | .hbm, ⟨52, _⟩ => ⟨S131072x256, .f32⟩
  | .hbm, ⟨53, _⟩ => ⟨S_, .f32⟩
  | .hbm, ⟨54, _⟩ => ⟨S50000x256, .f32⟩
  | .hbm, ⟨55, _⟩ => ⟨S131072x1, .i32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S50000x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S_S131072 : S_.BroadcastsInDim S131072 (![] : Fin 0 → Fin S131072.rank)
  reducesTo_S131072x256_S_d0_1 : S131072x256.ReducesTo [0, 1] S_
  bcast_S_S50000 : S_.BroadcastsInDim S50000 (![] : Fin 0 → Fin S50000.rank)
  bcast_S_S50000x256 : S_.BroadcastsInDim S50000x256 (![] : Fin 0 → Fin S50000x256.rank)
  gather_S50000x256_S131072x1_S131072x256_1_0_n_n_0_1_1256_wf : GatherDims.WF S50000x256 S131072x1 S131072x256 [1] [0] [] [0] [] 1 ![1, 256]
  scatter_S50000_S131072x1_S131072_n_0_0_1_wf : ScatterDims.WF S50000 S131072x1 S131072 [] [0] [0] 1
  gather_S50000_S131072x1_S131072_n_0_n_n_0_1_1_wf : GatherDims.WF S50000 S131072x1 S131072 [] [0] [] [0] [] 1 ![1]
  scatter_S50000x256_S131072x1_S131072x256_1_0_0_1_wf : ScatterDims.WF S50000x256 S131072x1 S131072x256 [1] [0] [0] 1

variable [Facts₀]

def gather_S50000x256_S131072x1_S131072x256_1_0_n_n_0_1_1256 : GatherDims S50000x256 S131072x1 S131072x256 where
  offsetDims := [1]
  collapsedSliceDims := [0]
  operandBatchingDims := []
  startIndicesBatchingDims := []
  startIndexMap := [0]
  indexVectorDim := 1
  sliceSizes := ![1, 256]
  wf := gather_S50000x256_S131072x1_S131072x256_1_0_n_n_0_1_1256_wf
def scatter_S50000_S131072x1_S131072_n_0_0_1 : ScatterDims S50000 S131072x1 S131072 where
  updateWindowDims := []
  insertedWindowDims := [0]
  scatterDimsToOperandDims := [0]
  indexVectorDim := 1
  wf := scatter_S50000_S131072x1_S131072_n_0_0_1_wf
def gather_S50000_S131072x1_S131072_n_0_n_n_0_1_1 : GatherDims S50000 S131072x1 S131072 where
  offsetDims := []
  collapsedSliceDims := [0]
  operandBatchingDims := []
  startIndicesBatchingDims := []
  startIndexMap := [0]
  indexVectorDim := 1
  sliceSizes := ![1]
  wf := gather_S50000_S131072x1_S131072_n_0_n_n_0_1_1_wf
def scatter_S50000x256_S131072x1_S131072x256_1_0_0_1 : ScatterDims S50000x256 S131072x1 S131072x256 where
  updateWindowDims := [1]
  insertedWindowDims := [0]
  scatterDimsToOperandDims := [0]
  indexVectorDim := 1
  wf := scatter_S50000x256_S131072x1_S131072x256_1_0_0_1_wf

class Facts : Prop extends Facts₀ where

variable [Facts]
-- ==== Proof.RefFrame.lean ====
/-
  The reference program's frame: it is a straight line of host operations, so every weakly fair execution
  runs each operation once, in order, and ends; no operation writes an argument array.  The run with each
  result named is the generated read-back of the host line; the frame claim forgets the results.
-/
import proofs.«100039_j20426864460160_2_alg».proof.Defs
import proofs.«100039_j20426864460160_2_alg».proof.Proof.Gen.ReferenceIdeal.Run

noncomputable section

namespace Cert.Proof.RefFrame

open Idealize.ShloMosaic Idealize.ShloMosaic.TcCoe Idealize.SL.Sem

/-- The reference runs to the end, faults nowhere and leaves its three argument arrays as it found them. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.NormRegion.lean ====
/-
  The first kernel region — the row normalisation — as the pipeline library wants it: the kernel's run at one grid point
  (what its three buffers hold afterwards, from the block of feature rows it was handed), the region's proof data over
  the arrays as the region finds them, and the body obligation at every grid point.  Stated at any float instance.
-/
import proofs.«100039_j20426864460160_2_alg».proof.Proof.Gen.Kernel.Launch
import proofs.«100039_j20426864460160_2_alg».proof.Proof.Gen.Kernel.Skeleton
import proofs.«100039_j20426864460160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The normalising kernel at one grid point

At grid point `t` the kernel is handed rows `4096·t … 4096·t + 4095` of the feature array `x` (its one input window) and two
output buffers.  It divides every row by the larger of its Euclidean norm and a fixed floor, stores the quotient (narrowed
to the short float format) over the whole first output buffer, and stores over the whole second one the constant
8×128 block whose every entry is the sum of the squares of all the quotients divided by 1024.  Before each store it also
loads the output buffer it is about to overwrite; nothing is done with what it loads. -/

/-- The rectangle of a whole 4096×256 staging buffer, and of a whole 8×128 one. -/
abbrev tileRect : Rect S4096x256 := Rect.unit (s := S4096x256) ![0, 0] S4096x256.size inb_S4096x256_S4096x256_0_0
abbrev partRect : Rect S8x128 := Rect.unit (s := S8x128) ![0, 0] S8x128.size inb_S8x128_S8x128_0_0

/-- What the kernel leaves in the buffer of the normalised rows, from the block of rows it was handed: its one store,
    which covers the buffer. -/
def normOut (x0 : Vec F S4096x256 .f32) : Vec F S4096x256 .bf16 :=
  View.canon [⟨tileRect, k0_pay2 (View.ld x0 tileRect)⟩]
/-- What it leaves in the buffer of the partial sums of squares. -/
def partOut (x0 : Vec F S4096x256 .f32) : Vec F S8x128 .f32 :=
  View.canon [⟨partRect, k0_pay3 (View.ld x0 tileRect)⟩]

/-- One store through the whole rectangle covers the buffer. -/
theorem normCover (p0 : Vec F S4096x256 .bf16) (y : S4096x256.Idx) :
    ∃ pc ∈ ([⟨tileRect, p0⟩] : List (View.Piece (Elt F) S4096x256 .bf16)), y ∈ pc.1.set :=
  View.cover_of_tiled [⟨tileRect, p0⟩] S4096x256.size (by rfl) y
theorem partCover (p0 : Vec F S8x128 .f32) (y : S8x128.Idx) :
    ∃ pc ∈ ([⟨partRect, p0⟩] : List (View.Piece (Elt F) S8x128 .f32)), y ∈ pc.1.set :=
  View.cover_of_tiled [⟨partRect, p0⟩] S8x128.size (by rfl) y

set_option maxHeartbeats 1000000 in
/-- The kernel on whole buffers — the input's at contents `x0`, the outputs' at anything — runs to its end leaving the
    input's as it was and the outputs' at `normOut x0` and `partOut x0`. -/
theorem normalize_triple (c : Dev nD) (E : Set ℕ) (i : grid0.Coords)
    (arg1 : Memref sig .tc .vmem S4096x256 .f32) (harg1 : arg1.IsWhole)
    (arg2 : Memref sig .tc .vmem S4096x256 .bf16) (harg2 : arg2.IsWhole)
    (arg3 : Memref sig .tc .vmem S8x128 .f32) (harg3 : arg3.IsWhole)
    (x0 : Vec F S4096x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (normOut x0)
            ∗ owns (c : Thread nD τ) arg3 fullShare (partOut x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (normCover _)
  iexists _; isplitr
  swap; · iexact H2
  ipureintro
  exact View.read_writes_eq_canon _ _ _ (partCover _)

/-! ## The blocks, and the proof data of the normalising region

`V` is what the core's buffers hold when the region is entered.  Window 0 reads the feature array, windows 1 and 2 write
the array of normalised rows and the array of partial sums; at grid point `t` each window's block is block `t` of its array
along the rows. -/

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and the body leaves its buffer alone, so whenever the body is called the
    buffer holds the point's block of rows. -/
theorem before_rows_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The region's proof data on core `c`: the arrays as the region finds them; after the body at point `t` the input's
    buffer still at its block and the two outputs' at what the kernel computes from that block; nothing of the kernel's own
    kept between points; nothing owed to another core. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => normOut (blockAt V c 0 t)
    | ⟨2, _⟩ => partOut (blockAt V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blockAt V c 0 t := by dsimp only [dat0]
theorem dat0_after1 (c : Dev nD) (t : Fin cfg0.N) : (dat0 V c).after 1 t = normOut (blockAt V c 0 t) := by dsimp only [dat0]
theorem dat0_after2 (c : Dev nD) (t : Fin cfg0.N) : (dat0 V c).after 2 t = partOut (blockAt V c 0 t) := by dsimp only [dat0]

theorem dat0_before0 (c : Dev nD) (t : Fin cfg0.N) (d) : (dat0 V c).before 0 t d = blockAt V c 0 t :=
  before_rows_of V (dat0 V c) (dat0_A V c 0) (dat0_after0 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the point's block, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (normalize_triple c Set.univ _ _ _ _ _ _ _ (blockAt V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the normalising region, at every point. -/
theorem body_obligation0 (c : Dev nD) : BodyObligation (dat0 (F := F) V c) (defs₀ (F := F)) Variants.none () Set.univ := fun t => by
  rw [bigSep_W0, bigSep_W0]
  exact sound_body0 V c t

end Cert.Kernel.Norm

end
-- ==== Proof.MainDefsBits.lean ====
/-
  The two-region run's data: what region 0 leaves, the contents region 1 is entered from, what both regions leave, the
  tables' contents and the proof data of both pipelines as one family, and the thread state that rides beside the buffers.

  Region 0 (the row normalisation) is entered from the launch contents; it leaves its two output arrays — the normalised
  rows and the partial sums of squares — at what its write-backs fold to, and every other buffer as launched.  The host
  stretches that follow read only that.  Region 1 (the scatter and center update) is entered from the contents the third
  host stretch leaves and changes its two output arrays only.  Region 1's proof data is a parameter here.
-/
import proofs.«100039_j20426864460160_2_alg».proof.Proof.Gen.Kernel.Regions
import proofs.«100039_j20426864460160_2_alg».proof.Proof.NormRegion

noncomputable section

namespace Cert.Kernel.MainRun

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a1 : (pcfg1 (F := F)).Adm)
variable (d1 : (c : Dev nD) → Dat τ (Elt F) Unit ℕ (UR sig nD τ) ℕ (cfg1 a1) c)

/-! ## The tables' contents -/

/-- The prefetched tables' admissible contents, pipeline by pipeline: region 0 has no table; region 1's are `a1`. -/
abbrev adm : (p : Fin 2) → (pcfgs (F := F) p).Adm
  | ⟨0, _⟩ => cfg0.toPCfg_adm
  | ⟨1, _⟩ => a1
  | ⟨_ + 2, h⟩ => absurd h (Nat.not_lt.2 (Nat.le_add_left _ _))

/-! ## The contents at the boundaries -/

/-- Region 0's entry contents: the launch contents, read at the core's references. -/
abbrev Vin0 : (c : Dev nD) → (b : Ref sig .tc) → Buf (Elt F) ((c : Thread nD τ).loc b) := fun c b => Gen.V0 m c b

/-- What region 0 leaves: the normalised rows and the partial sums at what the pipeline's write-backs fold to, every
    other buffer as launched (at every stage: only stage 1 is read before region 1). -/
def outs1 : Gen.Outs (F := F) := fun _ r c =>
  if h0 : r = main_v0_0 then h0 ▸ ((Norm.dat0 (Vin0 m) c).arrAt 1 cfg0.N : Buf (Elt F) ((c : Thread nD τ).loc main_v0_0))
  else if h1 : r = main_v0_1 then h1 ▸ ((Norm.dat0 (Vin0 m) c).arrAt 2 cfg0.N : Buf (Elt F) ((c : Thread nD τ).loc main_v0_1))
  else m ((c : Thread nD τ).loc r)

theorem outs1_v0_0 (J : ℕ) (c : Dev nD) : outs1 m J main_v0_0 c = (Norm.dat0 (Vin0 m) c).arrAt 1 cfg0.N := by
  unfold outs1; rw [dif_pos rfl]
theorem outs1_v0_1 (J : ℕ) (c : Dev nD) : outs1 m J main_v0_1 c = (Norm.dat0 (Vin0 m) c).arrAt 2 cfg0.N := by
  unfold outs1; rw [dif_neg (by decide), dif_pos rfl]

/-- Region 1's entry contents: the launch contents through region 0 and the three host stretches. -/
abbrev V4' (c : Dev nD) : Valuation τ sig (Elt F) := Gen.V4 m (outs1 m) c

/-- What the two regions leave: after region 1 (stage 5) its two output arrays at what its pipeline's write-backs fold
    to; at every other stage and buffer what region 0 leaves. -/
def outs : Gen.Outs (F := F) := fun J r c =>
  if J = 5 then
    if h0 : r = main_v21_0 then h0 ▸ ((d1 c).arrAt 3 (cfg1 a1).N : Buf (Elt F) ((c : Thread nD τ).loc main_v21_0))
    else if h1 : r = main_v21_1 then h1 ▸ ((d1 c).arrAt 4 (cfg1 a1).N : Buf (Elt F) ((c : Thread nD τ).loc main_v21_1))
    else outs1 m J r c
  else outs1 m J r c

theorem outs_one (r : Ref sig .tc) (c : Dev nD) : outs m a1 d1 1 r c = outs1 m 1 r c := rfl
theorem outs_v0_0 (c : Dev nD) : outs m a1 d1 1 main_v0_0 c = (Norm.dat0 (Vin0 m) c).arrAt 1 cfg0.N := outs1_v0_0 m 1 c
theorem outs_v0_1 (c : Dev nD) : outs m a1 d1 1 main_v0_1 c = (Norm.dat0 (Vin0 m) c).arrAt 2 cfg0.N := outs1_v0_1 m 1 c
theorem outs_v21_0 (c : Dev nD) : outs m a1 d1 5 main_v21_0 c = (d1 c).arrAt 3 (cfg1 a1).N := by
  unfold outs; rw [if_pos rfl, dif_pos rfl]
theorem outs_v21_1 (c : Dev nD) : outs m a1 d1 5 main_v21_1 c = (d1 c).arrAt 4 (cfg1 a1).N := by
  unfold outs; rw [if_pos rfl, dif_neg (by decide), dif_pos rfl]

/-- Up to region 1's entry the contents read the unknowns at stage 1 only, where both agree. -/
theorem V1_outs (c : Dev nD) : Gen.V1 m (outs m a1 d1) c = Gen.V1 m (outs1 m) c := rfl
theorem V4_outs (c : Dev nD) : Gen.V4 m (outs m a1 d1) c = V4' m c := rfl

/-! ## The proof data family and the thread state -/

/-- Both pipelines' proof data: region 0's at the launch contents, region 1's the given one. -/
def pdats : (p : Fin 2) → (c : Dev nD) → Dat τ (Elt F) Unit ℕ (UR sig nD τ) ℕ (Pipeline.pin (pcfgs (F := F)) (adm a1) p) c
  | ⟨0, _⟩ => fun c => Norm.dat0 (Vin0 m) c
  | ⟨1, _⟩ => d1

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)
/-- The rest state beside the buffers at the three region boundaries. -/
abbrev E : Fin 3 → Dev nD → sProp 𝕄 := fun _ c => Rr (F := F) c

end Cert.Kernel.MainRun

end
-- ==== Proof.MainRegion0Bits.lean ====
/-
  Region 0 (the row normalisation) as a segment of the two-region run.

  The region is entered with every unscoped buffer of the core at the launch contents, beside the generator register at
  some state and nothing owed.  Its three arrays — the features, the normalised rows, the partial sums of squares — are
  split out of the unscoped buffers at entry and put back at exit: the features as they were (an input window's array is
  never written), the two outputs at what the pipeline's write-backs fold to, which is what the contents after the region
  hold there; every other buffer bypasses the region.  The generator register goes into the pipeline's invariant and
  comes back; the region has no semaphore of its own and no table.
-/
import proofs.«100039_j20426864460160_2_alg».proof.Proof.MainDefsBits
import Idealize.ShloMosaic.Lib.Pipeline.RegionsLoop

noncomputable section

namespace Cert.Kernel.MainRun

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a1 : (pcfg1 (F := F)).Adm)
variable (d1 : (c : Dev nD) → Dat τ (Elt F) Unit ℕ (UR sig nD τ) ℕ (cfg1 a1) c)

/-! ## The contents after the region, at the region's arrays and off them -/

/-- The contents after region 0, read at the core's references. -/
abbrev Vout0 : (c : Dev nD) → (b : Ref sig .tc) → Buf (Elt F) ((c : Thread nD τ).loc b) :=
  fun c b => Gen.V1 m (outs m a1 d1) c b

/-- After the region the array of normalised rows holds the first unknown, -/
theorem V1_v0_0 (o : Gen.Outs (F := F)) (c : Dev nD) : Gen.V1 m o c main_v0_0 = o 1 main_v0_0 c := by
  simp only [Gen.V1, Function.update_of_ne (StableHlo.devRef_ne_of_ne (by decide) : (Proc.devRef .tc main_v0_0 : DevRef τ sig) ≠ Proc.devRef .tc main_v0_1),
    Function.update_self]
/-- and the array of partial sums the second. -/
theorem V1_v0_1 (o : Gen.Outs (F := F)) (c : Dev nD) : Gen.V1 m o c main_v0_1 = o 1 main_v0_1 c := by
  simp only [Gen.V1, Function.update_self]

/-- Each of the region's arrays holds, after the region, what the pipeline leaves in it. -/
theorem hF0 (c : Dev nD) (w : Fin cfg0.W) :
    (Norm.dat0 (Vin0 m) c).arrAt w cfg0.N = Vout0 m a1 d1 c (Pipeline.arrRef spec0 w) := by
  match w with
  | ⟨0, _⟩ =>
    -- the features: an input window's array stays at its entry contents, which no region or stretch before changes
    exact (((Norm.dat0 (Vin0 m) c).arrAt_in 0 rfl _).trans (Norm.dat0_A (Vin0 m) c 0)).trans
      (Gen.V1_of m (outs m a1 d1) c main_arg0 (by decide)).symm
  | ⟨1, _⟩ => exact ((V1_v0_0 m (outs m a1 d1) c).trans (outs_v0_0 m a1 d1 c)).symm
  | ⟨2, _⟩ => exact ((V1_v0_1 m (outs m a1 d1) c).trans (outs_v0_1 m a1 d1 c)).symm

/-- Every buffer that is none of the region's arrays holds after the region what it held before. -/
theorem hrest0 (c : Dev nD) : ∀ b, b ∉ Finset.univ.image (Pipeline.arrRef spec0) → Vout0 m a1 d1 c b = Vin0 m c b :=
  fun b hb => Gen.V1_of m (outs m a1 d1) c b fun hm => hb (by
    rcases List.mem_cons.mp hm with rfl | hm
    · exact Finset.mem_image.mpr ⟨1, Finset.mem_univ _, rfl⟩
    · rcases List.mem_cons.mp hm with rfl | hm
      · exact Finset.mem_image.mpr ⟨2, Finset.mem_univ _, rfl⟩
      · exact absurd hm List.not_mem_nil)

/-! ## The region as a segment -/

set_option backward.isDefEq.respectTransparency.types false in
/-- Region 0 over the thread state: entered from every unscoped buffer at the launch contents, left at the contents
    after the region; beside both, the generator register at some state and nothing owed. -/
def reg0 : Pipeline.RegionSeg (pcfgs (F := F)) (adm a1) (pdats m a1 d1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Norm.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ Rr (F := F) c)
  post c := iprop(StableHlo.held (c : Thread nD τ) (Pipeline.ucRefs τ sig) (Gen.V1 m (outs m a1 d1) c) ∗ Rr (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    -- the arrays out of the unscoped buffers; the register for the invariant; the dues as the pipeline states them
    rw [Pipeline.ownSems0_none]
    have hsplit := Pipeline.arrays_of_unscopedBufs (p := 0) (pcfgs (F := F)) (adm a1) (pdats m a1 d1) (launch0 (F := F)).win (launch0 (F := F)).arr_whole c
      ((pdats m a1 d1 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 d1 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays back among the unscoped buffers, at the contents after the region
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 d1) ((pdats m a1 d1 0 c).share_full fun _ => rfl)
      (Vin0 m c) (Vout0 m a1 d1 c) ((pdats m a1 d1 0 c).arrAt · cfg0.N) (hF0 m a1 d1 c) (hrest0 m a1 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's two thread states, for the chaining. -/
theorem reg0_pre (c : Dev nD) : (reg0 m a1 d1).pre c
    = iprop(StableHlo.held (c : Thread nD τ) (Pipeline.ucRefs τ sig) (Gen.V0 m c) ∗ Rr (F := F) c) := rfl
theorem reg0_post (c : Dev nD) : (reg0 m a1 d1).post c
    = iprop(StableHlo.held (c : Thread nD τ) (Pipeline.ucRefs τ sig) (Gen.V1 m (outs m a1 d1) c) ∗ Rr (F := F) c) := rfl

end Cert.Kernel.MainRun

end
-- ==== Proof.MainRunBits.lean ====
/-
  The two-region run with its results named.

  From any launch memory with zero counters every weakly fair execution of the program terminates, and in every final
  memory the loss scalar and the array of updated centers hold what the last valuation of the run says — the launch
  contents carried through region 0, the three host stretches, region 1 and the last host stretch, with each region's
  output arrays at what its pipeline's write-backs fold to — while the three arguments hold what they were launched with.
  Region 1's segment record is a parameter: it must be entered from the contents the third host stretch leaves and left at
  the contents after region 1, beside the generator register at some state and nothing owed.
-/
import proofs.«100039_j20426864460160_2_alg».proof.Proof.MainRegion0Bits

noncomputable section

namespace Cert.Kernel.MainRun

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (a1 : (pcfg1 (F := F)).Adm)
variable (d1 : (c : Dev nD) → Dat τ (Elt F) Unit ℕ (UR sig nD τ) ℕ (cfg1 a1) c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem main_run
    (R1 : Pipeline.RegionSeg (pcfgs (F := F)) (adm a1) (pdats m a1 d1) () defs₀ 𝒱₀ L lv 1)
    (hpre1 : ∀ c : Dev nD, iprop(StableHlo.held (c : Thread nD τ) (Pipeline.ucRefs τ sig) (Gen.V4 m (outs m a1 d1) c) ∗ Rr (F := F) c) ⊢ R1.pre c)
    (hpost1 : ∀ c : Dev nD, R1.post c ⊢ iprop(StableHlo.held (c : Thread nD τ) (Pipeline.ucRefs τ sig) (Gen.V5 m (outs m a1 d1) c) ∗ Rr (F := F) c)) :
    θ_run defs (onTc (τ := τ) (main (F := F))) ⟨m, fun _ => 0, ρ⟩ (fun r => ∀ c : Dev nD,
      r.2.mem ((c.tc : Thread nD τ).loc main_v24) = Gen.V6 m (outs m a1 d1) c main_v24
      ∧ r.2.mem ((c.tc : Thread nD τ).loc main_v21_0) = Gen.V6 m (outs m a1 d1) c main_v21_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) (adm a1) (pdats m a1 d1) () (cellOf_inj (adm a1)) emb₁ defs₀ 𝒱₀ L lv m ρ main
    (Gen.segs m (outs m a1 d1) 𝒱₀ L lv (E (F := F)) () (adm a1) (pdats m a1 d1) (reg0 m a1 d1) R1)
    (fun c Q => by
      rewrite [main_chain c, Seg.run_eq_chain,
        show (Gen.segs m (outs m a1 d1) 𝒱₀ L lv (E (F := F)) () (adm a1) (pdats m a1 d1) (reg0 m a1 d1) R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells (Pipeline.pin (pcfgs (F := F)) (adm a1)) (cellOf_inj (adm a1)))
      (Pipeline.launchToks (Pipeline.pin (pcfgs (F := F)) (adm a1)) (cellOf_inj (adm a1))))
    (hu₀ := ?_)
    (T₀ := fun c => iprop(StableHlo.held (c : Thread nD τ) (Pipeline.ucRefs τ sig) (Gen.V0 m c) ∗ Rr (F := F) c))
    (Tₙ := fun c => StableHlo.held (c : Thread nD τ) (Pipeline.ucRefs τ sig) (Gen.V6 m (outs m a1 d1) c))
    (hch := fun c => ⟨.rfl, .rfl, .rfl, .rfl, hpre1 c, hpost1 c, sep_mono .rfl (by iintro ⟨-, H⟩; iexact H)⟩)
    (hinit := ?_)
    (QY := fun c s => s.mem ((c.tc : Thread nD τ).loc main_v24) = Gen.V6 m (outs m a1 d1) c main_v24
      ∧ s.mem ((c.tc : Thread nD τ).loc main_v21_0) = Gen.V6 m (outs m a1 d1) c main_v21_0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch element is the pipelines' own, and no ghost resource is dealt to the cores
    iintro Hu; imodintro
    isplitl [Hu]
    · iapply (show (ownU (initOf (Pipeline.cells (Pipeline.pin (pcfgs (F := F)) (adm a1)) (cellOf_inj (adm a1)))
          (Pipeline.launchToks (Pipeline.pin (pcfgs (F := F)) (adm a1)) (cellOf_inj (adm a1)))) : sProp 𝕄)
          ⊢ BI.own (emb₁ (initOf (Pipeline.cells (Pipeline.pin (pcfgs (F := F)) (adm a1)) (cellOf_inj (adm a1)))
            (Pipeline.launchToks (Pipeline.pin (pcfgs (F := F)) (adm a1)) (cellOf_inj (adm a1))))) from .rfl)
      iexact Hu
    iapply (show (BI.emp : sProp 𝕄) ⊢ bigSep Finset.univ (fun _ : Dev nD => (BI.emp : sProp 𝕄)) from by rw [BI.bigSep_emp_const])
    iempintro
  · -- the launch, core by core: the unscoped buffers at the launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the two results and the three arguments read off the last valuation
    unfold StableHlo.held
    iintro ⟨Hh, HSI⟩
    ihave Hr := (pointsTo_read_all (Pipeline.ucRefs τ sig) (fun b => ((c : Thread nD τ).1, b)) (Gen.V6 m (outs m a1 d1) c) s') $$ [Hh HSI]
    · isplitl [Hh] <;> iassumption
    icases Hr with ⟨%h, HSI⟩
    imodintro
    isplitr
    · ipureintro
      exact ⟨h (Proc.devRef .tc main_v24) (mem_uc main_v24 (by decide)),
        h (Proc.devRef .tc main_v21_0) (mem_uc main_v21_0 (by decide)),
        (h (Proc.devRef .tc main_arg0) (mem_uc main_arg0 (by decide))).trans (Gen.V6_main_arg0 m (outs m a1 d1) c),
        (h (Proc.devRef .tc main_arg1) (mem_uc main_arg1 (by decide))).trans (Gen.V6_main_arg1 m (outs m a1 d1) c),
        (h (Proc.devRef .tc main_arg2) (mem_uc main_arg2 (by decide))).trans (Gen.V6_main_arg2 m (outs m a1 d1) c)⟩
    · iexact HSI

end Cert.Kernel.MainRun

end
-- ==== Proof.ScatterStep.lean ====
/-
  The second kernel region's arithmetic at one grid point as pure functions of what the kernel reads: the accumulators
  cleared at a class tile's first batch tile, one batch tile's one-hot counts and one-hot products added when the tile's label
  range meets the class tile, and the two outputs the last batch tile writes.  Stated at any float instance, over the generated
  payload functions.
-/
import proofs.«100039_j20426864460160_2_alg».proof.Proof.Gen.Kernel.Launch
import proofs.«100039_j20426864460160_2_alg».proof.Proof.Gen.Kernel.Skeleton
import proofs.«100039_j20426864460160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scatter-and-finalise kernel's arithmetic at one grid point, as pure functions

At grid point `i = (class tile, batch tile)` the kernel works on: the two words `lo`, `hi` it reads from the prefetched tables
at the batch tile's cell, the block `x4` of 4096 sorted feature rows, the block `x5` of their labels, the block `x6` of 1000
centers, and the contents `d9` (per-class counts) and `d10` (per-class feature sums) of its two accumulators. -/

/-- The whole-buffer rectangles, and the four quarter rectangles the accumulation loads rows and labels through. -/
abbrev cntRect : Rect S1000x1 := Rect.unit (s := S1000x1) ![0, 0] S1000x1.size inb_S1000x1_S1000x1_0_0
abbrev sumRect : Rect S1000x256 := Rect.unit (s := S1000x256) ![0, 0] S1000x256.size inb_S1000x256_S1000x256_0_0
abbrev lossRect : Rect S8x128 := Rect.unit (s := S8x128) ![0, 0] S8x128.size inb_S8x128_S8x128_0_0
abbrev rows0 : Rect S4096x256 := Rect.unit (s := S4096x256) (k1_off2 0#32) S1024x256.size (k1_off2_inb 0)
abbrev rows1 : Rect S4096x256 := Rect.unit (s := S4096x256) (k1_off2 1#32) S1024x256.size (k1_off2_inb 1)
abbrev rows2 : Rect S4096x256 := Rect.unit (s := S4096x256) (k1_off2 2#32) S1024x256.size (k1_off2_inb 2)
abbrev rows3 : Rect S4096x256 := Rect.unit (s := S4096x256) (k1_off2 3#32) S1024x256.size (k1_off2_inb 3)
abbrev lbl0 : Rect S1x4096 := Rect.unit (s := S1x4096) (k1_off3 0#32) S1x1024.size (k1_off3_inb 0)
abbrev lbl1 : Rect S1x4096 := Rect.unit (s := S1x4096) (k1_off3 1#32) S1x1024.size (k1_off3_inb 1)
abbrev lbl2 : Rect S1x4096 := Rect.unit (s := S1x4096) (k1_off3 2#32) S1x1024.size (k1_off3_inb 2)
abbrev lbl3 : Rect S1x4096 := Rect.unit (s := S1x4096) (k1_off3 3#32) S1x1024.size (k1_off3_inb 3)
/-- The cell of a 32-word table the kernel reads at point `i`: the batch tile's. -/
abbrev cellRect (i : grid1.Coords) : Rect S32 := Rect.unit (s := S32) (k1_off1 i) S1.size (k1_off1_inb i)

/-- The first class id of the point's class tile, and the last, as words. -/
def classLo (i : grid1.Coords) : BitVec 32 := Scalar.muli (BitVec.ofNat 32 (i 0).val) 1000#32
def classHi (i : grid1.Coords) : BitVec 32 := Scalar.subi (Scalar.addi (classLo i) 1000#32) 1#32
/-- The point is its class tile's first batch tile: the accumulators are cleared. -/
def firstTile (i : grid1.Coords) : Prop :=
  Scalar.cmpi .ne (Scalar.extui (Scalar.cmpi .eq (BitVec.ofNat 32 (i 1).val) 0#32)) 0#32 = 1#1
/-- The batch tile's label range [lo, hi] meets the class tile's id range: the tile is accumulated. -/
def meetsTile (i : grid1.Coords) (lo hi : BitVec 32) : Prop :=
  Scalar.cmpi .ne (Scalar.extui (Scalar.andi (Scalar.cmpi .sle lo (classHi i)) (Scalar.cmpi .sge hi (classLo i)))) 0#32 = 1#1
/-- The point is its class tile's last batch tile: the outputs are written. -/
def lastTile (i : grid1.Coords) : Prop := k1_cond3 i = 1#1

instance (i : grid1.Coords) : Decidable (firstTile i) := by unfold firstTile; infer_instance
instance (i : grid1.Coords) (lo hi : BitVec 32) : Decidable (meetsTile i lo hi) := by unfold meetsTile; infer_instance
instance (i : grid1.Coords) : Decidable (lastTile i) := by unfold lastTile; infer_instance

/-- The accumulators as the accumulation finds them: zero at a class tile's first batch tile, else as left. -/
def resetCnt (i : grid1.Coords) (d9 : Vec F S1000x1 .f32) : Vec F S1000x1 .f32 := if firstTile i then k1_pay1 else d9
def resetSum (i : grid1.Coords) (d10 : Vec F S1000x256 .f32) : Vec F S1000x256 .f32 := if firstTile i then k1_pay2 else d10
/-- One batch tile added to the counts: per class of the tile, the number of the 4096 labels equal to it, a quarter at a time. -/
def accCnt (i : grid1.Coords) (x5 : Vec F S1x4096 .i32) (e9 : Vec F S1000x1 .f32) : Vec F S1000x1 .f32 :=
  k1_pay3 (k1_pay12 (classLo i) (k1_pay8 (classLo i) e9 (View.ld x5 lbl0)) (k1_pay9 (classLo i) (View.ld x5 lbl1)) (View.ld x5 lbl2))
    (k1_pay13 (classLo i) (View.ld x5 lbl3))
/-- One batch tile added to the feature sums: per class of the tile, the one-hot product with the 4096 rows, a quarter at a time. -/
def accSum (i : grid1.Coords) (x4 : Vec F S4096x256 .bf16) (x5 : Vec F S1x4096 .i32) (e10 : Vec F S1000x256 .f32) : Vec F S1000x256 .f32 :=
  k1_pay4 (k1_pay14 (classLo i)
    (k1_pay10 (classLo i) e10 (View.ld x4 rows0) (View.ld x5 lbl0) (View.ld x4 rows1) (View.ld x5 lbl1))
    (View.ld x4 rows2) (View.ld x5 lbl2) (View.ld x4 rows3) (View.ld x5 lbl3))
/-- The accumulators after the point. -/
def stepCnt (i : grid1.Coords) (lo hi : BitVec 32) (x5 : Vec F S1x4096 .i32) (d9 : Vec F S1000x1 .f32) : Vec F S1000x1 .f32 :=
  if meetsTile i lo hi then accCnt i x5 (resetCnt i d9) else resetCnt i d9
def stepSum (i : grid1.Coords) (lo hi : BitVec 32) (x4 : Vec F S4096x256 .bf16) (x5 : Vec F S1x4096 .i32) (d10 : Vec F S1000x256 .f32) : Vec F S1000x256 .f32 :=
  if meetsTile i lo hi then accSum i x4 x5 (resetSum i d10) else resetSum i d10
/-- What the last batch tile writes: the updated centers of the class tile, and the tile's share of the loss. -/
def outNewc (x6 : Vec F S1000x256 .f32) (s10 : Vec F S1000x256 .f32) (s9 : Vec F S1000x1 .f32) : Vec F S1000x256 .f32 := k1_pay5 x6 s10 s9
def outLoss (x6 : Vec F S1000x256 .f32) (s10 : Vec F S1000x256 .f32) (s9 : Vec F S1000x1 .f32) : Vec F S8x128 .f32 := k1_pay6 x6 s10 s9

/-- The word of a 32-word table at the point's cell. -/
def tblWord (tb : Vec F S32 .i32) (i : grid1.Coords) : BitVec 32 :=
  View.ld tb (cellRect i) (Shape.Idx.first (s := (cellRect i).shape) (by rw [show (cellRect i).shape.numel = 1 from numel1_S1]; exact Nat.one_pos))

theorem zero2 : (![0, 0] : Fin 2 → ℕ) = fun _ => 0 := by funext a; fin_cases a <;> rfl

end Cert.Kernel.Scatter

end
-- ==== Proof.ScatterData.lean ====
/-
  The second kernel region's proof data: its windows' blocks, the two accumulators after the first n grid points, the invariant
  that carries the tables and the accumulators from point to point, and what each window's buffer holds after the body.
  Stated at any float instance.
-/
import proofs.«100039_j20426864460160_2_alg».proof.Proof.Gen.Kernel.Launch
import proofs.«100039_j20426864460160_2_alg».proof.Proof.Gen.Kernel.Skeleton
import proofs.«100039_j20426864460160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterStep

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data of the scatter-and-finalise region

`V` is what the core's buffers hold when the region is entered, `a1` the contents of the two prefetched tables.  Windows 0, 1, 2
read the sorted feature rows (block `b` of 4096 rows), their labels (block `b` of the one row) and the centers (block `cb` of 1000
rows) at grid point (cb, b); windows 3, 4 write the updated centers (block `cb`) and the loss partials (block `cb` of 8 rows), and
are left alone except at the class tile's last batch tile.  The two accumulators are carried from point to point. -/

variable (V : (c : Dev nD) → (b : Ref sig .tc) → Buf (Elt F) ((c : Thread nD τ).loc b)) (a1 : (pcfg1 (F := F)).Adm)

/-- The two tables' contents. -/
abbrev tloOf : Vec F S32 .i32 := a1.1 0
abbrev thiOf : Vec F S32 .i32 := a1.1 1

/-- Window `w`'s block at point `t`, read off its array as the region finds it. -/
def blockAt1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The two accumulators after the first `n` grid points (counts, feature sums): each point applies its step to what the
    point before left.  What they hold before the first point does not matter (the first point clears them); zero is written here. -/
def accAt (c : Dev nD) : ℕ → Vec F S1000x1 .f32 × Vec F S1000x256 .f32
  | 0 => (k1_pay1, k1_pay2)
  | n + 1 =>
    if h : n < (cfg1 a1).N then
      (stepCnt ((cfg1 a1).grid.coords ⟨n, h⟩) (tblWord (tloOf a1) ((cfg1 a1).grid.coords ⟨n, h⟩)) (tblWord (thiOf a1) ((cfg1 a1).grid.coords ⟨n, h⟩))
          (blockAt1 V a1 c 1 ⟨n, h⟩) (accAt c n).1,
        stepSum ((cfg1 a1).grid.coords ⟨n, h⟩) (tblWord (tloOf a1) ((cfg1 a1).grid.coords ⟨n, h⟩)) (tblWord (thiOf a1) ((cfg1 a1).grid.coords ⟨n, h⟩))
          (blockAt1 V a1 c 0 ⟨n, h⟩) (blockAt1 V a1 c 1 ⟨n, h⟩) (accAt c n).2)
    else accAt c n

/-- The kernel's own buffers and the tables, as memrefs. -/
abbrev tblM0 : Memref sig .tc .smem S32 .i32 := Memref.whole main_v18
abbrev tblM1 : Memref sig .tc .smem S32 .i32 := Memref.whole main_v19
abbrev cntM : Memref sig .tc .vmem S1000x1 .f32 := Memref.whole cc1_scratch0
abbrev sumM : Memref sig .tc .vmem S1000x256 .f32 := Memref.whole cc1_scratch1

/-- The first region's staging buffers, which this region does not use: each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `t`: the tables at their contents, the other region's staging buffers at anything, the two
    accumulators at what the points before left (at anything before the first point), the generator register at some state. -/
def PhiAt (c : Dev nD) (t : Fin ((cfg1 a1).N + 1)) : sProp 𝕄 :=
  iprop(owns (c : Thread nD τ) tblM0 fullShare (tloOf a1) ∗ owns (c : Thread nD τ) tblM1 fullShare (thiOf a1) ∗ otherStaging c
    ∗ (∃ d9 d10, ⌜t.val ≠ 0 → d9 = (accAt V a1 c t.val).1 ∧ d10 = (accAt V a1 c t.val).2⌝
        ∗ owns (c : Thread nD τ) cntM fullShare d9 ∗ owns (c : Thread nD τ) sumM fullShare d10)
    ∗ ∃ r, prngReg c r)

/-- The region's proof data on core `c`. -/
def dat1 (c : Dev nD) : Dat τ (Elt F) Unit ℕ (UR sig nD τ) ℕ (cfg1 a1) c where
  A w := V c (Pipeline.arrRef spec1 w)
  after w t := match w with
    | ⟨0, _⟩ => blockAt1 V a1 c 0 t
    | ⟨1, _⟩ => blockAt1 V a1 c 1 t
    | ⟨2, _⟩ => blockAt1 V a1 c 2 t
    | ⟨3, _⟩ => outNewc (blockAt1 V a1 c 2 t) (accAt V a1 c (t.val + 1)).2 (accAt V a1 c (t.val + 1)).1
    | ⟨4, _⟩ => outLoss (blockAt1 V a1 c 2 t) (accAt V a1 c (t.val + 1)).2 (accAt V a1 c (t.val + 1)).1
  Φ t := PhiAt V a1 c t
  q _ := fullShare
  owed _ := 0

theorem dat1_A (c : Dev nD) (w : Fin (cfg1 a1).W) : (dat1 V a1 c).A w = V c (Pipeline.arrRef spec1 w) := rfl
theorem dat1_after0 (c : Dev nD) (t : Fin (cfg1 a1).N) : (dat1 V a1 c).after 0 t = blockAt1 V a1 c 0 t := rfl
theorem dat1_after1 (c : Dev nD) (t : Fin (cfg1 a1).N) : (dat1 V a1 c).after 1 t = blockAt1 V a1 c 1 t := rfl
theorem dat1_after2 (c : Dev nD) (t : Fin (cfg1 a1).N) : (dat1 V a1 c).after 2 t = blockAt1 V a1 c 2 t := rfl
theorem dat1_after3 (c : Dev nD) (t : Fin (cfg1 a1).N) : (dat1 V a1 c).after 3 t
    = outNewc (blockAt1 V a1 c 2 t) (accAt V a1 c (t.val + 1)).2 (accAt V a1 c (t.val + 1)).1 := rfl
theorem dat1_after4 (c : Dev nD) (t : Fin (cfg1 a1).N) : (dat1 V a1 c).after 4 t
    = outLoss (blockAt1 V a1 c 2 t) (accAt V a1 c (t.val + 1)).2 (accAt V a1 c (t.val + 1)).1 := rfl
theorem dat1_Phi (c : Dev nD) (t : Fin ((cfg1 a1).N + 1)) : (dat1 V a1 c).Φ t = PhiAt V a1 c t := rfl

end Cert.Kernel.Scatter

end
-- ==== Proof.MainTablesBits.lean ====
/-
  The second region's entry: the contents of its two prefetched tables read off the core's buffers as the host stretch before
  the region leaves them, and the region's proof data at those tables and those buffers.
-/
import proofs.«100039_j20426864460160_2_alg».proof.Proof.MainDefsBits
import proofs.«100039_j20426864460160_2_alg».proof.Proof.ScatterData

noncomputable section

namespace Cert.Kernel.MainRun

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The two tables' contents when the second region is entered (there is one core). -/
def tbl : pre1.Contents (Elt F) := fun k => V4' m (0 : Dev nD) (pre1.ref k)

/-- They are admissible: the region's index maps do not read them, so there is no side condition. -/
abbrev a1Of : (pcfg1 (F := F)).Adm := ⟨tbl m, trivial⟩

/-- The core's buffers when the second region is entered. -/
abbrev Vin1 : (c : Dev nD) → (b : Ref sig .tc) → Buf (Elt F) ((c : Thread nD τ).loc b) := fun c b => V4' m c b

/-- The second region's proof data. -/
abbrev d1Of : (c : Dev nD) → Dat τ (Elt F) Unit ℕ (UR sig nD τ) ℕ (cfg1 (a1Of m)) c := fun c => Scatter.dat1 (Vin1 m) (a1Of m) c

/-- On the one core the tables' buffers hold those contents. -/
theorem V4_pre (c : Dev nD) (k : Fin 2) : V4' m c (pre1.ref k) = tbl m k := by
  have hc : c = (0 : Dev nD) := Subsingleton.elim _ _
  subst hc; rfl

end Cert.Kernel.MainRun

end
-- ==== Proof.ScatterRun.lean ====
/-
  The second kernel region's body — the range-skipped one-hot scatter fused with the center update — run once, at a symbolic
  grid point and on any whole buffers: it leaves the tables and its three input blocks as they were, its two accumulators at
  their steps, and each output at what the last batch tile writes (untouched at every other point).  Stated at any float instance.
-/
import proofs.«100039_j20426864460160_2_alg».proof.Proof.Gen.Kernel.Launch
import proofs.«100039_j20426864460160_2_alg».proof.Proof.Gen.Kernel.Skeleton
import proofs.«100039_j20426864460160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterStep

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole-buffer rectangle, read back whole, is its payload; a load through it reads the contents. -/
theorem read_whole_store {κ : Kind} {sp : Space} {S : Shape} {e : EltTy} (v : View sig κ sp S e) (f : BufTy.Contents (Elt F) v.ty)
    {off : Fin S.rank → ℕ} (h : off = fun _ => 0) (inb : ∀ a, off a + S.size a ≤ S.size a) (p : S.Idx → Elt F e) :
    View.read (Elt F) v (v.writes (Elt F) f [⟨Rect.unit off S.size inb, p⟩]) = p := by
  rw [View.read_writes_eq_canon _ _ _ (fun y => ⟨_, List.mem_singleton_self _, View.mem_set_unit_zero h inb y⟩), View.canon_unit_zero h]
theorem readAt_whole {κ : Kind} {sp : Space} {S : Shape} {e : EltTy} (v : View sig κ sp S e) (f : BufTy.Contents (Elt F) v.ty)
    {off : Fin S.rank → ℕ} (h : off = fun _ => 0) (inb : ∀ a, off a + S.size a ≤ S.size a) :
    View.readAt (Elt F) v (Rect.unit off S.size inb).toLoadRect f = View.read (Elt F) v f := by
  rw [View.readAt_eq_ld, View.ld_unit_zero h]

/-! ## What the kernel's stores leave, read back whole

The kernel's run names the contents of each buffer it may write as the buffer's old contents overwritten, under the
point's conditions, through the whole-buffer rectangle.  Read back whole these are the step functions. -/

theorem cnt_contents_read (i : grid1.Coords) (v9 : View sig .tc .vmem S1000x1 .f32) (f9 : BufTy.Contents (Elt F) v9.ty)
    (lo hi : BitVec 32) (v5 : View sig .tc .vmem S1x4096 .i32) (f5 : BufTy.Contents (Elt F) v5.ty) :
    View.read (Elt F) v9
      (if hc : meetsTile i lo hi then
        v9.writes (Elt F) (if hc : firstTile i then v9.writes (Elt F) f9 [⟨cntRect, k1_pay1⟩] else f9)
          [⟨cntRect, k1_pay3 (k1_pay12 (classLo i) (k1_pay8 (classLo i)
              (View.readAt (Elt F) v9 cntRect.toLoadRect (if hc : firstTile i then v9.writes (Elt F) f9 [⟨cntRect, k1_pay1⟩] else f9))
              (View.readAt (Elt F) v5 lbl0.toLoadRect f5)) (k1_pay9 (classLo i) (View.readAt (Elt F) v5 lbl1.toLoadRect f5))
              (View.readAt (Elt F) v5 lbl2.toLoadRect f5)) (k1_pay13 (classLo i) (View.readAt (Elt F) v5 lbl3.toLoadRect f5))⟩]
      else (if hc : firstTile i then v9.writes (Elt F) f9 [⟨cntRect, k1_pay1⟩] else f9))
    = stepCnt i lo hi (View.read (Elt F) v5 f5) (View.read (Elt F) v9 f9) := by
  unfold stepCnt accCnt resetCnt
  by_cases hM : meetsTile i lo hi <;> by_cases hF : firstTile i
  all_goals simp only [dif_pos, dif_neg, if_pos, if_neg, hM, hF, not_false_eq_true, read_whole_store (S := S1000x1) _ _ zero2,
    readAt_whole (S := S1000x1) _ _ zero2, View.readAt_eq_ld]

theorem sum_contents_read (i : grid1.Coords) (v10 : View sig .tc .vmem S1000x256 .f32) (f10 : BufTy.Contents (Elt F) v10.ty)
    (lo hi : BitVec 32) (v4 : View sig .tc .vmem S4096x256 .bf16) (f4 : BufTy.Contents (Elt F) v4.ty)
    (v5 : View sig .tc .vmem S1x4096 .i32) (f5 : BufTy.Contents (Elt F) v5.ty) :
    View.read (Elt F) v10
      (if hc : meetsTile i lo hi then
        v10.writes (Elt F) (if hc : firstTile i then v10.writes (Elt F) f10 [⟨sumRect, k1_pay2⟩] else f10)
          [⟨sumRect, k1_pay4 (k1_pay14 (classLo i) (k1_pay10 (classLo i)
              (View.readAt (Elt F) v10 sumRect.toLoadRect (if hc : firstTile i then v10.writes (Elt F) f10 [⟨sumRect, k1_pay2⟩] else f10))
              (View.readAt (Elt F) v4 rows0.toLoadRect f4) (View.readAt (Elt F) v5 lbl0.toLoadRect f5)
              (View.readAt (Elt F) v4 rows1.toLoadRect f4) (View.readAt (Elt F) v5 lbl1.toLoadRect f5))
              (View.readAt (Elt F) v4 rows2.toLoadRect f4) (View.readAt (Elt F) v5 lbl2.toLoadRect f5)
              (View.readAt (Elt F) v4 rows3.toLoadRect f4) (View.readAt (Elt F) v5 lbl3.toLoadRect f5))⟩]
      else (if hc : firstTile i then v10.writes (Elt F) f10 [⟨sumRect, k1_pay2⟩] else f10))
    = stepSum i lo hi (View.read (Elt F) v4 f4) (View.read (Elt F) v5 f5) (View.read (Elt F) v10 f10) := by
  unfold stepSum accSum resetSum
  by_cases hM : meetsTile i lo hi <;> by_cases hF : firstTile i
  all_goals simp only [dif_pos, dif_neg, if_pos, if_neg, hM, hF, not_false_eq_true, read_whole_store (S := S1000x256) _ _ zero2,
    readAt_whole (S := S1000x256) _ _ zero2, View.readAt_eq_ld]

theorem newc_contents_read (i : grid1.Coords) (v7 : View sig .tc .vmem S1000x256 .f32) (f7 : BufTy.Contents (Elt F) v7.ty)
    (v6 : View sig .tc .vmem S1000x256 .f32) (f6 : BufTy.Contents (Elt F) v6.ty)
    (v10 : View sig .tc .vmem S1000x256 .f32) (c10 : BufTy.Contents (Elt F) v10.ty)
    (v9 : View sig .tc .vmem S1000x1 .f32) (c9 : BufTy.Contents (Elt F) v9.ty) :
    View.read (Elt F) v7
      (if hc : k1_cond3 i = 1#1 then
        v7.writes (Elt F) f7 [⟨sumRect, k1_pay5 (View.readAt (Elt F) v6 sumRect.toLoadRect f6)
          (View.readAt (Elt F) v10 sumRect.toLoadRect c10) (View.readAt (Elt F) v9 cntRect.toLoadRect c9)⟩]
      else f7)
    = if lastTile i then outNewc (View.read (Elt F) v6 f6) (View.read (Elt F) v10 c10) (View.read (Elt F) v9 c9) else View.read (Elt F) v7 f7 := by
  unfold lastTile outNewc
  by_cases hL : k1_cond3 i = 1#1
  all_goals simp only [dif_pos, dif_neg, if_pos, if_neg, hL, not_false_eq_true, read_whole_store (S := S1000x256) _ _ zero2,
    readAt_whole (S := S1000x256) _ _ zero2, readAt_whole (S := S1000x1) _ _ zero2]

theorem loss_contents_read (i : grid1.Coords) (v8 : View sig .tc .vmem S8x128 .f32) (f8 : BufTy.Contents (Elt F) v8.ty)
    (v6 : View sig .tc .vmem S1000x256 .f32) (f6 : BufTy.Contents (Elt F) v6.ty)
    (v10 : View sig .tc .vmem S1000x256 .f32) (c10 : BufTy.Contents (Elt F) v10.ty)
    (v9 : View sig .tc .vmem S1000x1 .f32) (c9 : BufTy.Contents (Elt F) v9.ty) :
    View.read (Elt F) v8
      (if hc : k1_cond3 i = 1#1 then
        v8.writes (Elt F) f8 [⟨lossRect, k1_pay6 (View.readAt (Elt F) v6 sumRect.toLoadRect f6)
          (View.readAt (Elt F) v10 sumRect.toLoadRect c10) (View.readAt (Elt F) v9 cntRect.toLoadRect c9)⟩]
      else f8)
    = if lastTile i then outLoss (View.read (Elt F) v6 f6) (View.read (Elt F) v10 c10) (View.read (Elt F) v9 c9) else View.read (Elt F) v8 f8 := by
  unfold lastTile outLoss
  by_cases hL : k1_cond3 i = 1#1
  all_goals simp only [dif_pos, dif_neg, if_pos, if_neg, hL, not_false_eq_true, read_whole_store (S := S8x128) _ _ zero2,
    readAt_whole (S := S1000x256) _ _ zero2, readAt_whole (S := S1000x1) _ _ zero2]

/-- The table word through the run's spelling of the scalar load. -/
theorem tblWord_readAt (v : View sig .tc .smem S32 .i32) (f : BufTy.Contents (Elt F) v.ty) (i : grid1.Coords)
    (h : 0 < (cellRect i).shape.numel) :
    View.readAt (Elt F) v (cellRect i).toLoadRect f (Shape.Idx.first h) = tblWord (View.read (Elt F) v f) i := by
  unfold tblWord; rw [View.readAt_eq_ld]

/-! ## The kernel's run at one grid point -/

set_option maxHeartbeats 4000000 in
/-- The kernel on whole buffers — the tables, the three inputs, the two outputs and the two accumulators at known contents —
    runs to its end leaving the tables and the inputs as they were, the accumulators at their steps, and each output at
    what the last batch tile writes (left as it was at every other point). -/
theorem scatter_run (c : Dev nD) (E : Set ℕ) (i : grid1.Coords)
    (arg2 : Memref sig .tc .smem S32 .i32) (harg2 : arg2.IsWhole) (arg3 : Memref sig .tc .smem S32 .i32) (harg3 : arg3.IsWhole)
    (arg4 : Memref sig .tc .vmem S4096x256 .bf16) (harg4 : arg4.IsWhole) (arg5 : Memref sig .tc .vmem S1x4096 .i32) (harg5 : arg5.IsWhole)
    (arg6 : Memref sig .tc .vmem S1000x256 .f32) (harg6 : arg6.IsWhole) (arg7 : Memref sig .tc .vmem S1000x256 .f32) (harg7 : arg7.IsWhole)
    (arg8 : Memref sig .tc .vmem S8x128 .f32) (harg8 : arg8.IsWhole) (arg9 : Memref sig .tc .vmem S1000x1 .f32) (harg9 : arg9.IsWhole)
    (arg10 : Memref sig .tc .vmem S1000x256 .f32) (harg10 : arg10.IsWhole)
    (tlo thi : Vec F S32 .i32) (x4 : Vec F S4096x256 .bf16) (x5 : Vec F S1x4096 .i32) (x6 : Vec F S1000x256 .f32)
    (d7 : Vec F S1000x256 .f32) (d8 : Vec F S8x128 .f32) (d9 : Vec F S1000x1 .f32) (d10 : Vec F S1000x256 .f32)
    (K : PUnit → sProp 𝕄) :
    iprop(owns (c : Thread nD τ) arg2 fullShare tlo ∗ owns (c : Thread nD τ) arg3 fullShare thi
        ∗ owns (c : Thread nD τ) arg4 fullShare x4 ∗ owns (c : Thread nD τ) arg5 fullShare x5 ∗ owns (c : Thread nD τ) arg6 fullShare x6
        ∗ owns (c : Thread nD τ) arg7 fullShare d7 ∗ owns (c : Thread nD τ) arg8 fullShare d8
        ∗ owns (c : Thread nD τ) arg9 fullShare d9 ∗ owns (c : Thread nD τ) arg10 fullShare d10
        ∗ (iprop(owns (c : Thread nD τ) arg2 fullShare tlo ∗ owns (c : Thread nD τ) arg3 fullShare thi
            ∗ owns (c : Thread nD τ) arg4 fullShare x4 ∗ owns (c : Thread nD τ) arg5 fullShare x5 ∗ owns (c : Thread nD τ) arg6 fullShare x6
            ∗ owns (c : Thread nD τ) arg7 fullShare (if lastTile i then outNewc x6 (stepSum i (tblWord tlo i) (tblWord thi i) x4 x5 d10) (stepCnt i (tblWord tlo i) (tblWord thi i) x5 d9) else d7)
            ∗ owns (c : Thread nD τ) arg8 fullShare (if lastTile i then outLoss x6 (stepSum i (tblWord tlo i) (tblWord thi i) x4 x5 d10) (stepCnt i (tblWord tlo i) (tblWord thi i) x5 d9) else d8)
            ∗ owns (c : Thread nD τ) arg9 fullShare (stepCnt i (tblWord tlo i) (tblWord thi i) x5 d9)
            ∗ owns (c : Thread nD τ) arg10 fullShare (stepSum i (tblWord tlo i) (tblWord thi i) x4 x5 d10)) -∗ K ⟨⟩))
      ⊢ wp frame (wpE (defs₀ (F := F)) Variants.none c none) E
          (cc1__scatter_finalize_kernel i arg2 harg2 arg3 harg3 arg4 harg4 arg5 harg5 arg6 harg6 arg7 harg7 arg8 harg8 arg9 harg9 arg10 harg10) K := by
  simp only [cc1__scatter_finalize_kernel_eq_skeleton]; unfold cc1__scatter_finalize_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    refine (newc_contents_read i arg7.view f7 arg6.view f6 arg10.view _ arg9.view _).trans ?_
    refine congrArg₂ (fun a b => if lastTile i then outNewc (View.read (Elt F) arg6.view f6) a b else View.read (Elt F) arg7.view f7) ?_ ?_
    · exact (sum_contents_read i arg10.view f10 _ _ arg4.view f4 arg5.view f5).trans (by rw [tblWord_readAt, tblWord_readAt])
    · exact (cnt_contents_read i arg9.view f9 _ _ arg5.view f5).trans (by rw [tblWord_readAt, tblWord_readAt])
  isplitl [H8]
  · iexists _; isplitr
    swap; · iexact H8
    ipureintro
    sl_unfold_run_names
    refine (loss_contents_read i arg8.view f8 arg6.view f6 arg10.view _ arg9.view _).trans ?_
    refine congrArg₂ (fun a b => if lastTile i then outLoss (View.read (Elt F) arg6.view f6) a b else View.read (Elt F) arg8.view f8) ?_ ?_
    · exact (sum_contents_read i arg10.view f10 _ _ arg4.view f4 arg5.view f5).trans (by rw [tblWord_readAt, tblWord_readAt])
    · exact (cnt_contents_read i arg9.view f9 _ _ arg5.view f5).trans (by rw [tblWord_readAt, tblWord_readAt])
  isplitl [H9]
  · iexists _; isplitr
    swap; · iexact H9
    ipureintro
    sl_unfold_run_names
    refine (cnt_contents_read i arg9.view f9 _ _ arg5.view f5).trans ?_
    rw [tblWord_readAt, tblWord_readAt]
  iexists _; isplitr
  swap; · iexact H10
  ipureintro
  sl_unfold_run_names
  refine (sum_contents_read i arg10.view f10 _ _ arg4.view f4 arg5.view f5).trans ?_
  rw [tblWord_readAt, tblWord_readAt]

end Cert.Kernel.Scatter

end
-- ==== Proof.ScatterOblig.lean ====
/-
  The second kernel region's body obligation: at every grid point, from the invariant (the tables, the accumulators as the
  points before left them) and the five windows' buffers at what they then hold, the kernel's body runs to the invariant at
  the next point, the inputs' buffers at their blocks, and each output's buffer at the written block at a class tile's last
  batch tile and as found at every other point.  Stated at any float instance.
-/
import proofs.«100039_j20426864460160_2_alg».proof.Proof.Gen.Kernel.Launch
import proofs.«100039_j20426864460160_2_alg».proof.Proof.Gen.Kernel.Skeleton
import proofs.«100039_j20426864460160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterRun
import proofs.«100039_j20426864460160_2_alg».proof.Proof.ScatterData

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body obligation of the scatter-and-finalise region -/

variable (V : (c : Dev nD) → (b : Ref sig .tc) → Buf (Elt F) ((c : Thread nD τ).loc b)) (a1 : (pcfg1 (F := F)).Adm)

/-- The kernel body at point `t`, on what the pipeline calls it with: the tables, the five windows' current staging buffers, the
    two accumulators. -/
abbrev bodyAt1 (t : Fin (cfg1 a1).N) : Prog (TpuEff nD τ sig (Elt F) Λ₀ .tc) PUnit :=
  cc1__scatter_finalize_kernel (grid1.coords t) (Memref.whole main_v18) (Memref.isWhole_whole _) (Memref.whole main_v19) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (Memref.whole cc1_scratch0) (Memref.isWhole_whole _) (Memref.whole cc1_scratch1) (Memref.isWhole_whole _)

/-- Each input window's buffer holds its block whenever the body is called, fetched there or not. -/
theorem before1_0 (c : Dev nD) (t : Fin (cfg1 a1).N) (d) : (dat1 V a1 c).before 0 t d = blockAt1 V a1 c 0 t :=
  ((dat1 V a1 c).before_in_eq_fetched 0 rfl (fun _ => rfl) (fun _ _ _ => rfl) (fun t => by rw [dat1_after0]; unfold Dat.blockOf blockAt1; rw [dat1_A]; try rfl) t d).trans
    (by unfold Dat.fetched Dat.blockOf blockAt1; rw [dat1_A]; try rfl)
theorem before1_1 (c : Dev nD) (t : Fin (cfg1 a1).N) (d) : (dat1 V a1 c).before 1 t d = blockAt1 V a1 c 1 t :=
  ((dat1 V a1 c).before_in_eq_fetched 1 rfl (fun _ => rfl) (fun _ _ _ => rfl) (fun t => by rw [dat1_after1]; unfold Dat.blockOf blockAt1; rw [dat1_A]; try rfl) t d).trans
    (by unfold Dat.fetched Dat.blockOf blockAt1; rw [dat1_A]; try rfl)
theorem before1_2 (c : Dev nD) (t : Fin (cfg1 a1).N) (d) : (dat1 V a1 c).before 2 t d = blockAt1 V a1 c 2 t :=
  ((dat1 V a1 c).before_in_eq_fetched 2 rfl (fun _ => rfl) (fun _ _ _ => rfl) (fun t => by rw [dat1_after2]; unfold Dat.blockOf blockAt1; rw [dat1_A]; try rfl) t d).trans
    (by unfold Dat.fetched Dat.blockOf blockAt1; rw [dat1_A]; try rfl)

/-- The two output windows are written back exactly at the last batch tile of a class tile, and the printed configuration
    calls them idle at every other point; the first grid point is a first batch tile. -/
theorem flush1_3 : ∀ t : Fin (cfg1 a1).N, ((cfg1 a1).win 3).flush t = decide (lastTile (grid1.coords t)) :=
  (by decide +kernel : ∀ t : Fin grid1.N, Pipeline.Window.flushOf grid1 true cc1_transform_3 t = decide (lastTile (grid1.coords t)))
theorem flush1_4 : ∀ t : Fin (cfg1 a1).N, ((cfg1 a1).win 4).flush t = decide (lastTile (grid1.coords t)) :=
  (by decide +kernel : ∀ t : Fin grid1.N, Pipeline.Window.flushOf grid1 true cc1_transform_4 t = decide (lastTile (grid1.coords t)))
theorem idle1_3 (t : Fin (cfg1 a1).N) : (cfg1 a1).idle 3 ((cfg1 a1).grid.coords t) = !decide (lastTile (grid1.coords t)) := rfl
theorem idle1_4 (t : Fin (cfg1 a1).N) : (cfg1 a1).idle 4 ((cfg1 a1).grid.coords t) = !decide (lastTile (grid1.coords t)) := rfl
theorem first_of_zero : ∀ t : Fin (cfg1 a1).N, t.val = 0 → firstTile (grid1.coords t) :=
  (by decide +kernel : ∀ t : Fin grid1.N, t.val = 0 → firstTile (grid1.coords t))

/-- At a class tile's first batch tile the steps do not read what the accumulators held. -/
theorem stepCnt_first (i : grid1.Coords) (h : firstTile i) (lo hi : BitVec 32) (x5 : Vec F S1x4096 .i32) (d d' : Vec F S1000x1 .f32) :
    stepCnt i lo hi x5 d = stepCnt i lo hi x5 d' := by
  unfold stepCnt resetCnt; simp only [h, if_true]
theorem stepSum_first (i : grid1.Coords) (h : firstTile i) (lo hi : BitVec 32) (x4 : Vec F S4096x256 .bf16) (x5 : Vec F S1x4096 .i32)
    (d d' : Vec F S1000x256 .f32) : stepSum i lo hi x4 x5 d = stepSum i lo hi x4 x5 d' := by
  unfold stepSum resetSum; simp only [h, if_true]

/-- The accumulators one point on. -/
theorem accAt_succ (c : Dev nD) (t : Fin (cfg1 a1).N) :
    accAt V a1 c (t.val + 1)
      = (stepCnt ((cfg1 a1).grid.coords t) (tblWord (tloOf a1) ((cfg1 a1).grid.coords t)) (tblWord (thiOf a1) ((cfg1 a1).grid.coords t))
            (blockAt1 V a1 c 1 t) (accAt V a1 c t.val).1,
          stepSum ((cfg1 a1).grid.coords t) (tblWord (tloOf a1) ((cfg1 a1).grid.coords t)) (tblWord (thiOf a1) ((cfg1 a1).grid.coords t))
            (blockAt1 V a1 c 0 t) (blockAt1 V a1 c 1 t) (accAt V a1 c t.val).2) := by
  rw [accAt, dif_pos t.isLt]

/-- A buffer left at one of two contents according to a decidable fact, as one of two assertions. -/
theorem owns_ite {S : Shape} {e : EltTy} (c : Dev nD) (M : Memref sig .tc .vmem S e) (last : Prop) [Decidable last]
    (X Y : S.Idx → Elt F e) (P : sProp 𝕄) (hY : owns (c : Thread nD τ) M fullShare Y ⊢ P) :
    owns (c : Thread nD τ) M fullShare (if last then X else Y) ⊢ (if last then owns (c : Thread nD τ) M fullShare X else P) := by
  by_cases h : last
  · rw [if_pos h, if_pos h]
  · rw [if_neg h, if_neg h]; exact hY

/-- What the body is called with at point `t`, window by window, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (spec1_0.stage ((cfg1 a1).slots t 0)) fullShare ((dat1 V a1 c).before 0 t d))
    ∗ (∃ d, owns (c : Thread nD τ) (spec1_1.stage ((cfg1 a1).slots t 1)) fullShare ((dat1 V a1 c).before 1 t d))
    ∗ (∃ d, owns (c : Thread nD τ) (spec1_2.stage ((cfg1 a1).slots t 2)) fullShare ((dat1 V a1 c).before 2 t d))
    ∗ (∃ d, owns (c : Thread nD τ) (spec1_3.stage ((cfg1 a1).slots t 3)) fullShare ((dat1 V a1 c).before 3 t d))
    ∗ (∃ d, owns (c : Thread nD τ) (spec1_4.stage ((cfg1 a1).slots t 4)) fullShare ((dat1 V a1 c).before 4 t d)))

/-- and what it returns: the inputs' buffers at their blocks; each output's at the written block at the last batch tile and as
    found at every other point. -/
def bodyPost1 (c : Dev nD) (t : Fin (cfg1 a1).N) : sProp 𝕄 :=
  iprop((dat1 V a1 c).Φ t.succ ∗ (dat1 V a1 c).owesAt () t.succ
    ∗ owns (c : Thread nD τ) (spec1_0.stage ((cfg1 a1).slots t 0)) fullShare ((dat1 V a1 c).after 0 t)
    ∗ owns (c : Thread nD τ) (spec1_1.stage ((cfg1 a1).slots t 1)) fullShare ((dat1 V a1 c).after 1 t)
    ∗ owns (c : Thread nD τ) (spec1_2.stage ((cfg1 a1).slots t 2)) fullShare ((dat1 V a1 c).after 2 t)
    ∗ (if lastTile (grid1.coords t) then owns (c : Thread nD τ) (spec1_3.stage ((cfg1 a1).slots t 3)) fullShare ((dat1 V a1 c).after 3 t)
        else iprop(∃ d, owns (c : Thread nD τ) (spec1_3.stage ((cfg1 a1).slots t 3)) fullShare ((dat1 V a1 c).before 3 t d)))
    ∗ (if lastTile (grid1.coords t) then owns (c : Thread nD τ) (spec1_4.stage ((cfg1 a1).slots t 4)) fullShare ((dat1 V a1 c).after 4 t)
        else iprop(∃ d, owns (c : Thread nD τ) (spec1_4.stage ((cfg1 a1).slots t 4)) fullShare ((dat1 V a1 c).before 4 t d))))

set_option maxHeartbeats 2000000 in
/-- The body at any point: the inputs' buffers hold their blocks and the accumulators what the points before left (anything
    at the first point, which clears them), so the kernel's run applies and leaves the accumulators at the next point's contents. -/
theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1, before1_2]
  rw [show (dat1 V a1 c).owesAt () t.succ = (dat1 V a1 c).owesAt () t.castSucc from rfl,
    dat1_after0, dat1_after1, dat1_after2, dat1_after3, dat1_after4, dat1_Phi, dat1_Phi]
  unfold PhiAt
  simp only [Fin.coe_castSucc, Fin.val_succ]
  iintro ⟨⟨HT0, HT1, Hst, ⟨%d9, %d10, %htr, H9, H10⟩, Hp⟩, Ho, ⟨%e0, H0⟩, ⟨%e1, H1⟩, ⟨%e2, H2⟩, ⟨%e3, H3⟩, ⟨%e4, H4⟩⟩
  iapply (scatter_run (F := F) c Set.univ (grid1.coords t) (Memref.whole main_v18) (Memref.isWhole_whole _) (Memref.whole main_v19) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (Memref.whole cc1_scratch0) (Memref.isWhole_whole _) (Memref.whole cc1_scratch1) (Memref.isWhole_whole _)
    (tloOf a1) (thiOf a1)
    (blockAt1 V a1 c 0 t) (blockAt1 V a1 c 1 t) (blockAt1 V a1 c 2 t) ((dat1 V a1 c).before 3 t e3) ((dat1 V a1 c).before 4 t e4) d9 d10
    _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H9]; · iexact H9
  isplitl [H10]; · iexact H10
  iintro ⟨HT0, HT1, H0, H1, H2, H3, H4, H9, H10⟩
  -- the accumulators after the point are the next point's
  have hstep : stepCnt (grid1.coords t) (tblWord (tloOf a1) (grid1.coords t)) (tblWord (thiOf a1) (grid1.coords t)) (blockAt1 V a1 c 1 t) d9
        = (accAt V a1 c (t.val + 1)).1
      ∧ stepSum (grid1.coords t) (tblWord (tloOf a1) (grid1.coords t)) (tblWord (thiOf a1) (grid1.coords t)) (blockAt1 V a1 c 0 t) (blockAt1 V a1 c 1 t) d10
        = (accAt V a1 c (t.val + 1)).2 := by
    have hco : (cfg1 a1).grid.coords t = grid1.coords t := rfl
    rw [accAt_succ, hco]
    by_cases h0 : t.val = 0
    · exact ⟨stepCnt_first _ (first_of_zero a1 t h0) _ _ _ _ _, stepSum_first _ (first_of_zero a1 t h0) _ _ _ _ _ _⟩
    · obtain ⟨h9, h10⟩ := htr h0
      subst h9 h10
      exact ⟨rfl, rfl⟩
  rw [hstep.1, hstep.2]
  isplitl [HT0 HT1 Hst H9 H10 Hp]
  · isplitl [HT0]; · iexact HT0
    isplitl [HT1]; · iexact HT1
    isplitl [Hst]; · iexact Hst
    isplitl [H9 H10]
    · iexists _, _; isplitr
      · ipureintro; intro _; exact ⟨rfl, rfl⟩
      isplitl [H9]; · iexact H9
      iexact H10
    iexact Hp
  isplitl [Ho]; · iexact Ho
  isplitl [H0]; · iexact H0
  isplitl [H1]; · iexact H1
  isplitl [H2]; · iexact H2
  isplitl [H3]
  · iapply (owns_ite c _ (lastTile (grid1.coords t)) _ _ _ (by iintro H; iexists e3; iexact H))
    iexact H3
  iapply (owns_ite c _ (lastTile (grid1.coords t)) _ _ _ (by iintro H; iexists e4; iexact H))
  iexact H4

/-- The pipeline library's body obligation for the scatter-and-finalise region, at every point. -/
theorem body_obligation1 (c : Dev nD) : BodyObligation (dat1 (F := F) V a1 c) (defs₀ (F := F)) Variants.none () Set.univ := fun t => by
  rw [bigSep_W1, bigSep_W1]
  refine (sound_body1 V a1 c t).trans (wp_mono _ _ _ fun _ => ?_)
  unfold bodyPost1
  refine BIClass.sep_mono ?_ (BIClass.sep_mono ?_ (BIClass.sep_mono ?_ (BIClass.sep_mono ?_ (BIClass.sep_mono ?_ (BIClass.sep_mono ?_ ?_)))))
  · iintro H; iexact H
  · iintro H; iexact H
  · iintro H; iexact H
  · iintro H; iexact H
  · iintro H; iexact H
  · by_cases h : lastTile (grid1.coords t)
    · have hi : (cfg1 a1).idle 3 ((cfg1 a1).grid.coords t) = false := by rw [idle1_3 a1 t]; simp [h]
      have hi' : idle1 3 ((pcfg1.gridAt a1.1).coords t) = false := hi
      simp only [hi, hi', h, if_true]; iintro H; iexact H
    · have hi : (cfg1 a1).idle 3 ((cfg1 a1).grid.coords t) = true := by rw [idle1_3 a1 t]; simp [h]
      have hf : ((cfg1 a1).win 3).flush t = false := by rw [flush1_3 a1 t]; simp [h]
      have hi' : idle1 3 ((pcfg1.gridAt a1.1).coords t) = true := hi
      have hf' : (pcfg1.win a1 3).flush t = false := hf
      simp only [hi, hi', h, if_false]
      split
      · iintro H; iexact H
      · rename_i hflush; exact absurd (hf'.symm.trans hflush) Bool.false_ne_true
  · by_cases h : lastTile (grid1.coords t)
    · have hi : (cfg1 a1).idle 4 ((cfg1 a1).grid.coords t) = false := by rw [idle1_4 a1 t]; simp [h]
      have hi' : idle1 4 ((pcfg1.gridAt a1.1).coords t) = false := hi
      simp only [hi, hi', h, if_true]; iintro H; iexact H
    · have hi : (cfg1 a1).idle 4 ((cfg1 a1).grid.coords t) = true := by rw [idle1_4 a1 t]; simp [h]
      have hf : ((cfg1 a1).win 4).flush t = false := by rw [flush1_4 a1 t]; simp [h]
      have hi' : idle1 4 ((pcfg1.gridAt a1.1).coords t) = true := hi
      have hf' : (pcfg1.win a1 4).flush t = false := hf
      simp only [hi, hi', h, if_false]
      split
      · iintro H; iexact H
      · rename_i hflush; exact absurd (hf'.symm.trans hflush) Bool.false_ne_true

end Cert.Kernel.Scatter

end
-- ==== Proof.MainRegion1Bits.lean ====
/-
  Region 1 (the scatter and center update) as a segment of the two-region run, and the run with both regions in place.

  The region is entered with every unscoped buffer of the core at the contents the third host stretch leaves, beside the
  generator register at some state and nothing owed.  Out of the unscoped buffers come its five arrays — the sorted rows, the
  sorted labels, the centers, and the two outputs — and its two prefetched tables, which hold the words the host stretch
  tabulated; the rest bypasses the region.  The tables, the generator register and the scoped buffers no window stages (the
  other region's staging buffers and the two accumulators) make the pipeline's invariant at the first point, where nothing is
  yet said about the accumulators; at the last point the invariant gives them back.  At the exit the three input arrays are
  as they were, the two outputs hold what the pipeline's write-backs fold to, which is what the contents after the region
  hold there, and the tables and every other buffer hold what they held at entry.
-/
import proofs.«100039_j20426864460160_2_alg».proof.Proof.MainRunBits
import proofs.«100039_j20426864460160_2_alg».proof.Proof.MainTablesBits
import proofs.«100039_j20426864460160_2_alg».proof.Proof.ScatterOblig

noncomputable section

namespace Cert.Kernel.MainRun

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after the region, at the region's arrays and off them -/

/-- What the two regions leave, at region 1's proof data. -/
abbrev outsOf : Gen.Outs (F := F) := outs m (a1Of m) (d1Of m)

/-- The contents after region 1, read at the core's references. -/
abbrev Vout1 : (c : Dev nD) → (b : Ref sig .tc) → Buf (Elt F) ((c : Thread nD τ).loc b) :=
  fun c b => Gen.V5 m (outsOf m) c b

/-- After the region the array of updated centers holds the first unknown of the last stage, -/
theorem V5_v21_0 (o : Gen.Outs (F := F)) (c : Dev nD) : Gen.V5 m o c main_v21_0 = o 5 main_v21_0 c := by
  simp only [Gen.V5, Function.update_of_ne (StableHlo.devRef_ne_of_ne (by decide) : (Proc.devRef .tc main_v21_0 : DevRef τ sig) ≠ Proc.devRef .tc main_v21_1),
    Function.update_self]
/-- and the array of loss partials the second. -/
theorem V5_v21_1 (o : Gen.Outs (F := F)) (c : Dev nD) : Gen.V5 m o c main_v21_1 = o 5 main_v21_1 c := by
  simp only [Gen.V5, Function.update_self]

/-- Each of the region's arrays holds, after the region, what the pipeline leaves in it: an input's array its entry contents,
    which the region does not change, an output's what its write-backs fold to. -/
theorem hF1 (c : Dev nD) (w : Fin (cfg1 (a1Of m)).W) :
    (d1Of m c).arrAt w (cfg1 (a1Of m)).N = Vout1 m c (Pipeline.arrRef spec1 w) := by
  match w with
  | ⟨0, _⟩ =>
    exact (((d1Of m c).arrAt_in 0 rfl _).trans (Scatter.dat1_A (Vin1 m) (a1Of m) c 0)).trans
      (Gen.V5_of m (outsOf m) c main_v16 (by decide)).symm
  | ⟨1, _⟩ =>
    exact (((d1Of m c).arrAt_in 1 rfl _).trans (Scatter.dat1_A (Vin1 m) (a1Of m) c 1)).trans
      (Gen.V5_of m (outsOf m) c main_v20 (by decide)).symm
  | ⟨2, _⟩ =>
    exact (((d1Of m c).arrAt_in 2 rfl _).trans (Scatter.dat1_A (Vin1 m) (a1Of m) c 2)).trans
      (Gen.V5_of m (outsOf m) c main_arg2 (by decide)).symm
  | ⟨3, _⟩ => exact ((V5_v21_0 m (outsOf m) c).trans (outs_v21_0 m (a1Of m) (d1Of m) c)).symm
  | ⟨4, _⟩ => exact ((V5_v21_1 m (outsOf m) c).trans (outs_v21_1 m (a1Of m) (d1Of m) c)).symm

/-- Every buffer that is none of the region's arrays holds after the region what it held before. -/
theorem hrest1 (c : Dev nD) : ∀ b, b ∉ Finset.univ.image (Pipeline.arrRef spec1) → Vout1 m c b = Vin1 m c b :=
  fun b hb => Gen.V5_of m (outsOf m) c b fun hm => hb (by
    rcases List.mem_cons.mp hm with rfl | hm
    · exact Finset.mem_image.mpr ⟨3, Finset.mem_univ _, rfl⟩
    · rcases List.mem_cons.mp hm with rfl | hm
      · exact Finset.mem_image.mpr ⟨4, Finset.mem_univ _, rfl⟩
      · exact absurd hm List.not_mem_nil)

/-- At region 1's entry the two tables' buffers hold the tables' contents. -/
theorem tables_at_entry (c : Dev nD) : (fun k => Vin1 m c (pre1.ref k)) = (a1Of m).1 :=
  funext fun k => V4_pre m c k

/-! ## The tables and the scoped rest as the invariant states them -/

/-- The two tables held whole at contents `a` are the two tables' memrefs owned at them. -/
theorem prefHeld_tables (c : Dev nD) (a : (pcfg1 (F := F)).Adm) :
    (Pipeline.prefHeld pre1 c (fun _ => fullShare) a.1 : sProp 𝕄)
      = iprop(owns (c : Thread nD τ) Scatter.tblM0 fullShare (Scatter.tloOf a) ∗ owns (c : Thread nD τ) Scatter.tblM1 fullShare (Scatter.thiOf a)) := by
  unfold Pipeline.prefHeld
  rw [show (Finset.univ : Finset (Fin 2)) = insert (0 : Fin 2) {(1 : Fin 2)} from by decide,
    bigSep_insert (by decide), bigSep_singleton]
  simp only [Scatter.tblM0, Scatter.tblM1, owns_whole]
  rfl

/-! ## The region as a segment -/

set_option backward.isDefEq.respectTransparency.types false in
/-- Region 1 over the thread state: entered from every unscoped buffer at the contents the third host stretch leaves, left
    at the contents after the region; beside both, the generator register at some state and nothing owed. -/
def reg1 : Pipeline.RegionSeg (pcfgs (F := F)) (adm (a1Of m)) (pdats m (a1Of m) (d1Of m)) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Scatter.body_obligation1 (Vin1 m) (a1Of m) c).loose
  hwaits := Pipeline.hwaits_of_owed_zero _ _ _ _ L lv 1 fun _ _ => rfl
  pre c := iprop(StableHlo.held (c : Thread nD τ) (Pipeline.ucRefs τ sig) (Gen.V4 m (outsOf m) c) ∗ Rr (F := F) c)
  post c := iprop(StableHlo.held (c : Thread nD τ) (Pipeline.ucRefs τ sig) (Gen.V5 m (outsOf m) c) ∗ Rr (F := F) c)
  X c := iprop(∃ r, prngReg c r)
  Y c := iprop((∃ r, prngReg c r) ∗ Pipeline.prefHeld pre1 c (fun _ => fullShare) (a1Of m).1)
  Z c := Pipeline.unscopedRestP (Ix := Unit) (Name := ℕ) (U := UR sig nD τ) (Lvl := ℕ) pre1 spec1 c (Vin1 m c)
  hentry c := by
    -- the arrays and the tables out of the unscoped buffers; the register for the invariant; the dues as the pipeline states them
    rw [Pipeline.ownSems0_none]
    have hsplit := Pipeline.arrays_of_unscopedBufs (p := 1) (pcfgs (F := F)) (adm (a1Of m)) (pdats m (a1Of m) (d1Of m))
      (launch1 (F := F)).win (launch1 (F := F)).arr_whole c
      ((pdats m (a1Of m) (d1Of m) 1 c).share_full fun _ => rfl) (Vin1 m c) fun _ => rfl
    rw [Pipeline.unscopedBufs_held] at hsplit
    have htabs := Pipeline.unscopedRest_split (Ix := Unit) (Name := ℕ) (U := UR sig nD τ) (Lvl := ℕ) (hp := preFacts1) c (Vin1 m c)
    rw [tables_at_entry m c] at htabs
    replace hsplit := hsplit.trans (sep_mono .rfl (Entails.of_eq htabs))
    iintro ⟨⟨Hub, Hp, HO⟩, -, -⟩
    ihave H := hsplit $$ [Hub]
    · iexact Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant before the first point: the tables, the other region's staging buffers, the accumulators at anything
    show iprop((∃ r, prngReg c r) ∗ Pipeline.prefHeld pre1 c (fun _ => fullShare) (a1Of m).1 ∗ Pipeline.scopedRest spec1 c)
      ⊢ Scatter.PhiAt (Vin1 m) (a1Of m) c 0
    rw [Gen.scopedRest1_eq c, prefHeld_tables]
    unfold Scatter.PhiAt Scatter.otherStaging
    simp only [Scatter.cntM, Scatter.sumM, owns_whole]
    iintro ⟨Hr, ⟨Ht0, Ht1⟩, H1, H2, H3, H4, H5, H6, ⟨%f0, Hc0⟩, ⟨%f1, Hc1⟩⟩
    isplitl [Ht0]; · iexact Ht0
    isplitl [Ht1]; · iexact Ht1
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [Hc0 Hc1]
    · iexists f0; iexists f1
      isplitr; · ipureintro; exact fun h => absurd rfl h
      isplitl [Hc0]; · iexact Hc0
      iexact Hc1
    iexact Hr
  hout c := by
    -- the invariant after the last point gives everything back; what the accumulators hold is forgotten
    rw [Pipeline.ownSems0_none,
      show (pdats m (a1Of m) (d1Of m) 1 c).Φ (Fin.last _) = Scatter.PhiAt (Vin1 m) (a1Of m) c (Fin.last _) from rfl,
      show Pipeline.scopedRest (Pipeline.pin (pcfgs (F := F)) (adm (a1Of m)) 1).spec c = Pipeline.scopedRest spec1 c from rfl,
      Gen.scopedRest1_eq c, prefHeld_tables]
    unfold Scatter.PhiAt Scatter.otherStaging
    simp only [Scatter.cntM, Scatter.sumM, owns_whole]
    iintro ⟨Ht0, Ht1, ⟨H1, H2, H3, H4, H5, H6⟩, ⟨%d9, %d10, -, Hc0, Hc1⟩, Hr⟩
    isplitl [Hr Ht0 Ht1]
    · isplitl [Hr]; · iexact Hr
      isplitl [Ht0]; · iexact Ht0
      iexact Ht1
    isplitr; · iempintro
    isplitl [H1]; · iexact H1
    isplitl [H2]; · iexact H2
    isplitl [H3]; · iexact H3
    isplitl [H4]; · iexact H4
    isplitl [H5]; · iexact H5
    isplitl [H6]; · iexact H6
    isplitl [Hc0]; · iexists d9; iexact Hc0
    iexists d10; iexact Hc1
  hexit c := by
    -- the tables back beside the rest, then the arrays back among the unscoped buffers, at the contents after the region
    have hjoin := Pipeline.unscopedBufs_of_arrays (p := 1) (pcfgs (F := F)) (adm (a1Of m)) (Ix := Unit) (Name := ℕ) (U := UR sig nD τ) (Lvl := ℕ)
      (launch1 (F := F)).win (launch1 (F := F)).arr_whole c (pdats m (a1Of m) (d1Of m))
      ((pdats m (a1Of m) (d1Of m) 1 c).share_full fun _ => rfl)
      (Vin1 m c) (Vout1 m c) ((pdats m (a1Of m) (d1Of m) 1 c).arrAt · (cfg1 (a1Of m)).N) (hF1 m c) (hrest1 m c)
    rw [Pipeline.unscopedBufs_held] at hjoin
    have htabs := Pipeline.unscopedRest_split (Ix := Unit) (Name := ℕ) (U := UR sig nD τ) (Lvl := ℕ) (hp := preFacts1) c (Vin1 m c)
    rw [tables_at_entry m c] at htabs
    replace hjoin := (sep_mono .rfl (Entails.of_eq htabs.symm)).trans hjoin
    iintro ⟨Ha, HO, ⟨HY, Htb⟩, Hrest⟩
    imodintro
    isplitl [Ha Htb Hrest]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## The run with both regions in place -/

/-- From any launch memory with zero counters every weakly fair execution of the program terminates; every final memory
    holds the loss scalar and the updated centers as the last valuation says, at the tables' contents the host stretch
    leaves and region 1's proof data at them, and the three arguments as launched. -/
theorem main_run1 :
    θ_run defs (onTc (τ := τ) (main (F := F))) ⟨m, fun _ => 0, ρ⟩ (fun r => ∀ c : Dev nD,
      r.2.mem ((c.tc : Thread nD τ).loc main_v24) = Gen.V6 m (outs m (a1Of m) (d1Of m)) c main_v24
      ∧ r.2.mem ((c.tc : Thread nD τ).loc main_v21_0) = Gen.V6 m (outs m (a1Of m) (d1Of m)) c main_v21_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  main_run m ρ (a1Of m) (d1Of m) (reg1 m) (fun _ => .rfl) (fun _ => .rfl)

end Cert.Kernel.MainRun

end
-- ==== Proof.FrameBits.lean ====
/-
  The word-level kernel's frame: it runs to the end, faults nowhere, and leaves its three argument arrays as it found them.
  The run of the two regions with the host stretches between them, with both results named, is proved once for every float
  instance; read at the bit-exact instance it is this program's run, and the frame claim forgets the two results.
-/
import proofs.«100039_j20426864460160_2_alg».proof.Defs
import proofs.«100039_j20426864460160_2_alg».proof.Proof.MainRegion1Bits

noncomputable section

namespace Cert.Proof.FrameBits

open Idealize.ShloMosaic Idealize.ShloMosaic.TcCoe Idealize.SL.Sem

/-- The kernel runs to the end, faults nowhere and leaves its three argument arrays as it found them. -/
theorem frame_k [Cert.Kernel.Facts] [Cert.Pre_finite_inputs.Facts] : Cert.frame_Kernel := fun m ρ _ =>
  (θ_run Cert.Kernel.defs _ _).mono (fun _ h c => (h c).2.2) (Cert.Kernel.MainRun.main_run1 (F := Bits) m ρ)

end Cert.Proof.FrameBits

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.PreDecode.lean ====
/-
  The precondition, decoded: from "the finiteness predicate of the three argument arrays is all ones" to real data.

  The predicate is the conjunction of three tests, each a conjunction over all entries of an array:
  every feature has absolute value strictly below plus infinity, every center likewise, and every label word,
  read signed, is at least 0 and below 50000.  An extended real whose absolute value is below plus infinity is
  (the coercion of) a real number; a 32-bit word that is nonnegative and below 50000 when read signed is the
  word of a natural number below 50000.  So the features are a real matrix x, the centers a real matrix cen, and
  the labels a function l into the 50000 classes.  The program runs on one device, so the data read off
  device 0 serve every device.
-/
import proofs.«100039_j20426864460160_2_alg».proof.Defs
import Idealize.ShloMosaic.Lib.ValueIdx
import Idealize.ShloMosaic.Lib.ReduceAll
import proofs.«100039_j20426864460160_2_alg».proof.Proof.LibFiniteOps

noncomputable section

namespace Cert.Proof.PreDecode

open Idealize.ShloMosaic Idealize.ShloMosaic.ValueIdx Idealize.SL.Sem

/-- The scalar shape has one index. -/
instance : Subsingleton Cert.Pre_finite_inputs.S_.Idx := ⟨fun a b => funext fun d => d.elim0⟩

/-- A 32-bit word that reads, signed, at least 0 and below n (n below 2^31) is the word of its own unsigned value,
    and that value is below n. -/
theorem word_in_range (w : BitVec 32) (n : Nat) (hn : n < 2 ^ 31)
    (h0 : IntOp.cmpi .sge w 0#32 = 1#1) (h1 : IntOp.cmpi .slt w (BitVec.ofNat 32 n) = 1#1) :
    w.toNat < n ∧ w = BitVec.ofNat 32 w.toNat := by
  rw [IntOp.cmpi_sge] at h0
  rw [IntOp.cmpi_slt] at h1
  have hz : (0#32 : BitVec 32).toInt = 0 := by decide
  have hnn : (BitVec.ofNat 32 n).toInt = (n : Int) := by
    rw [BitVec.toInt_ofNat']
    exact Int.bmod_eq_of_le (by omega) (by omega)
  rw [hz] at h0
  rw [hnn] at h1
  have hw := w.isLt
  rw [BitVec.toInt_eq_toNat_cond] at h0 h1
  refine ⟨?_, ?_⟩
  · split at h1 <;> omega
  · apply BitVec.eq_of_toNat_eq
    rw [BitVec.toNat_ofNat, Nat.mod_eq_of_lt hw]

/-- The predicate on any three arrays: all ones means real features, real centers, labels in range. -/
theorem decode_fn [Cert.Pre_finite_inputs.Facts]
    (a0 : FVec Ideal Cert.Pre_finite_inputs.S131072x256 .f32) (a1 : IVec Cert.Pre_finite_inputs.S131072 32)
    (a2 : FVec Ideal Cert.Pre_finite_inputs.S50000x256 .f32)
    (h : Cert.Pre_finite_inputs.fn (F := Ideal) a0 a1 a2 = fun _ => 1#1) :
    (∀ j, ∃ r : ℝ, a0 j = (r : EReal)) ∧ (∀ j, ∃ r : ℝ, a2 j = (r : EReal))
      ∧ (∀ j, (a1 j).toNat < 50000 ∧ a1 j = BitVec.ofNat 32 (a1 j).toNat) := by
  have e := congrFun h ix0
  unfold Cert.Pre_finite_inputs.fn at e
  dsimp only at e
  change IntOp.andi (IntOp.andi _ _) _ = 1#1 at e
  rw [IntOp.andi_eq_one, IntOp.andi_eq_one] at e
  obtain ⟨⟨e0, e2⟩, e1⟩ := e
  refine ⟨?_, ?_, ?_⟩
  · exact Cert.LibFiniteOps.allReal_of_abs_lt_top (fun _ => Cert.LibFiniteOps.ofBits_7F800000)
      (Host.reduce_andi_all _ _ _ _ ix0 e0)
  · exact Cert.LibFiniteOps.allReal_of_abs_lt_top (fun _ => Cert.LibFiniteOps.ofBits_7F800000)
      (Host.reduce_andi_all _ _ _ _ ix0 e2)
  · intro j
    have ej := Host.reduce_andi_all _ _ _ _ ix0 e1 j
    change IntOp.andi (IntOp.cmpi .sge (a1 j) 0#32) (IntOp.cmpi .slt (a1 j) 50000#32) = 1#1 at ej
    rw [IntOp.andi_eq_one] at ej
    exact word_in_range (a1 j) 50000 (by norm_num) ej.1 ej.2

/-- THE PRECONDITION DECODED: the three argument arrays are a real feature matrix, labels in the 50000 classes, and a
    real center matrix. -/
theorem pre_decode [Cert.Pre_finite_inputs.Facts] (m : (ℓ : Loc Cert.KernelIdeal.nD Cert.KernelIdeal.τ Cert.KernelIdeal.sig) → Buf (Elt Ideal) ℓ) (h : Cert.Pre_KernelIdeal m) :
    ∃ (x : Fin 131072 → Fin 256 → ℝ) (l : Fin 131072 → Fin 50000) (cen : Fin 50000 → Fin 256 → ℝ),
      (∀ (c : Dev Cert.KernelIdeal.nD) (i : Fin 131072) (d : Fin 256), (m ((c.tc : Thread Cert.KernelIdeal.nD Cert.KernelIdeal.τ).loc Cert.KernelIdeal.main_arg0) : Cert.KernelIdeal.S131072x256.Idx → EReal) (ValueIdx.ix2 i d) = ((x i d : ℝ) : EReal))
      ∧ (∀ (c : Dev Cert.KernelIdeal.nD) (i : Fin 131072), (m ((c.tc : Thread Cert.KernelIdeal.nD Cert.KernelIdeal.τ).loc Cert.KernelIdeal.main_arg1) : Cert.KernelIdeal.S131072.Idx → BitVec 32) (ValueIdx.ix1 i) = BitVec.ofNat 32 (l i).val)
      ∧ (∀ (c : Dev Cert.KernelIdeal.nD) (k : Fin 50000) (d : Fin 256), (m ((c.tc : Thread Cert.KernelIdeal.nD Cert.KernelIdeal.τ).loc Cert.KernelIdeal.main_arg2) : Cert.KernelIdeal.S50000x256.Idx → EReal) (ValueIdx.ix2 k d) = ((cen k d : ℝ) : EReal)) := by
  obtain ⟨hx, hc, hl⟩ := decode_fn _ _ _ (h 0)
  choose x hx using hx
  choose cen hc using hc
  have one : ∀ c : Dev Cert.KernelIdeal.nD, c = 0 := fun c => Subsingleton.elim _ _
  refine ⟨fun i d => x (ix2 i d), fun i => ⟨_, (hl (ix1 i)).1⟩, fun k d => cen (ix2 k d), ?_, ?_, ?_⟩
  · intro c i d; rw [one c]; exact hx (ix2 i d)
  · intro c i; rw [one c]; exact (hl (ix1 i)).2
  · intro c k d; rw [one c]; exact hc (ix2 k d)

end Cert.Proof.PreDecode

end
-- ==== Proof.LibCenterLoss.lean ====
/-
  Segment sums and the center loss, over the reals.

  Samples `i : ι` carry a class `l i : κ` and a feature row `f i : δ → ℝ`; every class `k` has a center row
  `c k : δ → ℝ`.  Write `cnt k` for the number of samples of class `k` and `seg k d` for the sum of the
  features `f i d` over the samples of class `k`.  Then

  * `sum_sq_dist_eq`: the total squared distance of every sample to its own class's center,
    Σ_i Σ_d (f i d − c (l i) d)², is Σ_i Σ_d (f i d)² + Σ_k (−2 · Σ_d c k d · seg k d + cnt k · Σ_d (c k d)²):
    the squares expand, and a sum over samples of a function of the sample's class is the sum over classes of the
    class's samples (`sum_by_class`).
  * `seg_diff_eq`: the class-`k` sum of (c (l i) d − f i d) · w (l i) is w k · (cnt k · c k d − seg k d): inside
    the segment the class is `k`, so the center and the weight are constants of the sum.
  * `cnt_perm`, `seg_perm`: counts and segment sums do not see the order of the samples — relabelling the
    samples by a bijection changes neither.
  * `sum_const_div`: n copies of x / n add up to x (n ≠ 0).
-/
import Mathlib

open Finset BigOperators

namespace CenterLoss

variable {ι κ δ : Type*} [Fintype ι] [Fintype κ] [Fintype δ] [DecidableEq κ]

/-- The number of samples of class `k`, as a real. -/
def cnt (l : ι → κ) (k : κ) : ℝ := ∑ i, if l i = k then (1 : ℝ) else 0

/-- The sum of feature `d` over the samples of class `k`. -/
def seg (l : ι → κ) (f : ι → δ → ℝ) (k : κ) (d : δ) : ℝ := ∑ i, if l i = k then f i d else 0

/-- A sum over samples is the sum over classes of the sum over that class's samples. -/
theorem sum_by_class (l : ι → κ) (h : ι → ℝ) : ∑ i, h i = ∑ k, ∑ i, if l i = k then h i else 0 := by
  rw [Finset.sum_comm]
  refine Finset.sum_congr rfl fun i _ => ?_
  rw [Finset.sum_ite_eq]
  simp

/-- Inside the class-`k` segment a function of the sample's class is its value at `k`. -/
theorem seg_const (l : ι → κ) (g : κ → ℝ) (h : ι → ℝ) (k : κ) :
    (∑ i, if l i = k then g (l i) * h i else 0) = g k * ∑ i, if l i = k then h i else 0 := by
  rw [Finset.mul_sum]
  refine Finset.sum_congr rfl fun i _ => ?_
  by_cases hi : l i = k
  · simp [hi]
  · simp [hi]

/-- The total squared distance to the own class's center, through counts and segment sums. -/
theorem sum_sq_dist_eq (l : ι → κ) (f : ι → δ → ℝ) (c : κ → δ → ℝ) :
    ∑ i, ∑ d, (f i d - c (l i) d) * (f i d - c (l i) d)
      = (∑ i, ∑ d, f i d * f i d)
        + ∑ k, (-2 * (∑ d, c k d * seg l f k d) + cnt l k * ∑ d, c k d * c k d) := by
  have hexp : ∀ i, (∑ d, (f i d - c (l i) d) * (f i d - c (l i) d))
      = (∑ d, f i d * f i d) + (-2 * (∑ d, c (l i) d * f i d) + ∑ d, c (l i) d * c (l i) d) := by
    intro i
    rw [Finset.mul_sum, ← Finset.sum_add_distrib, ← Finset.sum_add_distrib]
    exact Finset.sum_congr rfl fun d _ => by ring
  rw [Finset.sum_congr rfl fun i _ => hexp i, Finset.sum_add_distrib]
  congr 1
  rw [sum_by_class l]
  refine Finset.sum_congr rfl fun k _ => ?_
  have h1 : (∑ i, if l i = k then (-2 * (∑ d, c (l i) d * f i d) + ∑ d, c (l i) d * c (l i) d) else 0)
      = ∑ i, if l i = k then (-2 * (∑ d, c k d * f i d) + ∑ d, c k d * c k d) else 0 := by
    refine Finset.sum_congr rfl fun i _ => ?_
    by_cases hi : l i = k
    · simp [hi]
    · simp [hi]
  rw [h1]
  have h2 : (∑ d, c k d * seg l f k d) = ∑ i, if l i = k then (∑ d, c k d * f i d) else 0 := by
    unfold seg
    simp_rw [Finset.mul_sum]
    rw [Finset.sum_comm]
    refine Finset.sum_congr rfl fun i _ => ?_
    by_cases hi : l i = k
    · simp [hi]
    · simp [hi]
  rw [h2, cnt, Finset.mul_sum, Finset.sum_mul, ← Finset.sum_add_distrib]
  refine Finset.sum_congr rfl fun i _ => ?_
  by_cases hi : l i = k
  · simp [hi]
  · simp [hi]

/-- The class-`k` sum of (center − feature) · weight, the center and the weight taken at the sample's class. -/
theorem seg_diff_eq (l : ι → κ) (f : ι → δ → ℝ) (c : κ → δ → ℝ) (w : κ → ℝ) (k : κ) (d : δ) :
    (∑ i, if l i = k then (c (l i) d - f i d) * w (l i) else 0)
      = w k * (cnt l k * c k d - seg l f k d) := by
  unfold cnt seg
  rw [mul_sub, Finset.sum_mul, Finset.mul_sum, Finset.mul_sum, ← Finset.sum_sub_distrib]
  refine Finset.sum_congr rfl fun i _ => ?_
  by_cases hi : l i = k
  · simp [hi]; ring
  · simp [hi]

/-- Counts do not see the order of the samples. -/
theorem cnt_perm (σ : ι ≃ ι) (l : ι → κ) (k : κ) : cnt (fun i => l (σ i)) k = cnt l k := by
  unfold cnt
  exact Equiv.sum_comp σ fun i => if l i = k then (1 : ℝ) else 0

/-- Segment sums do not see the order of the samples. -/
theorem seg_perm (σ : ι ≃ ι) (l : ι → κ) (f : ι → δ → ℝ) (k : κ) (d : δ) :
    seg (fun i => l (σ i)) (fun i => f (σ i)) k d = seg l f k d := by
  unfold seg
  exact Equiv.sum_comp σ fun i => if l i = k then f i d else 0

/-- `n` copies of `x / n` add up to `x`. -/
theorem sum_const_div {α : Type*} [Fintype α] (x n : ℝ) (hn : (Fintype.card α : ℝ) = n) (h0 : n ≠ 0) :
    (∑ _a : α, x / n) = x := by
  rw [Finset.sum_const, Finset.card_univ, nsmul_eq_mul, hn]
  field_simp

end CenterLoss
-- ==== Proof.SpecReal.lean ====
/-
  The center loss and the center update as functions of real data, in the reference's arrangement and in the kernel's.

  `x i d` are the features of sample `i`, `l i` its class, `cen k d` the centers, `e` the norm's floor.  The sample's
  normalised row is `fR i d = x i d / max (√ Σ_d x i d²) e`.
  * Reference's arrangement: `lossR` = (Σ_i Σ_d (fR i d − cen (l i) d)²) / 131072, and `newcR k d` = cen k d − ½ · the class-`k`
    sum of (cen (l i) d − fR i d) · w (l i), with w k = 1 / (1 + cnt k).
  * Kernel's arrangement over any sample rows `g`: `lossK g` = (Σ_i Σ_d g i d² + Σ_k (−2 Σ_d cen k d · seg k d + cnt k · Σ_d cen k d²)) / 131072
    and `newcK g k d` = cen k d − ½ · (w k · (cnt k · cen k d − seg k d)), where cnt / seg are the class counts and the
    per-class sums of `g`.
  At `g = fR` the two arrangements agree: the squared distances expand class by class, and inside a class the center and the
  weight are constants of the sum.
-/
import proofs.«100039_j20426864460160_2_alg».proof.Proof.LibCenterLoss

open Finset BigOperators CenterLoss

namespace CenterSpec

variable (x : Fin 131072 → Fin 256 → ℝ) (l : Fin 131072 → Fin 50000) (cen : Fin 50000 → Fin 256 → ℝ) (e : ℝ)

/-- The divisor of row `i`: the larger of its Euclidean norm and the floor. -/
noncomputable def nrm (i : Fin 131072) : ℝ := max (Real.sqrt (∑ d, x i d * x i d)) e
/-- The normalised rows. -/
noncomputable def fR (i : Fin 131072) (d : Fin 256) : ℝ := x i d / nrm x e i
/-- The reference's loss. -/
noncomputable def lossR : ℝ := (∑ i, ∑ d, (fR x e i d - cen (l i) d) * (fR x e i d - cen (l i) d)) / 131072
/-- The per-class weight. -/
noncomputable def wR (k : Fin 50000) : ℝ := 1 / (1 + cnt l k)
/-- The reference's updated centers. -/
noncomputable def newcR (k : Fin 50000) (d : Fin 256) : ℝ :=
  cen k d - (1 / 2) * ∑ i, if l i = k then (cen (l i) d - fR x e i d) * wR l (l i) else 0

variable (g : Fin 131072 → Fin 256 → ℝ)

/-- The sum of the squares of all sample rows. -/
noncomputable def sumsqK : ℝ := ∑ i, ∑ d, g i d * g i d
/-- Class `k`'s share of the kernel's loss. -/
noncomputable def qK (k : Fin 50000) : ℝ := -2 * (∑ d, cen k d * seg l g k d) + cnt l k * ∑ d, cen k d * cen k d
/-- The kernel's loss. -/
noncomputable def lossK : ℝ := (sumsqK g + ∑ k, qK l cen g k) / 131072
/-- The kernel's updated centers. -/
noncomputable def newcK (k : Fin 50000) (d : Fin 256) : ℝ :=
  cen k d - (1 / 2) * (wR l k * (cnt l k * cen k d - seg l g k d))

/-- The kernel's arrangement of the loss is the reference's. -/
theorem lossK_eq : lossK l cen (fR x e) = lossR x l cen e := by
  unfold lossK lossR sumsqK qK
  rw [sum_sq_dist_eq l (fR x e) cen]

/-- The kernel's arrangement of the updated centers is the reference's. -/
theorem newcK_eq (k : Fin 50000) (d : Fin 256) : newcK l cen (fR x e) k d = newcR x l cen e k d := by
  unfold newcK newcR
  rw [seg_diff_eq l (fR x e) cen (wR l) k d]

end CenterSpec
-- ==== Proof.Literals.lean ====
/-
  The float literals both programs carry, as the real numbers they denote, and the floor of the row norm as a positive real.
-/
import Idealize.ShloMosaic.PureOps.Ideal
import Mathlib

noncomputable section

namespace CenterSpec

open Idealize.ShloMosaic

/-- The floor of the row norm: the real number the pattern 0x2B8CBCCC (the single-precision neighbour of 10⁻¹²) denotes. -/
def epsR : ℝ := (Ideal.ofBits .f32 0x2B8CBCCC#32).toReal

/-- The pattern 0x2B8CBCCC has sign 0, exponent field 87 and fraction field 834764, so it denotes the dyadic rational
    (2^23 + 834764) / 2^23 · 2^(87 − 127) = 9223372 / 2^63. -/
theorem eps_val : Ideal.ofBits .f32 0x2B8CBCCC#32 = ((9223372 / 2 ^ 63 : ℝ) : EReal) := by
  simp [Ideal.ofBits, Ideal.ieee, -EReal.coe_mul]; norm_num

/-- The floor as an explicit rational. -/
theorem epsR_eq : epsR = 9223372 / 2 ^ 63 := by
  unfold epsR; rw [eps_val, EReal.toReal_coe]

theorem eps_coe : Ideal.ofBits .f32 0x2B8CBCCC#32 = ((epsR : ℝ) : EReal) := by
  rw [epsR_eq]; exact eps_val
theorem eps_pos : 0 < epsR := by
  rw [epsR_eq]; positivity
theorem lit_zero : Ideal.ofBits .f32 0x00000000#32 = ((0 : ℝ) : EReal) := by
  simp [Ideal.ofBits, Ideal.ieee]
/-- Exponent field 127, fraction 0: the number 1. -/
theorem lit_one : Ideal.ofBits .f32 0x3F800000#32 = ((1 : ℝ) : EReal) := by
  simp [Ideal.ofBits, Ideal.ieee, -EReal.coe_mul]; norm_num
/-- Exponent field 126, fraction 0: the number 1/2. -/
theorem lit_half : Ideal.ofBits .f32 0x3F000000#32 = ((1 / 2 : ℝ) : EReal) := by
  simp [Ideal.ofBits, Ideal.ieee, -EReal.coe_mul]; norm_num
/-- Sign bit set, exponent field 128, fraction 0: the number −2. -/
theorem lit_neg_two : Ideal.ofBits .f32 0xC0000000#32 = ((-2 : ℝ) : EReal) := by
  simp [Ideal.ofBits, Ideal.ieee, -EReal.coe_mul]; norm_num
/-- Exponent field 137, fraction 0: the number 2^10 = 1024. -/
theorem lit_1024 : Ideal.ofBits .f32 0x44800000#32 = ((1024 : ℝ) : EReal) := by
  simp [Ideal.ofBits, Ideal.ieee, -EReal.coe_mul]; norm_num
/-- Exponent field 144, fraction 0: the number 2^17 = 131072. -/
theorem lit_131072 : Ideal.ofBits .f32 0x48000000#32 = ((131072 : ℝ) : EReal) := by
  simp [Ideal.ofBits, Ideal.ieee, -EReal.coe_mul]; norm_num

end CenterSpec

end
-- ==== Proof.RefNorm.lean ====
/-
  The reference's normalised rows as real numbers.

  With every feature a real number, the sum of the squares of a row is a real number, nonnegative, so its square root is the
  real square root; the larger of that root and the floor is the divisor `nrm`, a real number at least the floor and hence
  nonzero; dividing a real feature by a nonzero real is the real quotient.  So the reference's normalised array is, entry by
  entry, the coercion of `fR`.
-/
import proofs.«100039_j20426864460160_2_alg».proof.Proof.Gen.ReferenceIdeal.Read
import proofs.«100039_j20426864460160_2_alg».proof.Proof.SpecReal
import proofs.«100039_j20426864460160_2_alg».proof.Proof.Literals
import Idealize.ShloMosaic.Lib.ValueIdx

noncomputable section

namespace Cert.ReferenceIdeal.RefNorm

open Idealize.ShloMosaic Idealize.ShloMosaic.ValueIdx
open Cert.ReferenceIdeal Cert.ReferenceIdeal.Gen Cert.ReferenceIdeal.Read CenterSpec

/-- A finite sum of coerced reals is the coercion of the sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The divisor is at least the floor, hence positive. -/
theorem nrm_pos (x : Fin 131072 → Fin 256 → ℝ) (i : Fin 131072) : 0 < nrm x epsR i :=
  lt_of_lt_of_le eps_pos (le_max_right _ _)

variable (x0 : (⟨S131072x256, .f32⟩ : BufTy).Contents (Elt Ideal)) (x : Fin 131072 → Fin 256 → ℝ)

/-- The sum of the squares of row `i`. -/
theorem sumsq_at (hX : ∀ i d, x0 (ix2 i d) = ((x i d : ℝ) : EReal)) (i : Fin 131072) :
    val_main_call0_v1 (F := Ideal) x0 (ix1 i) = ((∑ d, x i d * x i d : ℝ) : EReal) := by
  have e : ∀ k : Fin 256, val_main_call0_v0 (F := Ideal) x0 (idx_main_call0_v1 (ix1 i) k) = ((x i k * x i k : ℝ) : EReal) := by
    intro k
    have hi : idx_main_call0_v1 (ix1 i) k = ix2 i k :=
      funext fun a => Fin.ext (by match a with | ⟨0, _⟩ => rfl | ⟨1, _⟩ => rfl)
    rw [hi, val_main_call0_v0_apply, hX]
    exact (EReal.coe_mul _ _).symm
  have h0 : (val_main_call0_cst (F := Ideal)) (Shape.Idx.first h_S_) = ((0 : ℝ) : EReal) := lit_zero
  rw [val_main_call0_v1_apply, h0, Finset.sum_congr rfl fun k _ => e k, coe_sum, ← EReal.coe_add, zero_add]

/-- The divisor of row `i`: the larger of the row's Euclidean norm and the floor. -/
theorem nrm_at (hX : ∀ i d, x0 (ix2 i d) = ((x i d : ℝ) : EReal)) (i : Fin 131072) (u : Fin 1) :
    val_main_v2 (F := Ideal) x0 (ix2 i u) = ((nrm x epsR i : ℝ) : EReal) := by
  have hi : idx_main_call0_v2 (ix2 i u) = ix1 i :=
    funext fun a => Fin.ext (by match a with | ⟨0, _⟩ => rfl)
  have hs : val_main_v0 (F := Ideal) x0 (ix2 i u) = ((Real.sqrt (∑ d, x i d * x i d) : ℝ) : EReal) := by
    rw [val_main_v0_apply, val_main_call0_v2_apply, hi, sumsq_at x0 x hX i]
    show Ideal.sqrt ((∑ d, x i d * x i d : ℝ) : EReal) = _
    rw [Ideal.sqrt_coe, if_neg (not_lt.mpr (Finset.sum_nonneg fun d _ => mul_self_nonneg _))]
  have he : val_main_v1 (F := Ideal) (ix2 i u) = ((epsR : ℝ) : EReal) := by
    rw [val_main_v1_apply]; exact eps_coe
  rw [val_main_v2_apply, hs, he]
  show max ((Real.sqrt (∑ d, x i d * x i d) : ℝ) : EReal) ((epsR : ℝ) : EReal) = _
  exact (EReal.coe_strictMono.monotone.map_max).symm

/-- The normalised rows. -/
theorem f_at (hX : ∀ i d, x0 (ix2 i d) = ((x i d : ℝ) : EReal)) (i : Fin 131072) (d : Fin 256) :
    val_main_v4 (F := Ideal) x0 (ix2 i d) = ((fR x epsR i d : ℝ) : EReal) := by
  have hi : idx_main_v3 (ix2 i d) = ix2 i (0 : Fin 1) :=
    funext fun a => Fin.ext (by match a with | ⟨0, _⟩ => rfl | ⟨1, _⟩ => rfl)
  rw [val_main_v4_apply, val_main_v3_apply, hi, nrm_at x0 x hX i 0, hX]
  show Ideal.div ((x i d : ℝ) : EReal) ((nrm x epsR i : ℝ) : EReal) = _
  rw [Ideal.div_coe (nrm_pos x i).ne', ← EReal.coe_mul]
  unfold fR
  rw [mul_one_div]

end Cert.ReferenceIdeal.RefNorm

end
-- ==== Proof.LibScatterPair.lean ====
/-
  A scatter into a rank-2 operand [A, B] whose scatter indices are an [R, C, 2] array of (row, column) pairs, one
  pair per update of an [R, C] array of scalar updates (both operand axes inserted, the index vector on the last
  axis: what `W.at[rows, cols].set(vals)` lowers to).  Update `(p, q)` lands on the operand index whose row is
  the signed reading of `idx[p, q, 0]` and whose column is that of `idx[p, q, 1]`, when both are inside the
  operand.  Also: 32-bit words that are small natural numbers — their signed reading, their sign test, their
  sums and products.
-/
import Idealize.ShloMosaic.PureOps
import Idealize.ShloMosaic.Lib.ValueIdx

namespace Cert.Lib.ScatterPair

open Idealize.ShloMosaic Idealize.ShloMosaic.ValueIdx

/-- Those dimension numbers; their conditions `wf` are decided on a program's literal shapes. -/
abbrev pairDims (A B R C : Nat) (wf : ScatterDims.WF ⟨2, ![A, B]⟩ ⟨3, ![R, C, 2]⟩ ⟨2, ![R, C]⟩ [] [0, 1] [0, 1] 2) :
    ScatterDims ⟨2, ![A, B]⟩ ⟨3, ![R, C, 2]⟩ ⟨2, ![R, C]⟩ where
  updateWindowDims := []
  insertedWindowDims := [0, 1]
  scatterDimsToOperandDims := [0, 1]
  indexVectorDim := 2
  wf := wf

/-- The scatter-indices index `[p, q, c]` of update index `(p, q)` and component `c`. -/
abbrev pairIdx {R C : Nat} (y : (⟨2, ![R, C]⟩ : Shape).Idx) (c : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => c

theorem start0 {A B R C w : Nat} (wf) (j : (⟨2, ![R, C]⟩ : Shape).Idx) (idx : IVec ⟨3, ![R, C, 2]⟩ w) :
    (pairDims A B R C wf).start j idx 0 = (idx (pairIdx j 0)).toInt := by
  unfold ScatterDims.start
  rw [dif_pos (show (0 : Fin 2) ∈ ([0, 1] : List (Fin 2)) from List.mem_cons_self ..)]
  congr 2
  funext b; refine Fin.ext ?_
  match b with
  | ⟨0, _⟩ => rfl
  | ⟨1, _⟩ => rfl
  | ⟨2, _⟩ => rfl

theorem start1 {A B R C w : Nat} (wf) (j : (⟨2, ![R, C]⟩ : Shape).Idx) (idx : IVec ⟨3, ![R, C, 2]⟩ w) :
    (pairDims A B R C wf).start j idx 1 = (idx (pairIdx j 1)).toInt := by
  unfold ScatterDims.start
  rw [dif_pos (show (1 : Fin 2) ∈ ([0, 1] : List (Fin 2)) from List.mem_cons_of_mem _ (List.mem_cons_self ..))]
  congr 2
  funext b; refine Fin.ext ?_
  match b with
  | ⟨0, _⟩ => rfl
  | ⟨1, _⟩ => rfl
  | ⟨2, _⟩ => rfl

/-- Both operand axes are inserted: no window coordinate on either. -/
theorem window_zero {A B R C : Nat} (wf) (j : (⟨2, ![R, C]⟩ : Shape).Idx) (a : Fin 2) :
    (pairDims A B R C wf).window j a = 0 := by
  unfold ScatterDims.window
  rw [dif_neg]
  show a ∉ (⟨2, ![A, B]⟩ : Shape).kept [0, 1]
  simp only [Shape.kept, List.mem_filter, List.mem_finRange, true_and, decide_not, Bool.not_eq_eq_eq_not, Bool.not_true, decide_eq_false_iff_not, not_not]
  match a with
  | ⟨0, _⟩ => exact List.mem_cons_self ..
  | ⟨1, _⟩ => exact List.mem_cons_of_mem _ (List.mem_cons_self ..)

/-- WHERE UPDATE `j` LANDS: at row `a`, column `b`, when its index pair reads (signed) as the natural numbers
    `a < A`, `b < B`. -/
theorem resultIdx_pair {A B R C w : Nat} (wf) (j : (⟨2, ![R, C]⟩ : Shape).Idx) (idx : IVec ⟨3, ![R, C, 2]⟩ w)
    (a b : Nat) (ha : a < A) (hb : b < B) (h0 : (idx (pairIdx j 0)).toInt = (a : Int)) (h1 : (idx (pairIdx j 1)).toInt = (b : Int)) :
    (pairDims A B R C wf).resultIdx? j idx = some (ix2 ⟨a, ha⟩ ⟨b, hb⟩) := by
  unfold ScatterDims.resultIdx?
  have hs : ∀ x : Fin 2, (pairDims A B R C wf).start j idx x + (pairDims A B R C wf).window j x = (![(a : Int), (b : Int)] x) := by
    intro x
    rw [window_zero]
    match x with
    | ⟨0, _⟩ => rw [show (⟨0, by omega⟩ : Fin 2) = 0 from rfl, start0, h0]; rfl
    | ⟨1, _⟩ => rw [show (⟨1, by omega⟩ : Fin 2) = 1 from rfl, start1, h1]; rfl
  rw [dif_pos]
  · congr 1
    funext x
    refine Fin.ext ?_
    show ((pairDims A B R C wf).start j idx x + (pairDims A B R C wf).window j x).toNat = _
    rw [hs]
    match x with
    | ⟨0, _⟩ => rfl
    | ⟨1, _⟩ => rfl
  · intro x
    rw [hs]
    match x with
    | ⟨0, _⟩ => exact ⟨Int.natCast_nonneg _, by show (a : Int) < (A : Int); exact_mod_cast ha⟩
    | ⟨1, _⟩ => exact ⟨Int.natCast_nonneg _, by show (b : Int) < (B : Int); exact_mod_cast hb⟩

/-! ## 32-bit words that are small natural numbers -/

/-- The signed reading of the word of a natural number below 2^31 is that number. -/
theorem toInt_ofNat_small (n : Nat) (h : n < 2 ^ 31) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- Such a word is not negative. -/
theorem slt_zero_small (n : Nat) (h : n < 2 ^ 31) : IntOp.cmpi .slt (BitVec.ofNat 32 n) 0#32 = 0#1 := by
  unfold IntOp.cmpi
  show BitVec.ofBool ((BitVec.ofNat 32 n).slt 0#32) = 0#1
  rw [BitVec.slt_eq_decide, toInt_ofNat_small n h]
  have : ¬ ((n : Int) < (0#32 : BitVec 32).toInt) := by
    rw [show (0#32 : BitVec 32).toInt = 0 from rfl]; omega
  rw [decide_eq_false this]; rfl

theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

theorem muli_ofNat (a b : Nat) : IntOp.muli (BitVec.ofNat 32 a) (BitVec.ofNat 32 b) = BitVec.ofNat 32 (a * b) := by
  show BitVec.ofNat 32 a * BitVec.ofNat 32 b = _
  rw [BitVec.ofNat_mul]

end Cert.Lib.ScatterPair
-- ==== Proof.RefLabels.lean ====
/-
  The label words.

  A label is the 32-bit word of a class index below 50000.  Read as a signed integer it is that index, so it is not
  negative and the reference's wrap-around of negative indices leaves it as it is; spread into a column, the column holds
  the same words.
-/
import proofs.«100039_j20426864460160_2_alg».proof.Proof.Gen.ReferenceIdeal.Read
import proofs.«100039_j20426864460160_2_alg».proof.Proof.LibScatterPair
import Idealize.ShloMosaic.Lib.ValueIdx

noncomputable section

namespace Cert.ReferenceIdeal.RefLabels

open Idealize.ShloMosaic Idealize.ShloMosaic.ValueIdx
open Cert.ReferenceIdeal Cert.ReferenceIdeal.Gen Cert.ReferenceIdeal.Read Cert.Lib.ScatterPair

/-- The signed reading of a class index's word is the index. -/
theorem toInt_label (k : Fin 50000) : (BitVec.ofNat 32 k.val).toInt = (k.val : Int) :=
  toInt_ofNat_small k.val (by have := k.isLt; omega)

/-- A class index's word is not negative. -/
theorem slt_label (k : Fin 50000) : IntOp.cmpi .slt (BitVec.ofNat 32 k.val) 0#32 = 0#1 :=
  slt_zero_small k.val (by have := k.isLt; omega)

variable (x1 : (⟨S131072, .i32⟩ : BufTy).Contents (Elt Ideal)) (l : Fin 131072 → Fin 50000)

/-- The wrapped label used by the gather of the centers is the label. -/
theorem wrap_at (hL : ∀ i, x1 (ix1 i) = BitVec.ofNat 32 (l i).val) (i : Fin 131072) :
    val_main_v9 (F := Ideal) x1 (ix1 i) = BitVec.ofNat 32 (l i).val := by
  rw [val_main_v9_apply, val_main_v6_apply, val_main_v5_apply, val_main_c_apply, hL, slt_label]
  exact select_zero _ _

/-- … and so is the one used by the gather of the counts. -/
theorem wrap'_at (hL : ∀ i, x1 (ix1 i) = BitVec.ofNat 32 (l i).val) (i : Fin 131072) :
    val_main_v24 (F := Ideal) x1 (ix1 i) = BitVec.ofNat 32 (l i).val := by
  rw [val_main_v24_apply, val_main_v21_apply, val_main_v20_apply, val_main_c_5_apply, hL, slt_label]
  exact select_zero _ _

/-- The column of start indices of the gather of the centers. -/
theorem col_at (hL : ∀ i, x1 (ix1 i) = BitVec.ofNat 32 (l i).val) (i : Fin 131072) (u : Fin 1) :
    val_main_v10 (F := Ideal) x1 (ix2 i u) = BitVec.ofNat 32 (l i).val := by
  have hi : idx_main_v10 (ix2 i u) = ix1 i := funext fun a => Fin.ext (by match a with | ⟨0, _⟩ => rfl)
  rw [val_main_v10_apply, hi, wrap_at x1 l hL]

/-- The column of start indices of the gather of the counts. -/
theorem col'_at (hL : ∀ i, x1 (ix1 i) = BitVec.ofNat 32 (l i).val) (i : Fin 131072) (u : Fin 1) :
    val_main_v25 (F := Ideal) x1 (ix2 i u) = BitVec.ofNat 32 (l i).val := by
  have hi : idx_main_v25 (ix2 i u) = ix1 i := funext fun a => Fin.ext (by match a with | ⟨0, _⟩ => rfl)
  rw [val_main_v25_apply, hi, wrap'_at x1 l hL]

/-- The column of scatter indices of the counts. -/
theorem scol_at (i : Fin 131072) (u : Fin 1) : val_main_v18 (F := Ideal) x1 (ix2 i u) = x1 (ix1 i) := by
  have hi : idx_main_v18 (ix2 i u) = ix1 i := funext fun a => Fin.ext (by match a with | ⟨0, _⟩ => rfl)
  rw [val_main_v18_apply, hi]

/-- The column of scatter indices of the center update. -/
theorem scol'_at (i : Fin 131072) (u : Fin 1) : val_main_v36 (F := Ideal) x1 (ix2 i u) = x1 (ix1 i) := by
  have hi : idx_main_v36 (ix2 i u) = ix1 i := funext fun a => Fin.ext (by match a with | ⟨0, _⟩ => rfl)
  rw [val_main_v36_apply, hi]

end Cert.ReferenceIdeal.RefLabels

end
-- ==== Proof.LibGatherRows.lean ====
/-
  TWO GATHERS READ AT AN INDEX, for any element type and any sizes.

  A gather of a vector `x : [N]` at one start index per row, `idx : [E, 1]`, gives the vector `[E]` whose entry `e`
  is `x` at the start index `idx[e, 0]`, read as a signed integer and clamped into `[0, N − 1]`
  (`vec_gather_apply`). A gather of whole rows of a matrix `x : [N, C]` at the same kind of start indices gives the
  matrix `[E, C]` whose entry `(e, c)` is `x` at row `idx[e, 0]`, clamped the same way, and column `c`
  (`row_gather_apply`). Both follow the gather's definition axis by axis: on the collapsed axis 0 the operand
  coordinate is the clamped start (no batching coordinate, offset 0); on the offset axis 1 of the matrix the start is
  0 (the axis is not in the start index map) and the offset is the result's own coordinate on that axis.
-/
import Idealize.ShloMosaic.Lib.ValueIdx

namespace Cert.Lib.GatherRows

open Idealize.ShloMosaic Idealize.ShloMosaic.ValueIdx

variable {α : Type}

/-! ## A vector at one index per row -/

/-- operand [N], start indices [E,1], result [E]: x[idx] for a vector x and one index per row. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem vec_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-! ## Whole rows of a matrix at one index per row -/

/-- operand [N,C], start indices [E,1], result [E,C]: whole rows x[idx, :]. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, c)`: the operand at row `idx[e, 0]`, read signed and clamped into
    `[0, N − 1]`, and column `c`. -/
theorem row_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) =
      x (ix2 ⟨min (idx (ix2 e ⟨0, Nat.one_pos⟩)).toInt.toNat (N - 1), by omega⟩ c) := by
  unfold Host.gather
  congr 1
  funext a
  refine Fin.ext ?_
  match a with
  | ⟨0, _⟩ =>
    -- the collapsed axis: the clamped start, no batching coordinate, offset 0
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- the offset axis: start 0 (not in the start index map), no batching coordinate, offset the result's column
    show (rowDims N E C wf).start (ix2 e c) idx 1 + (rowDims N E C wf).batchCoord (ix2 e c) 1
      + (rowDims N E C wf).offCoord (ix2 e c) 1 = c.val
    have hs : (rowDims N E C wf).start (ix2 e c) idx 1 = 0 := by
      unfold GatherDims.start
      rw [dif_neg (show (1 : Fin 2) ∉ ([0] : List (Fin 2)) by decide)]
    have hk : (1 : Fin 2) ∈ (rowDims N E C wf).sKept :=
      (GatherDims.mem_sKept _ _).mpr ⟨(show (1 : Fin 2) ∉ ([0] : List (Fin 2)) by decide), List.not_mem_nil⟩
    have ho : (rowDims N E C wf).offCoord (ix2 e c) 1 = c.val := by
      unfold GatherDims.offCoord
      rw [dif_pos hk]
      rfl
    rw [hs, GatherDims.batchCoord_eq_zero _ _ _ List.not_mem_nil, ho, Nat.add_zero, Nat.zero_add]

end Cert.Lib.GatherRows
-- ==== Proof.RefGather.lean ====
/-
  The gathered center rows.

  The gather reads, for sample `i` and column `d`, the centers at the row named by the start word of `i` — read as a signed
  integer and clamped into 0 … 49999 — and column `d`.  The start word is the word of the class `l i`, below 50000, so the
  clamp leaves it and the entry read is the center of the sample's own class.
-/
import proofs.«100039_j20426864460160_2_alg».proof.Proof.Gen.ReferenceIdeal.Read
import proofs.«100039_j20426864460160_2_alg».proof.Proof.RefLabels
import proofs.«100039_j20426864460160_2_alg».proof.Proof.LibGatherRows
import Idealize.ShloMosaic.Lib.ValueIdx

noncomputable section

namespace Cert.ReferenceIdeal.RefGather

open Idealize.ShloMosaic Idealize.ShloMosaic.ValueIdx
open Cert.ReferenceIdeal Cert.ReferenceIdeal.Gen Cert.ReferenceIdeal.Read Cert.ReferenceIdeal.RefLabels

/-- A start word that is the word of a class index selects that class: the clamp into 0 … 49999 leaves it. -/
theorem clamp_eq (w : BitVec 32) (k : Fin 50000) (hw : w = BitVec.ofNat 32 k.val) (h : min w.toInt.toNat (50000 - 1) < 50000) :
    (⟨min w.toInt.toNat (50000 - 1), h⟩ : Fin 50000) = k := by
  subst hw
  apply Fin.ext
  show min (BitVec.ofNat 32 k.val).toInt.toNat (50000 - 1) = k.val
  rw [toInt_label, Int.toNat_natCast]
  have := k.isLt; omega

variable (x1 : (⟨S131072, .i32⟩ : BufTy).Contents (Elt Ideal)) (x2 : (⟨S50000x256, .f32⟩ : BufTy).Contents (Elt Ideal))
  (l : Fin 131072 → Fin 50000) (cen : Fin 50000 → Fin 256 → ℝ)

/-- The gathered rows: sample `i` reads the center of its own class. -/
theorem cb_at (hL : ∀ i, x1 (ix1 i) = BitVec.ofNat 32 (l i).val) (hC : ∀ k d, x2 (ix2 k d) = ((cen k d : ℝ) : EReal))
    (i : Fin 131072) (d : Fin 256) :
    val_main_v11 (F := Ideal) x1 x2 (ix2 i d) = ((cen (l i) d : ℝ) : EReal) := by
  unfold val_main_v11
  have hJ0 := col_at x1 l hL i ⟨0, Nat.one_pos⟩
  generalize val_main_v10 (F := Ideal) x1 = J at hJ0
  refine (Cert.Lib.GatherRows.row_gather_apply (α := EReal) (N := 50000) (E := 131072) (C := 256) (w := 32) (by norm_num)
    gather_S50000x256_S131072x1_S131072x256_1_0_n_n_0_1_1256_wf x2 J i d).trans ?_
  rw [clamp_eq _ (l i) hJ0, hC]

end Cert.ReferenceIdeal.RefGather

end
-- ==== Proof.RefLoss.lean ====
/-
  The reference's loss.

  The squared differences between the normalised rows and the gathered center rows are real numbers; their sum over all
  samples and columns, from zero, is the double sum over samples and columns; dividing by the real number 131072 gives `lossR`.
-/
import proofs.«100039_j20426864460160_2_alg».proof.Proof.Gen.ReferenceIdeal.Read
import proofs.«100039_j20426864460160_2_alg».proof.Proof.RefNorm
import proofs.«100039_j20426864460160_2_alg».proof.Proof.RefGather
import Idealize.ShloMosaic.Lib.ValueIdx

noncomputable section

namespace Cert.ReferenceIdeal.RefLoss

open Idealize.ShloMosaic Idealize.ShloMosaic.ValueIdx
open Cert.ReferenceIdeal Cert.ReferenceIdeal.Gen Cert.ReferenceIdeal.Read CenterSpec

variable (x0 : (⟨S131072x256, .f32⟩ : BufTy).Contents (Elt Ideal)) (x1 : (⟨S131072, .i32⟩ : BufTy).Contents (Elt Ideal))
  (x2 : (⟨S50000x256, .f32⟩ : BufTy).Contents (Elt Ideal))
  (x : Fin 131072 → Fin 256 → ℝ) (l : Fin 131072 → Fin 50000) (cen : Fin 50000 → Fin 256 → ℝ)

/-- The squared difference of sample `i`, column `d`. -/
theorem sq_at (hX : ∀ i d, x0 (ix2 i d) = ((x i d : ℝ) : EReal)) (hL : ∀ i, x1 (ix1 i) = BitVec.ofNat 32 (l i).val)
    (hC : ∀ k d, x2 (ix2 k d) = ((cen k d : ℝ) : EReal)) (i : Fin 131072) (d : Fin 256) :
    val_main_v13 (F := Ideal) x0 x1 x2 (ix2 i d)
      = (((fR x epsR i d - cen (l i) d) * (fR x epsR i d - cen (l i) d) : ℝ) : EReal) := by
  rw [val_main_v13_apply, val_main_v12_apply, RefNorm.f_at x0 x hX i d, RefGather.cb_at x1 x2 l cen hL hC i d]
  show (((fR x epsR i d : ℝ) : EReal) - ((cen (l i) d : ℝ) : EReal)) * (((fR x epsR i d : ℝ) : EReal) - ((cen (l i) d : ℝ) : EReal)) = _
  rw [← EReal.coe_sub, ← EReal.coe_mul]

/-- The loss. -/
theorem loss_at (hX : ∀ i d, x0 (ix2 i d) = ((x i d : ℝ) : EReal)) (hL : ∀ i, x1 (ix1 i) = BitVec.ofNat 32 (l i).val)
    (hC : ∀ k d, x2 (ix2 k d) = ((cen k d : ℝ) : EReal)) (j : S_.Idx) :
    val_main_v15 (F := Ideal) x0 x1 x2 j = ((lossR x l cen epsR : ℝ) : EReal) := by
  have hs : (∑ q : S131072x256.Idx, val_main_v13 (F := Ideal) x0 x1 x2 q)
      = ((∑ i, ∑ d, (fR x epsR i d - cen (l i) d) * (fR x epsR i d - cen (l i) d) : ℝ) : EReal) := by
    rw [sum_idx2, ← RefNorm.coe_sum]
    refine Finset.sum_congr rfl fun i _ => ?_
    rw [← RefNorm.coe_sum]
    exact Finset.sum_congr rfl fun d _ => sq_at x0 x1 x2 x l cen hX hL hC i d
  have h0 : (val_main_cst_1 (F := Ideal)) (Shape.Idx.first h_S_) = ((0 : ℝ) : EReal) := lit_zero
  have hd : val_main_cst_2 (F := Ideal) j = ((131072 : ℝ) : EReal) := lit_131072
  rw [val_main_v15_apply, val_main_v14_apply, h0, hd, hs, ← EReal.coe_add, zero_add]
  show Ideal.div _ ((131072 : ℝ) : EReal) = _
  rw [Ideal.div_coe (by norm_num), ← EReal.coe_mul, mul_one_div]
  rfl

end Cert.ReferenceIdeal.RefLoss

end
-- ==== Proof.LibSegmentSum.lean ====
/-
  Segment sums read at an index.

  A float scatter with an `add` body whose scatter indices are one column of row numbers (what
  `jax.ops.segment_sum` lowers to) adds every update row to the operand row its index names, and
  drops a row whose index is outside the operand.  Read at the extended reals, the element at
  row `n`, column `c` of the result is the operand's element there plus the sum, over all update
  rows `e`, of the update's element `(e, c)` when row `e`'s index is `n` and of zero otherwise.
  The same holds for a rank-one operand (one number per row).
-/
import Idealize.ShloMosaic.PureOps.Ideal
import Idealize.ShloMosaic.PureOps.Ideal.Laws
import Idealize.ShloMosaic.Lib.ValueIdx

noncomputable section

namespace Cert.Lib.SegmentSum

open Idealize.ShloMosaic Idealize.ShloMosaic.ValueIdx

/-- The dimension numbers of a row scatter: operand `[N, C]`, one index per update row (`[E, 1]`), updates `[E, C]`;
    the update's second axis is the window, the operand's first axis is the scattered one. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- The index an update row reads its row number at: `(e, 0)`. -/
theorem rows_siIdx (j : (⟨2, ![E, C]⟩ : Shape).Idx) :
    (rowDims N E C wf).siIdx j ⟨List.idxOf (0 : Fin 2) (rowDims N E C wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem rows_start0 (j : (⟨2, ![E, C]⟩ : Shape).Idx) (idx : IVec ⟨2, ![E, 1]⟩ w) :
    (rowDims N E C wf).start j idx 0 = (idx (ix2 (j 0) ⟨0, Nat.one_pos⟩)).toInt := by
  unfold ScatterDims.start
  rw [dif_pos (show (0 : Fin 2) ∈ (rowDims N E C wf).scatterDimsToOperandDims from List.mem_singleton.mpr rfl)]
  rw [rows_siIdx]
  rfl

theorem rows_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => absurd (List.mem_singleton.mp h) (show ¬((1 : Fin 2) = 0) by decide))]

theorem rows_window0 (j : (⟨2, ![E, C]⟩ : Shape).Idx) : (rowDims N E C wf).window j 0 = 0 := rfl
theorem rows_window1 (j : (⟨2, ![E, C]⟩ : Shape).Idx) : (rowDims N E C wf).window j 1 = (j 1).val := rfl

/-- Where an update element lands: row `e`, column `b` lands on `(n, c)` exactly when row `e`'s index is `n` and `b = c`. -/
theorem rows_resultIdx?_eq_some_iff (j : (⟨2, ![E, C]⟩ : Shape).Idx) (idx : IVec ⟨2, ![E, 1]⟩ w)
    (i : (⟨2, ![N, C]⟩ : Shape).Idx) :
    (rowDims N E C wf).resultIdx? j idx = some i ↔
      (idx (ix2 (j 0) ⟨0, Nat.one_pos⟩)).toInt = ((i 0).val : Int) ∧ (j 1).val = (i 1).val := by
  have hs0 : (rowDims N E C wf).start j idx 0 + ((rowDims N E C wf).window j 0 : Int)
      = (idx (ix2 (j 0) ⟨0, Nat.one_pos⟩)).toInt := by
    rw [rows_start0, rows_window0]; simp
  have hs1 : (rowDims N E C wf).start j idx 1 + ((rowDims N E C wf).window j 1 : Int) = ((j 1).val : Int) := by
    rw [rows_start1, rows_window1]; simp
  have hi0 : (i 0).val < N := (i 0).isLt
  have hi1 : (i 1).val < C := (i 1).isLt
  unfold ScatterDims.resultIdx?
  split
  · rename_i h
    rw [Option.some.injEq]
    constructor
    · intro hf
      have h0 : ((rowDims N E C wf).start j idx 0 + ((rowDims N E C wf).window j 0 : Int)).toNat = (i 0).val :=
        congrArg (fun f : (⟨2, ![N, C]⟩ : Shape).Idx => (f 0).val) hf
      have h1 : ((rowDims N E C wf).start j idx 1 + ((rowDims N E C wf).window j 1 : Int)).toNat = (i 1).val :=
        congrArg (fun f : (⟨2, ![N, C]⟩ : Shape).Idx => (f 1).val) hf
      have g0 := (h 0).1
      rw [hs0] at h0 g0
      rw [hs1] at h1
      constructor
      · omega
      · omega
    · rintro ⟨h0, h1⟩
      funext a
      refine Fin.ext ?_
      match a with
      | ⟨0, _⟩ =>
        show ((rowDims N E C wf).start j idx 0 + ((rowDims N E C wf).window j 0 : Int)).toNat = (i 0).val
        rw [hs0, h0]; exact Int.toNat_natCast _
      | ⟨1, _⟩ =>
        show ((rowDims N E C wf).start j idx 1 + ((rowDims N E C wf).window j 1 : Int)).toNat = (i 1).val
        rw [hs1, h1]; exact Int.toNat_natCast _
  · rename_i h
    constructor
    · intro hf; exact absurd hf (by simp)
    · rintro ⟨h0, h1⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, h0]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, h1]; omega

/-- A row scatter with an `add` body, read at `(n, c)` on the extended reals: the operand there plus the sum over the
    update rows whose index is `n` of their column `c`. -/
theorem rows_scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e ⟨0, Nat.one_pos⟩)).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e ⟨0, Nat.one_pos⟩)).toInt = (n.val : Int)
  · have : ∀ b : Fin C, ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) ↔ b = c :=
      fun b => ⟨fun h => Fin.ext h.2, fun h => ⟨hA, by subst h; rfl⟩⟩
    simp only [this, if_pos hA]
    rw [Finset.sum_ite_eq' Finset.univ c fun b => upd (ix2 e b)]
    simp
  · have : ∀ b : Fin C, ¬ ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) :=
      fun b h => hA h.1
    simp only [this, if_neg hA, if_false, Finset.sum_const_zero]

end Rows

/-- The dimension numbers of a scatter of one number per row into a vector: operand `[N]`, one index per update (`[E, 1]`),
    updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A segment sum of rows into a constant array, the row numbers read off a vector `I` through a column `J` that holds them. -/
theorem rows_segment {N E C w : Nat} (wf : ScatterDims.WF ⟨2, ![N, C]⟩ ⟨2, ![E, 1]⟩ ⟨2, ![E, C]⟩ [1] [0] [0] 1) (z : EReal)
    (x : (⟨2, ![N, C]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨2, ![E, C]⟩ : Shape).Idx → EReal) (n : Fin N) (c : Fin C) :
    Ideal.hostScatterAdd (rowDims N E C wf) x J upd (ix2 n c)
      = z + ∑ e : Fin E, if (I (ix1 e)).toInt = (n.val : Int) then upd (ix2 e c) else 0 := by
  rw [rows_scatterAdd_apply, hx]
  refine congrArg (z + ·) (Finset.sum_congr rfl fun e _ => ?_)
  rw [hJ]

section Vec
variable {N E w : Nat} (wf : ScatterDims.WF ⟨1, ![N]⟩ ⟨2, ![E, 1]⟩ ⟨1, ![E]⟩ [] [0] [0] 1)

theorem vec_siIdx (j : (⟨1, ![E]⟩ : Shape).Idx) :
    (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem vec_start0 (j : (⟨1, ![E]⟩ : Shape).Idx) (idx : IVec ⟨2, ![E, 1]⟩ w) :
    (vecDims N E wf).start j idx 0 = (idx (ix2 (j 0) ⟨0, Nat.one_pos⟩)).toInt := by
  unfold ScatterDims.start
  rw [dif_pos (show (0 : Fin 1) ∈ (vecDims N E wf).scatterDimsToOperandDims from List.mem_singleton.mpr rfl)]
  rw [vec_siIdx]
  rfl

theorem vec_window0 (j : (⟨1, ![E]⟩ : Shape).Idx) : (vecDims N E wf).window j 0 = 0 := rfl

/-- Update `e` lands on `n` exactly when its index is `n`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) ⟨0, Nat.one_pos⟩)).toInt = ((i 0).val : Int) := by
  have hs0 : (vecDims N E wf).start j idx 0 + ((vecDims N E wf).window j 0 : Int)
      = (idx (ix2 (j 0) ⟨0, Nat.one_pos⟩)).toInt := by
    rw [vec_start0, vec_window0]; simp
  have hi0 : (i 0).val < N := (i 0).isLt
  unfold ScatterDims.resultIdx?
  split
  · rename_i h
    rw [Option.some.injEq]
    constructor
    · intro hf
      have h0 : ((vecDims N E wf).start j idx 0 + ((vecDims N E wf).window j 0 : Int)).toNat = (i 0).val :=
        congrArg (fun f : (⟨1, ![N]⟩ : Shape).Idx => (f 0).val) hf
      have g0 := (h 0).1
      rw [hs0] at h0 g0
      omega
    · intro h0
      funext a
      refine Fin.ext ?_
      match a with
      | ⟨0, _⟩ =>
        show ((vecDims N E wf).start j idx 0 + ((vecDims N E wf).window j 0 : Int)).toNat = (i 0).val
        rw [hs0, h0]; exact Int.toNat_natCast _
  · rename_i h
    constructor
    · intro hf; exact absurd hf (by simp)
    · intro h0
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, h0]; omega

/-- A rank-one index type is its one coordinate's. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Fintype.sum_equiv idxEquiv1.symm (fun a => f (ix1 a)) f (fun _ => rfl)).symm

/-- A scatter of one number per row with an `add` body, read at `n` on the extended reals: the operand there plus the
    sum of the updates whose index is `n`. -/
theorem vec_scatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e ⟨0, Nat.one_pos⟩)).toInt = (n.val : Int) then upd (ix1 e) else 0 := by
  unfold Ideal.hostScatterAdd
  congr 1
  rw [Finset.sum_filter, sum_idx1]
  refine Finset.sum_congr rfl fun e _ => ?_
  simp only [vec_resultIdx?_eq_some_iff]
  rfl

/-- A segment sum of numbers into a constant vector, the row numbers read off `I` through the column `J`. -/
theorem vec_segment (z : EReal) (x : (⟨1, ![N]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨1, ![E]⟩ : Shape).Idx → EReal) (n : Fin N) :
    Ideal.hostScatterAdd (vecDims N E wf) x J upd (ix1 n)
      = z + ∑ e : Fin E, if (I (ix1 e)).toInt = (n.val : Int) then upd (ix1 e) else 0 := by
  rw [vec_scatterAdd_apply, hx]
  refine congrArg (z + ·) (Finset.sum_congr rfl fun e _ => ?_)
  rw [hJ]

end Vec

end Cert.Lib.SegmentSum

end
-- ==== Proof.RefCount.lean ====
/-
  The class counts and the per-sample weights.

  The scatter-add of ones by label into zeros reads, at class `k`, zero plus the sum over the samples of one when the
  sample's label word reads `k` and of zero otherwise: the number of samples of class `k`.  Gathered back by label it is,
  at sample `i`, the count of the sample's own class; one plus a count is a positive real, so the quotient of one by it is
  the real weight `wR`.
-/
import proofs.«100039_j20426864460160_2_alg».proof.Proof.Gen.ReferenceIdeal.Read
import proofs.«100039_j20426864460160_2_alg».proof.Proof.RefNorm
import proofs.«100039_j20426864460160_2_alg».proof.Proof.RefLabels
import proofs.«100039_j20426864460160_2_alg».proof.Proof.RefGather
import proofs.«100039_j20426864460160_2_alg».proof.Proof.LibGatherRows
import proofs.«100039_j20426864460160_2_alg».proof.Proof.LibSegmentSum
import Idealize.ShloMosaic.Lib.ValueIdx

noncomputable section

namespace Cert.ReferenceIdeal.RefCount

open Idealize.ShloMosaic Idealize.ShloMosaic.ValueIdx
open Cert.ReferenceIdeal Cert.ReferenceIdeal.Gen Cert.ReferenceIdeal.Read Cert.ReferenceIdeal.RefLabels CenterSpec CenterLoss

/-- A sum over the samples whose label word reads `k`, of coerced reals, is the coerced sum over the samples of class `k`. -/
theorem class_sum_coe (I : (⟨S131072, .i32⟩ : BufTy).Contents (Elt Ideal)) (l : Fin 131072 → Fin 50000)
    (hI : ∀ e, I (ix1 e) = BitVec.ofNat 32 (l e).val) (k : Fin 50000) (g : Fin 131072 → EReal) (f : Fin 131072 → ℝ)
    (hg : ∀ e, g e = ((f e : ℝ) : EReal)) :
    (∑ e : Fin 131072, if (I (ix1 e)).toInt = (k.val : Int) then g e else 0)
      = ((∑ e, if l e = k then f e else 0 : ℝ) : EReal) := by
  rw [← RefNorm.coe_sum]
  refine Finset.sum_congr rfl fun e _ => ?_
  rw [hI, toInt_label, hg]
  by_cases h : l e = k
  · rw [if_pos h, if_pos (by rw [h])]
  · rw [if_neg h, if_neg (fun h' => h (Fin.ext (by exact_mod_cast h')))]
    exact EReal.coe_zero.symm

/-- A count is not negative. -/
theorem cnt_nonneg (l : Fin 131072 → Fin 50000) (k : Fin 50000) : 0 ≤ cnt l k :=
  Finset.sum_nonneg fun i _ => by split <;> norm_num

variable (x1 : (⟨S131072, .i32⟩ : BufTy).Contents (Elt Ideal)) (l : Fin 131072 → Fin 50000)

/-- The scattered ones: the class counts. -/
theorem cnt_at (hL : ∀ i, x1 (ix1 i) = BitVec.ofNat 32 (l i).val) (k : Fin 50000) :
    val_main_v19 (F := Ideal) x1 (ix1 k) = ((cnt l k : ℝ) : EReal) := by
  unfold val_main_v19
  have hz : ∀ j, val_main_v17 (F := Ideal) j = ((0 : ℝ) : EReal) := fun j => by
    rw [val_main_v17_apply]; exact lit_zero
  have ho : ∀ e : Fin 131072, val_main_v16 (F := Ideal) (ix1 e) = ((1 : ℝ) : EReal) := fun e => by
    rw [val_main_v16_apply]; exact lit_one
  have hJ := scol_at x1
  generalize val_main_v17 (F := Ideal) = Z at hz
  generalize val_main_v16 (F := Ideal) = O at ho
  generalize val_main_v18 (F := Ideal) x1 = J at hJ
  simp only [Host.scatterAdd, Ideal.hostScatterAdd_def]
  rw [show scatter_S50000_S131072x1_S131072_n_0_0_1 = Cert.Lib.SegmentSum.vecDims 50000 131072 scatter_S50000_S131072x1_S131072_n_0_0_1_wf from rfl]
  rw [Cert.Lib.SegmentSum.vec_segment (N := 50000) (E := 131072) (w := 32) scatter_S50000_S131072x1_S131072_n_0_0_1_wf
    ((0 : ℝ) : EReal) Z hz x1 J hJ O k]
  unfold cnt
  rw [class_sum_coe x1 l hL k (fun e => O (ix1 e)) (fun _ => 1) ho, ← EReal.coe_add, zero_add]

/-- The counts gathered back by label: the count of the sample's own class. -/
theorem cnt_own_at (hL : ∀ i, x1 (ix1 i) = BitVec.ofNat 32 (l i).val) (i : Fin 131072) :
    val_main_v26 (F := Ideal) x1 (ix1 i) = ((cnt l (l i) : ℝ) : EReal) := by
  unfold val_main_v26
  have hJ0 := col'_at x1 l hL i ⟨0, Nat.one_pos⟩
  have hc := cnt_at x1 l hL
  generalize val_main_v25 (F := Ideal) x1 = J at hJ0
  generalize val_main_v19 (F := Ideal) x1 = K at hc
  refine (Cert.Lib.GatherRows.vec_gather_apply (α := EReal) (N := 50000) (E := 131072) (w := 32) (by norm_num)
    gather_S50000_S131072x1_S131072_n_0_n_n_0_1_1_wf K J i).trans ?_
  rw [RefGather.clamp_eq _ (l i) hJ0, hc]

/-- The per-sample weight: one over one plus the count of the sample's own class. -/
theorem w_at (hL : ∀ i, x1 (ix1 i) = BitVec.ofNat 32 (l i).val) (i : Fin 131072) :
    val_main_v30 (F := Ideal) x1 (ix1 i) = ((wR l (l i) : ℝ) : EReal) := by
  have h1 : val_main_v27 (F := Ideal) (ix1 i) = ((1 : ℝ) : EReal) := by
    rw [val_main_v27_apply]; exact lit_one
  have h1' : val_main_v29 (F := Ideal) (ix1 i) = ((1 : ℝ) : EReal) := by
    rw [val_main_v29_apply]; exact lit_one
  have hne : (1 + cnt l (l i) : ℝ) ≠ 0 := by have := cnt_nonneg l (l i); positivity
  rw [val_main_v30_apply, val_main_v28_apply, h1, h1', cnt_own_at x1 l hL i]
  show Ideal.div ((1 : ℝ) : EReal) (((1 : ℝ) : EReal) + ((cnt l (l i) : ℝ) : EReal)) = _
  rw [← EReal.coe_add, Ideal.div_coe hne, ← EReal.coe_mul, one_mul]
  rfl

end Cert.ReferenceIdeal.RefCount

end
-- ==== Proof.RefDelta.lean ====
/-
  The reference's updated centers.

  The update of sample `i`, column `d` is (center of the sample's class − normalised feature) · weight of the sample's class,
  a real number.  Scatter-added by label into zeros it reads, at class `k` and column `d`, the sum of the updates of the samples
  of class `k`; half of it taken from the center is `newcR`.
-/
import proofs.«100039_j20426864460160_2_alg».proof.Proof.Gen.ReferenceIdeal.Read
import proofs.«100039_j20426864460160_2_alg».proof.Proof.RefNorm
import proofs.«100039_j20426864460160_2_alg».proof.Proof.RefLabels
import proofs.«100039_j20426864460160_2_alg».proof.Proof.RefGather
import proofs.«100039_j20426864460160_2_alg».proof.Proof.RefCount
import proofs.«100039_j20426864460160_2_alg».proof.Proof.LibSegmentSum
import Idealize.ShloMosaic.Lib.ValueIdx

noncomputable section

namespace Cert.ReferenceIdeal.RefDelta

open Idealize.ShloMosaic Idealize.ShloMosaic.ValueIdx
open Cert.ReferenceIdeal Cert.ReferenceIdeal.Gen Cert.ReferenceIdeal.Read Cert.ReferenceIdeal.RefLabels CenterSpec

variable (x0 : (⟨S131072x256, .f32⟩ : BufTy).Contents (Elt Ideal)) (x1 : (⟨S131072, .i32⟩ : BufTy).Contents (Elt Ideal))
  (x2 : (⟨S50000x256, .f32⟩ : BufTy).Contents (Elt Ideal))
  (x : Fin 131072 → Fin 256 → ℝ) (l : Fin 131072 → Fin 50000) (cen : Fin 50000 → Fin 256 → ℝ)

/-- The update of sample `i`, column `d`. -/
theorem upd_at (hX : ∀ i d, x0 (ix2 i d) = ((x i d : ℝ) : EReal)) (hL : ∀ i, x1 (ix1 i) = BitVec.ofNat 32 (l i).val)
    (hC : ∀ k d, x2 (ix2 k d) = ((cen k d : ℝ) : EReal)) (i : Fin 131072) (d : Fin 256) :
    val_main_v34 (F := Ideal) x0 x1 x2 (ix2 i d) = (((cen (l i) d - fR x epsR i d) * wR l (l i) : ℝ) : EReal) := by
  have hi : idx_main_v33 (ix2 i d) = ix2 i (0 : Fin 1) :=
    funext fun a => Fin.ext (by match a with | ⟨0, _⟩ => rfl | ⟨1, _⟩ => rfl)
  have hi' : idx_main_v32 (ix2 i (0 : Fin 1)) = ix1 i := funext fun a => Fin.ext (by match a with | ⟨0, _⟩ => rfl)
  rw [val_main_v34_apply, val_main_v31_apply, val_main_v33_apply, hi, val_main_v32_apply, hi',
    RefGather.cb_at x1 x2 l cen hL hC i d, RefNorm.f_at x0 x hX i d, RefCount.w_at x1 l hL i]
  show (((cen (l i) d : ℝ) : EReal) - ((fR x epsR i d : ℝ) : EReal)) * ((wR l (l i) : ℝ) : EReal) = _
  rw [← EReal.coe_sub, ← EReal.coe_mul]

/-- The scattered updates: at class `k`, column `d`, the sum of the updates of the samples of class `k`. -/
theorem delta_at (hX : ∀ i d, x0 (ix2 i d) = ((x i d : ℝ) : EReal)) (hL : ∀ i, x1 (ix1 i) = BitVec.ofNat 32 (l i).val)
    (hC : ∀ k d, x2 (ix2 k d) = ((cen k d : ℝ) : EReal)) (k : Fin 50000) (d : Fin 256) :
    val_main_v37 (F := Ideal) x0 x1 x2 (ix2 k d)
      = ((∑ i, if l i = k then (cen (l i) d - fR x epsR i d) * wR l (l i) else 0 : ℝ) : EReal) := by
  unfold val_main_v37
  have hz : ∀ j, val_main_v35 (F := Ideal) j = ((0 : ℝ) : EReal) := fun j => by
    rw [val_main_v35_apply]; exact lit_zero
  have hu := upd_at x0 x1 x2 x l cen hX hL hC
  have hJ := scol'_at x1
  generalize val_main_v35 (F := Ideal) = Z at hz
  generalize val_main_v34 (F := Ideal) x0 x1 x2 = W at hu
  generalize val_main_v36 (F := Ideal) x1 = J at hJ
  simp only [Host.scatterAdd, Ideal.hostScatterAdd_def]
  rw [show scatter_S50000x256_S131072x1_S131072x256_1_0_0_1
    = Cert.Lib.SegmentSum.rowDims 50000 131072 256 scatter_S50000x256_S131072x1_S131072x256_1_0_0_1_wf from rfl]
  rw [Cert.Lib.SegmentSum.rows_segment (N := 50000) (E := 131072) (C := 256) (w := 32)
    scatter_S50000x256_S131072x1_S131072x256_1_0_0_1_wf ((0 : ℝ) : EReal) Z hz x1 J hJ W k d]
  rw [RefCount.class_sum_coe x1 l hL k (fun e => W (ix2 e d)) (fun e => (cen (l e) d - fR x epsR e d) * wR l (l e))
    (fun e => hu e d), ← EReal.coe_add, zero_add]

/-- The updated centers. -/
theorem newc_at (hX : ∀ i d, x0 (ix2 i d) = ((x i d : ℝ) : EReal)) (hL : ∀ i, x1 (ix1 i) = BitVec.ofNat 32 (l i).val)
    (hC : ∀ k d, x2 (ix2 k d) = ((cen k d : ℝ) : EReal)) (k : Fin 50000) (d : Fin 256) :
    val_main_v40 (F := Ideal) x0 x1 x2 (ix2 k d) = ((newcR x l cen epsR k d : ℝ) : EReal) := by
  have hh : val_main_v38 (F := Ideal) (ix2 k d) = ((1 / 2 : ℝ) : EReal) := by
    rw [val_main_v38_apply]; exact lit_half
  rw [val_main_v40_apply, val_main_v39_apply, hh, delta_at x0 x1 x2 x l cen hX hL hC k d, hC]
  show ((cen k d : ℝ) : EReal) - ((1 / 2 : ℝ) : EReal) * _ = _
  rw [← EReal.coe_mul, ← EReal.coe_sub]
  rfl

end Cert.ReferenceIdeal.RefDelta

end
-- ==== Proof.RefValue.lean ====
/-
  The reference's two results as real functions of real data: when every feature and every center is a real number and
  every label is the word of a class index, the reference's run ends with its loss at `lossR` and its updated centers at
  `newcR`, entry by entry, as extended reals.
-/
import proofs.«100039_j20426864460160_2_alg».proof.Defs
import proofs.«100039_j20426864460160_2_alg».proof.Proof.Gen.ReferenceIdeal.Run
import proofs.«100039_j20426864460160_2_alg».proof.Proof.Gen.ReferenceIdeal.Read
import proofs.«100039_j20426864460160_2_alg».proof.Proof.SpecReal
import proofs.«100039_j20426864460160_2_alg».proof.Proof.Literals
import proofs.«100039_j20426864460160_2_alg».proof.Proof.RefLoss
import proofs.«100039_j20426864460160_2_alg».proof.Proof.RefDelta
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal CenterSpec

/-- The reference's run from a memory whose features are the reals `x`, whose labels are the words of the classes `l` and
    whose centers are the reals `cen`: it ends with the loss at `lossR`, the updated centers at `newcR`, the arguments unchanged. -/
theorem ref_run [Cert.ReferenceIdeal.Facts] (m : (ℓ : Loc nD τ sig) → Buf (Elt Ideal) ℓ) (ρ : Dev nD → PrngReg)
    (x : Fin 131072 → Fin 256 → ℝ) (l : Fin 131072 → Fin 50000) (cen : Fin 50000 → Fin 256 → ℝ)
    (hX : ∀ (c : Dev nD) (i : Fin 131072) (d : Fin 256), (m ((c.tc : Thread nD τ).loc main_arg0) : S131072x256.Idx → EReal) (ix2 i d) = ((x i d : ℝ) : EReal))
    (hL : ∀ (c : Dev nD) (i : Fin 131072), (m ((c.tc : Thread nD τ).loc main_arg1) : S131072.Idx → BitVec 32) (ix1 i) = BitVec.ofNat 32 (l i).val)
    (hC : ∀ (c : Dev nD) (k : Fin 50000) (d : Fin 256), (m ((c.tc : Thread nD τ).loc main_arg2) : S50000x256.Idx → EReal) (ix2 k d) = ((cen k d : ℝ) : EReal)) :
    θ_run (Cert.ReferenceIdeal.defs (F := Ideal)) (onTc (τ := τ) (main (F := Ideal))) ⟨m, fun _ => 0, ρ⟩ (fun r => ∀ c : Dev nD,
      (r.2.mem ((c.tc : Thread nD τ).loc main_v15) : S_.Idx → EReal) = (fun _ => ((lossR x l cen epsR : ℝ) : EReal))
      ∧ (r.2.mem ((c.tc : Thread nD τ).loc main_v40) : S50000x256.Idx → EReal) = (fun j => ((newcR x l cen epsR (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (Cert.ReferenceIdeal.defs (F := Ideal)) _ _).mono (fun r h c => ?_) (Cert.ReferenceIdeal.Value.run (F := Ideal) m ρ)
  obtain ⟨h15, h40, ha0, ha1, ha2⟩ := h c
  refine ⟨?_, ?_, ha0, ha1, ha2⟩
  · rw [h15, Read.val_main_v15_eq]
    funext j
    exact RefLoss.loss_at _ _ _ x l cen (hX c) (hL c) (hC c) j
  · rw [h40, Read.val_main_v40_eq]
    funext j
    obtain ⟨k, d, rfl⟩ : ∃ (k : Fin 50000) (d : Fin 256), j = ix2 k d := ⟨j 0, j 1, eq_ix2 j⟩
    exact RefDelta.newc_at _ _ _ x l cen (hX c) (hL c) (hC c) k d

end Cert.ReferenceIdeal.RefValue

end
-- ==== Proof.NormRegionIdeal.lean ====
/-
  The first kernel region — the row normalisation — as the pipeline library wants it: the kernel's run at one grid point
  (what its three buffers hold afterwards, from the block of feature rows it was handed), the region's proof data over
  the arrays as the region finds them, and the body obligation at every grid point.  Stated at any float instance.
-/
import proofs.«100039_j20426864460160_2_alg».proof.Proof.Gen.KernelIdeal.Launch
import proofs.«100039_j20426864460160_2_alg».proof.Proof.Gen.KernelIdeal.Skeleton
import proofs.«100039_j20426864460160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The normalising kernel at one grid point

At grid point `t` the kernel is handed rows `4096·t … 4096·t + 4095` of the feature array `x` (its one input window) and two
output buffers.  It divides every row by the larger of its Euclidean norm and a fixed floor, stores the quotient (narrowed
to the short float format) over the whole first output buffer, and stores over the whole second one the constant
8×128 block whose every entry is the sum of the squares of all the quotients divided by 1024.  Before each store it also
loads the output buffer it is about to overwrite; nothing is done with what it loads. -/

/-- The rectangle of a whole 4096×256 staging buffer, and of a whole 8×128 one. -/
abbrev tileRect : Rect S4096x256 := Rect.unit (s := S4096x256) ![0, 0] S4096x256.size inb_S4096x256_S4096x256_0_0
abbrev partRect : Rect S8x128 := Rect.unit (s := S8x128) ![0, 0] S8x128.size inb_S8x128_S8x128_0_0

/-- What the kernel leaves in the buffer of the normalised rows, from the block of rows it was handed: its one store,
    which covers the buffer. -/
def normOut (x0 : Vec F S4096x256 .f32) : Vec F S4096x256 .bf16 :=
  View.canon [⟨tileRect, k0_pay2 (View.ld x0 tileRect)⟩]
/-- What it leaves in the buffer of the partial sums of squares. -/
def partOut (x0 : Vec F S4096x256 .f32) : Vec F S8x128 .f32 :=
  View.canon [⟨partRect, k0_pay3 (View.ld x0 tileRect)⟩]

/-- One store through the whole rectangle covers the buffer. -/
theorem normCover (p0 : Vec F S4096x256 .bf16) (y : S4096x256.Idx) :
    ∃ pc ∈ ([⟨tileRect, p0⟩] : List (View.Piece (Elt F) S4096x256 .bf16)), y ∈ pc.1.set :=
  View.cover_of_tiled [⟨tileRect, p0⟩] S4096x256.size (by rfl) y
theorem partCover (p0 : Vec F S8x128 .f32) (y : S8x128.Idx) :
    ∃ pc ∈ ([⟨partRect, p0⟩] : List (View.Piece (Elt F) S8x128 .f32)), y ∈ pc.1.set :=
  View.cover_of_tiled [⟨partRect, p0⟩] S8x128.size (by rfl) y

set_option maxHeartbeats 1000000 in
/-- The kernel on whole buffers — the input's at contents `x0`, the outputs' at anything — runs to its end leaving the
    input's as it was and the outputs' at `normOut x0` and `partOut x0`. -/
theorem normalize_triple (c : Dev nD) (E : Set ℕ) (i : grid0.Coords)
    (arg1 : Memref sig .tc .vmem S4096x256 .f32) (harg1 : arg1.IsWhole)
    (arg2 : Memref sig .tc .vmem S4096x256 .bf16) (harg2 : arg2.IsWhole)
    (arg3 : Memref sig .tc .vmem S8x128 .f32) (harg3 : arg3.IsWhole)
    (x0 : Vec F S4096x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (normOut x0)
            ∗ owns (c : Thread nD τ) arg3 fullShare (partOut x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (normCover _)
  iexists _; isplitr
  swap; · iexact H2
  ipureintro
  exact View.read_writes_eq_canon _ _ _ (partCover _)

/-! ## The blocks, and the proof data of the normalising region

`V` is what the core's buffers hold when the region is entered.  Window 0 reads the feature array, windows 1 and 2 write
the array of normalised rows and the array of partial sums; at grid point `t` each window's block is block `t` of its array
along the rows. -/

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and the body leaves its buffer alone, so whenever the body is called the
    buffer holds the point's block of rows. -/
theorem before_rows_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The region's proof data on core `c`: the arrays as the region finds them; after the body at point `t` the input's
    buffer still at its block and the two outputs' at what the kernel computes from that block; nothing of the kernel's own
    kept between points; nothing owed to another core. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => normOut (blockAt V c 0 t)
    | ⟨2, _⟩ => partOut (blockAt V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blockAt V c 0 t := by dsimp only [dat0]
theorem dat0_after1 (c : Dev nD) (t : Fin cfg0.N) : (dat0 V c).after 1 t = normOut (blockAt V c 0 t) := by dsimp only [dat0]
theorem dat0_after2 (c : Dev nD) (t : Fin cfg0.N) : (dat0 V c).after 2 t = partOut (blockAt V c 0 t) := by dsimp only [dat0]

theorem dat0_before0 (c : Dev nD) (t : Fin cfg0.N) (d) : (dat0 V c).before 0 t d = blockAt V c 0 t :=
  before_rows_of V (dat0 V c) (dat0_A V c 0) (dat0_after0 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the point's block, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (normalize_triple c Set.univ _ _ _ _ _ _ _ (blockAt V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the normalising region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Norm

end
-- ==== Proof.MainDefs.lean ====
/-
  The two-region run's data: what region 0 leaves, the contents region 1 is entered from, what both regions leave, the
  tables' contents and the proof data of both pipelines as one family, and the thread state that rides beside the buffers.

  Region 0 (the row normalisation) is entered from the launch contents; it leaves its two output arrays — the normalised
  rows and the partial sums of squares — at what its write-backs fold to, and every other buffer as launched.  The host
  stretches that follow read only that.  Region 1 (the scatter and center update) is entered from the contents the third
  host stretch leaves and changes its two output arrays only.  Region 1's proof data is a parameter here.
-/
import proofs.«100039_j20426864460160_2_alg».proof.Proof.Gen.KernelIdeal.Regions
import proofs.«100039_j20426864460160_2_alg».proof.Proof.NormRegionIdeal

noncomputable section

namespace Cert.KernelIdeal.MainRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a1 : (pcfg1 (F := F)).Adm)
variable (d1 : (c : Dev nD) → Dat τ (Elt F) Unit ℕ (UR sig nD τ) ℕ (cfg1 a1) c)

/-! ## The tables' contents -/

/-- The prefetched tables' admissible contents, pipeline by pipeline: region 0 has no table; region 1's are `a1`. -/
abbrev adm : (p : Fin 2) → (pcfgs (F := F) p).Adm
  | ⟨0, _⟩ => cfg0.toPCfg_adm
  | ⟨1, _⟩ => a1
  | ⟨_ + 2, h⟩ => absurd h (Nat.not_lt.2 (Nat.le_add_left _ _))

/-! ## The contents at the boundaries -/

/-- Region 0's entry contents: the launch contents, read at the core's references. -/
abbrev Vin0 : (c : Dev nD) → (b : Ref sig .tc) → Buf (Elt F) ((c : Thread nD τ).loc b) := fun c b => Gen.V0 m c b

/-- What region 0 leaves: the normalised rows and the partial sums at what the pipeline's write-backs fold to, every
    other buffer as launched (at every stage: only stage 1 is read before region 1). -/
def outs1 : Gen.Outs (F := F) := fun _ r c =>
  if h0 : r = main_v0_0 then h0 ▸ ((Norm.dat0 (Vin0 m) c).arrAt 1 cfg0.N : Buf (Elt F) ((c : Thread nD τ).loc main_v0_0))
  else if h1 : r = main_v0_1 then h1 ▸ ((Norm.dat0 (Vin0 m) c).arrAt 2 cfg0.N : Buf (Elt F) ((c : Thread nD τ).loc main_v0_1))
  else m ((c : Thread nD τ).loc r)

theorem outs1_v0_0 (J : ℕ) (c : Dev nD) : outs1 m J main_v0_0 c = (Norm.dat0 (Vin0 m) c).arrAt 1 cfg0.N := by
  unfold outs1; rw [dif_pos rfl]
theorem outs1_v0_1 (J : ℕ) (c : Dev nD) : outs1 m J main_v0_1 c = (Norm.dat0 (Vin0 m) c).arrAt 2 cfg0.N := by
  unfold outs1; rw [dif_neg (by decide), dif_pos rfl]

/-- Region 1's entry contents: the launch contents through region 0 and the three host stretches. -/
abbrev V4' (c : Dev nD) : Valuation τ sig (Elt F) := Gen.V4 m (outs1 m) c

/-- What the two regions leave: after region 1 (stage 5) its two output arrays at what its pipeline's write-backs fold
    to; at every other stage and buffer what region 0 leaves. -/
def outs : Gen.Outs (F := F) := fun J r c =>
  if J = 5 then
    if h0 : r = main_v21_0 then h0 ▸ ((d1 c).arrAt 3 (cfg1 a1).N : Buf (Elt F) ((c : Thread nD τ).loc main_v21_0))
    else if h1 : r = main_v21_1 then h1 ▸ ((d1 c).arrAt 4 (cfg1 a1).N : Buf (Elt F) ((c : Thread nD τ).loc main_v21_1))
    else outs1 m J r c
  else outs1 m J r c

theorem outs_one (r : Ref sig .tc) (c : Dev nD) : outs m a1 d1 1 r c = outs1 m 1 r c := rfl
theorem outs_v0_0 (c : Dev nD) : outs m a1 d1 1 main_v0_0 c = (Norm.dat0 (Vin0 m) c).arrAt 1 cfg0.N := outs1_v0_0 m 1 c
theorem outs_v0_1 (c : Dev nD) : outs m a1 d1 1 main_v0_1 c = (Norm.dat0 (Vin0 m) c).arrAt 2 cfg0.N := outs1_v0_1 m 1 c
theorem outs_v21_0 (c : Dev nD) : outs m a1 d1 5 main_v21_0 c = (d1 c).arrAt 3 (cfg1 a1).N := by
  unfold outs; rw [if_pos rfl, dif_pos rfl]
theorem outs_v21_1 (c : Dev nD) : outs m a1 d1 5 main_v21_1 c = (d1 c).arrAt 4 (cfg1 a1).N := by
  unfold outs; rw [if_pos rfl, dif_neg (by decide), dif_pos rfl]

/-- Up to region 1's entry the contents read the unknowns at stage 1 only, where both agree. -/
theorem V1_outs (c : Dev nD) : Gen.V1 m (outs m a1 d1) c = Gen.V1 m (outs1 m) c := rfl
theorem V4_outs (c : Dev nD) : Gen.V4 m (outs m a1 d1) c = V4' m c := rfl

/-! ## The proof data family and the thread state -/

/-- Both pipelines' proof data: region 0's at the launch contents, region 1's the given one. -/
def pdats : (p : Fin 2) → (c : Dev nD) → Dat τ (Elt F) Unit ℕ (UR sig nD τ) ℕ (Pipeline.pin (pcfgs (F := F)) (adm a1) p) c
  | ⟨0, _⟩ => fun c => Norm.dat0 (Vin0 m) c
  | ⟨1, _⟩ => d1

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)
/-- The rest state beside the buffers at the three region boundaries. -/
abbrev E : Fin 3 → Dev nD → sProp 𝕄 := fun _ c => Rr (F := F) c

end Cert.KernelIdeal.MainRun

end
-- ==== Proof.ScatterStepIdeal.lean ====
/-
  The second kernel region's arithmetic at one grid point as pure functions of what the kernel reads: the accumulators
  cleared at a class tile's first batch tile, one batch tile's one-hot counts and one-hot products added when the tile's label
  range meets the class tile, and the two outputs the last batch tile writes.  Stated at any float instance, over the generated
  payload functions.
-/
import proofs.«100039_j20426864460160_2_alg».proof.Proof.Gen.KernelIdeal.Launch
import proofs.«100039_j20426864460160_2_alg».proof.Proof.Gen.KernelIdeal.Skeleton
import proofs.«100039_j20426864460160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scatter-and-finalise kernel's arithmetic at one grid point, as pure functions

At grid point `i = (class tile, batch tile)` the kernel works on: the two words `lo`, `hi` it reads from the prefetched tables
at the batch tile's cell, the block `x4` of 4096 sorted feature rows, the block `x5` of their labels, the block `x6` of 1000
centers, and the contents `d9` (per-class counts) and `d10` (per-class feature sums) of its two accumulators. -/

/-- The whole-buffer rectangles, and the four quarter rectangles the accumulation loads rows and labels through. -/
abbrev cntRect : Rect S1000x1 := Rect.unit (s := S1000x1) ![0, 0] S1000x1.size inb_S1000x1_S1000x1_0_0
abbrev sumRect : Rect S1000x256 := Rect.unit (s := S1000x256) ![0, 0] S1000x256.size inb_S1000x256_S1000x256_0_0
abbrev lossRect : Rect S8x128 := Rect.unit (s := S8x128) ![0, 0] S8x128.size inb_S8x128_S8x128_0_0
abbrev rows0 : Rect S4096x256 := Rect.unit (s := S4096x256) (k1_off2 0#32) S1024x256.size (k1_off2_inb 0)
abbrev rows1 : Rect S4096x256 := Rect.unit (s := S4096x256) (k1_off2 1#32) S1024x256.size (k1_off2_inb 1)
abbrev rows2 : Rect S4096x256 := Rect.unit (s := S4096x256) (k1_off2 2#32) S1024x256.size (k1_off2_inb 2)
abbrev rows3 : Rect S4096x256 := Rect.unit (s := S4096x256) (k1_off2 3#32) S1024x256.size (k1_off2_inb 3)
abbrev lbl0 : Rect S1x4096 := Rect.unit (s := S1x4096) (k1_off3 0#32) S1x1024.size (k1_off3_inb 0)
abbrev lbl1 : Rect S1x4096 := Rect.unit (s := S1x4096) (k1_off3 1#32) S1x1024.size (k1_off3_inb 1)
abbrev lbl2 : Rect S1x4096 := Rect.unit (s := S1x4096) (k1_off3 2#32) S1x1024.size (k1_off3_inb 2)
abbrev lbl3 : Rect S1x4096 := Rect.unit (s := S1x4096) (k1_off3 3#32) S1x1024.size (k1_off3_inb 3)
/-- The cell of a 32-word table the kernel reads at point `i`: the batch tile's. -/
abbrev cellRect (i : grid1.Coords) : Rect S32 := Rect.unit (s := S32) (k1_off1 i) S1.size (k1_off1_inb i)

/-- The first class id of the point's class tile, and the last, as words. -/
def classLo (i : grid1.Coords) : BitVec 32 := Scalar.muli (BitVec.ofNat 32 (i 0).val) 1000#32
def classHi (i : grid1.Coords) : BitVec 32 := Scalar.subi (Scalar.addi (classLo i) 1000#32) 1#32
/-- The point is its class tile's first batch tile: the accumulators are cleared. -/
def firstTile (i : grid1.Coords) : Prop :=
  Scalar.cmpi .ne (Scalar.extui (Scalar.cmpi .eq (BitVec.ofNat 32 (i 1).val) 0#32)) 0#32 = 1#1
/-- The batch tile's label range [lo, hi] meets the class tile's id range: the tile is accumulated. -/
def meetsTile (i : grid1.Coords) (lo hi : BitVec 32) : Prop :=
  Scalar.cmpi .ne (Scalar.extui (Scalar.andi (Scalar.cmpi .sle lo (classHi i)) (Scalar.cmpi .sge hi (classLo i)))) 0#32 = 1#1
/-- The point is its class tile's last batch tile: the outputs are written. -/
def lastTile (i : grid1.Coords) : Prop := k1_cond3 i = 1#1

instance (i : grid1.Coords) : Decidable (firstTile i) := by unfold firstTile; infer_instance
instance (i : grid1.Coords) (lo hi : BitVec 32) : Decidable (meetsTile i lo hi) := by unfold meetsTile; infer_instance
instance (i : grid1.Coords) : Decidable (lastTile i) := by unfold lastTile; infer_instance

/-- The accumulators as the accumulation finds them: zero at a class tile's first batch tile, else as left. -/
def resetCnt (i : grid1.Coords) (d9 : Vec F S1000x1 .f32) : Vec F S1000x1 .f32 := if firstTile i then k1_pay1 else d9
def resetSum (i : grid1.Coords) (d10 : Vec F S1000x256 .f32) : Vec F S1000x256 .f32 := if firstTile i then k1_pay2 else d10
/-- One batch tile added to the counts: per class of the tile, the number of the 4096 labels equal to it, a quarter at a time. -/
def accCnt (i : grid1.Coords) (x5 : Vec F S1x4096 .i32) (e9 : Vec F S1000x1 .f32) : Vec F S1000x1 .f32 :=
  k1_pay3 (k1_pay12 (classLo i) (k1_pay8 (classLo i) e9 (View.ld x5 lbl0)) (k1_pay9 (classLo i) (View.ld x5 lbl1)) (View.ld x5 lbl2))
    (k1_pay13 (classLo i) (View.ld x5 lbl3))
/-- One batch tile added to the feature sums: per class of the tile, the one-hot product with the 4096 rows, a quarter at a time. -/
def accSum (i : grid1.Coords) (x4 : Vec F S4096x256 .bf16) (x5 : Vec F S1x4096 .i32) (e10 : Vec F S1000x256 .f32) : Vec F S1000x256 .f32 :=
  k1_pay4 (k1_pay14 (classLo i)
    (k1_pay10 (classLo i) e10 (View.ld x4 rows0) (View.ld x5 lbl0) (View.ld x4 rows1) (View.ld x5 lbl1))
    (View.ld x4 rows2) (View.ld x5 lbl2) (View.ld x4 rows3) (View.ld x5 lbl3))
/-- The accumulators after the point. -/
def stepCnt (i : grid1.Coords) (lo hi : BitVec 32) (x5 : Vec F S1x4096 .i32) (d9 : Vec F S1000x1 .f32) : Vec F S1000x1 .f32 :=
  if meetsTile i lo hi then accCnt i x5 (resetCnt i d9) else resetCnt i d9
def stepSum (i : grid1.Coords) (lo hi : BitVec 32) (x4 : Vec F S4096x256 .bf16) (x5 : Vec F S1x4096 .i32) (d10 : Vec F S1000x256 .f32) : Vec F S1000x256 .f32 :=
  if meetsTile i lo hi then accSum i x4 x5 (resetSum i d10) else resetSum i d10
/-- What the last batch tile writes: the updated centers of the class tile, and the tile's share of the loss. -/
def outNewc (x6 : Vec F S1000x256 .f32) (s10 : Vec F S1000x256 .f32) (s9 : Vec F S1000x1 .f32) : Vec F S1000x256 .f32 := k1_pay5 x6 s10 s9
def outLoss (x6 : Vec F S1000x256 .f32) (s10 : Vec F S1000x256 .f32) (s9 : Vec F S1000x1 .f32) : Vec F S8x128 .f32 := k1_pay6 x6 s10 s9

/-- The word of a 32-word table at the point's cell. -/
def tblWord (tb : Vec F S32 .i32) (i : grid1.Coords) : BitVec 32 :=
  View.ld tb (cellRect i) (Shape.Idx.first (s := (cellRect i).shape) (by rw [show (cellRect i).shape.numel = 1 from numel1_S1]; exact Nat.one_pos))

theorem zero2 : (![0, 0] : Fin 2 → ℕ) = fun _ => 0 := by funext a; fin_cases a <;> rfl

end Cert.KernelIdeal.Scatter

end
-- ==== Proof.ScatterDataIdeal.lean ====
/-
  The second kernel region's proof data: its windows' blocks, the two accumulators after the first n grid points, the invariant
  that carries the tables and the accumulators from point to point, and what each window's buffer holds after the body.
  Stated at any float instance.
-/
import proofs.«100039_j20426864460160_2_alg».proof.Proof.Gen.KernelIdeal.Launch
import proofs.«100039_j20426864460160_2_alg».proof.Proof.Gen.KernelIdeal.Skeleton
import proofs.«100039_j20426864460160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterStepIdeal

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data of the scatter-and-finalise region

`V` is what the core's buffers hold when the region is entered, `a1` the contents of the two prefetched tables.  Windows 0, 1, 2
read the sorted feature rows (block `b` of 4096 rows), their labels (block `b` of the one row) and the centers (block `cb` of 1000
rows) at grid point (cb, b); windows 3, 4 write the updated centers (block `cb`) and the loss partials (block `cb` of 8 rows), and
are left alone except at the class tile's last batch tile.  The two accumulators are carried from point to point. -/

variable (V : (c : Dev nD) → (b : Ref sig .tc) → Buf (Elt F) ((c : Thread nD τ).loc b)) (a1 : (pcfg1 (F := F)).Adm)

/-- The two tables' contents. -/
abbrev tloOf : Vec F S32 .i32 := a1.1 0
abbrev thiOf : Vec F S32 .i32 := a1.1 1

/-- Window `w`'s block at point `t`, read off its array as the region finds it. -/
def blockAt1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The two accumulators after the first `n` grid points (counts, feature sums): each point applies its step to what the
    point before left.  What they hold before the first point does not matter (the first point clears them); zero is written here. -/
def accAt (c : Dev nD) : ℕ → Vec F S1000x1 .f32 × Vec F S1000x256 .f32
  | 0 => (k1_pay1, k1_pay2)
  | n + 1 =>
    if h : n < (cfg1 a1).N then
      (stepCnt ((cfg1 a1).grid.coords ⟨n, h⟩) (tblWord (tloOf a1) ((cfg1 a1).grid.coords ⟨n, h⟩)) (tblWord (thiOf a1) ((cfg1 a1).grid.coords ⟨n, h⟩))
          (blockAt1 V a1 c 1 ⟨n, h⟩) (accAt c n).1,
        stepSum ((cfg1 a1).grid.coords ⟨n, h⟩) (tblWord (tloOf a1) ((cfg1 a1).grid.coords ⟨n, h⟩)) (tblWord (thiOf a1) ((cfg1 a1).grid.coords ⟨n, h⟩))
          (blockAt1 V a1 c 0 ⟨n, h⟩) (blockAt1 V a1 c 1 ⟨n, h⟩) (accAt c n).2)
    else accAt c n

/-- The kernel's own buffers and the tables, as memrefs. -/
abbrev tblM0 : Memref sig .tc .smem S32 .i32 := Memref.whole main_v18
abbrev tblM1 : Memref sig .tc .smem S32 .i32 := Memref.whole main_v19
abbrev cntM : Memref sig .tc .vmem S1000x1 .f32 := Memref.whole cc1_scratch0
abbrev sumM : Memref sig .tc .vmem S1000x256 .f32 := Memref.whole cc1_scratch1

/-- The first region's staging buffers, which this region does not use: each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `t`: the tables at their contents, the other region's staging buffers at anything, the two
    accumulators at what the points before left (at anything before the first point), the generator register at some state. -/
def PhiAt (c : Dev nD) (t : Fin ((cfg1 a1).N + 1)) : sProp 𝕄 :=
  iprop(owns (c : Thread nD τ) tblM0 fullShare (tloOf a1) ∗ owns (c : Thread nD τ) tblM1 fullShare (thiOf a1) ∗ otherStaging c
    ∗ (∃ d9 d10, ⌜t.val ≠ 0 → d9 = (accAt V a1 c t.val).1 ∧ d10 = (accAt V a1 c t.val).2⌝
        ∗ owns (c : Thread nD τ) cntM fullShare d9 ∗ owns (c : Thread nD τ) sumM fullShare d10)
    ∗ ∃ r, prngReg c r)

/-- The region's proof data on core `c`. -/
def dat1 (c : Dev nD) : Dat τ (Elt F) Unit ℕ (UR sig nD τ) ℕ (cfg1 a1) c where
  A w := V c (Pipeline.arrRef spec1 w)
  after w t := match w with
    | ⟨0, _⟩ => blockAt1 V a1 c 0 t
    | ⟨1, _⟩ => blockAt1 V a1 c 1 t
    | ⟨2, _⟩ => blockAt1 V a1 c 2 t
    | ⟨3, _⟩ => outNewc (blockAt1 V a1 c 2 t) (accAt V a1 c (t.val + 1)).2 (accAt V a1 c (t.val + 1)).1
    | ⟨4, _⟩ => outLoss (blockAt1 V a1 c 2 t) (accAt V a1 c (t.val + 1)).2 (accAt V a1 c (t.val + 1)).1
  Φ t := PhiAt V a1 c t
  q _ := fullShare
  owed _ := 0

theorem dat1_A (c : Dev nD) (w : Fin (cfg1 a1).W) : (dat1 V a1 c).A w = V c (Pipeline.arrRef spec1 w) := rfl
theorem dat1_after0 (c : Dev nD) (t : Fin (cfg1 a1).N) : (dat1 V a1 c).after 0 t = blockAt1 V a1 c 0 t := rfl
theorem dat1_after1 (c : Dev nD) (t : Fin (cfg1 a1).N) : (dat1 V a1 c).after 1 t = blockAt1 V a1 c 1 t := rfl
theorem dat1_after2 (c : Dev nD) (t : Fin (cfg1 a1).N) : (dat1 V a1 c).after 2 t = blockAt1 V a1 c 2 t := rfl
theorem dat1_after3 (c : Dev nD) (t : Fin (cfg1 a1).N) : (dat1 V a1 c).after 3 t
    = outNewc (blockAt1 V a1 c 2 t) (accAt V a1 c (t.val + 1)).2 (accAt V a1 c (t.val + 1)).1 := rfl
theorem dat1_after4 (c : Dev nD) (t : Fin (cfg1 a1).N) : (dat1 V a1 c).after 4 t
    = outLoss (blockAt1 V a1 c 2 t) (accAt V a1 c (t.val + 1)).2 (accAt V a1 c (t.val + 1)).1 := rfl
theorem dat1_Phi (c : Dev nD) (t : Fin ((cfg1 a1).N + 1)) : (dat1 V a1 c).Φ t = PhiAt V a1 c t := rfl

end Cert.KernelIdeal.Scatter

end
-- ==== Proof.MainTables.lean ====
/-
  The second region's entry: the contents of its two prefetched tables read off the core's buffers as the host stretch before
  the region leaves them, and the region's proof data at those tables and those buffers.
-/
import proofs.«100039_j20426864460160_2_alg».proof.Proof.MainDefs
import proofs.«100039_j20426864460160_2_alg».proof.Proof.ScatterDataIdeal

noncomputable section

namespace Cert.KernelIdeal.MainRun

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The two tables' contents when the second region is entered (there is one core). -/
def tbl : pre1.Contents (Elt F) := fun k => V4' m (0 : Dev nD) (pre1.ref k)

/-- They are admissible: the region's index maps do not read them, so there is no side condition. -/
abbrev a1Of : (pcfg1 (F := F)).Adm := ⟨tbl m, trivial⟩

/-- The core's buffers when the second region is entered. -/
abbrev Vin1 : (c : Dev nD) → (b : Ref sig .tc) → Buf (Elt F) ((c : Thread nD τ).loc b) := fun c b => V4' m c b

/-- The second region's proof data. -/
abbrev d1Of : (c : Dev nD) → Dat τ (Elt F) Unit ℕ (UR sig nD τ) ℕ (cfg1 (a1Of m)) c := fun c => Scatter.dat1 (Vin1 m) (a1Of m) c

/-- On the one core the tables' buffers hold those contents. -/
theorem V4_pre (c : Dev nD) (k : Fin 2) : V4' m c (pre1.ref k) = tbl m k := by
  have hc : c = (0 : Dev nD) := Subsingleton.elim _ _
  subst hc; rfl

end Cert.KernelIdeal.MainRun

end
-- ==== Proof.MainRegion0.lean ====
/-
  Region 0 (the row normalisation) as a segment of the two-region run.

  The region is entered with every unscoped buffer of the core at the launch contents, beside the generator register at
  some state and nothing owed.  Its three arrays — the features, the normalised rows, the partial sums of squares — are
  split out of the unscoped buffers at entry and put back at exit: the features as they were (an input window's array is
  never written), the two outputs at what the pipeline's write-backs fold to, which is what the contents after the region
  hold there; every other buffer bypasses the region.  The generator register goes into the pipeline's invariant and
  comes back; the region has no semaphore of its own and no table.
-/
import proofs.«100039_j20426864460160_2_alg».proof.Proof.MainDefs
import Idealize.ShloMosaic.Lib.Pipeline.RegionsLoop

noncomputable section

namespace Cert.KernelIdeal.MainRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a1 : (pcfg1 (F := F)).Adm)
variable (d1 : (c : Dev nD) → Dat τ (Elt F) Unit ℕ (UR sig nD τ) ℕ (cfg1 a1) c)

/-! ## The contents after the region, at the region's arrays and off them -/

/-- The contents after region 0, read at the core's references. -/
abbrev Vout0 : (c : Dev nD) → (b : Ref sig .tc) → Buf (Elt F) ((c : Thread nD τ).loc b) :=
  fun c b => Gen.V1 m (outs m a1 d1) c b

/-- After the region the array of normalised rows holds the first unknown, -/
theorem V1_v0_0 (o : Gen.Outs (F := F)) (c : Dev nD) : Gen.V1 m o c main_v0_0 = o 1 main_v0_0 c := by
  simp only [Gen.V1, Function.update_of_ne (StableHlo.devRef_ne_of_ne (by decide) : (Proc.devRef .tc main_v0_0 : DevRef τ sig) ≠ Proc.devRef .tc main_v0_1),
    Function.update_self]
/-- and the array of partial sums the second. -/
theorem V1_v0_1 (o : Gen.Outs (F := F)) (c : Dev nD) : Gen.V1 m o c main_v0_1 = o 1 main_v0_1 c := by
  simp only [Gen.V1, Function.update_self]

/-- Each of the region's arrays holds, after the region, what the pipeline leaves in it. -/
theorem hF0 (c : Dev nD) (w : Fin cfg0.W) :
    (Norm.dat0 (Vin0 m) c).arrAt w cfg0.N = Vout0 m a1 d1 c (Pipeline.arrRef spec0 w) := by
  match w with
  | ⟨0, _⟩ =>
    -- the features: an input window's array stays at its entry contents, which no region or stretch before changes
    exact (((Norm.dat0 (Vin0 m) c).arrAt_in 0 rfl _).trans (Norm.dat0_A (Vin0 m) c 0)).trans
      (Gen.V1_of m (outs m a1 d1) c main_arg0 (by decide)).symm
  | ⟨1, _⟩ => exact ((V1_v0_0 m (outs m a1 d1) c).trans (outs_v0_0 m a1 d1 c)).symm
  | ⟨2, _⟩ => exact ((V1_v0_1 m (outs m a1 d1) c).trans (outs_v0_1 m a1 d1 c)).symm

/-- Every buffer that is none of the region's arrays holds after the region what it held before. -/
theorem hrest0 (c : Dev nD) : ∀ b, b ∉ Finset.univ.image (Pipeline.arrRef spec0) → Vout0 m a1 d1 c b = Vin0 m c b :=
  fun b hb => Gen.V1_of m (outs m a1 d1) c b fun hm => hb (by
    rcases List.mem_cons.mp hm with rfl | hm
    · exact Finset.mem_image.mpr ⟨1, Finset.mem_univ _, rfl⟩
    · rcases List.mem_cons.mp hm with rfl | hm
      · exact Finset.mem_image.mpr ⟨2, Finset.mem_univ _, rfl⟩
      · exact absurd hm List.not_mem_nil)

/-! ## The region as a segment -/

set_option backward.isDefEq.respectTransparency.types false in
/-- Region 0 over the thread state: entered from every unscoped buffer at the launch contents, left at the contents
    after the region; beside both, the generator register at some state and nothing owed. -/
def reg0 : Pipeline.RegionSeg (pcfgs (F := F)) (adm a1) (pdats m a1 d1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Norm.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ Rr (F := F) c)
  post c := iprop(StableHlo.held (c : Thread nD τ) (Pipeline.ucRefs τ sig) (Gen.V1 m (outs m a1 d1) c) ∗ Rr (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    -- the arrays out of the unscoped buffers; the register for the invariant; the dues as the pipeline states them
    rw [Pipeline.ownSems0_none]
    have hsplit := Pipeline.arrays_of_unscopedBufs (p := 0) (pcfgs (F := F)) (adm a1) (pdats m a1 d1) (launch0 (F := F)).win (launch0 (F := F)).arr_whole c
      ((pdats m a1 d1 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 d1 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays back among the unscoped buffers, at the contents after the region
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 d1) ((pdats m a1 d1 0 c).share_full fun _ => rfl)
      (Vin0 m c) (Vout0 m a1 d1 c) ((pdats m a1 d1 0 c).arrAt · cfg0.N) (hF0 m a1 d1 c) (hrest0 m a1 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's two thread states, for the chaining. -/
theorem reg0_pre (c : Dev nD) : (reg0 m a1 d1).pre c
    = iprop(StableHlo.held (c : Thread nD τ) (Pipeline.ucRefs τ sig) (Gen.V0 m c) ∗ Rr (F := F) c) := rfl
theorem reg0_post (c : Dev nD) : (reg0 m a1 d1).post c
    = iprop(StableHlo.held (c : Thread nD τ) (Pipeline.ucRefs τ sig) (Gen.V1 m (outs m a1 d1) c) ∗ Rr (F := F) c) := rfl

end Cert.KernelIdeal.MainRun

end
-- ==== Proof.KernelTail.lean ====
/-
  The two short host stretches of the kernel's program read as terms over the memory they start from.

  The stretch after the first region sums the array of partial sums of squares from zero.  The stretch after the second
  region sums the array of loss partials from zero, adds the earlier sum, and divides by the literal 131072; it leaves the array
  of updated centers as it was.
-/
import proofs.«100039_j20426864460160_2_alg».proof.Proof.Gen.KernelIdeal.Launch
import Idealize.ShloMosaic.Lib.StableHlo.Run
import Idealize.ShloMosaic.Lib.ValueIdx

noncomputable section

namespace Cert.KernelIdeal.KernelTail

open Cert.KernelIdeal Cert.KernelIdeal.Gen
open Idealize.ShloMosaic Idealize.ShloMosaic.TcCoe Idealize.SL.Sem Idealize.ShloMosaic.ValueIdx

/-- The sum of the partial sums of squares. -/
theorem head_sumsq (W : Valuation τ sig (Elt Ideal)) :
    (StableHlo.after (hostOps1 (F := Ideal)) W main_v1 : S_.Idx → EReal)
      = Host.reduceAdd (F := Ideal) (W main_v0_1 : S256x128.Idx → EReal) (constant (F := Ideal) S_ .f32 0x00000000#32)
          reducesTo_S256x128_S_d0_1 h_S_ := by
  after_results

/-- The loss: (the earlier sum + the sum of the loss partials) / 131072. -/
theorem tail_loss (W : Valuation τ sig (Elt Ideal)) :
    (StableHlo.after (hostOps2 (F := Ideal)) W main_v24 : S_.Idx → EReal)
      = Host.divf (F := Ideal) (addf (W main_v1 : S_.Idx → EReal)
          (Host.reduceAdd (F := Ideal) (W main_v21_1 : S400x128.Idx → EReal) (constant (F := Ideal) S_ .f32 0x00000000#32)
            reducesTo_S400x128_S_d0_1 h_S_))
          (constant (F := Ideal) S_ .f32 0x48000000#32) := by
  after_results

/-- The array of updated centers is not written by the last stretch. -/
theorem tail_newc (W : Valuation τ sig (Elt Ideal)) :
    (StableHlo.after (hostOps2 (F := Ideal)) W main_v21_0 : S50000x256.Idx → EReal) = W main_v21_0 := by
  after_results

end Cert.KernelIdeal.KernelTail

end
-- ==== Proof.MidSort.lean ====
/-
  The stable two-operand sort of a vector, read through its sorting map.

  A stable sort of two vectors of one length by a comparator on pairs of their elements permutes both alike: entry
  `k` of either result is the operand's entry at position `sortPos … k`, the position whose pair the sort puts at
  `k`.  The map `sortPos` is a bijection of the positions.  When the second operand is the iota (each position's
  own number, as a word), the second result holds the words of the sorted positions: this is how an argsort is
  printed.
-/
import Idealize.ShloMosaic.Lib.ValueIdx
import Idealize.ShloMosaic.Lib.SortFacts

namespace Cert.KernelIdeal.Mid

open Idealize.ShloMosaic Idealize.ShloMosaic.ValueIdx

/-- The rank-1 index at coordinate `k`, built either way. -/
theorem ofFin_eq_ix1 {n : Nat} (k : Fin n) : Shape.Idx.ofFin k = ix1 k := by
  funext d
  match d with
  | ⟨0, _⟩ => rfl

/-- The position whose pair of elements a stable sort of the vectors `x`, `y` by `cmp` puts at position `k`. -/
def sortPos {n : Nat} {α β : Type} (cmp : α × β → α × β → BitVec 1) (x : (⟨1, ![n]⟩ : Shape).Idx → α)
    (y : (⟨1, ![n]⟩ : Shape).Idx → β) : Fin n → Fin n :=
  sortedFrom (fun k k' => cmp (x (ix1 k), y (ix1 k)) (x (ix1 k'), y (ix1 k')) == 1#1)

/-- The first result of the sort at `j`: the first operand at the sorted position. -/
theorem sort2_fst_apply {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (ix1 (sortPos cmp x y (j 0))) := by
  unfold Host.sort2 sortPos
  simp [ofFin_eq_ix1]

/-- The second result of the sort at `j`: the second operand at the sorted position. -/
theorem sort2_snd_apply {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (ix1 (sortPos cmp x y (j 0))) := by
  unfold Host.sort2 sortPos
  simp [ofFin_eq_ix1]

/-- The sorting map is a bijection of the positions. -/
theorem sortPos_bijective {n : Nat} {α β : Type} (cmp : α × β → α × β → BitVec 1) (x : (⟨1, ![n]⟩ : Shape).Idx → α)
    (y : (⟨1, ![n]⟩ : Shape).Idx → β) : Function.Bijective (sortPos cmp x y) :=
  ⟨sortedFrom_injective _, sortedFrom_surjective _⟩

/-- An argsort: with the iota as second operand the second result at `j` is the word of the sorted position. -/
theorem argsort_apply {n : Nat} {α : Type} (cmp : α × BitVec 32 → α × BitVec 32 → BitVec 1)
    (x : (⟨1, ![n]⟩ : Shape).Idx → α) (j : (⟨1, ![n]⟩ : Shape).Idx) :
    (Host.sort2 ⟨1, ![n]⟩ 0 cmp x (iotaInDim ⟨1, ![n]⟩ 32 0)).2 j
      = BitVec.ofNat 32 (sortPos cmp x (iotaInDim ⟨1, ![n]⟩ 32 0) (j 0)).val := by
  rw [sort2_snd_apply]
  rfl

-- From here on the sorting map is known only by the facts above (its value is never computed).
attribute [irreducible] sortPos

end Cert.KernelIdeal.Mid
-- ==== Proof.MidGather.lean ====
/-
  The two gathers of the host stretch, read at an index.

  The sorted positions are a vector of words, each the word of a natural number below 131072.  Before they are used as
  start indices they pass a wrap for negative indices (a word that reads negative gets 131072 added), which leaves such
  words as they are, and are laid out as a column.  A gather through that column reads the operand at the position: the
  start index, read as a signed integer, is the position itself and already lies inside the operand, so the clamp does
  nothing.  Hence the gathered label vector at `e` is the label at the position, and the gathered rows at `(e, c)`
  are the operand's row at the position, column `c`.
-/
import proofs.«100039_j20426864460160_2_alg».proof.Proof.Gen.KernelIdeal
import proofs.«100039_j20426864460160_2_alg».proof.Proof.LibGatherRows
import proofs.«100039_j20426864460160_2_alg».proof.Proof.LibScatterPair
import Idealize.ShloMosaic.Lib.ValueIdx
import Idealize.ShloMosaic.Lib.Pipeline.Value

namespace Cert.KernelIdeal.Mid

open Cert.KernelIdeal Cert.KernelIdeal.Gen
open Idealize.ShloMosaic Idealize.ShloMosaic.ValueIdx
open Cert.Lib.GatherRows Cert.Lib.ScatterPair

/-- The column of start indices made from a vector of position words: the wrap for negative indices, then the
    layout as a column. -/
abbrev startCol (hs : S_.BroadcastsInDim S131072 (![] : Fin 0 → Fin S131072.rank))
    (hc : S131072.BroadcastsInDim S131072x1 (![0] : Fin 1 → Fin S131072x1.rank)) (v : IVec S131072 32) : IVec S131072x1 32 :=
  broadcastInDim S131072x1 ![0] hc
    (select (cmpi CmpIPredicate.slt v (broadcastInDim S131072 ![] hs (constantI S_ 32 0#32)))
      (addi v (broadcastInDim S131072 ![] hs (constantI S_ 32 131072#32))) v)

/-- The column at row `e` holds the position word of `e`, when that word is the word of a natural number below
    2^31: such a word does not read negative, so the wrap keeps it. -/
theorem startCol_apply (hs : S_.BroadcastsInDim S131072 (![] : Fin 0 → Fin S131072.rank))
    (hc : S131072.BroadcastsInDim S131072x1 (![0] : Fin 1 → Fin S131072x1.rank)) (v : IVec S131072 32)
    (e : Fin 131072) (m : Nat) (hm : m < 2 ^ 31) (hv : v (ValueIdx.ix1 e) = BitVec.ofNat 32 m) :
    startCol hs hc v (ix2 e ⟨0, Nat.one_pos⟩) = BitVec.ofNat 32 m := by
  refine (broadcastInDim_apply (![0] : Fin 1 → Fin S131072x1.rank) hc _ (ix2 e ⟨0, Nat.one_pos⟩) (ValueIdx.ix1 e) ?_).trans ?_
  · intro a
    match a with
    | ⟨0, _⟩ =>
      show e.val = if (131072 : Nat) = 1 then 0 else e.val
      rw [if_neg (by omega)]
  · show Scalar.select (IntOp.cmpi .slt (v (ValueIdx.ix1 e)) 0#32) (IntOp.addi (v (ValueIdx.ix1 e)) 131072#32) (v (ValueIdx.ix1 e)) = _
    rw [hv, slt_zero_small m hm, select_zero]

/-- The signed reading of a position word, clamped into the operand, is the position. -/
theorem clamp_pos (m : Nat) (hm : m < 131072) : min (BitVec.ofNat 32 m).toInt.toNat (131072 - 1) = m := by
  rw [toInt_ofNat_small m (by omega), Int.toNat_natCast]
  omega

/-- The labels gathered through a column of position words: at `e` the label at the position. -/
theorem labels_gather_apply {α : Type} (x : S131072.Idx → α) (idx : IVec S131072x1 32) (e : Fin 131072)
    (p : Fin 131072) (h : idx (ix2 e ⟨0, Nat.one_pos⟩) = BitVec.ofNat 32 p.val) :
    Host.gather gather_S131072_S131072x1_S131072_n_0_n_n_0_1_1 x idx (ValueIdx.ix1 e) = x (ValueIdx.ix1 p) := by
  refine (vec_gather_apply (N := 131072) (E := 131072) (by omega)
    gather_S131072_S131072x1_S131072_n_0_n_n_0_1_1_wf x idx e).trans ?_
  refine congrArg x (congrArg ValueIdx.ix1 (Fin.ext ?_))
  show min (idx (ix2 e ⟨0, Nat.one_pos⟩)).toInt.toNat (131072 - 1) = p.val
  rw [h, clamp_pos p.val p.isLt]

/-- The rows gathered through a column of position words: at `(e, c)` the operand's row at the position, column `c`. -/
theorem rows_gather_apply {α : Type} (x : S131072x256.Idx → α) (idx : IVec S131072x1 32) (e : Fin 131072) (c : Fin 256)
    (p : Fin 131072) (h : idx (ix2 e ⟨0, Nat.one_pos⟩) = BitVec.ofNat 32 p.val) :
    Host.gather gather_S131072x256_S131072x1_S131072x256_1_0_n_n_0_1_1256 x idx (ix2 e c) = x (ix2 p c) := by
  refine (row_gather_apply (N := 131072) (E := 131072) (C := 256) (by omega)
    gather_S131072x256_S131072x1_S131072x256_1_0_n_n_0_1_1256_wf x idx e c).trans ?_
  refine congrArg x (congrArg (fun r => ix2 r c) (Fin.ext ?_))
  show min (idx (ix2 e ⟨0, Nat.one_pos⟩)).toInt.toNat (131072 - 1) = p.val
  rw [h, clamp_pos p.val p.isLt]

/-- The labels gathered through the start column of a vector of position words. -/
abbrev sortedLabels (x v : IVec S131072 32) : IVec S131072 32 :=
  Host.gather gather_S131072_S131072x1_S131072_n_0_n_n_0_1_1 x (startCol bcast_S_S131072 bcast_S131072_S131072x1_0 v)

/-- The rows gathered through the start column of a vector of position words. -/
abbrev sortedRows {α : Type} (x : S131072x256.Idx → α) (v : IVec S131072 32) : S131072x256.Idx → α :=
  Host.gather gather_S131072x256_S131072x1_S131072x256_1_0_n_n_0_1_1256 x
    (startCol bcast_S_S131072 bcast_S131072_S131072x1_0 v)

/-- When the position vector holds at `e` the word of `σ e`, the gathered labels at `e` are the label at `σ e`. -/
theorem sortedLabels_apply (x v : IVec S131072 32) (σ : Fin 131072 → Fin 131072)
    (hv : ∀ e : Fin 131072, v (ValueIdx.ix1 e) = BitVec.ofNat 32 (σ e).val) (e : Fin 131072) :
    sortedLabels x v (ValueIdx.ix1 e) = x (ValueIdx.ix1 (σ e)) :=
  labels_gather_apply x _ e (σ e)
    (startCol_apply _ _ v e (σ e).val (by have := (σ e).isLt; omega) (hv e))

/-- … and the gathered rows at `(e, c)` are the operand's row `σ e` at column `c`. -/
theorem sortedRows_apply {α : Type} (x : S131072x256.Idx → α) (v : IVec S131072 32) (σ : Fin 131072 → Fin 131072)
    (hv : ∀ e : Fin 131072, v (ValueIdx.ix1 e) = BitVec.ofNat 32 (σ e).val) (e : Fin 131072) (c : Fin 256) :
    sortedRows x v (ix2 e c) = x (ix2 (σ e) c) :=
  rows_gather_apply x _ e c (σ e)
    (startCol_apply _ _ v e (σ e).val (by have := (σ e).isLt; omega) (hv e))

end Cert.KernelIdeal.Mid
-- ==== Proof.MidTables.lean ====
/-
  The views of the sorted labels and the two tables of the host stretch, read at an index.

  The sorted label vector of length 131072 is viewed as one row of 131072 entries (entry `(0, p)` is entry `p`) and as
  32 tiles of 4096 entries (entry `(b, q)` is entry `4096 b + q`).  Over the tiled view a minimum and a maximum are
  taken along each tile, both in the signed order of the words.  Only their bounding property is used: the minimum of a
  tile is at most every entry of the tile and the maximum at least every entry, whatever value the fold starts from.
-/
import proofs.«100039_j20426864460160_2_alg».proof.Proof.Gen.KernelIdeal
import Idealize.ShloMosaic.Lib.ValueIdx
import Idealize.ShloMosaic.Lib.Pipeline.Value
import Idealize.ShloMosaic.PureOps.Reduce

namespace Cert.KernelIdeal.Mid

open Cert.KernelIdeal Cert.KernelIdeal.Gen
open Idealize.ShloMosaic Idealize.ShloMosaic.ValueIdx

/-! ## The two views -/

/-- The vector viewed as one row: entry `(z, p)` is entry `p`. -/
theorem rowView_apply {α : Type} (x : S131072.Idx → α) (h : S131072.ShapeCasts S1x131072) (z : Fin 1) (p : Fin 131072) :
    shapeCast S1x131072 x h (ix2 z p) = x (ValueIdx.ix1 p) := by
  refine shapeCast_apply x h (ix2 z p) (ValueIdx.ix1 p) ?_
  rw [Shape.rowMajor_val_one, Shape.rowMajor_val_two]
  show p.val = z.val * 131072 + p.val
  have := z.isLt
  omega

/-- The vector viewed as 32 tiles of 4096: entry `(b, q)` is entry `4096 b + q`. -/
theorem tileView_apply {α : Type} (x : S131072.Idx → α) (h : S131072.ShapeCasts S32x4096) (b : Fin 32) (q : Fin 4096) :
    shapeCast S32x4096 x h (ix2 b q) = x (ValueIdx.ix1 ⟨4096 * b.val + q.val, by omega⟩) := by
  refine shapeCast_apply x h (ix2 b q) (ValueIdx.ix1 ⟨4096 * b.val + q.val, by omega⟩) ?_
  rw [Shape.rowMajor_val_one, Shape.rowMajor_val_two]
  show 4096 * b.val + q.val = b.val * 4096 + q.val
  omega

/-! ## Signed minimum and maximum bound what they fold over -/

theorem minsi_le_left (x y : BitVec 32) : (IntOp.minsi x y).toInt ≤ x.toInt := by
  simp only [IntOp.minsi, BitVec.slt, decide_eq_true_eq]
  split_ifs <;> omega

theorem minsi_le_right (x y : BitVec 32) : (IntOp.minsi x y).toInt ≤ y.toInt := by
  simp only [IntOp.minsi, BitVec.slt, decide_eq_true_eq]
  split_ifs <;> omega

theorem le_maxsi_left (x y : BitVec 32) : x.toInt ≤ (IntOp.maxsi x y).toInt := by
  simp only [IntOp.maxsi, BitVec.slt, decide_eq_true_eq]
  split_ifs <;> omega

theorem le_maxsi_right (x y : BitVec 32) : y.toInt ≤ (IntOp.maxsi x y).toInt := by
  simp only [IntOp.maxsi, BitVec.slt, decide_eq_true_eq]
  split_ifs <;> omega

/-- A fold of the signed minimum is at most every element it folds over. -/
theorem fold_minsi_le {ι : Type} (s : Finset ι) (g : ι → BitVec 32) (init : BitVec 32) (k : ι) (hk : k ∈ s) :
    (s.fold IntOp.minsi init g).toInt ≤ (g k).toInt := by
  classical
  induction s using Finset.induction_on with
  | empty => exact absurd hk (Finset.notMem_empty k)
  | insert a s ha ih =>
    rw [Finset.fold_insert ha]
    rcases Finset.mem_insert.mp hk with rfl | hk'
    · exact minsi_le_left _ _
    · exact (minsi_le_right _ _).trans (ih hk')

/-- A fold of the signed maximum is at least every element it folds over. -/
theorem le_fold_maxsi {ι : Type} (s : Finset ι) (g : ι → BitVec 32) (init : BitVec 32) (k : ι) (hk : k ∈ s) :
    (g k).toInt ≤ (s.fold IntOp.maxsi init g).toInt := by
  classical
  induction s using Finset.induction_on with
  | empty => exact absurd hk (Finset.notMem_empty k)
  | insert a s ha ih =>
    rw [Finset.fold_insert ha]
    rcases Finset.mem_insert.mp hk with rfl | hk'
    · exact le_maxsi_left _ _
    · exact (ih hk').trans (le_maxsi_right _ _)

/-! ## The two tables -/

/-- The tile's entries as the reduced axis's coordinates: entry `q` of the fiber over tile `b` is `(b, q)`. -/
theorem tile_lift (h : S32x4096.Reduces [1] S32) (b : Fin 32) (q : Fin 4096) : h.lift (ValueIdx.ix1 b) q = ix2 b q := by
  funext c
  refine Fin.ext ?_
  show h.liftVal (ValueIdx.ix1 b) q.val c = (ix2 b q c).val
  match c with
  | ⟨0, _⟩ => rfl
  | ⟨1, _⟩ => rfl

/-- The table of minima at tile `b` is at most the tile's entry `q`, in the signed order. -/
theorem tileMin_le (x : IVec S32x4096 32) (init : IVec S_ 32) (h' : S32x4096.ReducesTo [1] S32) (hu : 0 < S_.numel)
    (b : Fin 32) (q : Fin 4096) :
    (Host.reduce IntOp.minsi x init h' hu (ValueIdx.ix1 b)).toInt ≤ (x (ix2 b q)).toInt := by
  have h : S32x4096.Reduces [1] S32 := by decide
  rw [Host.reduce_eq_fold_single IntOp.minsi x init h' h hu (ValueIdx.ix1 b)]
  have e := fold_minsi_le Finset.univ (x ∘ h.lift (ValueIdx.ix1 b)) (init (Shape.Idx.first hu)) q (Finset.mem_univ _)
  have e2 : (x ∘ h.lift (ValueIdx.ix1 b)) q = x (ix2 b q) := congrArg x (tile_lift h b q)
  exact le_of_le_of_eq e (congrArg BitVec.toInt e2)

/-- The table of maxima at tile `b` is at least the tile's entry `q`, in the signed order. -/
theorem le_tileMax (x : IVec S32x4096 32) (init : IVec S_ 32) (h' : S32x4096.ReducesTo [1] S32) (hu : 0 < S_.numel)
    (b : Fin 32) (q : Fin 4096) :
    (x (ix2 b q)).toInt ≤ (Host.reduce IntOp.maxsi x init h' hu (ValueIdx.ix1 b)).toInt := by
  have h : S32x4096.Reduces [1] S32 := by decide
  rw [Host.reduce_eq_fold_single IntOp.maxsi x init h' h hu (ValueIdx.ix1 b)]
  have e := le_fold_maxsi Finset.univ (x ∘ h.lift (ValueIdx.ix1 b)) (init (Shape.Idx.first hu)) q (Finset.mem_univ _)
  have e2 : (x ∘ h.lift (ValueIdx.ix1 b)) q = x (ix2 b q) := congrArg x (tile_lift h b q)
  exact le_of_eq_of_le (congrArg BitVec.toInt e2).symm e

end Cert.KernelIdeal.Mid
-- ==== Proof.MidLineSort.lean ====
/-
  What the sort stretch leaves in the buffers the later stretches read, as terms over the memory it starts from.

  The stretch writes three buffers — the position numbers, and the two results of the stable sort of the label words
  paired with the position numbers — and leaves the labels and the normalised rows as they were.
-/
import proofs.«100039_j20426864460160_2_alg».proof.Proof.Gen.KernelIdeal.Launch
import Idealize.ShloMosaic.Lib.StableHlo.Run
import Idealize.ShloMosaic.Lib.ValueIdx

noncomputable section

namespace Cert.KernelIdeal.Mid

open Cert.KernelIdeal Cert.KernelIdeal.Gen
open Idealize.ShloMosaic Idealize.ShloMosaic.TcCoe Idealize.SL.Sem Idealize.ShloMosaic.ValueIdx

/-- The sorted positions: the second result of the stable sort of the labels paired with the position numbers. -/
theorem sortLine_v2 (W : Valuation τ sig (Elt Ideal)) :
    (StableHlo.after (hostOps1_1 (F := Ideal)) W main_v2 : S131072.Idx → BitVec 32)
      = (Host.sort2 S131072 0 comparator_i32_i32_d0 (W main_arg1 : S131072.Idx → BitVec 32) (iotaInDim S131072 32 0)).2 := by
  after_results
  simp only [cast_eq]

/-- The labels are not written. -/
theorem sortLine_arg1 (W : Valuation τ sig (Elt Ideal)) :
    (StableHlo.after (hostOps1_1 (F := Ideal)) W main_arg1 : S131072.Idx → BitVec 32) = W main_arg1 := by
  after_results

/-- The normalised rows are not written. -/
theorem sortLine_v0_0 (W : Valuation τ sig (Elt Ideal)) :
    (StableHlo.after (hostOps1_1 (F := Ideal)) W main_v0_0 : S131072x256.Idx → EReal) = W main_v0_0 := by
  after_results

end Cert.KernelIdeal.Mid

end
-- ==== Proof.MidLineGather.lean ====
/-
  What the gather and table stretch leaves in the two arrays the second region reads through its windows, as the
  operations' own terms over the memory the stretch starts from: the normalised rows gathered through the start column
  made from the sorted positions, and the labels gathered the same way and viewed as one row.
-/
import proofs.«100039_j20426864460160_2_alg».proof.Proof.Gen.KernelIdeal.Launch
import proofs.«100039_j20426864460160_2_alg».proof.Proof.MidGather
import Idealize.ShloMosaic.Lib.StableHlo.Run

noncomputable section

namespace Cert.KernelIdeal.Mid

open Cert.KernelIdeal Cert.KernelIdeal.Gen
open Idealize.ShloMosaic Idealize.ShloMosaic.TcCoe Idealize.SL.Sem Idealize.ShloMosaic.ValueIdx

/-- The gathered rows. -/
theorem tableLine_v16 (W : Valuation τ sig (Elt Ideal)) :
    (StableHlo.after (hostOps1_2 (F := Ideal)) W main_v16 : S131072x256.Idx → EReal)
      = sortedRows (W main_v0_0 : S131072x256.Idx → EReal) (W main_v2 : S131072.Idx → BitVec 32) := by
  after_results

/-- The gathered labels viewed as one row. -/
theorem tableLine_v20 (W : Valuation τ sig (Elt Ideal)) :
    (StableHlo.after (hostOps1_2 (F := Ideal)) W main_v20 : S1x131072.Idx → BitVec 32)
      = shapeCast S1x131072 (sortedLabels (W main_arg1 : S131072.Idx → BitVec 32) (W main_v2 : S131072.Idx → BitVec 32))
          shapeCasts_S131072_S1x131072 := by
  after_results
  rfl

end Cert.KernelIdeal.Mid

end
-- ==== Proof.MidLineTables.lean ====
/-
  What the gather and table stretch leaves in the two tables the second region prefetches, as the operations' own
  terms over the memory the stretch starts from: the gathered labels viewed as 32 tiles of 4096, folded along each tile
  by the signed minimum (from the largest word) and by the signed maximum (from the smallest word).
-/
import proofs.«100039_j20426864460160_2_alg».proof.Proof.Gen.KernelIdeal.Launch
import proofs.«100039_j20426864460160_2_alg».proof.Proof.MidGather
import Idealize.ShloMosaic.Lib.StableHlo.Run

noncomputable section

namespace Cert.KernelIdeal.Mid

open Cert.KernelIdeal Cert.KernelIdeal.Gen
open Idealize.ShloMosaic Idealize.ShloMosaic.TcCoe Idealize.SL.Sem Idealize.ShloMosaic.ValueIdx

/-- The table of tile minima. -/
theorem tableLine_v18 (W : Valuation τ sig (Elt Ideal)) :
    (StableHlo.after (hostOps1_2 (F := Ideal)) W main_v18 : S32.Idx → BitVec 32)
      = Host.reduce IntOp.minsi
          (shapeCast S32x4096 (sortedLabels (W main_arg1 : S131072.Idx → BitVec 32) (W main_v2 : S131072.Idx → BitVec 32))
            shapeCasts_S131072_S32x4096)
          (constantI S_ 32 2147483647#32) reducesTo_S32x4096_S32_d1 h_S_ := by
  after_results
  rfl

/-- The table of tile maxima. -/
theorem tableLine_v19 (W : Valuation τ sig (Elt Ideal)) :
    (StableHlo.after (hostOps1_2 (F := Ideal)) W main_v19 : S32.Idx → BitVec 32)
      = Host.reduce IntOp.maxsi
          (shapeCast S32x4096 (sortedLabels (W main_arg1 : S131072.Idx → BitVec 32) (W main_v2 : S131072.Idx → BitVec 32))
            shapeCasts_S131072_S32x4096)
          (constantI S_ 32 2147483648#32) reducesTo_S32x4096_S32_d1 h_S_ := by
  after_results
  rfl

end Cert.KernelIdeal.Mid

end
-- ==== Proof.HostMiddle.lean ====
/-
  The host stretch between the two regions: the labels are sorted (a stable sort of the label words paired with their
  positions), the labels and the normalised rows are gathered through the sorted positions, and the per-batch-tile minimum
  and maximum of the sorted labels are tabulated.  The sorted positions are a permutation σ of the samples: the gathered
  arrays are the originals read through σ, and every label of batch tile `b` lies between the tile's two table words.
-/
import proofs.«100039_j20426864460160_2_alg».proof.Proof.Gen.KernelIdeal.Launch
import proofs.«100039_j20426864460160_2_alg».proof.Proof.MidSort
import proofs.«100039_j20426864460160_2_alg».proof.Proof.MidGather
import proofs.«100039_j20426864460160_2_alg».proof.Proof.MidTables
import proofs.«100039_j20426864460160_2_alg».proof.Proof.MidLineSort
import proofs.«100039_j20426864460160_2_alg».proof.Proof.MidLineGather
import proofs.«100039_j20426864460160_2_alg».proof.Proof.MidLineTables
import Idealize.ShloMosaic.Lib.StableHlo.Run
import Idealize.ShloMosaic.Lib.ValueIdx
import Idealize.ShloMosaic.Lib.SortFacts

noncomputable section

namespace Cert.KernelIdeal.Mid

open Cert.KernelIdeal Cert.KernelIdeal.Gen
open Idealize.ShloMosaic Idealize.ShloMosaic.TcCoe Idealize.SL.Sem Idealize.ShloMosaic.ValueIdx

/-- After the sort stretch and the gather / table stretch, from any contents `W` of the core's buffers. -/
theorem host_middle (W : Valuation τ sig (Elt Ideal)) :
    ∃ σ : Equiv.Perm (Fin 131072),
      ((StableHlo.after (hostOps1_2 (F := Ideal)) (StableHlo.after (hostOps1_1 (F := Ideal)) W) main_v16 : S131072x256.Idx → EReal)
          = fun j => (W main_v0_0 : S131072x256.Idx → EReal) (ix2 (σ (j 0)) (j 1)))
      ∧ ((StableHlo.after (hostOps1_2 (F := Ideal)) (StableHlo.after (hostOps1_1 (F := Ideal)) W) main_v20 : S1x131072.Idx → BitVec 32)
          = fun j => (W main_arg1 : S131072.Idx → BitVec 32) (ValueIdx.ix1 (σ (j 1))))
      ∧ (∀ (b : Fin 32) (q : Fin 4096),
          ((StableHlo.after (hostOps1_2 (F := Ideal)) (StableHlo.after (hostOps1_1 (F := Ideal)) W) main_v18 : S32.Idx → BitVec 32) (ValueIdx.ix1 b)).toInt
            ≤ ((W main_arg1 : S131072.Idx → BitVec 32) (ValueIdx.ix1 (σ ⟨4096 * b.val + q.val, by omega⟩))).toInt
          ∧ ((W main_arg1 : S131072.Idx → BitVec 32) (ValueIdx.ix1 (σ ⟨4096 * b.val + q.val, by omega⟩))).toInt
            ≤ ((StableHlo.after (hostOps1_2 (F := Ideal)) (StableHlo.after (hostOps1_1 (F := Ideal)) W) main_v19 : S32.Idx → BitVec 32) (ValueIdx.ix1 b)).toInt) := by
  -- what the sort stretch leaves: the sorted positions, and the labels and rows untouched; its memory is then only a name
  have h2 := sortLine_v2 W
  have ha := sortLine_arg1 W
  have h0 := sortLine_v0_0 W
  generalize StableHlo.after (hostOps1_1 (F := Ideal)) W = W1 at h2 ha h0 ⊢
  -- the four buffers as the second stretch's terms over that memory
  rw [tableLine_v16 W1, tableLine_v20 W1, tableLine_v18 W1, tableLine_v19 W1, ha, h0]
  -- the sorting map of the labels paired with the position numbers, and the position vector's words
  have hv : ∀ e : Fin 131072, (W1 main_v2 : S131072.Idx → BitVec 32) (ValueIdx.ix1 e)
      = BitVec.ofNat 32 (sortPos comparator_i32_i32_d0 (W main_arg1 : S131072.Idx → BitVec 32) (iotaInDim S131072 32 0) e).val := by
    intro e
    rw [h2]
    exact argsort_apply comparator_i32_i32_d0 _ (ValueIdx.ix1 e)
  generalize (W1 main_v2 : S131072.Idx → BitVec 32) = v at hv ⊢
  refine ⟨Equiv.ofBijective _ (sortPos_bijective comparator_i32_i32_d0 (W main_arg1 : S131072.Idx → BitVec 32)
    (iotaInDim S131072 32 0)), ?_, ?_, ?_⟩
  · funext j
    obtain ⟨e, c, rfl⟩ : ∃ (e : Fin 131072) (c : Fin 256), j = ix2 e c := ⟨j 0, j 1, eq_ix2 j⟩
    exact sortedRows_apply _ v _ hv e c
  · funext j
    obtain ⟨z, p, rfl⟩ : ∃ (z : Fin 1) (p : Fin 131072), j = ix2 z p := ⟨j 0, j 1, eq_ix2 j⟩
    exact (rowView_apply _ _ z p).trans (sortedLabels_apply _ v _ hv p)
  · intro b q
    have hx := (tileView_apply (sortedLabels (W main_arg1 : S131072.Idx → BitVec 32) v) shapeCasts_S131072_S32x4096 b q).trans
      (sortedLabels_apply _ v _ hv ⟨4096 * b.val + q.val, by omega⟩)
    exact ⟨le_of_le_of_eq (tileMin_le _ _ _ _ b q) (congrArg BitVec.toInt hx),
      le_of_eq_of_le (congrArg BitVec.toInt hx).symm (le_tileMax _ _ _ _ b q)⟩

end Cert.KernelIdeal.Mid

end
-- ==== Proof.NormBlocks.lean ====
/-
  The blocks of the normalising region: at grid point `t` every window takes block `t` of its array along the rows (and
  the only block along the columns), so the input block is rows `4096·t … 4096·t + 4095` of the feature array.
-/
import proofs.«100039_j20426864460160_2_alg».proof.Proof.NormRegionIdeal
import Idealize.ShloMosaic.Lib.Pipeline.Value
import Idealize.ShloMosaic.Lib.ValueIdx

noncomputable section

namespace Cert.KernelIdeal.NormBlocks

open Cert.KernelIdeal Cert.KernelIdeal.Gen Cert.KernelIdeal.Norm
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The three windows' index maps, decided over the 32 grid points: point `t` takes block `t` along the rows and
    block 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := lt_of_lt_of_eq t.isLt N_0

/-- The input block at point `t` is rows `4096·t … 4096·t + 4095` of the feature array. -/
theorem block_apply (c : Dev nD) (t : Fin cfg0.N) (y : S4096x256.Idx) (k : S131072x256.Idx)
    (hk0 : (k 0).val = 4096 * t.val + (y 0).val) (hk1 : (k 1).val = (y 1).val) :
    (blockAt V c 0 t : Vec Ideal S4096x256 .f32) y = (V c main_arg0 : S131072x256.Idx → EReal) k := by
  obtain ⟨e0, e1, -⟩ := idx_facts t
  unfold blockAt
  rw [View.read_apply]
  show V c main_arg0 _ = V c main_arg0 _
  refine congrArg _ (funext fun a => Fin.ext ?_)
  match a with
  | ⟨0, _⟩ => show win0_0.index t 0 * 4096 + 1 * (y 0).val = (k 0).val; rw [e0, hk0]; omega
  | ⟨1, _⟩ => show win0_0.index t 1 * 256 + 1 * (y 1).val = (k 1).val; rw [e1, hk1]; omega

end Cert.KernelIdeal.NormBlocks

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibTileOps.lean ====
/-
  Layout operations on rank-3 arrays read at an index, and a row scaled by its Euclidean norm.

  An `[a, b]` array viewed as `[a, 1, b]` or as `[a, b, 1]`; an array with one unit axis repeated along that axis to
  `[a, b, c]`; the sum over the last axis of an `[a, b, c]` array; an `[a, b, c]` array flattened to `[a, b·c]`; and,
  for an `[a, b]` array of extended reals, each entry divided by the larger of its row's Euclidean norm and a floor.
-/
import Idealize.ShloMosaic.PureOps.Ideal.Laws
import Idealize.ShloMosaic.Lib.ValueIdx
import Idealize.ShloMosaic.Lib.Pipeline.Value
import proofs.«100039_j20426864460160_2_alg».proof.Proof.LibRowOps

noncomputable section

namespace Cert.Lib.TileOps

open Idealize.ShloMosaic Idealize.ShloMosaic.ValueIdx Cert.Lib.RowOps

variable {α : Type}

/-- An `[a, b]` array viewed as `[a, 1, b]` reads, at `(r, 0, d)`, the array at `(r, d)`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- An `[a, b]` array viewed as `[a, b, 1]` reads, at `(r, k, 0)`, the array at `(r, k)`. -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- An `[a, 1, c]` array repeated along its middle axis reads, at `(r, k, d)`, the array at `(r, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (k : Fin b) (d : Fin c) :
    broadcastTo ⟨3, ![a, b, c]⟩ v h (ix3 r k d) = v (ix3 r (0 : Fin 1) d) := by
  refine broadcastTo_apply v h (ix3 r k d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A `[1, b, c]` array repeated along its first axis reads, at `(r, k, d)`, the array at `(0, k, d)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (d : Fin c) :
    broadcastTo ⟨3, ![a, b, c]⟩ v h (ix3 r k d) = v (ix3 (0 : Fin 1) k d) := by
  refine broadcastTo_apply v h (ix3 r k d) (ix3 (0 : Fin 1) k d) fun ax => ?_
  match ax with
  | ⟨0, _⟩ => rfl
  | ⟨1, _⟩ =>
    show k.val = if b = 1 then 0 else k.val
    split
    · have := k.isLt; omega
    · rfl
  | ⟨2, _⟩ =>
    show d.val = if c = 1 then 0 else d.val
    split
    · have := d.isLt; omega
    · rfl

/-- An `[a, b, 1]` array repeated along its last axis reads, at `(r, k, d)`, the array at `(r, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (d : Fin c) :
    broadcastTo ⟨3, ![a, b, c]⟩ v h (ix3 r k d) = v (ix3 r k (0 : Fin 1)) := by
  refine broadcastTo_apply v h (ix3 r k d) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- The sum over the last axis of an `[a, b, c]` array of extended reals, read at `(r, k)`. -/
theorem lastSum3_f32_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (r : Fin a) (k : Fin b) :
    multiReduction .add [2] ⟨2, ![a, b]⟩ src 0x00000000#32 h hφ hacc (ix2 r k) = ∑ d : Fin c, src (ix3 r k d) := by
  refine (Ideal.multiReduction_add_single src _ h hφ hacc (ix2 r k)).trans ?_
  refine Finset.sum_congr rfl fun d _ => congrArg src (funext fun ax => Fin.ext ?_)
  match ax with
  | ⟨0, _⟩ => rfl
  | ⟨1, _⟩ => rfl
  | ⟨2, _⟩ => rfl

/-- An `[a, b, c]` array flattened to `[a, n]`, `n = b·c`: position `j = k·c + d` of row `r` is the entry `(r, k, d)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (r : Fin a) (j : Fin n) (k : Fin b) (d : Fin c)
    (hj : j.val = k.val * c + d.val) :
    shapeCast ⟨2, ![a, n]⟩ x h (ix2 r j) = x (ix3 r k d) :=
  shapeCast_apply x h _ _ (by
    rw [Shape.rowMajor_val_three, Shape.rowMajor_val_two]
    show (r.val * b + k.val) * c + d.val = r.val * n + j.val
    rw [hj, hn]; ring)

/-- Each entry of an `[a, b]` array over the larger of its row's Euclidean norm and a floor `e`, the norm taken as a
    row sum of squares, laid out as a column and repeated along the row. -/
theorem unitRows_apply {a b : ℕ} (x : FVec Ideal ⟨2, ![a, b]⟩ .f32)
    (hr : (⟨2, ![a, b]⟩ : Shape).Reduces [1] ⟨1, ![a]⟩) (hφ : FKind.Formats .f32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf x (broadcastTo ⟨2, ![a, b]⟩ (maximumf (sqrt (shapeCast ⟨2, ![a, 1]⟩
        (multiReduction .add [1] ⟨1, ![a]⟩ (mulf x x) 0x00000000#32 hr hφ hadd) hc)) (broadcast ⟨2, ![a, 1]⟩ e)) hb) (ix2 r c)
      = Ideal.div (x (ix2 r c)) (max (Ideal.sqrt (∑ c' : Fin b, x (ix2 r c') * x (ix2 r c'))) e) := by
  refine congrArg (Ideal.div _) ((broadcastTo_a1_ab_apply _ hb r c).trans ?_)
  exact congrArg (fun s => max (Ideal.sqrt s) e)
    ((shapeCast_a_a1_apply _ hc r 0).trans (rowSum_f32_apply _ hr hφ hadd r))

end Cert.Lib.TileOps

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.LibCoe.lean ====
/-
  Real arithmetic inside the extended reals: the coercion from the reals commutes with every operation the two
  programs apply to real data.

  At the ideal instance a float is an extended real and each operation is exact; on (coercions of) real numbers the
  operations are the real ones: finite sums, sums, differences, products, negation, maxima, division by a nonzero real,
  and the square root of a nonnegative real.  Each statement below rewrites one operation on coercions into the coercion
  of the real operation, so that a value computed from real data can be carried as a single coerced real expression.
-/
import Idealize.ShloMosaic.PureOps.Ideal
import Mathlib

noncomputable section

namespace CenterSpec.Coe

open Idealize.ShloMosaic
open scoped BigOperators

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same, read from the sum of coercions to the coercion of the sum. -/
theorem sum_coe {ι : Type*} (s : Finset ι) (f : ι → ℝ) :
    ∑ i ∈ s, ((f i : ℝ) : EReal) = ((∑ i ∈ s, f i : ℝ) : EReal) := (coe_sum s f).symm

/-- A sum of two reals. -/
theorem add_coe (a b : ℝ) : (a : EReal) + (b : EReal) = ((a + b : ℝ) : EReal) := (EReal.coe_add a b).symm

/-- A difference of two reals. -/
theorem sub_coe (a b : ℝ) : (a : EReal) - (b : EReal) = ((a - b : ℝ) : EReal) := (EReal.coe_sub a b).symm

/-- A product of two reals. -/
theorem mul_coe (a b : ℝ) : (a : EReal) * (b : EReal) = ((a * b : ℝ) : EReal) := (EReal.coe_mul a b).symm

/-- The negative of a real. -/
theorem neg_coe (a : ℝ) : -(a : EReal) = ((-a : ℝ) : EReal) := (EReal.coe_neg a).symm

/-- The maximum of two reals. -/
theorem max_coe (a b : ℝ) : max (a : EReal) (b : EReal) = ((max a b : ℝ) : EReal) :=
  (EReal.coe_strictMono.monotone.map_max (a := a) (b := b)).symm

/-- Division of a real by a nonzero real: division by a nonzero real is multiplication by its reciprocal. -/
theorem div_coe (a : ℝ) {b : ℝ} (hb : b ≠ 0) : Ideal.div (a : EReal) (b : EReal) = ((a / b : ℝ) : EReal) := by
  rw [Ideal.div_coe hb, ← EReal.coe_mul, mul_one_div]

/-- The square root of a nonnegative real. -/
theorem sqrt_coe {a : ℝ} (ha : 0 ≤ a) : Ideal.sqrt (a : EReal) = ((Real.sqrt a : ℝ) : EReal) := by
  rw [Ideal.sqrt_coe, if_neg (not_lt.2 ha)]

/-- The square root of any real that is a sum of squares, the case the row norm needs. -/
theorem sqrt_coe_sum_sq {ι : Type*} (s : Finset ι) (f : ι → ℝ) :
    Ideal.sqrt ((∑ i ∈ s, f i * f i : ℝ) : EReal) = ((Real.sqrt (∑ i ∈ s, f i * f i) : ℝ) : EReal) :=
  sqrt_coe (Finset.sum_nonneg fun i _ => mul_self_nonneg (f i))

/-- A coerced real is never an infinity, and the coercion is injective: two coerced reals are equal exactly when
    the reals are. -/
theorem coe_inj (a b : ℝ) : ((a : ℝ) : EReal) = ((b : ℝ) : EReal) ↔ a = b := EReal.coe_eq_coe_iff

end CenterSpec.Coe

end
-- ==== Proof.NormPay.lean ====
/-
  The two values the row-normalising kernel stores, read entry by entry.

  From a 4096×256 block `x0` of feature rows the kernel forms, row by row, the quotient of each entry by the larger of the
  row's Euclidean norm and a fixed floor, and stores it; and it stores, at every entry of an 8×128 block, the sum of the
  squares of all those quotients divided by 1024.  First over any block of extended reals, then over a block of real
  numbers, where every operation is the real one: the row's sum of squares is a nonnegative real, its square root and the
  maximum with the (positive) floor are reals, the divisor is therefore a positive real, and finite sums of reals are reals.
-/
import proofs.«100039_j20426864460160_2_alg».proof.Proof.Gen.KernelIdeal.Skeleton
import proofs.«100039_j20426864460160_2_alg».proof.Proof.LibRowOps
import proofs.«100039_j20426864460160_2_alg».proof.Proof.LibTileOps
import proofs.«100039_j20426864460160_2_alg».proof.Proof.LibTileStats
import proofs.«100039_j20426864460160_2_alg».proof.Proof.LibCoe
import proofs.«100039_j20426864460160_2_alg».proof.Proof.Literals
import Idealize.ShloMosaic.PureOps.Ideal.Laws
import Idealize.ShloMosaic.Lib.ValueIdx
import Idealize.ShloMosaic.Lib.Pipeline.Value

noncomputable section

namespace Cert.KernelIdeal.NormPay

open Cert.KernelIdeal Cert.KernelIdeal.Gen
open Idealize.ShloMosaic Idealize.ShloMosaic.ValueIdx
open CenterSpec CenterSpec.Coe
open scoped BigOperators

/-- The floor of the row norm and the divisor 1024, as the kernel spells them. -/
abbrev floorE : EReal := Ideal.ofBits .f32 0x2B8CBCCC#32
abbrev kiloE : EReal := Ideal.ofBits .f32 0x44800000#32

/-- The normalised block at row `r`, column `d`: the entry over the larger of the row's norm and the floor. -/
theorem pay1_apply (x0 : FVec Ideal S4096x256 .f32) (r : Fin 4096) (d : Fin 256) :
    k0_pay1 (F := Ideal) x0 (ix2 r d)
      = Ideal.div (x0 (ix2 r d)) (max (Ideal.sqrt (∑ d' : Fin 256, x0 (ix2 r d') * x0 (ix2 r d'))) floorE) := by
  unfold k0_pay1
  exact Cert.Lib.TileOps.unitRows_apply x0 _ _ _ _ _ _ r d

/-- Narrowing to the short format changes nothing at the ideal values: the stored block is the normalised block. -/
theorem pay2_apply (x0 : FVec Ideal S4096x256 .f32) (j : S4096x256.Idx) :
    (k0_pay2 (F := Ideal) x0 : S4096x256.Idx → EReal) j = k0_pay1 (F := Ideal) x0 j := rfl

/-- A one-entry array repeated over the 8×128 block reads that entry everywhere. -/
theorem bcast_11_8x128 {α : Type} (w : S1x1.Idx → α) (h : S1x1.Broadcasts S8x128) (u : Fin 8) (v : Fin 128) :
    broadcastTo S8x128 w h (ix2 u v) = w (ix2 (0 : Fin 1) (0 : Fin 1)) := by
  refine broadcastTo_apply w h (ix2 u v) (ix2 (0 : Fin 1) (0 : Fin 1)) fun ax => ?_
  match ax with
  | ⟨0, _⟩ => rfl
  | ⟨1, _⟩ => rfl

/-- The block of partial sums at any entry: the sum over the block's rows and columns of the squares of the normalised
    entries, over 1024. -/
theorem pay3_apply (x0 : FVec Ideal S4096x256 .f32) (u : Fin 8) (v : Fin 128) :
    k0_pay3 (F := Ideal) x0 (ix2 u v)
      = Ideal.div (∑ r : Fin 4096, ∑ d : Fin 256, k0_pay1 (F := Ideal) x0 (ix2 r d) * k0_pay1 (F := Ideal) x0 (ix2 r d)) kiloE := by
  unfold k0_pay3
  refine (bcast_11_8x128 _ _ u v).trans ?_
  rw [shapeCast_self]
  refine congrArg (fun s => Ideal.div s kiloE) ?_
  refine (Cert.Lib.RowOps.shapeCast_a_a1_apply _ _ (0 : Fin 1) (0 : Fin 1)).trans ?_
  refine (Cert.Lib.TileStats.colSum_f32_apply _ _ _ _ (0 : Fin 1)).trans ?_
  refine Finset.sum_congr rfl fun r _ => ?_
  refine (Cert.Lib.RowOps.shapeCast_a_a1_apply _ _ r (0 : Fin 1)).trans ?_
  exact Cert.Lib.RowOps.rowSum_f32_apply _ _ _ _ r

/-! ## On a block of real numbers -/

/-- The real divisor of a row: the larger of its Euclidean norm and the floor; it is positive. -/
theorem divisor_pos (y : Fin 256 → ℝ) : 0 < max (Real.sqrt (∑ d, y d * y d)) epsR :=
  lt_max_of_lt_right eps_pos

/-- On real rows the normalised entry is the real quotient. -/
theorem pay1_coe (x0 : FVec Ideal S4096x256 .f32) (y : Fin 4096 → Fin 256 → ℝ)
    (hy : ∀ (r : Fin 4096) (d : Fin 256), x0 (ix2 r d) = ((y r d : ℝ) : EReal)) (r : Fin 4096) (d : Fin 256) :
    k0_pay1 (F := Ideal) x0 (ix2 r d) = ((y r d / max (Real.sqrt (∑ d', y r d' * y r d')) epsR : ℝ) : EReal) := by
  rw [pay1_apply]
  have hs : (∑ d' : Fin 256, x0 (ix2 r d') * x0 (ix2 r d')) = ((∑ d' : Fin 256, y r d' * y r d' : ℝ) : EReal) := by
    rw [coe_sum]
    exact Finset.sum_congr rfl fun d' _ => by rw [hy, mul_coe]
  rw [hs, hy, sqrt_coe_sum_sq, show floorE = ((epsR : ℝ) : EReal) from eps_coe, max_coe,
    div_coe _ (ne_of_gt (divisor_pos (y r)))]

/-- On real rows the block of partial sums holds the real sum of the squares of the quotients, over 1024. -/
theorem pay3_coe (x0 : FVec Ideal S4096x256 .f32) (y : Fin 4096 → Fin 256 → ℝ)
    (hy : ∀ (r : Fin 4096) (d : Fin 256), x0 (ix2 r d) = ((y r d : ℝ) : EReal)) (u : Fin 8) (v : Fin 128) :
    k0_pay3 (F := Ideal) x0 (ix2 u v)
      = (((∑ r : Fin 4096, ∑ d : Fin 256,
            (y r d / max (Real.sqrt (∑ d', y r d' * y r d')) epsR) * (y r d / max (Real.sqrt (∑ d', y r d' * y r d')) epsR)) / 1024 : ℝ) : EReal) := by
  rw [pay3_apply]
  have hs : (∑ r : Fin 4096, ∑ d : Fin 256, k0_pay1 (F := Ideal) x0 (ix2 r d) * k0_pay1 (F := Ideal) x0 (ix2 r d))
      = ((∑ r : Fin 4096, ∑ d : Fin 256,
            (y r d / max (Real.sqrt (∑ d', y r d' * y r d')) epsR) * (y r d / max (Real.sqrt (∑ d', y r d' * y r d')) epsR) : ℝ) : EReal) := by
    rw [coe_sum]
    refine Finset.sum_congr rfl fun r _ => ?_
    rw [coe_sum]
    exact Finset.sum_congr rfl fun d _ => by rw [pay1_coe x0 y hy, mul_coe]
  rw [hs, show kiloE = ((1024 : ℝ) : EReal) from lit_1024, div_coe _ (by norm_num : (1024 : ℝ) ≠ 0)]

end Cert.KernelIdeal.NormPay

end
-- ==== Proof.NormCoverRows.lean ====
/-
  The array of normalised rows after the region, as one function of the feature array.

  A row of the output depends only on the same row of the features: point `t` reads rows `4096·t … 4096·t + 4095`, and
  writes their normalised rows back to the same rows.  Row `i` lies in the block of point `i / 4096`, so the 32 blocks
  cover the array, and after the region it holds the normalised rows everywhere.
-/
import proofs.«100039_j20426864460160_2_alg».proof.Proof.NormBlocks
import proofs.«100039_j20426864460160_2_alg».proof.Proof.NormPay
import proofs.«100039_j20426864460160_2_alg».proof.Proof.SpecReal
import Idealize.ShloMosaic.Lib.Pipeline.Value
import Idealize.ShloMosaic.Lib.ValueIdx

noncomputable section

namespace Cert.KernelIdeal.NormCoverRows

open Cert.KernelIdeal Cert.KernelIdeal.Gen Cert.KernelIdeal.Norm Cert.KernelIdeal.NormPay Cert.KernelIdeal.NormBlocks
open Idealize.ShloMosaic Idealize.ShloMosaic.TcCoe Idealize.SL.Sem Idealize.ShloMosaic.ValueIdx
open Idealize.ShloMosaic.Pipeline (Dat)
open CenterSpec
open scoped BigOperators

variable (V : (c : Dev nD) → (b : Ref sig .tc) → Buf (Elt Ideal) ((c : Thread nD τ).loc b))

/-! ## The array of normalised rows -/

/-- The normalised rows as one array over the real features `x`. -/
def G1 (x : Fin 131072 → Fin 256 → ℝ) : S131072x256.Idx → EReal := fun j => ((fR x epsR (j 0) (j 1) : ℝ) : EReal)

theorem G1_ix2 (x : Fin 131072 → Fin 256 → ℝ) (i : Fin 131072) (d : Fin 256) :
    G1 x (ix2 i d) = ((fR x epsR i d : ℝ) : EReal) := rfl

/-- From a block holding rows `4096·t …` of real features, the stored block holds the same rows of `fR`. -/
theorem norm_point (x : Fin 131072 → Fin 256 → ℝ) (x0 : FVec Ideal S4096x256 .f32) (t : ℕ) (ht : t < 32)
    (hx0 : ∀ (r : Fin 4096) (d : Fin 256), x0 (ix2 r d) = ((x ⟨4096 * t + r.val, by omega⟩ d : ℝ) : EReal))
    (r : Fin 4096) (d : Fin 256) :
    (k0_pay2 (F := Ideal) x0 : S4096x256.Idx → EReal) (ix2 r d) = ((fR x epsR ⟨4096 * t + r.val, by omega⟩ d : ℝ) : EReal) := by
  rw [pay2_apply, pay1_coe x0 (fun r d => x ⟨4096 * t + r.val, by omega⟩ d) hx0]
  rfl

/-- The same at any entry `y` of the block and the array index `k` it is written to. -/
theorem norm_point_at (x : Fin 131072 → Fin 256 → ℝ) (x0 : FVec Ideal S4096x256 .f32) (t : ℕ) (ht : t < 32)
    (hx0 : ∀ (r : Fin 4096) (d : Fin 256), x0 (ix2 r d) = ((x ⟨4096 * t + r.val, by omega⟩ d : ℝ) : EReal))
    (y : S4096x256.Idx) (k : S131072x256.Idx) (hk0 : (k 0).val = 4096 * t + (y 0).val) (hk1 : (k 1).val = (y 1).val) :
    (k0_pay2 (F := Ideal) x0 : S4096x256.Idx → EReal) y = G1 x k := by
  obtain ⟨r, d, rfl⟩ : ∃ (r : Fin 4096) (d : Fin 256), y = ix2 r d := ⟨y 0, y 1, eq_ix2 y⟩
  have hlt : 4096 * t + r.val < 131072 := by omega
  obtain ⟨i, d', rfl⟩ : ∃ (i : Fin 131072) (d' : Fin 256), k = ix2 i d' := ⟨k 0, k 1, eq_ix2 k⟩
  have hi : i = ⟨4096 * t + r.val, hlt⟩ := Fin.ext hk0
  have hd : d' = d := Fin.ext hk1
  rw [hi, hd]
  exact norm_point x x0 t ht hx0 r d

/-- What point `t` writes back to the array of normalised rows is block `t` of `G1`. -/
theorem flushed1_eq (c : Dev nD) (x : Fin 131072 → Fin 256 → ℝ)
    (hX : ∀ (i : Fin 131072) (d : Fin 256), (V c main_arg0 : S131072x256.Idx → EReal) (ix2 i d) = ((x i d : ℝ) : EReal))
    (t : Fin cfg0.N) :
    (dat0 (F := Ideal) V c).flushed 1 t = ((cfg0.win 1).blk t).view.read (Elt Ideal) (G1 x) := by
  show (cfg0.win 1).cut (grid0.coords t) ((dat0 (F := Ideal) V c).after 1 t) = _
  rw [dat0_after1]
  unfold normOut
  rw [View.canon_unit_zero hz]
  simp only [View.ld_unit_zero (S := S4096x256) hz]
  funext y
  have ht : t.val < 32 := point_lt t
  obtain ⟨-, -, f0, f1, -⟩ := idx_facts t
  show (k0_pay2 (F := Ideal) (blockAt V c 0 t) : S4096x256.Idx → EReal) y = G1 x (((cfg0.win 1).blk t).view.emb y)
  refine norm_point_at x (blockAt V c 0 t) t.val ht ?_ y (((cfg0.win 1).blk t).view.emb y) ?_ ?_
  · intro r d
    rw [block_apply V c t (ix2 r d) (ix2 ⟨4096 * t.val + r.val, by omega⟩ d) rfl rfl]
    exact hX _ _
  · show win0_1.index t 0 * 4096 + 1 * (y 0).val = 4096 * t.val + (y 0).val
    rw [f0]; omega
  · show win0_1.index t 1 * 256 + 1 * (y 1).val = (y 1).val
    rw [f1]; omega

/-- An index of the array is in point `t`'s block iff each coordinate is in the block's range on its axis. -/
theorem mem_blk1 (t : Fin cfg0.N) (i : S131072x256.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v0_0).slice (win0_1.rect t)).set ↔ _
  rw [View.set_slice_whole, Rect.mem_set_unit]
  exact Iff.rfl

/-- Row `i` lies in the block of point `i / 4096`. -/
theorem cover1 (i : S131072x256.Idx) :
    ∃ t : Fin cfg0.N, (cfg0.win 1).flush t = true ∧ i ∈ ((cfg0.win 1).blk t).view.set := by
  have hi0 : (i 0).val < 131072 := idx2_lt0 i
  have hi1 : (i 1).val < 256 := idx2_lt1 i
  have hN : cfg0.N = 32 := N_0
  have hq : (i 0).val / 4096 < cfg0.N := by rw [hN]; omega
  obtain ⟨-, -, f0, f1, -⟩ := idx_facts ⟨(i 0).val / 4096, hq⟩
  refine ⟨⟨(i 0).val / 4096, hq⟩, flush0_1 _, ?_⟩
  rw [mem_blk1]
  intro a
  match a with
  | ⟨0, _⟩ =>
    show win0_1.index ⟨(i 0).val / 4096, hq⟩ (0 : Fin 2) * 4096 ≤ (i 0).val ∧ (i 0).val < win0_1.index ⟨(i 0).val / 4096, hq⟩ (0 : Fin 2) * 4096 + 4096
    rw [f0]; show (i 0).val / 4096 * 4096 ≤ (i 0).val ∧ (i 0).val < (i 0).val / 4096 * 4096 + 4096; omega
  | ⟨1, _⟩ =>
    show win0_1.index ⟨(i 0).val / 4096, hq⟩ (1 : Fin 2) * 256 ≤ (i 1).val ∧ (i 1).val < win0_1.index ⟨(i 0).val / 4096, hq⟩ (1 : Fin 2) * 256 + 256
    rw [f1]; omega

/-- The array of normalised rows after the region. -/
theorem final1 (c : Dev nD) (x : Fin 131072 → Fin 256 → ℝ)
    (hX : ∀ (i : Fin 131072) (d : Fin 256), (V c main_arg0 : S131072x256.Idx → EReal) (ix2 i d) = ((x i d : ℝ) : EReal)) :
    (dat0 (F := Ideal) V c).arrAt 1 cfg0.N = G1 x :=
  (dat0 (F := Ideal) V c).arrAt_eq_of_cover 1 (G1 x) (fun t _ => flushed1_eq V c x hX t) cover1

end Cert.KernelIdeal.NormCoverRows

end
-- ==== Proof.NormCoverPart.lean ====
/-
  The array of partial sums after the region, as one function of the feature array.

  Point `t` reads rows `4096·t … 4096·t + 4095` of the features and writes, to every entry of rows `8·t … 8·t + 7` of the
  array of partial sums, the sum of the squares of those rows' normalised entries divided by 1024.  An entry in row `j`
  therefore holds the value of tile `j / 8`; row `j` lies in the block of point `j / 8`, so the 32 blocks cover the array.
-/
import proofs.«100039_j20426864460160_2_alg».proof.Proof.NormBlocks
import proofs.«100039_j20426864460160_2_alg».proof.Proof.NormPay
import proofs.«100039_j20426864460160_2_alg».proof.Proof.SpecReal
import Idealize.ShloMosaic.Lib.Pipeline.Value
import Idealize.ShloMosaic.Lib.ValueIdx

noncomputable section

namespace Cert.KernelIdeal.NormCoverPart

open Cert.KernelIdeal Cert.KernelIdeal.Gen Cert.KernelIdeal.Norm Cert.KernelIdeal.NormPay Cert.KernelIdeal.NormBlocks
open Idealize.ShloMosaic Idealize.ShloMosaic.TcCoe Idealize.SL.Sem Idealize.ShloMosaic.ValueIdx
open Idealize.ShloMosaic.Pipeline (Dat)
open CenterSpec
open scoped BigOperators

variable (V : (c : Dev nD) → (b : Ref sig .tc) → Buf (Elt Ideal) ((c : Thread nD τ).loc b))

/-- The sum of the squares of the normalised entries of tile `t`: rows `4096·t … 4096·t + 4095`. -/
def tileSq (x : Fin 131072 → Fin 256 → ℝ) (t : ℕ) (ht : t < 32) : ℝ :=
  ∑ r : Fin 4096, ∑ d : Fin 256, fR x epsR ⟨4096 * t + r.val, by omega⟩ d * fR x epsR ⟨4096 * t + r.val, by omega⟩ d

theorem tileSq_congr (x : Fin 131072 → Fin 256 → ℝ) (t t' : ℕ) (ht : t < 32) (ht' : t' < 32) (h : t = t') :
    tileSq x t ht = tileSq x t' ht' := by subst h; rfl

/-- The partial sums as one array over the real features `x`: row `j` holds tile `j / 8`'s value over 1024. -/
def G2 (x : Fin 131072 → Fin 256 → ℝ) : S256x128.Idx → EReal :=
  fun j => ((tileSq x ((j 0).val / 8) (by have := idx2_lt0 j; omega) / 1024 : ℝ) : EReal)

/-- At a row of tile `t`'s block the array of partial sums holds tile `t`'s value. -/
theorem G2_of_row (x : Fin 131072 → Fin 256 → ℝ) (k : S256x128.Idx) (t : ℕ) (ht : t < 32) (u : ℕ) (hu : u < 8)
    (hk : (k 0).val = 8 * t + u) : G2 x k = ((tileSq x t ht / 1024 : ℝ) : EReal) := by
  unfold G2
  rw [tileSq_congr x ((k 0).val / 8) t _ ht (by omega)]

/-- From a block holding rows `4096·t …` of real features, every entry of the stored 8×128 block holds tile `t`'s value. -/
theorem part_point (x : Fin 131072 → Fin 256 → ℝ) (x0 : FVec Ideal S4096x256 .f32) (t : ℕ) (ht : t < 32)
    (hx0 : ∀ (r : Fin 4096) (d : Fin 256), x0 (ix2 r d) = ((x ⟨4096 * t + r.val, by omega⟩ d : ℝ) : EReal))
    (u : Fin 8) (v : Fin 128) :
    k0_pay3 (F := Ideal) x0 (ix2 u v) = ((tileSq x t ht / 1024 : ℝ) : EReal) := by
  rw [pay3_coe x0 (fun r d => x ⟨4096 * t + r.val, by omega⟩ d) hx0]
  rfl

/-- The same at any entry `y` of the block and the array index `k` it is written to. -/
theorem part_point_at (x : Fin 131072 → Fin 256 → ℝ) (x0 : FVec Ideal S4096x256 .f32) (t : ℕ) (ht : t < 32)
    (hx0 : ∀ (r : Fin 4096) (d : Fin 256), x0 (ix2 r d) = ((x ⟨4096 * t + r.val, by omega⟩ d : ℝ) : EReal))
    (y : S8x128.Idx) (k : S256x128.Idx) (hk0 : (k 0).val = 8 * t + (y 0).val) :
    (k0_pay3 (F := Ideal) x0 : S8x128.Idx → EReal) y = G2 x k := by
  have hy : (y 0).val < 8 := idx2_lt0 y
  rw [G2_of_row x k t ht (y 0).val hy hk0]
  obtain ⟨u, v, rfl⟩ : ∃ (u : Fin 8) (v : Fin 128), y = ix2 u v := ⟨y 0, y 1, eq_ix2 y⟩
  exact part_point x x0 t ht hx0 u v

/-- What point `t` writes back to the array of partial sums is block `t` of `G2`. -/
theorem flushed2_eq (c : Dev nD) (x : Fin 131072 → Fin 256 → ℝ)
    (hX : ∀ (i : Fin 131072) (d : Fin 256), (V c main_arg0 : S131072x256.Idx → EReal) (ix2 i d) = ((x i d : ℝ) : EReal))
    (t : Fin cfg0.N) :
    (dat0 (F := Ideal) V c).flushed 2 t = ((cfg0.win 2).blk t).view.read (Elt Ideal) (G2 x) := by
  show (cfg0.win 2).cut (grid0.coords t) ((dat0 (F := Ideal) V c).after 2 t) = _
  rw [dat0_after2]
  unfold partOut
  rw [View.canon_unit_zero hz]
  simp only [View.ld_unit_zero (S := S4096x256) hz]
  funext y
  have ht : t.val < 32 := point_lt t
  obtain ⟨-, -, -, -, g0, -⟩ := idx_facts t
  show (k0_pay3 (F := Ideal) (blockAt V c 0 t) : S8x128.Idx → EReal) y = G2 x (((cfg0.win 2).blk t).view.emb y)
  refine part_point_at x (blockAt V c 0 t) t.val ht ?_ y (((cfg0.win 2).blk t).view.emb y) ?_
  · intro r d
    rw [block_apply V c t (ix2 r d) (ix2 ⟨4096 * t.val + r.val, by omega⟩ d) rfl rfl]
    exact hX _ _
  · show win0_2.index t 0 * 8 + 1 * (y 0).val = 8 * t.val + (y 0).val
    rw [g0]; omega

/-- An index of the array is in point `t`'s block iff each coordinate is in the block's range on its axis. -/
theorem mem_blk2 (t : Fin cfg0.N) (i : S256x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Row `j` lies in the block of point `j / 8`. -/
theorem cover2 (i : S256x128.Idx) :
    ∃ t : Fin cfg0.N, (cfg0.win 2).flush t = true ∧ i ∈ ((cfg0.win 2).blk t).view.set := by
  have hi0 : (i 0).val < 256 := idx2_lt0 i
  have hi1 : (i 1).val < 128 := idx2_lt1 i
  have hN : cfg0.N = 32 := N_0
  have hq : (i 0).val / 8 < cfg0.N := by rw [hN]; omega
  obtain ⟨-, -, -, -, g0, g1⟩ := idx_facts ⟨(i 0).val / 8, hq⟩
  refine ⟨⟨(i 0).val / 8, hq⟩, flush0_2 _, ?_⟩
  rw [mem_blk2]
  intro a
  match a with
  | ⟨0, _⟩ =>
    show win0_2.index ⟨(i 0).val / 8, hq⟩ (0 : Fin 2) * 8 ≤ (i 0).val ∧ (i 0).val < win0_2.index ⟨(i 0).val / 8, hq⟩ (0 : Fin 2) * 8 + 8
    rw [g0]; show (i 0).val / 8 * 8 ≤ (i 0).val ∧ (i 0).val < (i 0).val / 8 * 8 + 8; omega
  | ⟨1, _⟩ =>
    show win0_2.index ⟨(i 0).val / 8, hq⟩ (1 : Fin 2) * 128 ≤ (i 1).val ∧ (i 1).val < win0_2.index ⟨(i 0).val / 8, hq⟩ (1 : Fin 2) * 128 + 128
    rw [g1]; omega

/-- The array of partial sums after the region. -/
theorem final2 (c : Dev nD) (x : Fin 131072 → Fin 256 → ℝ)
    (hX : ∀ (i : Fin 131072) (d : Fin 256), (V c main_arg0 : S131072x256.Idx → EReal) (ix2 i d) = ((x i d : ℝ) : EReal)) :
    (dat0 (F := Ideal) V c).arrAt 2 cfg0.N = G2 x :=
  (dat0 (F := Ideal) V c).arrAt_eq_of_cover 2 (G2 x) (fun t _ => flushed2_eq V c x hX t) cover2

end Cert.KernelIdeal.NormCoverPart

end
-- ==== Proof.NormSum.lean ====
/-
  The host's sum of the array of partial sums.

  The 256×128 array is 32 blocks of 8×128 = 1024 entries; when block `t` is constantly `p t / 1024` the sum of the whole
  array, taken from zero, is Σ_t 1024 · (p t / 1024) = Σ_t p t.  The sum over both axes is the double sum over the
  coordinates, and the 256 rows are 32 groups of 8.
-/
import proofs.«100039_j20426864460160_2_alg».proof.Proof.Gen.KernelIdeal
import proofs.«100039_j20426864460160_2_alg».proof.Proof.LibCoe
import proofs.«100039_j20426864460160_2_alg».proof.Proof.Literals
import Idealize.ShloMosaic.PureOps.Ideal.Laws
import Idealize.ShloMosaic.Lib.ValueIdx
import Idealize.ShloMosaic.Lib.IdealHost

noncomputable section

namespace Cert.KernelIdeal.NormSum

open Cert.KernelIdeal Cert.KernelIdeal.Gen
open Idealize.ShloMosaic Idealize.ShloMosaic.ValueIdx
open CenterSpec CenterSpec.Coe
open scoped BigOperators

/-- A sum over 256 rows, in 32 groups of 8 consecutive rows. -/
theorem sum_rows_grouped {M : Type*} [AddCommMonoid M] (g : Fin 256 → M) :
    ∑ a : Fin 256, g a = ∑ t : Fin 32, ∑ u : Fin 8, g ⟨8 * t.val + u.val, by omega⟩ := by
  rw [← Equiv.sum_comp (finProdFinEquiv (m := 32) (n := 8)) g, Fintype.sum_prod_type]
  refine Finset.sum_congr rfl fun t _ => Finset.sum_congr rfl fun u _ => congrArg g (Fin.ext ?_)
  show u.val + 8 * t.val = 8 * t.val + u.val
  omega

/-- 1024 copies of `q / 1024` add up to `q`. -/
theorem sum_block_const (q : ℝ) : ∑ _u : Fin 8, ∑ _v : Fin 128, q / 1024 = q := by
  simp only [Finset.sum_const, Finset.card_univ, Fintype.card_fin, nsmul_eq_mul]
  push_cast
  ring

/-- The host's sum over a whole 256×128 array whose 8×128 block `t` is constantly `p t / 1024`: the sum of the `p t`. -/
theorem sumsq (P : FVec Ideal S256x128 .f32) (p : Fin 32 → ℝ)
    (hP : ∀ (t : Fin 32) (u : Fin 8) (v : Fin 128), P (ix2 (⟨8 * t.val + u.val, by omega⟩ : Fin 256) v) = ((p t / 1024 : ℝ) : EReal)) :
    Host.reduceAdd (F := Ideal) P (constant (F := Ideal) S_ .f32 0x00000000#32) reducesTo_S256x128_S_d0_1 h_S_
      = fun _ => ((∑ t, p t : ℝ) : EReal) := by
  funext j
  rw [hostReduceAdd_apply, Ideal.hostReduceAdd_total reducesTo_S256x128_S_d0_1 (fun b => b.elim0)]
  have h0 : (constant (F := Ideal) S_ .f32 0x00000000#32) (Shape.Idx.first h_S_) = 0 := Ideal.ofBits_zero_f32
  rw [h0, zero_add, sum_idx2, sum_rows_grouped]
  have hs : (∑ t : Fin 32, ∑ u : Fin 8, ∑ v : Fin 128, P (ix2 (⟨8 * t.val + u.val, by omega⟩ : Fin 256) v))
      = ∑ t : Fin 32, ((p t : ℝ) : EReal) := by
    refine Finset.sum_congr rfl fun t _ => ?_
    have : (∑ u : Fin 8, ∑ v : Fin 128, P (ix2 (⟨8 * t.val + u.val, by omega⟩ : Fin 256) v))
        = ((∑ _u : Fin 8, ∑ _v : Fin 128, p t / 1024 : ℝ) : EReal) := by
      rw [coe_sum]
      refine Finset.sum_congr rfl fun u _ => ?_
      rw [coe_sum]
      exact Finset.sum_congr rfl fun v _ => hP t u v
    rw [this, sum_block_const]
  rw [hs, sum_coe]

end Cert.KernelIdeal.NormSum

end
-- ==== Proof.NormValue.lean ====
/-
  What the normalising region leaves in its two arrays, entry by entry, when the features are real numbers: the array of
  normalised rows holds `fR`, and every entry of the 8×128 block of batch tile `t` of the array of partial sums holds the
  sum of the squares of the tile's 4096 normalised rows divided by 1024; summed over the whole array these give back
  the sum of the tiles' sums.
-/
import proofs.«100039_j20426864460160_2_alg».proof.Proof.NormRegionIdeal
import proofs.«100039_j20426864460160_2_alg».proof.Proof.SpecReal
import proofs.«100039_j20426864460160_2_alg».proof.Proof.Literals
import proofs.«100039_j20426864460160_2_alg».proof.Proof.NormCoverRows
import proofs.«100039_j20426864460160_2_alg».proof.Proof.NormCoverPart
import proofs.«100039_j20426864460160_2_alg».proof.Proof.NormSum
import Idealize.ShloMosaic.Lib.Pipeline.Value
import Idealize.ShloMosaic.Lib.ValueIdx
import Idealize.ShloMosaic.PureOps.Ideal.Laws

noncomputable section

namespace Cert.KernelIdeal.NormValue

open Cert.KernelIdeal Cert.KernelIdeal.Gen Cert.KernelIdeal.Norm
open Idealize.ShloMosaic Idealize.ShloMosaic.TcCoe Idealize.SL.Sem Idealize.ShloMosaic.ValueIdx
open CenterSpec

variable (V : (c : Dev nD) → (b : Ref sig .tc) → Buf (Elt Ideal) ((c : Thread nD τ).loc b))

/-- The array of normalised rows after the region, at row `i`, column `d`. -/
theorem norm_final_coe (c : Dev nD) (x : Fin 131072 → Fin 256 → ℝ)
    (hX : ∀ (i : Fin 131072) (d : Fin 256), (V c main_arg0 : S131072x256.Idx → EReal) (ix2 i d) = ((x i d : ℝ) : EReal))
    (i : Fin 131072) (d : Fin 256) :
    ((dat0 (F := Ideal) V c).arrAt 1 cfg0.N : S131072x256.Idx → EReal) (ix2 i d) = ((fR x epsR i d : ℝ) : EReal) :=
  (congrFun (NormCoverRows.final1 V c x hX) (ix2 i d)).trans (NormCoverRows.G1_ix2 x i d)

/-- The array of partial sums after the region, at entry (u, v) of batch tile `t`'s block. -/
theorem part_final_coe (c : Dev nD) (x : Fin 131072 → Fin 256 → ℝ)
    (hX : ∀ (i : Fin 131072) (d : Fin 256), (V c main_arg0 : S131072x256.Idx → EReal) (ix2 i d) = ((x i d : ℝ) : EReal))
    (t : Fin 32) (u : Fin 8) (v : Fin 128) :
    ((dat0 (F := Ideal) V c).arrAt 2 cfg0.N : S256x128.Idx → EReal) (ix2 (⟨8 * t.val + u.val, by omega⟩ : Fin 256) v)
      = (((∑ r : Fin 4096, ∑ d : Fin 256, fR x epsR ⟨4096 * t.val + r.val, by omega⟩ d * fR x epsR ⟨4096 * t.val + r.val, by omega⟩ d) / 1024 : ℝ) : EReal) := by
  refine (congrFun (NormCoverPart.final2 V c x hX) _).trans ?_
  refine (NormCoverPart.G2_of_row x _ t.val t.isLt u.val u.isLt rfl).trans ?_
  rfl

/-- The host's sum over a whole 256×128 array whose 8×128 block `t` is constantly `p t / 1024`: the sum of the `p t`. -/
theorem sumsq_coe (P : FVec Ideal S256x128 .f32) (p : Fin 32 → ℝ)
    (hP : ∀ (t : Fin 32) (u : Fin 8) (v : Fin 128), P (ix2 (⟨8 * t.val + u.val, by omega⟩ : Fin 256) v) = ((p t / 1024 : ℝ) : EReal)) :
    Host.reduceAdd (F := Ideal) P (constant (F := Ideal) S_ .f32 0x00000000#32) reducesTo_S256x128_S_d0_1 h_S_
      = fun _ => ((∑ t, p t : ℝ) : EReal) :=
  NormSum.sumsq P p hP

end Cert.KernelIdeal.NormValue

end
-- ==== Proof.KernelMid.lean ====
/-
  What the second region is entered from, on real data.

  Between the regions the host sorts the samples by label.  With σ the sorting bijection of the samples, the buffer of
  gathered rows holds the normalised rows `fR` read through σ, the buffer of gathered labels holds the label words read through
  σ, the centers are as launched, and the two tables bound, batch tile by batch tile, the labels of the tile's samples.
-/
import proofs.«100039_j20426864460160_2_alg».proof.Proof.MainTables
import proofs.«100039_j20426864460160_2_alg».proof.Proof.MainRegion0
import proofs.«100039_j20426864460160_2_alg».proof.Proof.HostMiddle
import proofs.«100039_j20426864460160_2_alg».proof.Proof.NormValue
import Idealize.ShloMosaic.Lib.ValueIdx

noncomputable section

namespace Cert.KernelIdeal.KernelMid

open Cert.KernelIdeal Cert.KernelIdeal.Gen Cert.KernelIdeal.MainRun
open Idealize.ShloMosaic Idealize.ShloMosaic.TcCoe Idealize.SL.Sem Idealize.ShloMosaic.ValueIdx
open CenterSpec

variable (m : (ℓ : Loc nD τ sig) → Buf (Elt Ideal) ℓ)

/-- Before the sort the rows buffer holds what the first region left. -/
theorem W_rows (c : Dev nD) :
    Gen.V2 m (outs1 m) c main_v0_0 = (Norm.dat0 (Vin0 m) c).arrAt 1 cfg0.N :=
  (Gen.V2_of m (outs1 m) c main_v0_0 (by decide)).trans ((V1_v0_0 m (outs1 m) c).trans (outs1_v0_0 m 1 c))

/-- Before the sort the labels are as launched. -/
theorem W_labels (c : Dev nD) : Gen.V2 m (outs1 m) c main_arg1 = m ((c.tc : Thread nD τ).loc main_arg1) :=
  (Gen.V2_of m (outs1 m) c main_arg1 (by decide)).trans ((Gen.V1_of m (outs1 m) c main_arg1 (by decide)).trans rfl)

/-- The second region is entered with the centers as launched. -/
theorem entry_centers (c : Dev nD) : Vin1 m c main_arg2 = m ((c.tc : Thread nD τ).loc main_arg2) :=
  (Gen.V4_of m (outs1 m) c main_arg2 (by decide)).trans <| (Gen.V3_of m (outs1 m) c main_arg2 (by decide)).trans <|
    (Gen.V2_of m (outs1 m) c main_arg2 (by decide)).trans <| (Gen.V1_of m (outs1 m) c main_arg2 (by decide)).trans rfl

/-- The second region's entry on real data. -/
theorem entry_facts (x : Fin 131072 → Fin 256 → ℝ) (l : Fin 131072 → Fin 50000)
    (hX : ∀ (c : Dev nD) (i : Fin 131072) (d : Fin 256), (m ((c.tc : Thread nD τ).loc main_arg0) : S131072x256.Idx → EReal) (ix2 i d) = ((x i d : ℝ) : EReal))
    (hL : ∀ (c : Dev nD) (i : Fin 131072), (m ((c.tc : Thread nD τ).loc main_arg1) : S131072.Idx → BitVec 32) (ValueIdx.ix1 i) = BitVec.ofNat 32 (l i).val)
    (c : Dev nD) :
    ∃ σ : Equiv.Perm (Fin 131072),
      (∀ (p : Fin 131072) (d : Fin 256), (Vin1 m c main_v16 : S131072x256.Idx → EReal) (ix2 p d) = ((fR x epsR (σ p) d : ℝ) : EReal))
      ∧ (∀ p : Fin 131072, (Vin1 m c main_v20 : S1x131072.Idx → BitVec 32) (ix2 (0 : Fin 1) p) = BitVec.ofNat 32 (l (σ p)).val)
      ∧ (∀ (b : Fin 32) (q : Fin 4096),
          ((Vin1 m c main_v18 : S32.Idx → BitVec 32) (ValueIdx.ix1 b)).toInt ≤ (BitVec.ofNat 32 (l (σ ⟨4096 * b.val + q.val, by omega⟩)).val).toInt
          ∧ (BitVec.ofNat 32 (l (σ ⟨4096 * b.val + q.val, by omega⟩)).val).toInt ≤ ((Vin1 m c main_v19 : S32.Idx → BitVec 32) (ValueIdx.ix1 b)).toInt) := by
  obtain ⟨σ, h16, h20, hT⟩ := Cert.KernelIdeal.Mid.host_middle (Gen.V2 m (outs1 m) c)
  have hr : ∀ (i : Fin 131072) (d : Fin 256), (Gen.V2 m (outs1 m) c main_v0_0 : S131072x256.Idx → EReal) (ix2 i d) = ((fR x epsR i d : ℝ) : EReal) := by
    intro i d
    rw [W_rows m c]
    exact NormValue.norm_final_coe (Vin0 m) c x (hX c) i d
  have hl : ∀ i : Fin 131072, (Gen.V2 m (outs1 m) c main_arg1 : S131072.Idx → BitVec 32) (ValueIdx.ix1 i) = BitVec.ofNat 32 (l i).val := by
    intro i
    rw [W_labels m c]
    exact hL c i
  refine ⟨σ, fun p d => ?_, fun p => ?_, fun b q => ?_⟩
  · exact (congrFun h16 (ix2 p d)).trans (hr (σ p) d)
  · exact (congrFun h20 (ix2 (0 : Fin 1) p)).trans (hl (σ p))
  · have := hT b q
    rw [hl] at this
    exact this

end Cert.KernelIdeal.KernelMid

end
-- ==== Proof.KernelAlg.lean ====
/-
  The kernel's arrangement of the two results, on real data, as the reference's.

  The kernel sums the squares of the normalised rows batch tile by batch tile (32 tiles of 4096 rows) and the classes' shares
  of the loss class tile by class tile (50 tiles of 1000 classes); a sum over all rows, or all classes, is the sum over the
  tiles of the sums inside each tile.  The kernel also sees the samples in sorted order, that is, relabelled by a bijection
  σ; counts and per-class sums do not see such a relabelling, so every class's share and every updated center is what it is
  for the samples in their own order.  With the two arrangements' equality this gives the reference's loss and centers.
-/
import proofs.«100039_j20426864460160_2_alg».proof.Proof.SpecReal

open Finset BigOperators CenterLoss

namespace CenterSpec.KernelAlg

/-- A sum over 131072 rows, in 32 tiles of 4096 consecutive rows. -/
theorem sum_row_tiles {M : Type*} [AddCommMonoid M] (g : Fin 131072 → M) :
    ∑ i : Fin 131072, g i = ∑ t : Fin 32, ∑ r : Fin 4096, g ⟨4096 * t.val + r.val, by omega⟩ := by
  rw [← Equiv.sum_comp (finProdFinEquiv (m := 32) (n := 4096)) g, Fintype.sum_prod_type]
  refine Finset.sum_congr rfl fun t _ => Finset.sum_congr rfl fun r _ => congrArg g (Fin.ext ?_)
  show r.val + 4096 * t.val = 4096 * t.val + r.val
  omega

/-- A sum over 50000 classes, in 50 tiles of 1000 consecutive classes. -/
theorem sum_class_tiles {M : Type*} [AddCommMonoid M] (g : Fin 50000 → M) :
    ∑ k : Fin 50000, g k = ∑ cb : Fin 50, ∑ k' : Fin 1000, g ⟨1000 * cb.val + k'.val, by omega⟩ := by
  rw [← Equiv.sum_comp (finProdFinEquiv (m := 50) (n := 1000)) g, Fintype.sum_prod_type]
  refine Finset.sum_congr rfl fun t _ => Finset.sum_congr rfl fun r _ => congrArg g (Fin.ext ?_)
  show r.val + 1000 * t.val = 1000 * t.val + r.val
  omega

variable (l : Fin 131072 → Fin 50000) (cen : Fin 50000 → Fin 256 → ℝ) (f : Fin 131072 → Fin 256 → ℝ)
  (σ : Equiv.Perm (Fin 131072))

/-- A class's share of the loss does not see the order of the samples. -/
theorem qK_perm (k : Fin 50000) : qK (fun p => l (σ p)) cen (fun p => f (σ p)) k = qK l cen f k := by
  unfold qK
  rw [cnt_perm σ l k]
  simp only [seg_perm σ l f k]

/-- An updated center does not see the order of the samples. -/
theorem newcK_perm (k : Fin 50000) (d : Fin 256) :
    newcK (fun p => l (σ p)) cen (fun p => f (σ p)) k d = newcK l cen f k d := by
  unfold newcK wR
  rw [cnt_perm σ l k, seg_perm σ l f k d]

/-- The kernel's loss, tile by tile and in sorted order, is the reference's. -/
theorem loss_tiles (x : Fin 131072 → Fin 256 → ℝ) (e : ℝ) :
    ((∑ t : Fin 32, ∑ r : Fin 4096, ∑ d : Fin 256,
          fR x e ⟨4096 * t.val + r.val, by omega⟩ d * fR x e ⟨4096 * t.val + r.val, by omega⟩ d)
        + ∑ cb : Fin 50, ∑ k' : Fin 1000,
          qK (fun p => l (σ p)) cen (fun p => fR x e (σ p)) ⟨1000 * cb.val + k'.val, by omega⟩) / 131072
      = lossR x l cen e := by
  rw [← lossK_eq x l cen e]
  unfold lossK sumsqK
  rw [sum_row_tiles (fun i => ∑ d, fR x e i d * fR x e i d), sum_class_tiles (fun k => qK l cen (fR x e) k)]
  simp only [qK_perm l cen (fR x e) σ]

/-- The kernel's updated centers, in sorted order, are the reference's. -/
theorem newc_sorted (x : Fin 131072 → Fin 256 → ℝ) (e : ℝ) (k : Fin 50000) (d : Fin 256) :
    newcK (fun p => l (σ p)) cen (fun p => fR x e (σ p)) k d = newcR x l cen e k d := by
  rw [newcK_perm l cen (fR x e) σ k d, newcK_eq x l cen e k d]

end CenterSpec.KernelAlg
-- ==== Proof.LibColRow.lean ====
/-
  Columns read at an index: a vector of length a viewed as an [a, 1] column, an [a, 1] column viewed as a vector of
  length a, and an [a, 1] column repeated across b columns; in any element type.
-/
import Idealize.ShloMosaic.Lib.ValueIdx
import Idealize.ShloMosaic.Lib.ValueLayout
import Idealize.ShloMosaic.Lib.Pipeline.Value

namespace Cert.Lib.ColRow

open Idealize.ShloMosaic Idealize.ShloMosaic.ValueIdx

variable {α : Type}

/-- A vector of length `a` viewed as an `[a, 1]` column reads, at `(r, 0)`, the vector at `r`. -/
theorem col_of_vec {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- An `[a, 1]` column viewed as a vector of length `a` reads, at `r`, the column at `(r, 0)`. -/
theorem vec_of_col {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column repeated across `b` columns reads, at `(r, k)`, the column at `(r, 0)`. -/
theorem bcast_col {a b : ℕ} (x : (⟨2, ![a, 1]⟩ : Shape).Idx → α) (h : (⟨2, ![a, 1]⟩ : Shape).Broadcasts ⟨2, ![a, b]⟩)
    (r : Fin a) (k : Fin b) : broadcastTo ⟨2, ![a, b]⟩ x h (ix2 r k) = x (ix2 r (0 : Fin 1)) := by
  refine broadcastTo_apply x h (ix2 r k) (ix2 r (0 : Fin 1)) fun ax => ?_
  match ax with
  | ⟨0, _⟩ =>
    show r.val = if a = 1 then 0 else r.val
    split
    · have := r.isLt; omega
    · rfl
  | ⟨1, _⟩ => rfl

end Cert.Lib.ColRow
-- ==== Proof.ScatterValBase.lean ====
/-
  The second kernel region's arithmetic, the shared index facts: the class id of a row of the class tile as a word, a class
  mask read at an entry, a mask bit as the real number 1 or 0, a lane sum along the second axis of a matrix as a sum over the
  row, and a load through a quarter rectangle as the block's entry in that quarter.
-/
import proofs.«100039_j20426864460160_2_alg».proof.Proof.ScatterStepIdeal
import proofs.«100039_j20426864460160_2_alg».proof.Proof.LibCoe
import proofs.«100039_j20426864460160_2_alg».proof.Proof.LibColRow
import Idealize.ShloMosaic.Lib.ValueIdx
import Idealize.ShloMosaic.Lib.ValueLayout
import Idealize.ShloMosaic.PureOps.Ideal.Laws

noncomputable section

namespace Cert.KernelIdeal.ScatterValBase

open Cert.KernelIdeal Cert.KernelIdeal.Gen Cert.KernelIdeal.Scatter
open Idealize.ShloMosaic Idealize.ShloMosaic.ValueIdx
open scoped BigOperators

/-! ## Words -/

/-- There are 50 class tiles. -/
theorem i0_lt (i : grid1.Coords) : (i 0).val < 50 := (i 0).isLt

/-- Two numbers below 2^32 have the same 32-bit word exactly when they are equal. -/
theorem ofNat_inj_small {a b : ℕ} (ha : a < 2 ^ 32) (hb : b < 2 ^ 32) :
    BitVec.ofNat 32 a = BitVec.ofNat 32 b ↔ a = b := by
  constructor
  · intro h
    have e := congrArg BitVec.toNat h
    rw [BitVec.toNat_ofNat, BitVec.toNat_ofNat, Nat.mod_eq_of_lt ha, Nat.mod_eq_of_lt hb] at e
    exact e
  · rintro rfl; rfl

/-- The signed reading of the word of a number below 2^31 is the number. -/
theorem toInt_ofNat_small (n : ℕ) (h : n < 2 ^ 31) : (BitVec.ofNat 32 n).toInt = (n : Int) := by
  rw [BitVec.toInt_ofNat']
  exact Int.bmod_eq_of_le (by omega) (by omega)

/-- The first class id of class tile `i 0` is 1000 · (i 0). -/
theorem classLo_eq (i : grid1.Coords) : classLo i = BitVec.ofNat 32 (1000 * (i 0).val) := by
  show BitVec.ofNat 32 (i 0).val * BitVec.ofNat 32 1000 = _
  rw [Nat.mul_comm, BitVec.ofNat_mul]

/-- The last class id of the tile is 1000 · (i 0) + 999. -/
theorem classHi_eq (i : grid1.Coords) : classHi i = BitVec.ofNat 32 (1000 * (i 0).val + 999) := by
  have h := i0_lt i
  show (classLo i + BitVec.ofNat 32 1000) - BitVec.ofNat 32 1 = _
  rw [classLo_eq]
  apply BitVec.eq_of_toNat_eq
  rw [BitVec.toNat_sub, BitVec.toNat_add, BitVec.toNat_ofNat, BitVec.toNat_ofNat, BitVec.toNat_ofNat, BitVec.toNat_ofNat]
  omega

/-- The class id of row `k'` of the tile, as the word the kernel forms: the tile's first id plus the row number. -/
theorem rowClass (i : grid1.Coords) (k' : Fin 1000) :
    IntOp.addi (classLo i) (BitVec.ofNat 32 k'.val) = BitVec.ofNat 32 (1000 * (i 0).val + k'.val) := by
  rw [classLo_eq]
  show BitVec.ofNat 32 _ + BitVec.ofNat 32 _ = _
  rw [← BitVec.ofNat_add]

/-! ## The class mask at an entry -/

/-- Entry (k', c) of the mask compares the class id of row k' with label c of the quarter. -/
theorem pay7_apply (i : grid1.Coords) (L : Vec Ideal S1x1024 .i32) (k' : Fin 1000) (c : Fin 1024) :
    k1_pay7 (F := Ideal) (classLo i) L (ix2 k' c)
      = IntOp.cmpi .eq (BitVec.ofNat 32 (1000 * (i 0).val + k'.val)) (L (ix2 (0 : Fin 1) c)) := by
  unfold k1_pay7
  dsimp only
  show IntOp.cmpi .eq (broadcastTo S1000x1024 _ _ (ix2 k' c)) (broadcastTo S1000x1024 _ _ (ix2 k' c)) = _
  rw [Cert.Lib.ColRow.bcast_col, broadcastTo_1b_ab_apply, shapeCast_self]
  show IntOp.cmpi .eq (IntOp.addi (classLo i) (iota .tc S1000x1 32 [0] iota_S1000x1_d0_w32 (ix2 k' (0 : Fin 1)))) _ = _
  rw [iota_single_apply]
  show IntOp.cmpi .eq (IntOp.addi (classLo i) (BitVec.ofNat 32 k'.val)) _ = _
  rw [rowClass]

/-- The four masks are one function of the tile's first class id and a label quarter. -/
theorem pay9_eq (v0 : BitVec 32) (L : Vec Ideal S1x1024 .i32) : k1_pay9 (F := Ideal) v0 L = k1_pay7 v0 L := rfl
theorem pay11_eq (v0 : BitVec 32) (L : Vec Ideal S1x1024 .i32) : k1_pay11 (F := Ideal) v0 L = k1_pay7 v0 L := rfl
theorem pay13_eq (v0 : BitVec 32) (L : Vec Ideal S1x1024 .i32) : k1_pay13 (F := Ideal) v0 L = k1_pay7 v0 L := rfl

/-- On labels that are class numbers, the mask bit at (k', c) is set exactly when label c is the class id of row k'. -/
theorem mask_iff (i : grid1.Coords) (L : Vec Ideal S1x1024 .i32) (l : Fin 1024 → ℕ) (hl : ∀ c, l c < 50000)
    (hL : ∀ c, L (ix2 (0 : Fin 1) c) = BitVec.ofNat 32 (l c)) (k' : Fin 1000) (c : Fin 1024) :
    k1_pay7 (F := Ideal) (classLo i) L (ix2 k' c) = 1#1 ↔ l c = 1000 * (i 0).val + k'.val := by
  have h0 := i0_lt i
  have hk := k'.isLt
  have hc := hl c
  rw [pay7_apply, hL, IntOp.cmpi_eq, ofNat_inj_small (by omega) (by omega)]
  exact eq_comm

/-! ## A mask bit as a real number -/

theorem bit_toInt (b : BitVec 1) : (b.setWidth 32).toInt = if b = 1#1 then 1 else 0 := by revert b; decide

/-- A mask widened to words and converted to floats is 1 where the bit is set and 0 elsewhere. -/
theorem onehot_apply {s : Shape} (m : IVec s 1) (h : 1 < 32) (j : s.Idx) :
    (sitofp .f32 (extui 32 m h) : FVec Ideal s .f32) j = (((if m j = 1#1 then (1 : ℝ) else 0) : ℝ) : EReal) := by
  show ((((m j).setWidth 32).toInt : ℝ) : EReal) = _
  rw [bit_toInt]
  split <;> simp

/-! ## A lane sum along the second axis -/

/-- A sum over the second axis of an `[a, b]` array of extended reals, read at row `p`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ValueIdx.ix1 p) = ∑ y : Fin b, src (ix2 p y) := by
  refine (Ideal.multiReduction_add_single src acc h hφ hacc (ValueIdx.ix1 p)).trans ?_
  refine Finset.sum_congr rfl fun k _ => congrArg src (funext fun ax => Fin.ext ?_)
  match ax with
  | ⟨0, _⟩ => rfl
  | ⟨1, _⟩ => rfl

/-! ## Loads through the quarter rectangles -/

/-- Position `c` of quarter `r` among the 4096 rows of a batch tile. -/
def q4 (r : Fin 4) (c : Fin 1024) : Fin 4096 := ⟨1024 * r.val + c.val, by have := r.isLt; have := c.isLt; omega⟩

/-- The quarter rectangles of the label block and of the row block, by quarter number. -/
abbrev lblQ (r : Fin 4) : Rect S1x4096 := Rect.unit (s := S1x4096) (k1_off3 (BitVec.ofNat 32 r.val)) S1x1024.size (k1_off3_inb r)
abbrev rowsQ (r : Fin 4) : Rect S4096x256 := Rect.unit (s := S4096x256) (k1_off2 (BitVec.ofNat 32 r.val)) S1024x256.size (k1_off2_inb r)

/-- A load of label quarter `r` reads, at column `c`, the block's label at position 1024 · r + c. -/
theorem lblQ_ld (x5 : Vec Ideal S1x4096 .i32) (r : Fin 4) (c : Fin 1024) :
    View.ld x5 (lblQ r) (ix2 (0 : Fin 1) c) = x5 (ix2 (0 : Fin 1) (q4 r c)) := by
  show x5 ((lblQ r).idx (ix2 (0 : Fin 1) c)) = _
  refine congrArg x5 (funext fun a => Fin.ext ?_)
  match a with
  | ⟨0, _⟩ =>
    show k1_off3 (BitVec.ofNat 32 r.val) 0 + 1 * 0 = 0
    rw [k1_off3_eq r]; rfl
  | ⟨1, _⟩ =>
    show k1_off3 (BitVec.ofNat 32 r.val) 1 + 1 * c.val = 1024 * r.val + c.val
    rw [k1_off3_eq r]; simp

/-- A load of row quarter `r` reads, at (c, d), the block's entry at row 1024 · r + c, column d. -/
theorem rowsQ_ld (x4 : Vec Ideal S4096x256 .bf16) (r : Fin 4) (c : Fin 1024) (d : Fin 256) :
    View.ld x4 (rowsQ r) (ix2 c d) = x4 (ix2 (q4 r c) d) := by
  show x4 ((rowsQ r).idx (ix2 c d)) = _
  refine congrArg x4 (funext fun a => Fin.ext ?_)
  match a with
  | ⟨0, _⟩ =>
    show k1_off2 (BitVec.ofNat 32 r.val) 0 + 1 * c.val = 1024 * r.val + c.val
    rw [k1_off2_eq r]; simp
  | ⟨1, _⟩ =>
    show k1_off2 (BitVec.ofNat 32 r.val) 1 + 1 * d.val = d.val
    rw [k1_off2_eq r]; simp

/-- A sum over the 4096 positions is the sum of the four quarters' sums. -/
theorem sum_q4 {M : Type*} [AddCommMonoid M] (f : Fin 4096 → M) :
    ∑ q : Fin 4096, f q = ∑ c : Fin 1024, f (q4 0 c) + ∑ c : Fin 1024, f (q4 1 c) + ∑ c : Fin 1024, f (q4 2 c) + ∑ c : Fin 1024, f (q4 3 c) := by
  have e : ∀ (s : Fin 4) (k : Fin 1024), (finProdFinEquiv (m := 4) (n := 1024)) (s, k) = q4 s k := fun s k =>
    Fin.ext (by simp [finProdFinEquiv, q4]; ring)
  rw [← Equiv.sum_comp (finProdFinEquiv (m := 4) (n := 1024)) f, Fintype.sum_prod_type, Fin.sum_univ_four]
  simp only [e]

end Cert.KernelIdeal.ScatterValBase

end
-- ==== Proof.ScatterValCnt.lean ====
/-
  One batch tile added to the per-class counts, read at a class row.

  Each of the four label quarters adds, to row k' of the counts, the lane sum of that row of the quarter's class mask
  converted to 0 / 1: the number of the quarter's 1024 labels equal to the row's class id.  The four quarters together count
  the tile's 4096 labels.
-/
import proofs.«100039_j20426864460160_2_alg».proof.Proof.ScatterValBase

noncomputable section

namespace Cert.KernelIdeal.ScatterValCnt

open Cert.KernelIdeal Cert.KernelIdeal.Gen Cert.KernelIdeal.Scatter Cert.KernelIdeal.ScatterValBase
open Idealize.ShloMosaic Idealize.ShloMosaic.ValueIdx
open scoped BigOperators

/-- What one mask adds to the counts: per row, the lane sum of the mask's bits as 0 / 1, as a column. -/
def cntOf (m : IVec S1000x1024 1) : FVec Ideal S1000x1 .f32 :=
  shapeCast S1000x1 (multiReduction .add [1] S1000 (sitofp .f32 (extui 32 m natLt_1_32)) 0x00000000#32 reduces_S1000x1024_S1000 (.inl rfl) rfl) shapeCasts_S1000_S1000x1

/-- At row k' it is the number of set bits of the mask's row k'. -/
theorem cntOf_apply (m : IVec S1000x1024 1) (k' : Fin 1000) :
    cntOf m (ix2 k' (0 : Fin 1)) = ((∑ c : Fin 1024, (if m (ix2 k' c) = 1#1 then (1 : ℝ) else 0) : ℝ) : EReal) := by
  unfold cntOf
  rw [Cert.Lib.ColRow.col_of_vec]
  refine (rowSum_apply _ _ _ _ _ k').trans ?_
  rw [CenterSpec.Coe.coe_sum]
  exact Finset.sum_congr rfl fun c _ => onehot_apply m _ (ix2 k' c)

/-- The three count payloads over `cntOf`. -/
theorem pay8_apply (v0 : BitVec 32) (e : Vec Ideal S1000x1 .f32) (L : Vec Ideal S1x1024 .i32) (k' : Fin 1000) :
    k1_pay8 (F := Ideal) v0 e L (ix2 k' (0 : Fin 1)) = e (ix2 k' (0 : Fin 1)) + cntOf (k1_pay7 v0 L) (ix2 k' (0 : Fin 1)) := rfl
theorem pay12_apply (v0 : BitVec 32) (a : FVec Ideal S1000x1 .f32) (m : IVec S1000x1024 1) (L : Vec Ideal S1x1024 .i32) (k' : Fin 1000) :
    k1_pay12 (F := Ideal) v0 a m L (ix2 k' (0 : Fin 1))
      = (a (ix2 k' (0 : Fin 1)) + cntOf m (ix2 k' (0 : Fin 1))) + cntOf (k1_pay7 v0 L) (ix2 k' (0 : Fin 1)) := rfl
theorem pay3_apply (a : FVec Ideal S1000x1 .f32) (m : IVec S1000x1024 1) (k' : Fin 1000) :
    k1_pay3 (F := Ideal) a m (ix2 k' (0 : Fin 1)) = a (ix2 k' (0 : Fin 1)) + cntOf m (ix2 k' (0 : Fin 1)) := by
  unfold k1_pay3
  dsimp only
  rw [shapeCast_self]
  rfl

/-- One label quarter's count at row k': the number of the quarter's labels equal to the row's class id. -/
theorem cnt_quarter (i : grid1.Coords) (x5 : Vec Ideal S1x4096 .i32) (ls : Fin 4096 → Fin 50000)
    (h5 : ∀ q : Fin 4096, x5 (ix2 (0 : Fin 1) q) = BitVec.ofNat 32 (ls q).val) (r : Fin 4) (k' : Fin 1000) :
    cntOf (k1_pay7 (F := Ideal) (classLo i) (View.ld x5 (lblQ r))) (ix2 k' (0 : Fin 1))
      = ((∑ c : Fin 1024, (if (ls (q4 r c)).val = 1000 * (i 0).val + k'.val then (1 : ℝ) else 0) : ℝ) : EReal) := by
  rw [cntOf_apply]
  refine congrArg Real.toEReal (Finset.sum_congr rfl fun c _ => ?_)
  have hm := mask_iff i (View.ld x5 (lblQ r)) (fun c => (ls (q4 r c)).val) (fun c => (ls (q4 r c)).isLt)
    (fun c => by rw [lblQ_ld, h5]) k' c
  by_cases hq : (ls (q4 r c)).val = 1000 * (i 0).val + k'.val
  · rw [if_pos hq, if_pos (hm.2 hq)]
  · rw [if_neg hq, if_neg (fun h => hq (hm.1 h))]

/-- The accumulation of the counts, over the quarter rectangles by number. -/
theorem accCnt_eq (i : grid1.Coords) (x5 : Vec Ideal S1x4096 .i32) (e9 : Vec Ideal S1000x1 .f32) :
    accCnt (F := Ideal) i x5 e9
      = k1_pay3 (k1_pay12 (classLo i) (k1_pay8 (classLo i) e9 (View.ld x5 (lblQ 0))) (k1_pay7 (classLo i) (View.ld x5 (lblQ 1))) (View.ld x5 (lblQ 2)))
          (k1_pay7 (classLo i) (View.ld x5 (lblQ 3))) := rfl

/-- One batch tile added to the counts, at class row k'. -/
theorem acc_cnt (i : grid1.Coords) (x5 : Vec Ideal S1x4096 .i32) (e9 : Vec Ideal S1000x1 .f32)
    (ls : Fin 4096 → Fin 50000) (r9 : Fin 1000 → ℝ)
    (h5 : ∀ q : Fin 4096, x5 (ix2 (0 : Fin 1) q) = BitVec.ofNat 32 (ls q).val)
    (h9 : ∀ k' : Fin 1000, e9 (ix2 k' (0 : Fin 1)) = ((r9 k' : ℝ) : EReal)) (k' : Fin 1000) :
    accCnt (F := Ideal) i x5 e9 (ix2 k' (0 : Fin 1))
      = ((r9 k' + ∑ q : Fin 4096, (if (ls q).val = 1000 * (i 0).val + k'.val then (1 : ℝ) else 0) : ℝ) : EReal) := by
  rw [accCnt_eq, pay3_apply, pay12_apply, pay8_apply, h9,
    cnt_quarter i x5 ls h5 0, cnt_quarter i x5 ls h5 1, cnt_quarter i x5 ls h5 2, cnt_quarter i x5 ls h5 3,
    sum_q4 (fun q : Fin 4096 => (if (ls q).val = 1000 * (i 0).val + k'.val then (1 : ℝ) else 0)),
    ← EReal.coe_add, ← EReal.coe_add, ← EReal.coe_add, ← EReal.coe_add]
  congr 1
  ring

end Cert.KernelIdeal.ScatterValCnt

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«100039_j20426864460160_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.ScatterValSum.lean ====
/-
  One batch tile added to the per-class feature sums, read at a class row and a column.

  Each of the four quarters adds, to entry (k', d) of the sums, the product of row k' of the quarter's class mask (as 0 / 1)
  with column d of the quarter's 1024 feature rows: the sum of the entries d of the rows whose label is the row's class id.
  The four quarters together run over the tile's 4096 rows.
-/
import proofs.«100039_j20426864460160_2_alg».proof.Proof.ScatterValBase
import proofs.«100039_j20426864460160_2_alg».proof.Proof.LibPlainProduct

noncomputable section

namespace Cert.KernelIdeal.ScatterValSum

open Cert.KernelIdeal Cert.KernelIdeal.Gen Cert.KernelIdeal.Scatter Cert.KernelIdeal.ScatterValBase
open Idealize.ShloMosaic Idealize.ShloMosaic.ValueIdx
open scoped BigOperators

/-- What one mask and one row quarter add to the sums: the mask as 0 / 1 times the rows, from zero. -/
def prodOf (m : IVec S1000x1024 1) (R : Vec Ideal S1024x256 .bf16) : FVec Ideal S1000x256 .f32 :=
  matmul dot_S1000x1024_S1024x256_S1000x256_1_0_0_1_n_n none
    (truncf .bf16 (sitofp .f32 (extui 32 m natLt_1_32) : FVec Ideal S1000x1024 .f32) bitsLt_bf16_f32 : FVec Ideal S1000x1024 .bf16)
    (shapeCast S1024x256 R shapeCasts_S1024x256_S1024x256 : FVec Ideal S1024x256 .bf16)
    (constant S1000x256 .f32 0x00000000#32)

/-- At (k', d) it is the sum over the quarter's rows of the mask bit times the row's entry d. -/
theorem prodOf_apply (m : IVec S1000x1024 1) (R : Vec Ideal S1024x256 .bf16) (k' : Fin 1000) (d : Fin 256) :
    prodOf m R (ix2 k' d)
      = ∑ c : Fin 1024, (((if m (ix2 k' c) = 1#1 then (1 : ℝ) else 0) : ℝ) : EReal) * R (ix2 c d) := by
  unfold prodOf
  rw [shapeCast_self]
  refine (Idealize.ShloMosaic.PlainProduct.matmul_zero_at (φ₁ := .bf16) (φ₂ := .bf16) 1000 1024 256
    (truncf .bf16 (sitofp .f32 (extui 32 m natLt_1_32) : FVec Ideal S1000x1024 .f32) bitsLt_bf16_f32 : FVec Ideal S1000x1024 .bf16)
    (R : FVec Ideal S1024x256 .bf16) k' d).trans ?_
  refine Finset.sum_congr rfl fun c _ => ?_
  congr 1
  exact onehot_apply m _ (ix2 k' c)

/-- The two sum payloads over `prodOf`. -/
theorem pay10_apply (v0 : BitVec 32) (e : Vec Ideal S1000x256 .f32) (R0 : Vec Ideal S1024x256 .bf16) (L0 : Vec Ideal S1x1024 .i32)
    (R1 : Vec Ideal S1024x256 .bf16) (L1 : Vec Ideal S1x1024 .i32) (j : S1000x256.Idx) :
    k1_pay10 (F := Ideal) v0 e R0 L0 R1 L1 j = (e j + prodOf (k1_pay7 v0 L0) R0 j) + prodOf (k1_pay7 v0 L1) R1 j := rfl
theorem pay14_apply (v0 : BitVec 32) (e : FVec Ideal S1000x256 .f32) (R2 : Vec Ideal S1024x256 .bf16) (L2 : Vec Ideal S1x1024 .i32)
    (R3 : Vec Ideal S1024x256 .bf16) (L3 : Vec Ideal S1x1024 .i32) (j : S1000x256.Idx) :
    k1_pay14 (F := Ideal) v0 e R2 L2 R3 L3 j = (e j + prodOf (k1_pay7 v0 L2) R2 j) + prodOf (k1_pay7 v0 L3) R3 j := rfl
theorem pay4_eq (a : FVec Ideal S1000x256 .f32) : k1_pay4 (F := Ideal) a = a := by
  unfold k1_pay4
  dsimp only
  rw [shapeCast_self]

/-- One quarter's product at (k', d): the sum of the entries d of the quarter's rows whose label is the row's class id. -/
theorem prod_quarter (i : grid1.Coords) (x4 : Vec Ideal S4096x256 .bf16) (x5 : Vec Ideal S1x4096 .i32)
    (ls : Fin 4096 → Fin 50000) (fs : Fin 4096 → Fin 256 → ℝ)
    (h4 : ∀ (q : Fin 4096) (d : Fin 256), x4 (ix2 q d) = ((fs q d : ℝ) : EReal))
    (h5 : ∀ q : Fin 4096, x5 (ix2 (0 : Fin 1) q) = BitVec.ofNat 32 (ls q).val) (r : Fin 4) (k' : Fin 1000) (d : Fin 256) :
    prodOf (k1_pay7 (F := Ideal) (classLo i) (View.ld x5 (lblQ r))) (View.ld x4 (rowsQ r)) (ix2 k' d)
      = ((∑ c : Fin 1024, (if (ls (q4 r c)).val = 1000 * (i 0).val + k'.val then fs (q4 r c) d else 0) : ℝ) : EReal) := by
  rw [prodOf_apply, CenterSpec.Coe.coe_sum]
  refine Finset.sum_congr rfl fun c _ => ?_
  have hm := mask_iff i (View.ld x5 (lblQ r)) (fun c => (ls (q4 r c)).val) (fun c => (ls (q4 r c)).isLt)
    (fun c => by rw [lblQ_ld, h5]) k' c
  rw [rowsQ_ld, h4]
  by_cases hq : (ls (q4 r c)).val = 1000 * (i 0).val + k'.val
  · rw [if_pos hq, if_pos (hm.2 hq), ← EReal.coe_mul, one_mul]
  · rw [if_neg hq, if_neg (fun h => hq (hm.1 h)), ← EReal.coe_mul, zero_mul]

/-- The accumulation of the sums, over the quarter rectangles by number. -/
theorem accSum_eq (i : grid1.Coords) (x4 : Vec Ideal S4096x256 .bf16) (x5 : Vec Ideal S1x4096 .i32) (e10 : Vec Ideal S1000x256 .f32) :
    accSum (F := Ideal) i x4 x5 e10
      = k1_pay4 (k1_pay14 (classLo i)
          (k1_pay10 (classLo i) e10 (View.ld x4 (rowsQ 0)) (View.ld x5 (lblQ 0)) (View.ld x4 (rowsQ 1)) (View.ld x5 (lblQ 1)))
          (View.ld x4 (rowsQ 2)) (View.ld x5 (lblQ 2)) (View.ld x4 (rowsQ 3)) (View.ld x5 (lblQ 3))) := rfl

/-- One batch tile added to the feature sums, at class row k', column d. -/
theorem acc_sum (i : grid1.Coords) (x4 : Vec Ideal S4096x256 .bf16) (x5 : Vec Ideal S1x4096 .i32) (e10 : Vec Ideal S1000x256 .f32)
    (ls : Fin 4096 → Fin 50000) (fs : Fin 4096 → Fin 256 → ℝ) (r10 : Fin 1000 → Fin 256 → ℝ)
    (h4 : ∀ (q : Fin 4096) (d : Fin 256), x4 (ix2 q d) = ((fs q d : ℝ) : EReal))
    (h5 : ∀ q : Fin 4096, x5 (ix2 (0 : Fin 1) q) = BitVec.ofNat 32 (ls q).val)
    (h10 : ∀ (k' : Fin 1000) (d : Fin 256), e10 (ix2 k' d) = ((r10 k' d : ℝ) : EReal)) (k' : Fin 1000) (d : Fin 256) :
    accSum (F := Ideal) i x4 x5 e10 (ix2 k' d)
      = ((r10 k' d + ∑ q : Fin 4096, (if (ls q).val = 1000 * (i 0).val + k'.val then fs q d else 0) : ℝ) : EReal) := by
  rw [accSum_eq, pay4_eq, pay14_apply, pay10_apply, h10,
    prod_quarter i x4 x5 ls fs h4 h5 0, prod_quarter i x4 x5 ls fs h4 h5 1,
    prod_quarter i x4 x5 ls fs h4 h5 2, prod_quarter i x4 x5 ls fs h4 h5 3,
    sum_q4 (fun q : Fin 4096 => (if (ls q).val = 1000 * (i 0).val + k'.val then fs q d else 0)),
    ← EReal.coe_add, ← EReal.coe_add, ← EReal.coe_add, ← EReal.coe_add]
  congr 1
  ring

end Cert.KernelIdeal.ScatterValSum

end
-- ==== Proof.ScatterValOut.lean ====
/-
  What the last batch tile of a class tile writes, read at an entry on real data.

  The updated centers: c − ½ · ((1 / (1 + n)) · (n · c − s)) with the count column n repeated across the 256 columns; the counts
  are nonnegative, so 1 + n is not zero and the division is the real one.
  The tile's share of the loss: (−2 · Σ_k' Σ_d c · s + Σ_k' n · Σ_d c²) / 1024, one number repeated over the 8 × 128 block; each
  inner sum is a lane sum along the columns, each outer one a sum down the 1000 rows of a column.
-/
import proofs.«100039_j20426864460160_2_alg».proof.Proof.ScatterValBase
import proofs.«100039_j20426864460160_2_alg».proof.Proof.Literals
import proofs.«100039_j20426864460160_2_alg».proof.Proof.LibTileStats

noncomputable section

namespace Cert.KernelIdeal.ScatterValOut

open Cert.KernelIdeal Cert.KernelIdeal.Gen Cert.KernelIdeal.Scatter Cert.KernelIdeal.ScatterValBase
open Idealize.ShloMosaic Idealize.ShloMosaic.ValueIdx
open scoped BigOperators

open CenterSpec CenterSpec.Coe

/-! ## The updated centers -/

theorem pay5_apply (x6 s10 : Vec Ideal S1000x256 .f32) (s9 : Vec Ideal S1000x1 .f32) (j : S1000x256.Idx) :
    k1_pay5 (F := Ideal) x6 s10 s9 j
      = x6 j - Ideal.ofBits .f32 0x3F000000#32 *
          (broadcastTo S1000x256 (divf (broadcast S1000x1 (Scalar.ofBits (F := Ideal) .f32 0x3F800000#32))
              (addf (broadcast S1000x1 (Scalar.ofBits (F := Ideal) .f32 0x3F800000#32)) s9)) broadcasts_S1000x1_S1000x256 j
            * (broadcastTo S1000x256 s9 broadcasts_S1000x1_S1000x256 j * x6 j - s10 j)) := rfl

theorem out_newc (x6 : Vec Ideal S1000x256 .f32) (s10 : Vec Ideal S1000x256 .f32) (s9 : Vec Ideal S1000x1 .f32)
    (cen' : Fin 1000 → Fin 256 → ℝ) (S' : Fin 1000 → Fin 256 → ℝ) (n' : Fin 1000 → ℝ)
    (h6 : ∀ (k' : Fin 1000) (d : Fin 256), x6 (ix2 k' d) = ((cen' k' d : ℝ) : EReal))
    (h10 : ∀ (k' : Fin 1000) (d : Fin 256), s10 (ix2 k' d) = ((S' k' d : ℝ) : EReal))
    (h9 : ∀ k' : Fin 1000, s9 (ix2 k' (0 : Fin 1)) = ((n' k' : ℝ) : EReal)) (hn : ∀ k', 0 ≤ n' k')
    (k' : Fin 1000) (d : Fin 256) :
    outNewc (F := Ideal) x6 s10 s9 (ix2 k' d)
      = ((cen' k' d - (1 / 2) * ((1 / (1 + n' k')) * (n' k' * cen' k' d - S' k' d)) : ℝ) : EReal) := by
  show k1_pay5 (F := Ideal) x6 s10 s9 (ix2 k' d) = _
  rw [pay5_apply, Cert.Lib.ColRow.bcast_col, Cert.Lib.ColRow.bcast_col]
  show x6 (ix2 k' d) - Ideal.ofBits .f32 0x3F000000#32 *
      (Ideal.div (Ideal.ofBits .f32 0x3F800000#32) (Ideal.ofBits .f32 0x3F800000#32 + s9 (ix2 k' (0 : Fin 1)))
        * (s9 (ix2 k' (0 : Fin 1)) * x6 (ix2 k' d) - s10 (ix2 k' d))) = _
  have hne : (1 : ℝ) + n' k' ≠ 0 := by have := hn k'; linarith
  rw [h6, h10, h9, lit_one, lit_half, add_coe, div_coe 1 hne, mul_coe, sub_coe, mul_coe, mul_coe, sub_coe]

/-! ## The tile's share of the loss -/

/-- Row by row, the sum over the columns of the products of two matrices, as a column. -/
def rowDot (A B : FVec Ideal S1000x256 .f32) : FVec Ideal S1000x1 .f32 :=
  shapeCast S1000x1 (multiReduction .add [1] S1000 (mulf A B) 0x00000000#32 reduces_S1000x256_S1000 (.inl rfl) rfl) shapeCasts_S1000_S1000x1

theorem rowDot_apply (A B : FVec Ideal S1000x256 .f32) (y : Fin 1000) :
    rowDot A B (ix2 y (0 : Fin 1)) = ∑ d : Fin 256, A (ix2 y d) * B (ix2 y d) := by
  unfold rowDot
  rw [Cert.Lib.ColRow.col_of_vec]
  exact rowSum_apply _ _ _ _ _ y

/-- The sum of a column's 1000 entries, as a 1 × 1 matrix. -/
def colTot (C : FVec Ideal S1000x1 .f32) : FVec Ideal S1x1 .f32 :=
  shapeCast S1x1 (multiReduction .add [0] S1 C 0x00000000#32 reduces_S1000x1_S1 (.inl rfl) rfl) shapeCasts_S1_S1x1

theorem colTot_apply (C : FVec Ideal S1000x1 .f32) :
    colTot C (ix2 (0 : Fin 1) (0 : Fin 1)) = ∑ y : Fin 1000, C (ix2 y (0 : Fin 1)) := by
  unfold colTot
  rw [Cert.Lib.ColRow.col_of_vec]
  exact Cert.Lib.TileStats.colSum_apply _ _ _ _ _ (0 : Fin 1)

theorem pay6_eq (x6 s10 : Vec Ideal S1000x256 .f32) (s9 : Vec Ideal S1000x1 .f32) :
    k1_pay6 (F := Ideal) x6 s10 s9
      = broadcastTo S8x128 (shapeCast S1x1 (divf (addf (mulf (broadcast S1x1 (Scalar.ofBits (F := Ideal) .f32 0xC0000000#32)) (colTot (rowDot x6 s10)))
            (colTot (mulf s9 (rowDot x6 x6)))) (broadcast S1x1 (Scalar.ofBits (F := Ideal) .f32 0x44800000#32))) shapeCasts_S1x1_S1x1)
          broadcasts_S1x1_S8x128 := rfl

theorem out_loss (x6 : Vec Ideal S1000x256 .f32) (s10 : Vec Ideal S1000x256 .f32) (s9 : Vec Ideal S1000x1 .f32)
    (cen' : Fin 1000 → Fin 256 → ℝ) (S' : Fin 1000 → Fin 256 → ℝ) (n' : Fin 1000 → ℝ)
    (h6 : ∀ (k' : Fin 1000) (d : Fin 256), x6 (ix2 k' d) = ((cen' k' d : ℝ) : EReal))
    (h10 : ∀ (k' : Fin 1000) (d : Fin 256), s10 (ix2 k' d) = ((S' k' d : ℝ) : EReal))
    (h9 : ∀ k' : Fin 1000, s9 (ix2 k' (0 : Fin 1)) = ((n' k' : ℝ) : EReal))
    (u : Fin 8) (v : Fin 128) :
    outLoss (F := Ideal) x6 s10 s9 (ix2 u v)
      = (((-2 * (∑ k' : Fin 1000, ∑ d : Fin 256, cen' k' d * S' k' d) + ∑ k' : Fin 1000, n' k' * ∑ d : Fin 256, cen' k' d * cen' k' d) / 1024 : ℝ) : EReal) := by
  show k1_pay6 (F := Ideal) x6 s10 s9 (ix2 u v) = _
  rw [pay6_eq]
  refine (broadcastTo_apply _ _ (ix2 u v) (ix2 (0 : Fin 1) (0 : Fin 1)) (fun a => by
    match a with
    | ⟨0, _⟩ => rfl
    | ⟨1, _⟩ => rfl)).trans ?_
  rw [shapeCast_self]
  show Ideal.div (Ideal.ofBits .f32 0xC0000000#32 * colTot (rowDot x6 s10) (ix2 (0 : Fin 1) (0 : Fin 1))
      + colTot (mulf s9 (rowDot x6 x6)) (ix2 (0 : Fin 1) (0 : Fin 1))) (Ideal.ofBits .f32 0x44800000#32) = _
  have e1 : colTot (rowDot x6 s10) (ix2 (0 : Fin 1) (0 : Fin 1))
      = ((∑ k' : Fin 1000, ∑ d : Fin 256, cen' k' d * S' k' d : ℝ) : EReal) := by
    rw [colTot_apply, coe_sum]
    refine Finset.sum_congr rfl fun y _ => ?_
    rw [rowDot_apply, coe_sum]
    refine Finset.sum_congr rfl fun d _ => ?_
    rw [h6, h10, mul_coe]
  have e2 : colTot (mulf s9 (rowDot x6 x6)) (ix2 (0 : Fin 1) (0 : Fin 1))
      = ((∑ k' : Fin 1000, n' k' * ∑ d : Fin 256, cen' k' d * cen' k' d : ℝ) : EReal) := by
    rw [colTot_apply, coe_sum]
    refine Finset.sum_congr rfl fun y _ => ?_
    show s9 (ix2 y (0 : Fin 1)) * rowDot x6 x6 (ix2 y (0 : Fin 1)) = _
    rw [h9, rowDot_apply, EReal.coe_mul]
    congr 1
    rw [coe_sum]
    refine Finset.sum_congr rfl fun d _ => ?_
    rw [h6, mul_coe]
  rw [e1, e2, lit_neg_two, lit_1024, mul_coe, add_coe, div_coe _ (by norm_num : (1024 : ℝ) ≠ 0)]

end Cert.KernelIdeal.ScatterValOut

end
-- ==== Proof.ScatterValMeets.lean ====
/-
  A batch tile whose label range misses the class tile holds none of the tile's class ids.

  The kernel accumulates a batch tile when lo ≤ (last id of the class tile) and hi ≥ (first id), both compared signed, where
  [lo, hi] is the tile's label range.  The class tile's ids are 1000 · (i 0) … 1000 · (i 0) + 999, all below 2^31, so the signed
  readings are the numbers themselves.  A label n with lo ≤ n ≤ hi that were one of the tile's ids would make both comparisons true.
-/
import proofs.«100039_j20426864460160_2_alg».proof.Proof.ScatterValBase

noncomputable section

namespace Cert.KernelIdeal.ScatterValMeets

open Cert.KernelIdeal Cert.KernelIdeal.Gen Cert.KernelIdeal.Scatter Cert.KernelIdeal.ScatterValBase
open Idealize.ShloMosaic Idealize.ShloMosaic.ValueIdx
open scoped BigOperators

theorem not_meets (i : grid1.Coords) (lo hi : BitVec 32) (h : ¬ meetsTile i lo hi) (n : Fin 50000)
    (hn : lo.toInt ≤ (BitVec.ofNat 32 n.val).toInt ∧ (BitVec.ofNat 32 n.val).toInt ≤ hi.toInt) (k' : Fin 1000) :
    n.val ≠ 1000 * (i 0).val + k'.val := by
  intro e
  apply h
  have h0 := i0_lt i
  have hk := k'.isLt
  have hN := n.isLt
  unfold meetsTile
  rw [Scalar.guard_iff]
  show IntOp.andi (IntOp.cmpi .sle lo (classHi i)) (IntOp.cmpi .sge hi (classLo i)) = 1#1
  rw [IntOp.andi_eq_one, IntOp.cmpi_sle, IntOp.cmpi_sge, classHi_eq, classLo_eq,
    toInt_ofNat_small _ (by omega), toInt_ofNat_small _ (by omega)]
  rw [toInt_ofNat_small _ (by omega)] at hn
  constructor
  · have := hn.1; push_cast; omega
  · have := hn.2; push_cast; omega

end Cert.KernelIdeal.ScatterValMeets

end
-- ==== Proof.ScatterVal.lean ====
/-
  The second kernel region's arithmetic at one grid point, read entry by entry on real data: the cleared accumulators are zero;
  adding a batch tile adds, for class row k' of the class tile, the number of the tile's 4096 labels equal to the row's class id
  (to the counts) and the sum of the rows carrying that label (to the feature sums); a batch tile whose label range misses the
  class tile holds no such label; and the last batch tile's two outputs are the center update and the tile's share of the loss.
-/
import proofs.«100039_j20426864460160_2_alg».proof.Proof.ScatterStepIdeal
import proofs.«100039_j20426864460160_2_alg».proof.Proof.SpecReal
import proofs.«100039_j20426864460160_2_alg».proof.Proof.Literals
import proofs.«100039_j20426864460160_2_alg».proof.Proof.LibCoe
import proofs.«100039_j20426864460160_2_alg».proof.Proof.ScatterValCnt
import proofs.«100039_j20426864460160_2_alg».proof.Proof.ScatterValSum
import proofs.«100039_j20426864460160_2_alg».proof.Proof.ScatterValOut
import proofs.«100039_j20426864460160_2_alg».proof.Proof.ScatterValMeets
import Idealize.ShloMosaic.Lib.ValueIdx
import Idealize.ShloMosaic.PureOps.Ideal.Laws

noncomputable section

namespace Cert.KernelIdeal.ScatterVal

open Cert.KernelIdeal Cert.KernelIdeal.Gen Cert.KernelIdeal.Scatter
open Idealize.ShloMosaic Idealize.ShloMosaic.ValueIdx

/-- The class id of row `k'` of the point's class tile. -/
def classOf (i : grid1.Coords) (k' : Fin 1000) : ℕ := 1000 * (i 0).val + k'.val

/-- The cleared accumulators are zero. -/
theorem reset_cnt : (k1_pay1 (F := Ideal)) = fun _ => ((0 : ℝ) : EReal) := by
  unfold k1_pay1
  dsimp only
  rw [shapeCast_self]
  funext j
  exact CenterSpec.lit_zero
theorem reset_sum : (k1_pay2 (F := Ideal)) = fun _ => ((0 : ℝ) : EReal) := by
  unfold k1_pay2
  dsimp only
  rw [shapeCast_self]
  funext j
  exact CenterSpec.lit_zero

/-- One batch tile added to the counts, at class row `k'`. -/
theorem acc_cnt_coe (i : grid1.Coords) (x5 : Vec Ideal S1x4096 .i32) (e9 : Vec Ideal S1000x1 .f32)
    (ls : Fin 4096 → Fin 50000) (r9 : Fin 1000 → ℝ)
    (h5 : ∀ q : Fin 4096, x5 (ix2 (0 : Fin 1) q) = BitVec.ofNat 32 (ls q).val)
    (h9 : ∀ k' : Fin 1000, e9 (ix2 k' (0 : Fin 1)) = ((r9 k' : ℝ) : EReal)) (k' : Fin 1000) :
    accCnt (F := Ideal) i x5 e9 (ix2 k' (0 : Fin 1))
      = ((r9 k' + ∑ q : Fin 4096, (if (ls q).val = classOf i k' then (1 : ℝ) else 0) : ℝ) : EReal) := by
  exact ScatterValCnt.acc_cnt i x5 e9 ls r9 h5 h9 k'

/-- One batch tile added to the feature sums, at class row `k'`, column `d`. -/
theorem acc_sum_coe (i : grid1.Coords) (x4 : Vec Ideal S4096x256 .bf16) (x5 : Vec Ideal S1x4096 .i32) (e10 : Vec Ideal S1000x256 .f32)
    (ls : Fin 4096 → Fin 50000) (fs : Fin 4096 → Fin 256 → ℝ) (r10 : Fin 1000 → Fin 256 → ℝ)
    (h4 : ∀ (q : Fin 4096) (d : Fin 256), x4 (ix2 q d) = ((fs q d : ℝ) : EReal))
    (h5 : ∀ q : Fin 4096, x5 (ix2 (0 : Fin 1) q) = BitVec.ofNat 32 (ls q).val)
    (h10 : ∀ (k' : Fin 1000) (d : Fin 256), e10 (ix2 k' d) = ((r10 k' d : ℝ) : EReal)) (k' : Fin 1000) (d : Fin 256) :
    accSum (F := Ideal) i x4 x5 e10 (ix2 k' d)
      = ((r10 k' d + ∑ q : Fin 4096, (if (ls q).val = classOf i k' then fs q d else 0) : ℝ) : EReal) := by
  exact ScatterValSum.acc_sum i x4 x5 e10 ls fs r10 h4 h5 h10 k' d

/-- A batch tile whose signed label range [lo, hi] does not meet the class tile holds none of the tile's class ids. -/
theorem not_meets (i : grid1.Coords) (lo hi : BitVec 32) (h : ¬ meetsTile i lo hi) (n : Fin 50000)
    (hn : lo.toInt ≤ (BitVec.ofNat 32 n.val).toInt ∧ (BitVec.ofNat 32 n.val).toInt ≤ hi.toInt) (k' : Fin 1000) :
    n.val ≠ classOf i k' := by
  exact ScatterValMeets.not_meets i lo hi h n hn k'

/-- The updated centers the last batch tile writes, at class row `k'`, column `d`. -/
theorem out_newc_coe (x6 : Vec Ideal S1000x256 .f32) (s10 : Vec Ideal S1000x256 .f32) (s9 : Vec Ideal S1000x1 .f32)
    (cen' : Fin 1000 → Fin 256 → ℝ) (S' : Fin 1000 → Fin 256 → ℝ) (n' : Fin 1000 → ℝ)
    (h6 : ∀ (k' : Fin 1000) (d : Fin 256), x6 (ix2 k' d) = ((cen' k' d : ℝ) : EReal))
    (h10 : ∀ (k' : Fin 1000) (d : Fin 256), s10 (ix2 k' d) = ((S' k' d : ℝ) : EReal))
    (h9 : ∀ k' : Fin 1000, s9 (ix2 k' (0 : Fin 1)) = ((n' k' : ℝ) : EReal)) (hn : ∀ k', 0 ≤ n' k')
    (k' : Fin 1000) (d : Fin 256) :
    outNewc (F := Ideal) x6 s10 s9 (ix2 k' d)
      = ((cen' k' d - (1 / 2) * ((1 / (1 + n' k')) * (n' k' * cen' k' d - S' k' d)) : ℝ) : EReal) := by
  exact ScatterValOut.out_newc x6 s10 s9 cen' S' n' h6 h10 h9 hn k' d

/-- The class tile's share of the loss the last batch tile writes, at any entry (u, v) of the 8×128 block. -/
theorem out_loss_coe (x6 : Vec Ideal S1000x256 .f32) (s10 : Vec Ideal S1000x256 .f32) (s9 : Vec Ideal S1000x1 .f32)
    (cen' : Fin 1000 → Fin 256 → ℝ) (S' : Fin 1000 → Fin 256 → ℝ) (n' : Fin 1000 → ℝ)
    (h6 : ∀ (k' : Fin 1000) (d : Fin 256), x6 (ix2 k' d) = ((cen' k' d : ℝ) : EReal))
    (h10 : ∀ (k' : Fin 1000) (d : Fin 256), s10 (ix2 k' d) = ((S' k' d : ℝ) : EReal))
    (h9 : ∀ k' : Fin 1000, s9 (ix2 k' (0 : Fin 1)) = ((n' k' : ℝ) : EReal))
    (u : Fin 8) (v : Fin 128) :
    outLoss (F := Ideal) x6 s10 s9 (ix2 u v)
      = (((-2 * (∑ k' : Fin 1000, ∑ d : Fin 256, cen' k' d * S' k' d) + ∑ k' : Fin 1000, n' k' * ∑ d : Fin 256, cen' k' d * cen' k' d) / 1024 : ℝ) : EReal) := by
  exact ScatterValOut.out_loss x6 s10 s9 cen' S' n' h6 h10 h9 u v

end Cert.KernelIdeal.ScatterVal

end
-- ==== Proof.ScatterAccBase.lean ====
/-
  The second kernel region's grid and blocks, read off: grid point t has class tile t / 32 and batch tile t % 32; the label block
  and the row block at point t are positions 4096 · (t % 32) … of the sorted labels and rows; the word of a 32-word table at
  the point's cell is the table's entry at the batch tile; and the point is its class tile's first batch tile exactly when its
  batch tile is 0.  Also a sum over the first 4096 · nb of 131072 positions, which grows by one tile of 4096 at a time.
-/
import proofs.«100039_j20426864460160_2_alg».proof.Proof.ScatterDataIdeal
import proofs.«100039_j20426864460160_2_alg».proof.Proof.ScatterValBase
import Idealize.ShloMosaic.Lib.Pipeline.Value
import Idealize.ShloMosaic.Lib.ValueIdx

noncomputable section

namespace Cert.KernelIdeal.ScatterAccBase

open Cert.KernelIdeal Cert.KernelIdeal.Gen Cert.KernelIdeal.Scatter
open Idealize.ShloMosaic Idealize.ShloMosaic.TcCoe Idealize.SL.Sem Idealize.ShloMosaic.ValueIdx
open scoped BigOperators

/-! ## Sums over the first tiles -/

/-- A function on the 131072 positions, extended by zero to all numbers. -/
def ext0 (g : Fin 131072 → ℝ) (n : ℕ) : ℝ := if h : n < 131072 then g ⟨n, h⟩ else 0

/-- The sum of `g` over the positions of the first `nb` tiles of 4096. -/
def pre (g : Fin 131072 → ℝ) (nb : ℕ) : ℝ := ∑ n ∈ Finset.range (4096 * nb), ext0 g n

theorem pre_zero (g : Fin 131072 → ℝ) : pre g 0 = 0 := by simp [pre]

/-- One more tile: its 4096 positions are added. -/
theorem pre_succ (g : Fin 131072 → ℝ) (nb : ℕ) (h : nb < 32) :
    pre g (nb + 1) = pre g nb + ∑ q : Fin 4096, g ⟨4096 * nb + q.val, by have := q.isLt; omega⟩ := by
  unfold pre
  rw [show 4096 * (nb + 1) = 4096 * nb + 4096 by ring, Finset.sum_range_add]
  congr 1
  rw [Finset.sum_range]
  refine Finset.sum_congr rfl fun q _ => ?_
  have hq := q.isLt
  unfold ext0
  rw [dif_pos (by omega)]

/-- All 32 tiles: the sum over every position. -/
theorem pre_full (g : Fin 131072 → ℝ) : pre g 32 = ∑ p : Fin 131072, g p := by
  have h : ∀ (N : ℕ) (hN : N = 131072), ∑ n ∈ Finset.range N, ext0 g n = ∑ p : Fin 131072, g p := by
    intro N hN
    subst hN
    rw [Finset.sum_range]
    exact Finset.sum_congr rfl fun p _ => dif_pos p.isLt
  exact h _ (by norm_num)

/-! ## The grid -/

variable (V : (c : Dev nD) → (b : Ref sig .tc) → Buf (Elt Ideal) ((c : Thread nD τ).loc b)) (a1 : (pcfg1 (F := Ideal)).Adm)

/-- Grid point `t` of the 50 × 32 grid, row-major: class tile t / 32, batch tile t % 32. -/
theorem coords_facts : ∀ t : Fin (cfg1 a1).N,
    (((cfg1 a1).grid.coords t) 0).val = t.val / 32 ∧ (((cfg1 a1).grid.coords t) 1).val = t.val % 32 :=
  (by decide +kernel : ∀ t : Fin grid1.N, ((grid1.coords t) 0).val = t.val / 32 ∧ ((grid1.coords t) 1).val = t.val % 32)

theorem point_lt (t : Fin (cfg1 a1).N) : t.val < 1600 := lt_of_lt_of_eq t.isLt N_1
theorem lt_N (n : ℕ) (h : n < 1600) : n < (cfg1 a1).N := lt_of_lt_of_eq h N_1.symm

/-- The row window's and the label window's block index at a point: the batch tile, along the rows resp. the columns. -/
theorem tr0_eq (i : grid1.Coords) : cc1_transform_0 i = ![(i 1).val, 0] := by
  have h : (i 1).val < 32 := (i 1).isLt
  funext a
  fin_cases a
  · show (BitVec.ofNat 32 (i 1).val).toNat = (i 1).val
    rw [BitVec.toNat_ofNat]; omega
  · rfl
theorem tr1_eq (i : grid1.Coords) : cc1_transform_1 i = ![0, (i 1).val] := by
  have h : (i 1).val < 32 := (i 1).isLt
  funext a
  fin_cases a
  · rfl
  · show (BitVec.ofNat 32 (i 1).val).toNat = (i 1).val
    rw [BitVec.toNat_ofNat]; omega

/-! ## The blocks -/

/-- The label block at point `t`: positions 4096 · (t % 32) … of the sorted labels. -/
theorem lbl_block_apply (c : Dev nD) (t : Fin (cfg1 a1).N) (q : Fin 4096) (p : Fin 131072) (hp : p.val = 4096 * (t.val % 32) + q.val) :
    (blockAt1 V a1 c 1 t : Vec Ideal S1x4096 .i32) (ix2 (0 : Fin 1) q)
      = (V c main_v20 : S1x131072.Idx → BitVec 32) (ix2 (0 : Fin 1) p) := by
  have e1 := (coords_facts a1 t).2
  unfold blockAt1
  show V c main_v20 _ = V c main_v20 _
  refine congrArg _ (funext fun a => Fin.ext ?_)
  match a with
  | ⟨0, _⟩ =>
    show cc1_transform_1 ((cfg1 a1).grid.coords t) 0 * 1 + 1 * 0 = 0
    rw [tr1_eq]; rfl
  | ⟨1, _⟩ =>
    show cc1_transform_1 ((cfg1 a1).grid.coords t) 1 * 4096 + 1 * q.val = p.val
    rw [tr1_eq, hp]
    show (((cfg1 a1).grid.coords t) 1).val * 4096 + 1 * q.val = _
    rw [e1]; omega

/-- The row block at point `t`: rows 4096 · (t % 32) … of the sorted rows. -/
theorem rows_block_apply (c : Dev nD) (t : Fin (cfg1 a1).N) (q : Fin 4096) (d : Fin 256) (p : Fin 131072) (hp : p.val = 4096 * (t.val % 32) + q.val) :
    (blockAt1 V a1 c 0 t : Vec Ideal S4096x256 .bf16) (ix2 q d)
      = (V c main_v16 : S131072x256.Idx → EReal) (ix2 p d) := by
  have e1 := (coords_facts a1 t).2
  unfold blockAt1
  show V c main_v16 _ = V c main_v16 _
  refine congrArg _ (funext fun a => Fin.ext ?_)
  match a with
  | ⟨0, _⟩ =>
    show cc1_transform_0 ((cfg1 a1).grid.coords t) 0 * 4096 + 1 * q.val = p.val
    rw [tr0_eq, hp]
    show (((cfg1 a1).grid.coords t) 1).val * 4096 + 1 * q.val = _
    rw [e1]; omega
  | ⟨1, _⟩ =>
    show cc1_transform_0 ((cfg1 a1).grid.coords t) 1 * 256 + 1 * d.val = d.val
    rw [tr0_eq]
    show 0 * 256 + 1 * d.val = d.val
    omega

/-! ## The tables' words and the first batch tile -/

/-- The word of a table at the point's cell is the table's entry at the batch tile. -/
theorem tblWord_eq (tb : Vec Ideal S32 .i32) (i : grid1.Coords) (b : Fin 32) (hb : (i 1).val = b.val) :
    tblWord tb i = tb (ValueIdx.ix1 b) := by
  unfold tblWord
  show tb ((cellRect i).idx _) = _
  refine congrArg tb (funext fun a => Fin.ext ?_)
  match a with
  | ⟨0, _⟩ =>
    show k1_off1 i 0 + 1 * ((Shape.Idx.first (s := (cellRect i).shape) _) (0 : Fin 1)).val = b.val
    have h0 := ((Shape.Idx.first (s := (cellRect i).shape)
      (by rw [show (cellRect i).shape.numel = 1 from numel1_S1]; exact Nat.one_pos)) (0 : Fin 1)).isLt
    have hs : (cellRect i).shape.size (0 : Fin 1) = 1 := rfl
    rw [k1_off1_eq i]
    show (i 1).val + 1 * _ = b.val
    omega

/-- The point is its class tile's first batch tile exactly when its batch tile is 0. -/
theorem firstTile_iff (i : grid1.Coords) : firstTile i ↔ (i 1).val = 0 := by
  have h : (i 1).val < 32 := (i 1).isLt
  unfold firstTile
  rw [Scalar.guard_iff]
  show IntOp.cmpi .eq (BitVec.ofNat 32 (i 1).val) (BitVec.ofNat 32 0) = 1#1 ↔ _
  rw [IntOp.cmpi_eq, ScatterValBase.ofNat_inj_small (by omega) (by omega)]

end Cert.KernelIdeal.ScatterAccBase

end
-- ==== Proof.ScatterAccStep.lean ====
/-
  One grid point's step of the two accumulators, on real data: at point t = 32 · cb + b (class tile cb, batch tile b), from
  accumulators that read r after the clearing, the counts' row k' becomes r + the number of batch tile b's 4096 labels equal to
  class id 1000 · cb + k', and the sums' entry (k', d) becomes r + the sum of the entries d of the tile's rows with that label.
  When the tile is accumulated this is the accumulation's arithmetic; when the tile's label range misses the class tile it is
  skipped, and then none of its labels is such a class id, so the added sum is zero.
-/
import proofs.«100039_j20426864460160_2_alg».proof.Proof.ScatterAccBase
import proofs.«100039_j20426864460160_2_alg».proof.Proof.ScatterVal
import Idealize.ShloMosaic.Lib.ValueIdx

noncomputable section

namespace Cert.KernelIdeal.ScatterAccStep

open Cert.KernelIdeal Cert.KernelIdeal.Gen Cert.KernelIdeal.Scatter
open Idealize.ShloMosaic Idealize.ShloMosaic.TcCoe Idealize.SL.Sem Idealize.ShloMosaic.ValueIdx
open scoped BigOperators
open Cert.KernelIdeal.ScatterAccBase Cert.KernelIdeal.ScatterVal

variable (V : (c : Dev nD) → (b : Ref sig .tc) → Buf (Elt Ideal) ((c : Thread nD τ).loc b)) (a1 : (pcfg1 (F := Ideal)).Adm)

/-- The point's class tile and batch tile. -/
theorem point_coords (t : Fin (cfg1 a1).N) (cb : Fin 50) (b : Fin 32) (ht : t.val = 32 * cb.val + b.val) :
    (((cfg1 a1).grid.coords t) 0).val = cb.val ∧ (((cfg1 a1).grid.coords t) 1).val = b.val := by
  obtain ⟨e0, e1⟩ := coords_facts a1 t
  have hb := b.isLt
  exact ⟨by rw [e0, ht]; omega, by rw [e1, ht]; omega⟩

/-- The label block at the point, on sorted labels that are class numbers. -/
theorem lbl_block (c : Dev nD) (ls : Fin 131072 → Fin 50000) (hL : ∀ p : Fin 131072, (V c main_v20 : S1x131072.Idx → BitVec 32) (ix2 (0 : Fin 1) p) = BitVec.ofNat 32 (ls p).val)
    (t : Fin (cfg1 a1).N) (cb : Fin 50) (b : Fin 32) (ht : t.val = 32 * cb.val + b.val) (q : Fin 4096) :
    (blockAt1 V a1 c 1 t : Vec Ideal S1x4096 .i32) (ix2 (0 : Fin 1) q) = BitVec.ofNat 32 (ls ⟨4096 * b.val + q.val, by omega⟩).val := by
  have hb := b.isLt
  rw [lbl_block_apply V a1 c t q ⟨4096 * b.val + q.val, by omega⟩
    (by show 4096 * b.val + q.val = 4096 * (t.val % 32) + q.val; rw [ht]; omega), hL]

/-- The row block at the point, on real sorted rows. -/
theorem rows_block (c : Dev nD) (fs : Fin 131072 → Fin 256 → ℝ) (hF : ∀ (p : Fin 131072) (d : Fin 256), (V c main_v16 : S131072x256.Idx → EReal) (ix2 p d) = ((fs p d : ℝ) : EReal))
    (t : Fin (cfg1 a1).N) (cb : Fin 50) (b : Fin 32) (ht : t.val = 32 * cb.val + b.val) (q : Fin 4096) (d : Fin 256) :
    (blockAt1 V a1 c 0 t : Vec Ideal S4096x256 .bf16) (ix2 q d) = ((fs ⟨4096 * b.val + q.val, by omega⟩ d : ℝ) : EReal) := by
  have hb := b.isLt
  rw [rows_block_apply V a1 c t q d ⟨4096 * b.val + q.val, by omega⟩
    (by show 4096 * b.val + q.val = 4096 * (t.val % 32) + q.val; rw [ht]; omega), hF]

/-- A skipped tile holds none of the class tile's ids. -/
theorem skipped (ls : Fin 131072 → Fin 50000) (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (t : Fin (cfg1 a1).N) (cb : Fin 50) (b : Fin 32) (ht : t.val = 32 * cb.val + b.val)
    (hm : ¬ meetsTile ((cfg1 a1).grid.coords t) (tblWord (tloOf a1) ((cfg1 a1).grid.coords t)) (tblWord (thiOf a1) ((cfg1 a1).grid.coords t)))
    (q : Fin 4096) (k' : Fin 1000) : (ls ⟨4096 * b.val + q.val, by omega⟩).val ≠ 1000 * cb.val + k'.val := by
  obtain ⟨i0, i1⟩ := point_coords a1 t cb b ht
  have h := not_meets ((cfg1 a1).grid.coords t) _ _ hm (ls ⟨4096 * b.val + q.val, by omega⟩)
    (by rw [tblWord_eq _ _ b i1, tblWord_eq _ _ b i1]; exact hT b q) k'
  unfold classOf at h
  rwa [i0] at h

/-- The counts' step. -/
theorem step_cnt (c : Dev nD) (ls : Fin 131072 → Fin 50000) (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (t : Fin (cfg1 a1).N) (cb : Fin 50) (b : Fin 32) (ht : t.val = 32 * cb.val + b.val)
    (d9 : Vec Ideal S1000x1 .f32) (r : Fin 1000 → ℝ)
    (hr : ∀ k' : Fin 1000, resetCnt (F := Ideal) ((cfg1 a1).grid.coords t) d9 (ix2 k' (0 : Fin 1)) = ((r k' : ℝ) : EReal)) (k' : Fin 1000) :
    stepCnt (F := Ideal) ((cfg1 a1).grid.coords t) (tblWord (tloOf a1) ((cfg1 a1).grid.coords t)) (tblWord (thiOf a1) ((cfg1 a1).grid.coords t))
        (blockAt1 V a1 c 1 t) d9 (ix2 k' (0 : Fin 1))
      = ((r k' + ∑ q : Fin 4096, (if (ls ⟨4096 * b.val + q.val, by omega⟩).val = 1000 * cb.val + k'.val then (1 : ℝ) else 0) : ℝ) : EReal) := by
  obtain ⟨i0, i1⟩ := point_coords a1 t cb b ht
  unfold stepCnt
  by_cases hm : meetsTile ((cfg1 a1).grid.coords t) (tblWord (tloOf a1) ((cfg1 a1).grid.coords t)) (tblWord (thiOf a1) ((cfg1 a1).grid.coords t))
  · rw [if_pos hm, acc_cnt_coe ((cfg1 a1).grid.coords t) (blockAt1 V a1 c 1 t) (resetCnt ((cfg1 a1).grid.coords t) d9)
      (fun q => ls ⟨4096 * b.val + q.val, by omega⟩) r (lbl_block V a1 c ls hL t cb b ht) hr k']
    unfold classOf
    rw [i0]
  · rw [if_neg hm, hr,
      Finset.sum_eq_zero (fun q _ => if_neg (skipped a1 ls hT t cb b ht hm q k')), add_zero]

/-- The sums' step. -/
theorem step_sum (c : Dev nD) (fs : Fin 131072 → Fin 256 → ℝ) (ls : Fin 131072 → Fin 50000) (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (t : Fin (cfg1 a1).N) (cb : Fin 50) (b : Fin 32) (ht : t.val = 32 * cb.val + b.val)
    (d10 : Vec Ideal S1000x256 .f32) (r : Fin 1000 → Fin 256 → ℝ)
    (hr : ∀ (k' : Fin 1000) (d : Fin 256), resetSum (F := Ideal) ((cfg1 a1).grid.coords t) d10 (ix2 k' d) = ((r k' d : ℝ) : EReal)) (k' : Fin 1000) (d : Fin 256) :
    stepSum (F := Ideal) ((cfg1 a1).grid.coords t) (tblWord (tloOf a1) ((cfg1 a1).grid.coords t)) (tblWord (thiOf a1) ((cfg1 a1).grid.coords t))
        (blockAt1 V a1 c 0 t) (blockAt1 V a1 c 1 t) d10 (ix2 k' d)
      = ((r k' d + ∑ q : Fin 4096, (if (ls ⟨4096 * b.val + q.val, by omega⟩).val = 1000 * cb.val + k'.val then fs ⟨4096 * b.val + q.val, by omega⟩ d else 0) : ℝ) : EReal) := by
  obtain ⟨i0, i1⟩ := point_coords a1 t cb b ht
  unfold stepSum
  by_cases hm : meetsTile ((cfg1 a1).grid.coords t) (tblWord (tloOf a1) ((cfg1 a1).grid.coords t)) (tblWord (thiOf a1) ((cfg1 a1).grid.coords t))
  · rw [if_pos hm, acc_sum_coe ((cfg1 a1).grid.coords t) (blockAt1 V a1 c 0 t) (blockAt1 V a1 c 1 t) (resetSum ((cfg1 a1).grid.coords t) d10)
      (fun q => ls ⟨4096 * b.val + q.val, by omega⟩) (fun q d => fs ⟨4096 * b.val + q.val, by omega⟩ d) r
      (rows_block V a1 c fs hF t cb b ht) (lbl_block V a1 c ls hL t cb b ht) hr k' d]
    unfold classOf
    rw [i0]
  · rw [if_neg hm, hr,
      Finset.sum_eq_zero (fun q _ => if_neg (skipped a1 ls hT t cb b ht hm q k')), add_zero]

end Cert.KernelIdeal.ScatterAccStep

end
-- ==== Proof.ScatterAccInd.lean ====
/-
  The two accumulators over a class tile's batch tiles, by induction on the number nb of batch tiles done: after nb ≥ 1 tiles of
  class tile cb, row k' of the counts is the number of the first 4096 · nb sorted samples with label 1000 · cb + k', and entry
  (k', d) of the sums the sum of their entries d.  The first tile clears the accumulators (the sum over no positions), every
  tile adds its 4096 positions' share.
-/
import proofs.«100039_j20426864460160_2_alg».proof.Proof.ScatterAccStep
import Idealize.ShloMosaic.Lib.ValueIdx

noncomputable section

namespace Cert.KernelIdeal.ScatterAccInd

open Cert.KernelIdeal Cert.KernelIdeal.Gen Cert.KernelIdeal.Scatter
open Idealize.ShloMosaic Idealize.ShloMosaic.TcCoe Idealize.SL.Sem Idealize.ShloMosaic.ValueIdx
open scoped BigOperators
open Cert.KernelIdeal.ScatterAccBase Cert.KernelIdeal.ScatterAccStep Cert.KernelIdeal.ScatterVal

variable (V : (c : Dev nD) → (b : Ref sig .tc) → Buf (Elt Ideal) ((c : Thread nD τ).loc b)) (a1 : (pcfg1 (F := Ideal)).Adm)

/-- One more grid point. -/
theorem accAt_succ (c : Dev nD) (n : ℕ) (h : n < (cfg1 a1).N) :
    accAt (F := Ideal) V a1 c (n + 1)
      = (stepCnt ((cfg1 a1).grid.coords ⟨n, h⟩) (tblWord (tloOf a1) ((cfg1 a1).grid.coords ⟨n, h⟩)) (tblWord (thiOf a1) ((cfg1 a1).grid.coords ⟨n, h⟩))
            (blockAt1 V a1 c 1 ⟨n, h⟩) (accAt V a1 c n).1,
          stepSum ((cfg1 a1).grid.coords ⟨n, h⟩) (tblWord (tloOf a1) ((cfg1 a1).grid.coords ⟨n, h⟩)) (tblWord (thiOf a1) ((cfg1 a1).grid.coords ⟨n, h⟩))
            (blockAt1 V a1 c 0 ⟨n, h⟩) (blockAt1 V a1 c 1 ⟨n, h⟩) (accAt V a1 c n).2) := by
  rw [accAt, dif_pos h]

/-- Sample p's share of class `cls`'s count, and of its feature sum at column d. -/
def gC (ls : Fin 131072 → Fin 50000) (cls : ℕ) (p : Fin 131072) : ℝ := if (ls p).val = cls then 1 else 0
def gS (ls : Fin 131072 → Fin 50000) (fs : Fin 131072 → Fin 256 → ℝ) (cls : ℕ) (d : Fin 256) (p : Fin 131072) : ℝ :=
  if (ls p).val = cls then fs p d else 0

/-- The counts after nb ≥ 1 batch tiles of class tile cb. -/
theorem cnt_inv (c : Dev nD) (ls : Fin 131072 → Fin 50000) (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (cb : Fin 50) (nb : ℕ) (hle : nb ≤ 32) (h1 : 1 ≤ nb) (k' : Fin 1000) :
    (accAt (F := Ideal) V a1 c (32 * cb.val + nb)).1 (ix2 k' (0 : Fin 1))
      = ((pre (gC ls (1000 * cb.val + k'.val)) nb : ℝ) : EReal) := by
  induction nb generalizing k' with
  | zero => omega
  | succ nb ih =>
    have hnb : nb < 32 := hle
    have hcb := cb.isLt
    have hlt : 32 * cb.val + nb < (cfg1 a1).N := lt_N a1 _ (by omega)
    have hr : ∀ k'' : Fin 1000, resetCnt (F := Ideal) ((cfg1 a1).grid.coords ⟨32 * cb.val + nb, hlt⟩)
        (accAt V a1 c (32 * cb.val + nb)).1 (ix2 k'' (0 : Fin 1)) = ((pre (gC ls (1000 * cb.val + k''.val)) nb : ℝ) : EReal) := by
      intro k''
      obtain ⟨_, i1⟩ := point_coords a1 ⟨32 * cb.val + nb, hlt⟩ cb ⟨nb, hnb⟩ rfl
      unfold resetCnt
      by_cases h0 : nb = 0
      · subst h0
        rw [if_pos ((firstTile_iff _).2 i1), pre_zero]
        exact congrFun reset_cnt _
      · rw [if_neg (fun hf => h0 (i1.symm.trans ((firstTile_iff _).1 hf))), ih (by omega) (by omega) k'']
    show (accAt (F := Ideal) V a1 c ((32 * cb.val + nb) + 1)).1 (ix2 k' (0 : Fin 1)) = _
    rw [accAt_succ V a1 c _ hlt]
    refine (step_cnt V a1 c ls hL hT ⟨32 * cb.val + nb, hlt⟩ cb ⟨nb, hnb⟩ rfl _ _ hr k').trans ?_
    rw [pre_succ _ nb hnb]
    rfl

/-- The sums after nb ≥ 1 batch tiles of class tile cb. -/
theorem sum_inv (c : Dev nD) (fs : Fin 131072 → Fin 256 → ℝ) (ls : Fin 131072 → Fin 50000) (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (cb : Fin 50) (nb : ℕ) (hle : nb ≤ 32) (h1 : 1 ≤ nb) (k' : Fin 1000) (d : Fin 256) :
    (accAt (F := Ideal) V a1 c (32 * cb.val + nb)).2 (ix2 k' d)
      = ((pre (gS ls fs (1000 * cb.val + k'.val) d) nb : ℝ) : EReal) := by
  induction nb generalizing k' d with
  | zero => omega
  | succ nb ih =>
    have hnb : nb < 32 := hle
    have hcb := cb.isLt
    have hlt : 32 * cb.val + nb < (cfg1 a1).N := lt_N a1 _ (by omega)
    have hr : ∀ (k'' : Fin 1000) (d' : Fin 256), resetSum (F := Ideal) ((cfg1 a1).grid.coords ⟨32 * cb.val + nb, hlt⟩)
        (accAt V a1 c (32 * cb.val + nb)).2 (ix2 k'' d') = ((pre (gS ls fs (1000 * cb.val + k''.val) d') nb : ℝ) : EReal) := by
      intro k'' d'
      obtain ⟨_, i1⟩ := point_coords a1 ⟨32 * cb.val + nb, hlt⟩ cb ⟨nb, hnb⟩ rfl
      unfold resetSum
      by_cases h0 : nb = 0
      · subst h0
        rw [if_pos ((firstTile_iff _).2 i1), pre_zero]
        exact congrFun reset_sum _
      · rw [if_neg (fun hf => h0 (i1.symm.trans ((firstTile_iff _).1 hf))), ih (by omega) (by omega) k'' d']
    show (accAt (F := Ideal) V a1 c ((32 * cb.val + nb) + 1)).2 (ix2 k' d) = _
    rw [accAt_succ V a1 c _ hlt]
    refine (step_sum V a1 c fs ls hF hL hT ⟨32 * cb.val + nb, hlt⟩ cb ⟨nb, hnb⟩ rfl _ _ hr k' d).trans ?_
    rw [pre_succ _ nb hnb]
    rfl

end Cert.KernelIdeal.ScatterAccInd

end
-- ==== Proof.ScatterAcc.lean ====
/-
  The two accumulators after a class tile's 32 batch tiles, on real data: row k' of the counts holds the number of ALL samples
  whose label is the row's class id, row k' of the feature sums the sum of the rows of all those samples.  By induction over
  the grid points: the class tile's first batch tile clears the accumulators, each batch tile adds its 4096 samples' share
  (nothing when its label range misses the class tile — then no sample of the tile has a label in the class tile), and the 32
  batch tiles' samples are all the samples.
-/
import proofs.«100039_j20426864460160_2_alg».proof.Proof.ScatterDataIdeal
import proofs.«100039_j20426864460160_2_alg».proof.Proof.ScatterVal
import proofs.«100039_j20426864460160_2_alg».proof.Proof.ScatterAccInd
import proofs.«100039_j20426864460160_2_alg».proof.Proof.SpecReal
import Idealize.ShloMosaic.Lib.ValueIdx

noncomputable section

namespace Cert.KernelIdeal.ScatterAcc

open Cert.KernelIdeal Cert.KernelIdeal.Gen Cert.KernelIdeal.Scatter
open Idealize.ShloMosaic Idealize.ShloMosaic.TcCoe Idealize.SL.Sem Idealize.ShloMosaic.ValueIdx
open CenterSpec CenterLoss

variable (V : (c : Dev nD) → (b : Ref sig .tc) → Buf (Elt Ideal) ((c : Thread nD τ).loc b)) (a1 : (pcfg1 (F := Ideal)).Adm)

/-- The counts after class tile `cb`'s last batch tile. -/
theorem acc_cnt_full (c : Dev nD) (fs : Fin 131072 → Fin 256 → ℝ) (ls : Fin 131072 → Fin 50000)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (cb : Fin 50) (k' : Fin 1000) :
    (accAt (F := Ideal) V a1 c (32 * cb.val + 32)).1 (ix2 k' (0 : Fin 1))
      = ((cnt ls (⟨1000 * cb.val + k'.val, by omega⟩ : Fin 50000) : ℝ) : EReal) := by
  rw [ScatterAccInd.cnt_inv V a1 c ls hL hT cb 32 le_rfl (by norm_num) k', ScatterAccBase.pre_full]
  unfold cnt ScatterAccInd.gC
  exact congrArg Real.toEReal (Finset.sum_congr rfl fun p _ => if_congr (Fin.ext_iff (a := ls p) (b := (⟨1000 * cb.val + k'.val, by omega⟩ : Fin 50000))).symm rfl rfl)

/-- The feature sums after class tile `cb`'s last batch tile. -/
theorem acc_sum_full (c : Dev nD) (fs : Fin 131072 → Fin 256 → ℝ) (ls : Fin 131072 → Fin 50000)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (cb : Fin 50) (k' : Fin 1000) (d : Fin 256) :
    (accAt (F := Ideal) V a1 c (32 * cb.val + 32)).2 (ix2 k' d)
      = ((seg ls fs (⟨1000 * cb.val + k'.val, by omega⟩ : Fin 50000) d : ℝ) : EReal) := by
  rw [ScatterAccInd.sum_inv V a1 c fs ls hF hL hT cb 32 le_rfl (by norm_num) k' d, ScatterAccBase.pre_full]
  unfold seg ScatterAccInd.gS
  exact congrArg Real.toEReal (Finset.sum_congr rfl fun p _ => if_congr (Fin.ext_iff (a := ls p) (b := (⟨1000 * cb.val + k'.val, by omega⟩ : Fin 50000))).symm rfl rfl)

end Cert.KernelIdeal.ScatterAcc

end
-- ==== Proof.ScatterSched.lean ====
/-
  The schedule of the scatter-and-finalise region, decided over its 50 × 32 grid points.

  Point `t` is batch tile `t % 32` of class tile `t / 32`.  The windows of the centers, of the updated centers and of the loss
  partials take block `t / 32` along the rows and the only block along the columns; the two output windows are written
  back exactly at each class tile's last batch tile.  None of these index maps reads the prefetched tables, so the facts
  hold at any contents of the tables.
-/
import proofs.«100039_j20426864460160_2_alg».proof.Proof.Gen.KernelIdeal.Launch
import Idealize.ShloMosaic.Lib.Pipeline.Kit

noncomputable section

namespace Cert.KernelIdeal.ScatterSched

open Cert.KernelIdeal Cert.KernelIdeal.Gen
open Idealize.ShloMosaic Idealize.ShloMosaic.TcCoe Idealize.SL.Sem

variable {F : FTy → Type} [FloatOps F] (a1 : (pcfg1 (F := F)).Adm)

/-- The window of the updated centers is written back exactly at the last batch tile of each class tile. -/
theorem flush1_3 : ∀ t : Fin (cfg1 a1).N, ((cfg1 a1).win 3).flush t = decide (t.val % 32 = 31) :=
  (by decide +kernel : ∀ t : Fin grid1.N, Pipeline.Window.flushOf grid1 true cc1_transform_3 t = decide (t.val % 32 = 31))

/-- So is the window of the loss partials. -/
theorem flush1_4 : ∀ t : Fin (cfg1 a1).N, ((cfg1 a1).win 4).flush t = decide (t.val % 32 = 31) :=
  (by decide +kernel : ∀ t : Fin grid1.N, Pipeline.Window.flushOf grid1 true cc1_transform_4 t = decide (t.val % 32 = 31))

/-- The block indices of the three class-tiled windows at point `t`. -/
theorem idx_facts1 : ∀ t : Fin (cfg1 a1).N,
    ((cfg1 a1).win 2).index t (0 : Fin 2) = t.val / 32 ∧ ((cfg1 a1).win 2).index t (1 : Fin 2) = 0
    ∧ ((cfg1 a1).win 3).index t (0 : Fin 2) = t.val / 32 ∧ ((cfg1 a1).win 3).index t (1 : Fin 2) = 0
    ∧ ((cfg1 a1).win 4).index t (0 : Fin 2) = t.val / 32 ∧ ((cfg1 a1).win 4).index t (1 : Fin 2) = 0 :=
  (by decide +kernel : ∀ t : Fin grid1.N,
    cc1_transform_2 (grid1.coords t) (0 : Fin 2) = t.val / 32 ∧ cc1_transform_2 (grid1.coords t) (1 : Fin 2) = 0
    ∧ cc1_transform_3 (grid1.coords t) (0 : Fin 2) = t.val / 32 ∧ cc1_transform_3 (grid1.coords t) (1 : Fin 2) = 0
    ∧ cc1_transform_4 (grid1.coords t) (0 : Fin 2) = t.val / 32 ∧ cc1_transform_4 (grid1.coords t) (1 : Fin 2) = 0)

/-- The region has 1600 grid points. -/
theorem point_lt (t : Fin (cfg1 a1).N) : t.val < 1600 := lt_of_lt_of_eq t.isLt N_1

theorem points : (cfg1 a1).N = 1600 := N_1

/-- A point that writes an output window back is the last batch tile of its class tile. -/
theorem last_of_flush3 (t : Fin (cfg1 a1).N) (hf : ((cfg1 a1).win 3).flush t = true) : t.val % 32 = 31 := by
  have h := flush1_3 a1 t
  rw [hf] at h
  exact of_decide_eq_true h.symm
theorem last_of_flush4 (t : Fin (cfg1 a1).N) (hf : ((cfg1 a1).win 4).flush t = true) : t.val % 32 = 31 := by
  have h := flush1_4 a1 t
  rw [hf] at h
  exact of_decide_eq_true h.symm

end Cert.KernelIdeal.ScatterSched

end
-- ==== Proof.ScatterBlocks.lean ====
/-
  The block of centers the scatter-and-finalise region hands the kernel: at point `t`, of class tile `cb = t / 32`, it is rows
  `1000·cb … 1000·cb + 999` of the array of centers.
-/
import proofs.«100039_j20426864460160_2_alg».proof.Proof.ScatterDataIdeal
import proofs.«100039_j20426864460160_2_alg».proof.Proof.ScatterSched
import Idealize.ShloMosaic.Lib.Pipeline.Value
import Idealize.ShloMosaic.Lib.ValueIdx
import Idealize.ShloMosaic.PureOps.Ideal

noncomputable section

namespace Cert.KernelIdeal.ScatterBlocks

open Cert.KernelIdeal Cert.KernelIdeal.Gen Cert.KernelIdeal.Scatter Cert.KernelIdeal.ScatterSched
open Idealize.ShloMosaic Idealize.ShloMosaic.TcCoe Idealize.SL.Sem Idealize.ShloMosaic.ValueIdx

variable (V : (c : Dev nD) → (b : Ref sig .tc) → Buf (Elt Ideal) ((c : Thread nD τ).loc b)) (a1 : (pcfg1 (F := Ideal)).Adm)

/-- The block of centers at point `t` is rows `1000·(t / 32) …` of the array of centers. -/
theorem block2_apply (c : Dev nD) (t : Fin (cfg1 a1).N) (y : S1000x256.Idx) (k : S50000x256.Idx)
    (hk0 : (k 0).val = 1000 * (t.val / 32) + (y 0).val) (hk1 : (k 1).val = (y 1).val) :
    (blockAt1 V a1 c 2 t : Vec Ideal S1000x256 .f32) y = (V c main_arg2 : S50000x256.Idx → EReal) k := by
  obtain ⟨e0, e1, -⟩ := idx_facts1 a1 t
  unfold blockAt1
  show V c main_arg2 ((((cfg1 a1).win 2).blk t).view.emb y) = V c main_arg2 k
  have hemb : ((((cfg1 a1).win 2).blk t).view.emb y : S50000x256.Idx) = k := by
    funext a
    apply Fin.ext
    match a with
    | ⟨0, _⟩ => show ((cfg1 a1).win 2).index t (0 : Fin 2) * 1000 + 1 * (y 0).val = (k 0).val; rw [e0, hk0]; omega
    | ⟨1, _⟩ => show ((cfg1 a1).win 2).index t (1 : Fin 2) * 256 + 1 * (y 1).val = (k 1).val; rw [e1, hk1]; omega
  rw [hemb]

end Cert.KernelIdeal.ScatterBlocks

end
-- ==== Proof.ScatterCoverNewc.lean ====
/-
  The array of updated centers after the scatter-and-finalise region, as one function of the real data.

  Class tile `cb`'s block — rows `1000·cb … 1000·cb + 999` — is written back once, at the tile's last batch tile, point
  `32·cb + 31`, from the block of centers and the two accumulators as the tile's 32 batch tiles left them: the counts and
  the per-class feature sums of ALL samples.  Row `k` therefore holds the kernel's arrangement of the center update of
  class `k`; row `k` lies in the block of point `32·(k / 1000) + 31`, so the 50 written blocks cover the array.
-/
import proofs.«100039_j20426864460160_2_alg».proof.Proof.ScatterBlocks
import proofs.«100039_j20426864460160_2_alg».proof.Proof.ScatterVal
import proofs.«100039_j20426864460160_2_alg».proof.Proof.ScatterAcc
import proofs.«100039_j20426864460160_2_alg».proof.Proof.SpecReal
import Idealize.ShloMosaic.Lib.Pipeline.Value
import Idealize.ShloMosaic.Lib.ValueIdx

noncomputable section

namespace Cert.KernelIdeal.ScatterCoverNewc

open Cert.KernelIdeal Cert.KernelIdeal.Gen Cert.KernelIdeal.Scatter Cert.KernelIdeal.ScatterSched Cert.KernelIdeal.ScatterBlocks
open Idealize.ShloMosaic Idealize.ShloMosaic.TcCoe Idealize.SL.Sem Idealize.ShloMosaic.ValueIdx
open Idealize.ShloMosaic.Pipeline (Dat)
open CenterSpec CenterLoss
open scoped BigOperators

variable (V : (c : Dev nD) → (b : Ref sig .tc) → Buf (Elt Ideal) ((c : Thread nD τ).loc b)) (a1 : (pcfg1 (F := Ideal)).Adm)

/-- A class count is a sum of zeros and ones. -/
theorem cnt_nonneg (ls : Fin 131072 → Fin 50000) (k : Fin 50000) : 0 ≤ cnt ls k := by
  unfold cnt
  exact Finset.sum_nonneg fun i _ => by split <;> norm_num

/-- The updated centers as one array over the real data. -/
def G3 (ls : Fin 131072 → Fin 50000) (cen : Fin 50000 → Fin 256 → ℝ) (fs : Fin 131072 → Fin 256 → ℝ) : S50000x256.Idx → EReal :=
  fun j => ((newcK ls cen fs (j 0) (j 1) : ℝ) : EReal)

theorem G3_ix2 (ls : Fin 131072 → Fin 50000) (cen : Fin 50000 → Fin 256 → ℝ) (fs : Fin 131072 → Fin 256 → ℝ)
    (k : Fin 50000) (d : Fin 256) : G3 ls cen fs (ix2 k d) = ((newcK ls cen fs k d : ℝ) : EReal) := rfl

/-- From the centers, counts and feature sums of class tile `cb`, the written block holds the tile's rows of the update. -/
theorem newc_point (ls : Fin 131072 → Fin 50000) (cen : Fin 50000 → Fin 256 → ℝ) (fs : Fin 131072 → Fin 256 → ℝ)
    (x6 s10 : Vec Ideal S1000x256 .f32) (s9 : Vec Ideal S1000x1 .f32) (cb : ℕ) (hcb : cb < 50)
    (h6 : ∀ (k' : Fin 1000) (d : Fin 256), x6 (ix2 k' d) = ((cen ⟨1000 * cb + k'.val, by omega⟩ d : ℝ) : EReal))
    (h10 : ∀ (k' : Fin 1000) (d : Fin 256), s10 (ix2 k' d) = ((seg ls fs (⟨1000 * cb + k'.val, by omega⟩ : Fin 50000) d : ℝ) : EReal))
    (h9 : ∀ k' : Fin 1000, s9 (ix2 k' (0 : Fin 1)) = ((cnt ls (⟨1000 * cb + k'.val, by omega⟩ : Fin 50000) : ℝ) : EReal))
    (k' : Fin 1000) (d : Fin 256) :
    outNewc (F := Ideal) x6 s10 s9 (ix2 k' d) = ((newcK ls cen fs ⟨1000 * cb + k'.val, by omega⟩ d : ℝ) : EReal) := by
  rw [ScatterVal.out_newc_coe x6 s10 s9 (fun k' d => cen ⟨1000 * cb + k'.val, by omega⟩ d)
    (fun k' d => seg ls fs (⟨1000 * cb + k'.val, by omega⟩ : Fin 50000) d)
    (fun k' => cnt ls (⟨1000 * cb + k'.val, by omega⟩ : Fin 50000)) h6 h10 h9 (fun k' => cnt_nonneg ls _) k' d]
  rfl

/-- The same at any entry `y` of the block and the array index `k` it is written to. -/
theorem newc_point_at (ls : Fin 131072 → Fin 50000) (cen : Fin 50000 → Fin 256 → ℝ) (fs : Fin 131072 → Fin 256 → ℝ)
    (x6 s10 : Vec Ideal S1000x256 .f32) (s9 : Vec Ideal S1000x1 .f32) (cb : ℕ) (hcb : cb < 50)
    (h6 : ∀ (k' : Fin 1000) (d : Fin 256), x6 (ix2 k' d) = ((cen ⟨1000 * cb + k'.val, by omega⟩ d : ℝ) : EReal))
    (h10 : ∀ (k' : Fin 1000) (d : Fin 256), s10 (ix2 k' d) = ((seg ls fs (⟨1000 * cb + k'.val, by omega⟩ : Fin 50000) d : ℝ) : EReal))
    (h9 : ∀ k' : Fin 1000, s9 (ix2 k' (0 : Fin 1)) = ((cnt ls (⟨1000 * cb + k'.val, by omega⟩ : Fin 50000) : ℝ) : EReal))
    (y : S1000x256.Idx) (k : S50000x256.Idx) (hk0 : (k 0).val = 1000 * cb + (y 0).val) (hk1 : (k 1).val = (y 1).val) :
    (outNewc (F := Ideal) x6 s10 s9 : S1000x256.Idx → EReal) y = G3 ls cen fs k := by
  obtain ⟨k', d, rfl⟩ : ∃ (k' : Fin 1000) (d : Fin 256), y = ix2 k' d := ⟨y 0, y 1, eq_ix2 y⟩
  have hlt : 1000 * cb + k'.val < 50000 := by omega
  obtain ⟨i, d', rfl⟩ : ∃ (i : Fin 50000) (d' : Fin 256), k = ix2 i d' := ⟨k 0, k 1, eq_ix2 k⟩
  have hi : i = ⟨1000 * cb + k'.val, hlt⟩ := Fin.ext hk0
  have hd : d' = d := Fin.ext hk1
  rw [hi, hd]
  exact newc_point ls cen fs x6 s10 s9 cb hcb h6 h10 h9 k' d

/-- What a point that writes the window back writes is its block of `G3`. -/
theorem flushed3_eq (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (t : Fin (cfg1 a1).N) (hf : ((cfg1 a1).win 3).flush t = true) :
    (dat1 (F := Ideal) V a1 c).flushed 3 t = (((cfg1 a1).win 3).blk t).view.read (Elt Ideal) (G3 ls cen fs) := by
  show ((cfg1 a1).win 3).cut ((cfg1 a1).grid.coords t) ((dat1 (F := Ideal) V a1 c).after 3 t) = _
  rw [dat1_after3]
  refine funext fun (y : S1000x256.Idx) => ?_
  have ht : t.val < 1600 := point_lt a1 t
  have hm : t.val % 32 = 31 := last_of_flush3 a1 t hf
  have hcb : t.val / 32 < 50 := by omega
  have e : t.val + 1 = 32 * (⟨t.val / 32, hcb⟩ : Fin 50).val + 32 := by show t.val + 1 = 32 * (t.val / 32) + 32; omega
  obtain ⟨-, -, f0, f1, -⟩ := idx_facts1 a1 t
  show (outNewc (F := Ideal) (blockAt1 V a1 c 2 t) (accAt (F := Ideal) V a1 c (t.val + 1)).2 (accAt (F := Ideal) V a1 c (t.val + 1)).1 : S1000x256.Idx → EReal) y
    = G3 ls cen fs ((((cfg1 a1).win 3).blk t).view.emb y)
  refine newc_point_at ls cen fs (blockAt1 V a1 c 2 t) (accAt (F := Ideal) V a1 c (t.val + 1)).2 (accAt (F := Ideal) V a1 c (t.val + 1)).1
    (t.val / 32) hcb ?_ ?_ ?_ y ((((cfg1 a1).win 3).blk t).view.emb y) ?_ ?_
  · intro k' d
    rw [block2_apply V a1 c t (ix2 k' d) (ix2 ⟨1000 * (t.val / 32) + k'.val, by omega⟩ d) rfl rfl]
    exact hC _ _
  · intro k' d
    rw [e]
    exact ScatterAcc.acc_sum_full V a1 c fs ls hF hL hT ⟨t.val / 32, hcb⟩ k' d
  · intro k'
    rw [e]
    exact ScatterAcc.acc_cnt_full V a1 c fs ls hF hL hT ⟨t.val / 32, hcb⟩ k'
  · show ((cfg1 a1).win 3).index t (0 : Fin 2) * 1000 + 1 * (y 0).val = 1000 * (t.val / 32) + (y 0).val
    rw [f0]; omega
  · show ((cfg1 a1).win 3).index t (1 : Fin 2) * 256 + 1 * (y 1).val = (y 1).val
    rw [f1]; omega

set_option backward.isDefEq.respectTransparency.types false in
/-- An index of the array is in point `t`'s block iff each coordinate is in the block's range on its axis. -/
theorem mem_blk3 (t : Fin (cfg1 a1).N) (i : S50000x256.Idx) :
    i ∈ (((cfg1 a1).win 3).blk t).view.set ↔ ∀ a : Fin 2, ((cfg1 a1).win 3).index t a * S1000x256.size a ≤ (i a).val ∧ (i a).val < ((cfg1 a1).win 3).index t a * S1000x256.size a + S1000x256.size a := by
  show i ∈ ((View.whole main_v21_0).slice (((cfg1 a1).win 3).rect t)).set ↔ _
  rw [View.set_slice_whole]
  exact Rect.mem_set_unit

/-- Row `k` lies in the block written back at point `32·(k / 1000) + 31`. -/
theorem cover3 (i : S50000x256.Idx) :
    ∃ t : Fin (cfg1 a1).N, ((cfg1 a1).win 3).flush t = true ∧ i ∈ (((cfg1 a1).win 3).blk t).view.set := by
  have hi0 : (i 0).val < 50000 := idx2_lt0 i
  have hi1 : (i 1).val < 256 := idx2_lt1 i
  have hN : (cfg1 a1).N = 1600 := points a1
  have hq : 32 * ((i 0).val / 1000) + 31 < (cfg1 a1).N := by rw [hN]; omega
  obtain ⟨-, -, f0, f1, -⟩ := idx_facts1 a1 ⟨32 * ((i 0).val / 1000) + 31, hq⟩
  refine ⟨⟨32 * ((i 0).val / 1000) + 31, hq⟩, ?_, ?_⟩
  · rw [flush1_3]
    exact decide_eq_true (by show (32 * ((i 0).val / 1000) + 31) % 32 = 31; omega)
  rw [mem_blk3]
  intro a
  match a with
  | ⟨0, _⟩ =>
    show ((cfg1 a1).win 3).index ⟨32 * ((i 0).val / 1000) + 31, hq⟩ (0 : Fin 2) * 1000 ≤ (i 0).val
      ∧ (i 0).val < ((cfg1 a1).win 3).index ⟨32 * ((i 0).val / 1000) + 31, hq⟩ (0 : Fin 2) * 1000 + 1000
    rw [f0]
    show (32 * ((i 0).val / 1000) + 31) / 32 * 1000 ≤ (i 0).val ∧ (i 0).val < (32 * ((i 0).val / 1000) + 31) / 32 * 1000 + 1000
    omega
  | ⟨1, _⟩ =>
    show ((cfg1 a1).win 3).index ⟨32 * ((i 0).val / 1000) + 31, hq⟩ (1 : Fin 2) * 256 ≤ (i 1).val
      ∧ (i 1).val < ((cfg1 a1).win 3).index ⟨32 * ((i 0).val / 1000) + 31, hq⟩ (1 : Fin 2) * 256 + 256
    rw [f1]; omega

/-- The array of updated centers after the region. -/
theorem final3 (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt) :
    (dat1 (F := Ideal) V a1 c).arrAt 3 (cfg1 a1).N = G3 ls cen fs :=
  (dat1 (F := Ideal) V a1 c).arrAt_eq_of_cover 3 (G3 ls cen fs) (fun t hf => flushed3_eq V a1 c fs ls cen hF hL hC hT t hf) (cover3 a1)

end Cert.KernelIdeal.ScatterCoverNewc

end
-- ==== Proof.ScatterCoverLoss.lean ====
/-
  The array of loss partials after the scatter-and-finalise region, as one function of the real data.

  Class tile `cb`'s 8×128 block — rows `8·cb … 8·cb + 7` — is written back once, at the tile's last batch tile, point
  `32·cb + 31`, from the block of centers and the two accumulators as the tile's 32 batch tiles left them.  Every entry of
  the block holds (−2 Σ_k' Σ_d cen·S + Σ_k' n · Σ_d cen²) / 1024 over the tile's 1000 classes, which is the sum of the
  classes' shares `qK` of the loss over 1024 (the factor −2 and the sums distribute).  Row `j` lies in the block of point
  `32·(j / 8) + 31`, so the 50 written blocks cover the array.
-/
import proofs.«100039_j20426864460160_2_alg».proof.Proof.ScatterBlocks
import proofs.«100039_j20426864460160_2_alg».proof.Proof.ScatterVal
import proofs.«100039_j20426864460160_2_alg».proof.Proof.ScatterAcc
import proofs.«100039_j20426864460160_2_alg».proof.Proof.SpecReal
import Idealize.ShloMosaic.Lib.Pipeline.Value
import Idealize.ShloMosaic.Lib.ValueIdx

noncomputable section

namespace Cert.KernelIdeal.ScatterCoverLoss

open Cert.KernelIdeal Cert.KernelIdeal.Gen Cert.KernelIdeal.Scatter Cert.KernelIdeal.ScatterSched Cert.KernelIdeal.ScatterBlocks
open Idealize.ShloMosaic Idealize.ShloMosaic.TcCoe Idealize.SL.Sem Idealize.ShloMosaic.ValueIdx
open Idealize.ShloMosaic.Pipeline (Dat)
open CenterSpec CenterLoss
open scoped BigOperators

variable (V : (c : Dev nD) → (b : Ref sig .tc) → Buf (Elt Ideal) ((c : Thread nD τ).loc b)) (a1 : (pcfg1 (F := Ideal)).Adm)

/-- The sum of the shares of the loss of class tile `cb`'s 1000 classes. -/
def tileQ (ls : Fin 131072 → Fin 50000) (cen : Fin 50000 → Fin 256 → ℝ) (fs : Fin 131072 → Fin 256 → ℝ) (cb : ℕ) (hcb : cb < 50) : ℝ :=
  ∑ k' : Fin 1000, qK ls cen fs (⟨1000 * cb + k'.val, by omega⟩ : Fin 50000)

theorem tileQ_congr (ls : Fin 131072 → Fin 50000) (cen : Fin 50000 → Fin 256 → ℝ) (fs : Fin 131072 → Fin 256 → ℝ)
    (cb cb' : ℕ) (h : cb < 50) (h' : cb' < 50) (e : cb = cb') : tileQ ls cen fs cb h = tileQ ls cen fs cb' h' := by
  subst e; rfl

/-- The factor −2 and the sum over the classes distribute: the kernel's two sums are the sum of the classes' shares. -/
theorem shares_eq (cen' S' : Fin 1000 → Fin 256 → ℝ) (n' : Fin 1000 → ℝ) :
    -2 * (∑ k' : Fin 1000, ∑ d : Fin 256, cen' k' d * S' k' d) + ∑ k' : Fin 1000, n' k' * ∑ d : Fin 256, cen' k' d * cen' k' d
      = ∑ k' : Fin 1000, (-2 * (∑ d : Fin 256, cen' k' d * S' k' d) + n' k' * ∑ d : Fin 256, cen' k' d * cen' k' d) := by
  rw [Finset.sum_add_distrib, Finset.mul_sum]

/-- The loss partials as one array over the real data: row `j` holds class tile `j / 8`'s value over 1024. -/
def G4 (ls : Fin 131072 → Fin 50000) (cen : Fin 50000 → Fin 256 → ℝ) (fs : Fin 131072 → Fin 256 → ℝ) : S400x128.Idx → EReal :=
  fun j => ((tileQ ls cen fs ((j 0).val / 8) (by have := idx2_lt0 j; omega) / 1024 : ℝ) : EReal)

/-- At a row of class tile `cb`'s block the array holds the tile's value. -/
theorem G4_of_row (ls : Fin 131072 → Fin 50000) (cen : Fin 50000 → Fin 256 → ℝ) (fs : Fin 131072 → Fin 256 → ℝ)
    (k : S400x128.Idx) (cb : ℕ) (hcb : cb < 50) (u : ℕ) (hu : u < 8) (hk : (k 0).val = 8 * cb + u) :
    G4 ls cen fs k = ((tileQ ls cen fs cb hcb / 1024 : ℝ) : EReal) := by
  unfold G4
  rw [tileQ_congr ls cen fs ((k 0).val / 8) cb _ hcb (by omega)]

/-- From the centers, counts and feature sums of class tile `cb`, every entry of the written 8×128 block holds the tile's value. -/
theorem loss_point (ls : Fin 131072 → Fin 50000) (cen : Fin 50000 → Fin 256 → ℝ) (fs : Fin 131072 → Fin 256 → ℝ)
    (x6 s10 : Vec Ideal S1000x256 .f32) (s9 : Vec Ideal S1000x1 .f32) (cb : ℕ) (hcb : cb < 50)
    (h6 : ∀ (k' : Fin 1000) (d : Fin 256), x6 (ix2 k' d) = ((cen ⟨1000 * cb + k'.val, by omega⟩ d : ℝ) : EReal))
    (h10 : ∀ (k' : Fin 1000) (d : Fin 256), s10 (ix2 k' d) = ((seg ls fs (⟨1000 * cb + k'.val, by omega⟩ : Fin 50000) d : ℝ) : EReal))
    (h9 : ∀ k' : Fin 1000, s9 (ix2 k' (0 : Fin 1)) = ((cnt ls (⟨1000 * cb + k'.val, by omega⟩ : Fin 50000) : ℝ) : EReal))
    (u : Fin 8) (v : Fin 128) :
    outLoss (F := Ideal) x6 s10 s9 (ix2 u v) = ((tileQ ls cen fs cb hcb / 1024 : ℝ) : EReal) := by
  rw [ScatterVal.out_loss_coe x6 s10 s9 (fun k' d => cen ⟨1000 * cb + k'.val, by omega⟩ d)
    (fun k' d => seg ls fs (⟨1000 * cb + k'.val, by omega⟩ : Fin 50000) d)
    (fun k' => cnt ls (⟨1000 * cb + k'.val, by omega⟩ : Fin 50000)) h6 h10 h9 u v, shares_eq]
  rfl

/-- The same at any entry `y` of the block and the array index `k` it is written to. -/
theorem loss_point_at (ls : Fin 131072 → Fin 50000) (cen : Fin 50000 → Fin 256 → ℝ) (fs : Fin 131072 → Fin 256 → ℝ)
    (x6 s10 : Vec Ideal S1000x256 .f32) (s9 : Vec Ideal S1000x1 .f32) (cb : ℕ) (hcb : cb < 50)
    (h6 : ∀ (k' : Fin 1000) (d : Fin 256), x6 (ix2 k' d) = ((cen ⟨1000 * cb + k'.val, by omega⟩ d : ℝ) : EReal))
    (h10 : ∀ (k' : Fin 1000) (d : Fin 256), s10 (ix2 k' d) = ((seg ls fs (⟨1000 * cb + k'.val, by omega⟩ : Fin 50000) d : ℝ) : EReal))
    (h9 : ∀ k' : Fin 1000, s9 (ix2 k' (0 : Fin 1)) = ((cnt ls (⟨1000 * cb + k'.val, by omega⟩ : Fin 50000) : ℝ) : EReal))
    (y : S8x128.Idx) (k : S400x128.Idx) (hk0 : (k 0).val = 8 * cb + (y 0).val) :
    (outLoss (F := Ideal) x6 s10 s9 : S8x128.Idx → EReal) y = G4 ls cen fs k := by
  have hy : (y 0).val < 8 := idx2_lt0 y
  rw [G4_of_row ls cen fs k cb hcb (y 0).val hy hk0]
  obtain ⟨u, v, rfl⟩ : ∃ (u : Fin 8) (v : Fin 128), y = ix2 u v := ⟨y 0, y 1, eq_ix2 y⟩
  exact loss_point ls cen fs x6 s10 s9 cb hcb h6 h10 h9 u v

/-- What a point that writes the window back writes is its block of `G4`. -/
theorem flushed4_eq (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (t : Fin (cfg1 a1).N) (hf : ((cfg1 a1).win 4).flush t = true) :
    (dat1 (F := Ideal) V a1 c).flushed 4 t = (((cfg1 a1).win 4).blk t).view.read (Elt Ideal) (G4 ls cen fs) := by
  show ((cfg1 a1).win 4).cut ((cfg1 a1).grid.coords t) ((dat1 (F := Ideal) V a1 c).after 4 t) = _
  rw [dat1_after4]
  refine funext fun (y : S8x128.Idx) => ?_
  have ht : t.val < 1600 := point_lt a1 t
  have hm : t.val % 32 = 31 := last_of_flush4 a1 t hf
  have hcb : t.val / 32 < 50 := by omega
  have e : t.val + 1 = 32 * (⟨t.val / 32, hcb⟩ : Fin 50).val + 32 := by show t.val + 1 = 32 * (t.val / 32) + 32; omega
  obtain ⟨-, -, -, -, g0, -⟩ := idx_facts1 a1 t
  show (outLoss (F := Ideal) (blockAt1 V a1 c 2 t) (accAt (F := Ideal) V a1 c (t.val + 1)).2 (accAt (F := Ideal) V a1 c (t.val + 1)).1 : S8x128.Idx → EReal) y
    = G4 ls cen fs ((((cfg1 a1).win 4).blk t).view.emb y)
  refine loss_point_at ls cen fs (blockAt1 V a1 c 2 t) (accAt (F := Ideal) V a1 c (t.val + 1)).2 (accAt (F := Ideal) V a1 c (t.val + 1)).1
    (t.val / 32) hcb ?_ ?_ ?_ y ((((cfg1 a1).win 4).blk t).view.emb y) ?_
  · intro k' d
    rw [block2_apply V a1 c t (ix2 k' d) (ix2 ⟨1000 * (t.val / 32) + k'.val, by omega⟩ d) rfl rfl]
    exact hC _ _
  · intro k' d
    rw [e]
    exact ScatterAcc.acc_sum_full V a1 c fs ls hF hL hT ⟨t.val / 32, hcb⟩ k' d
  · intro k'
    rw [e]
    exact ScatterAcc.acc_cnt_full V a1 c fs ls hF hL hT ⟨t.val / 32, hcb⟩ k'
  · show ((cfg1 a1).win 4).index t (0 : Fin 2) * 8 + 1 * (y 0).val = 8 * (t.val / 32) + (y 0).val
    rw [g0]; omega

set_option backward.isDefEq.respectTransparency.types false in
/-- An index of the array is in point `t`'s block iff each coordinate is in the block's range on its axis. -/
theorem mem_blk4 (t : Fin (cfg1 a1).N) (i : S400x128.Idx) :
    i ∈ (((cfg1 a1).win 4).blk t).view.set ↔ ∀ a : Fin 2, ((cfg1 a1).win 4).index t a * S8x128.size a ≤ (i a).val ∧ (i a).val < ((cfg1 a1).win 4).index t a * S8x128.size a + S8x128.size a := by
  show i ∈ ((View.whole main_v21_1).slice (((cfg1 a1).win 4).rect t)).set ↔ _
  rw [View.set_slice_whole]
  exact Rect.mem_set_unit

/-- Row `j` lies in the block written back at point `32·(j / 8) + 31`. -/
theorem cover4 (i : S400x128.Idx) :
    ∃ t : Fin (cfg1 a1).N, ((cfg1 a1).win 4).flush t = true ∧ i ∈ (((cfg1 a1).win 4).blk t).view.set := by
  have hi0 : (i 0).val < 400 := idx2_lt0 i
  have hi1 : (i 1).val < 128 := idx2_lt1 i
  have hN : (cfg1 a1).N = 1600 := points a1
  have hq : 32 * ((i 0).val / 8) + 31 < (cfg1 a1).N := by rw [hN]; omega
  obtain ⟨-, -, -, -, g0, g1⟩ := idx_facts1 a1 ⟨32 * ((i 0).val / 8) + 31, hq⟩
  refine ⟨⟨32 * ((i 0).val / 8) + 31, hq⟩, ?_, ?_⟩
  · rw [flush1_4]
    exact decide_eq_true (by show (32 * ((i 0).val / 8) + 31) % 32 = 31; omega)
  rw [mem_blk4]
  intro a
  match a with
  | ⟨0, _⟩ =>
    show ((cfg1 a1).win 4).index ⟨32 * ((i 0).val / 8) + 31, hq⟩ (0 : Fin 2) * 8 ≤ (i 0).val
      ∧ (i 0).val < ((cfg1 a1).win 4).index ⟨32 * ((i 0).val / 8) + 31, hq⟩ (0 : Fin 2) * 8 + 8
    rw [g0]
    show (32 * ((i 0).val / 8) + 31) / 32 * 8 ≤ (i 0).val ∧ (i 0).val < (32 * ((i 0).val / 8) + 31) / 32 * 8 + 8
    omega
  | ⟨1, _⟩ =>
    show ((cfg1 a1).win 4).index ⟨32 * ((i 0).val / 8) + 31, hq⟩ (1 : Fin 2) * 128 ≤ (i 1).val
      ∧ (i 1).val < ((cfg1 a1).win 4).index ⟨32 * ((i 0).val / 8) + 31, hq⟩ (1 : Fin 2) * 128 + 128
    rw [g1]; omega

/-- The array of loss partials after the region. -/
theorem final4 (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt) :
    (dat1 (F := Ideal) V a1 c).arrAt 4 (cfg1 a1).N = G4 ls cen fs :=
  (dat1 (F := Ideal) V a1 c).arrAt_eq_of_cover 4 (G4 ls cen fs) (fun t hf => flushed4_eq V a1 c fs ls cen hF hL hC hT t hf) (cover4 a1)

end Cert.KernelIdeal.ScatterCoverLoss

end
-- ==== Proof.ScatterFinalSum.lean ====
/-
  The host's sum of the array of loss partials.

  The 400×128 array is 50 blocks of 8×128 = 1024 entries; when block `cb` is constantly `p cb / 1024` the sum of the whole
  array, taken from zero, is Σ_cb 1024 · (p cb / 1024) = Σ_cb p cb.  The sum over both axes is the double sum over the
  coordinates, and the 400 rows are 50 groups of 8.
-/
import proofs.«100039_j20426864460160_2_alg».proof.Proof.Gen.KernelIdeal
import proofs.«100039_j20426864460160_2_alg».proof.Proof.LibCoe
import proofs.«100039_j20426864460160_2_alg».proof.Proof.Literals
import Idealize.ShloMosaic.PureOps.Ideal.Laws
import Idealize.ShloMosaic.Lib.ValueIdx
import Idealize.ShloMosaic.Lib.IdealHost

noncomputable section

namespace Cert.KernelIdeal.ScatterFinalSum

open Cert.KernelIdeal Cert.KernelIdeal.Gen
open Idealize.ShloMosaic Idealize.ShloMosaic.ValueIdx
open CenterSpec CenterSpec.Coe
open scoped BigOperators

/-- A sum over 400 rows, in 50 groups of 8 consecutive rows. -/
theorem sum_rows_grouped {M : Type*} [AddCommMonoid M] (g : Fin 400 → M) :
    ∑ a : Fin 400, g a = ∑ t : Fin 50, ∑ u : Fin 8, g ⟨8 * t.val + u.val, by omega⟩ := by
  rw [← Equiv.sum_comp (finProdFinEquiv (m := 50) (n := 8)) g, Fintype.sum_prod_type]
  refine Finset.sum_congr rfl fun t _ => Finset.sum_congr rfl fun u _ => congrArg g (Fin.ext ?_)
  show u.val + 8 * t.val = 8 * t.val + u.val
  omega

/-- 1024 copies of `q / 1024` add up to `q`. -/
theorem sum_block_const (q : ℝ) : ∑ _u : Fin 8, ∑ _v : Fin 128, q / 1024 = q := by
  simp only [Finset.sum_const, Finset.card_univ, Fintype.card_fin, nsmul_eq_mul]
  push_cast
  ring

/-- The host's sum over a whole 400×128 array whose 8×128 block `cb` is constantly `p cb / 1024`: the sum of the `p cb`. -/
theorem loss_sum (P : FVec Ideal S400x128 .f32) (p : Fin 50 → ℝ)
    (hP : ∀ (cb : Fin 50) (u : Fin 8) (v : Fin 128), P (ix2 (⟨8 * cb.val + u.val, by omega⟩ : Fin 400) v) = ((p cb / 1024 : ℝ) : EReal)) :
    Host.reduceAdd (F := Ideal) P (constant (F := Ideal) S_ .f32 0x00000000#32) reducesTo_S400x128_S_d0_1 h_S_
      = fun _ => ((∑ cb, p cb : ℝ) : EReal) := by
  funext j
  rw [hostReduceAdd_apply, Ideal.hostReduceAdd_total reducesTo_S400x128_S_d0_1 (fun b => b.elim0)]
  have h0 : (constant (F := Ideal) S_ .f32 0x00000000#32) (Shape.Idx.first h_S_) = 0 := Ideal.ofBits_zero_f32
  rw [h0, zero_add, sum_idx2, sum_rows_grouped]
  have hs : (∑ t : Fin 50, ∑ u : Fin 8, ∑ v : Fin 128, P (ix2 (⟨8 * t.val + u.val, by omega⟩ : Fin 400) v))
      = ∑ t : Fin 50, ((p t : ℝ) : EReal) := by
    refine Finset.sum_congr rfl fun t _ => ?_
    have : (∑ u : Fin 8, ∑ v : Fin 128, P (ix2 (⟨8 * t.val + u.val, by omega⟩ : Fin 400) v))
        = ((∑ _u : Fin 8, ∑ _v : Fin 128, p t / 1024 : ℝ) : EReal) := by
      rw [coe_sum]
      refine Finset.sum_congr rfl fun u _ => ?_
      rw [coe_sum]
      exact Finset.sum_congr rfl fun v _ => hP t u v
    rw [this, sum_block_const]
  rw [hs, sum_coe]

end Cert.KernelIdeal.ScatterFinalSum

end
-- ==== Proof.ScatterFinal.lean ====
/-
  What the scatter-and-finalise region leaves in its two arrays, entry by entry, on real data: row k of the array of updated
  centers is the kernel's arrangement of the center update for class k, and every entry of the 8×128 block of class tile cb of the
  array of loss partials is the sum of the tile's 1000 classes' shares of the loss divided by 1024.  Each block is written back
  once, at its class tile's last batch tile, from the accumulators as the tile's 32 batch tiles left them.
-/
import proofs.«100039_j20426864460160_2_alg».proof.Proof.ScatterDataIdeal
import proofs.«100039_j20426864460160_2_alg».proof.Proof.ScatterVal
import proofs.«100039_j20426864460160_2_alg».proof.Proof.ScatterAcc
import proofs.«100039_j20426864460160_2_alg».proof.Proof.SpecReal
import proofs.«100039_j20426864460160_2_alg».proof.Proof.ScatterCoverNewc
import proofs.«100039_j20426864460160_2_alg».proof.Proof.ScatterCoverLoss
import proofs.«100039_j20426864460160_2_alg».proof.Proof.ScatterFinalSum
import Idealize.ShloMosaic.Lib.Pipeline.Value
import Idealize.ShloMosaic.Lib.ValueIdx

noncomputable section

namespace Cert.KernelIdeal.ScatterFinal

open Cert.KernelIdeal Cert.KernelIdeal.Gen Cert.KernelIdeal.Scatter
open Idealize.ShloMosaic Idealize.ShloMosaic.TcCoe Idealize.SL.Sem Idealize.ShloMosaic.ValueIdx
open CenterSpec CenterLoss

variable (V : (c : Dev nD) → (b : Ref sig .tc) → Buf (Elt Ideal) ((c : Thread nD τ).loc b)) (a1 : (pcfg1 (F := Ideal)).Adm)

/-- The array of updated centers after the region, at class `k`, column `d`. -/
theorem newc_final_coe (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (k : Fin 50000) (d : Fin 256) :
    ((dat1 (F := Ideal) V a1 c).arrAt 3 (cfg1 a1).N : S50000x256.Idx → EReal) (ix2 k d) = ((newcK ls cen fs k d : ℝ) : EReal) :=
  (congrFun (ScatterCoverNewc.final3 V a1 c fs ls cen hF hL hC hT) (ix2 k d)).trans (ScatterCoverNewc.G3_ix2 ls cen fs k d)

/-- The array of loss partials after the region, at entry (u, v) of class tile `cb`'s block. -/
theorem loss_final_coe (c : Dev nD) (fs : Fin 131072 → Fin 256 → ℝ) (ls : Fin 131072 → Fin 50000) (cen : Fin 50000 → Fin 256 → ℝ)
    (hF : ∀ (p : Fin 131072) (d : Fin 256), (V c main_v16 : S131072x256.Idx → EReal) (ix2 p d) = ((fs p d : ℝ) : EReal))
    (hL : ∀ p : Fin 131072, (V c main_v20 : S1x131072.Idx → BitVec 32) (ix2 (0 : Fin 1) p) = BitVec.ofNat 32 (ls p).val)
    (hC : ∀ (k : Fin 50000) (d : Fin 256), (V c main_arg2 : S50000x256.Idx → EReal) (ix2 k d) = ((cen k d : ℝ) : EReal))
    (hT : ∀ (b : Fin 32) (q : Fin 4096),
      ((tloOf a1) (ValueIdx.ix1 b)).toInt ≤ (BitVec.ofNat 32 (ls ⟨4096 * b.val + q.val, by omega⟩).val).toInt
      ∧ (BitVec.ofNat 32 (ls ⟨4096 * b.val + q.val, by omega⟩).val).toInt ≤ ((thiOf a1) (ValueIdx.ix1 b)).toInt)
    (cb : Fin 50) (u : Fin 8) (v : Fin 128) :
    ((dat1 (F := Ideal) V a1 c).arrAt 4 (cfg1 a1).N : S400x128.Idx → EReal) (ix2 (⟨8 * cb.val + u.val, by omega⟩ : Fin 400) v)
      = (((∑ k' : Fin 1000, qK ls cen fs (⟨1000 * cb.val + k'.val, by omega⟩ : Fin 50000)) / 1024 : ℝ) : EReal) := by
  refine (congrFun (ScatterCoverLoss.final4 V a1 c fs ls cen hF hL hC hT) _).trans ?_
  refine (ScatterCoverLoss.G4_of_row ls cen fs _ cb.val cb.isLt u.val u.isLt rfl).trans ?_
  rfl

/-- The host's sum over a whole 400×128 array whose 8×128 block `cb` is constantly `p cb / 1024`: the sum of the `p cb`. -/
theorem loss_sum_coe (P : FVec Ideal S400x128 .f32) (p : Fin 50 → ℝ)
    (hP : ∀ (cb : Fin 50) (u : Fin 8) (v : Fin 128), P (ix2 (⟨8 * cb.val + u.val, by omega⟩ : Fin 400) v) = ((p cb / 1024 : ℝ) : EReal)) :
    Host.reduceAdd (F := Ideal) P (constant (F := Ideal) S_ .f32 0x00000000#32) reducesTo_S400x128_S_d0_1 h_S_
      = fun _ => ((∑ cb, p cb : ℝ) : EReal) :=
  ScatterFinalSum.loss_sum P p hP

end Cert.KernelIdeal.ScatterFinal

end
-- ==== Proof.KernelValue.lean ====
/-
  The kernel's two results on real data: the loss and the updated centers are the reference's.

  The loss scalar is (the sum of the array of partial sums of squares + the sum of the array of loss partials) / 131072.  The
  first array's block of batch tile t is constantly that tile's sum of squares of the normalised rows over 1024, so the array sums
  to the sum over the tiles; the second array's block of class tile cb is constantly that tile's sum of the classes' shares over
  1024, the shares computed from the samples in sorted order, so the array sums to the sum over the class tiles.  The two
  together are the kernel's arrangement of the loss at the normalised rows, which is the reference's loss; likewise the
  array of updated centers holds the kernel's arrangement of the center update, which is the reference's.
-/
import proofs.«100039_j20426864460160_2_alg».proof.Proof.MainTables
import proofs.«100039_j20426864460160_2_alg».proof.Proof.MainRegion0
import proofs.«100039_j20426864460160_2_alg».proof.Proof.KernelTail
import proofs.«100039_j20426864460160_2_alg».proof.Proof.KernelMid
import proofs.«100039_j20426864460160_2_alg».proof.Proof.KernelAlg
import proofs.«100039_j20426864460160_2_alg».proof.Proof.NormValue
import proofs.«100039_j20426864460160_2_alg».proof.Proof.ScatterFinal
import proofs.«100039_j20426864460160_2_alg».proof.Proof.LibCoe
import proofs.«100039_j20426864460160_2_alg».proof.Proof.Literals
import Idealize.ShloMosaic.Lib.ValueIdx

noncomputable section

namespace Cert.KernelIdeal.KernelValue

open Cert.KernelIdeal Cert.KernelIdeal.Gen Cert.KernelIdeal.MainRun
open Idealize.ShloMosaic Idealize.ShloMosaic.TcCoe Idealize.SL.Sem Idealize.ShloMosaic.ValueIdx
open CenterSpec CenterSpec.Coe

variable (m : (ℓ : Loc nD τ sig) → Buf (Elt Ideal) ℓ)

/-! ## The buffers the last stretch reads -/

/-- After the second region the array of updated centers holds the region's first unknown, -/
theorem V5_at_v21_0 (o : Gen.Outs (F := Ideal)) (c : Dev nD) : Gen.V5 m o c main_v21_0 = o 5 main_v21_0 c := by
  simp only [Gen.V5, Function.update_of_ne (StableHlo.devRef_ne_of_ne (by decide) : (Proc.devRef .tc main_v21_0 : DevRef τ sig) ≠ Proc.devRef .tc main_v21_1),
    Function.update_self]
/-- and the array of loss partials the second. -/
theorem V5_at_v21_1 (o : Gen.Outs (F := Ideal)) (c : Dev nD) : Gen.V5 m o c main_v21_1 = o 5 main_v21_1 c := by
  simp only [Gen.V5, Function.update_self]

/-- The earlier sum is still what the first host stretch left. -/
theorem V5_at_v1 (o : Gen.Outs (F := Ideal)) (c : Dev nD) :
    Gen.V5 m o c main_v1 = StableHlo.after (hostOps1 (F := Ideal)) (Gen.V1 m o c) main_v1 :=
  (Gen.V5_of m o c main_v1 (by decide)).trans <| (Gen.V4_of m o c main_v1 (by decide)).trans (Gen.V3_of m o c main_v1 (by decide))

/-- A table's contents, once the admissible contents are named. -/
theorem tlo_of (a1 : (pcfg1 (F := Ideal)).Adm) (t : pre1.Contents (Elt Ideal)) (h : a1.1 = t) : Scatter.tloOf a1 = t 0 := by
  subst h; rfl
theorem thi_of (a1 : (pcfg1 (F := Ideal)).Adm) (t : pre1.Contents (Elt Ideal)) (h : a1.1 = t) : Scatter.thiOf a1 = t 1 := by
  subst h; rfl
theorem tbl_v18 : V4' m (0 : Dev nD) (pre1.ref 0) = Vin1 m (0 : Dev nD) main_v18 := rfl
theorem tbl_v19 : V4' m (0 : Dev nD) (pre1.ref 1) = Vin1 m (0 : Dev nD) main_v19 := rfl
/-- The lower table's contents are the entry contents of its buffer. -/
theorem tlo_eq : Scatter.tloOf (a1Of m) = (Vin1 m (0 : Dev nD) main_v18 : S32.Idx → BitVec 32) :=
  (tlo_of (a1Of m) (tbl m) rfl).trans ((V4_pre m 0 0).symm.trans (tbl_v18 m))
/-- The upper table's contents are the entry contents of its buffer. -/
theorem thi_eq : Scatter.thiOf (a1Of m) = (Vin1 m (0 : Dev nD) main_v19 : S32.Idx → BitVec 32) :=
  (thi_of (a1Of m) (tbl m) rfl).trans ((V4_pre m 0 1).symm.trans (tbl_v19 m))

/-! ## The two sums -/

/-- The sum of the squares of one batch tile's normalised rows. -/
def tileSq (x : Fin 131072 → Fin 256 → ℝ) (t : Fin 32) : ℝ :=
  ∑ r : Fin 4096, ∑ d : Fin 256, fR x epsR ⟨4096 * t.val + r.val, by omega⟩ d * fR x epsR ⟨4096 * t.val + r.val, by omega⟩ d

/-- The earlier sum: the sum over the batch tiles of the tiles' sums of squares. -/
theorem sumsq_value (x : Fin 131072 → Fin 256 → ℝ)
    (hX : ∀ (c : Dev nD) (i : Fin 131072) (d : Fin 256), (m ((c.tc : Thread nD τ).loc main_arg0) : S131072x256.Idx → EReal) (ix2 i d) = ((x i d : ℝ) : EReal))
    (o : Gen.Outs (F := Ideal)) (c : Dev nD) (ho : o 1 main_v0_1 c = (Norm.dat0 (Vin0 m) c).arrAt 2 cfg0.N) :
    (Gen.V5 m o c main_v1 : S_.Idx → EReal) = fun _ => ((∑ t, tileSq x t : ℝ) : EReal) := by
  rw [V5_at_v1, KernelTail.head_sumsq, V1_v0_1, ho]
  exact NormValue.sumsq_coe _ (tileSq x) (fun t u v => NormValue.part_final_coe (Vin0 m) c x (hX c) t u v)

/-- The sum of one class tile's shares of the loss, the samples relabelled by σ. -/
def tileQ (x : Fin 131072 → Fin 256 → ℝ) (l : Fin 131072 → Fin 50000) (cen : Fin 50000 → Fin 256 → ℝ)
    (σ : Equiv.Perm (Fin 131072)) (cb : Fin 50) : ℝ :=
  ∑ k' : Fin 1000, qK (fun p => l (σ p)) cen (fun p => fR x epsR (σ p)) ⟨1000 * cb.val + k'.val, by omega⟩

/-! ## The two results -/

/-- The kernel's loss scalar and array of updated centers, on real data, are the reference's loss and updated centers. -/
theorem kernel_results (x : Fin 131072 → Fin 256 → ℝ) (l : Fin 131072 → Fin 50000) (cen : Fin 50000 → Fin 256 → ℝ)
    (hX : ∀ (c : Dev nD) (i : Fin 131072) (d : Fin 256), (m ((c.tc : Thread nD τ).loc main_arg0) : S131072x256.Idx → EReal) (ValueIdx.ix2 i d) = ((x i d : ℝ) : EReal))
    (hL : ∀ (c : Dev nD) (i : Fin 131072), (m ((c.tc : Thread nD τ).loc main_arg1) : S131072.Idx → BitVec 32) (ValueIdx.ix1 i) = BitVec.ofNat 32 (l i).val)
    (hC : ∀ (c : Dev nD) (k : Fin 50000) (d : Fin 256), (m ((c.tc : Thread nD τ).loc main_arg2) : S50000x256.Idx → EReal) (ValueIdx.ix2 k d) = ((cen k d : ℝ) : EReal))
    (c : Dev nD) :
    (Gen.V6 m (MainRun.outs m (MainRun.a1Of m) (MainRun.d1Of m)) c main_v24 : S_.Idx → EReal)
        = (fun _ => ((CenterSpec.lossR x l cen CenterSpec.epsR : ℝ) : EReal))
      ∧ (Gen.V6 m (MainRun.outs m (MainRun.a1Of m) (MainRun.d1Of m)) c main_v21_0 : S50000x256.Idx → EReal)
        = (fun j => ((CenterSpec.newcR x l cen CenterSpec.epsR (j 0) (j 1) : ℝ) : EReal)) := by
  obtain rfl : c = (0 : Dev nD) := Subsingleton.elim _ _
  obtain ⟨σ, hF, hLs, hT⟩ := KernelMid.entry_facts m x l hX hL 0
  have hCs : ∀ (k : Fin 50000) (d : Fin 256), (Vin1 m 0 main_arg2 : S50000x256.Idx → EReal) (ix2 k d) = ((cen k d : ℝ) : EReal) := fun k d => by
    rw [KernelMid.entry_centers m 0]; exact hC 0 k d
  have hT' : ∀ (b : Fin 32) (q : Fin 4096),
      ((Scatter.tloOf (a1Of m)) (ValueIdx.ix1 b)).toInt ≤ (BitVec.ofNat 32 (l (σ ⟨4096 * b.val + q.val, by omega⟩)).val).toInt
      ∧ (BitVec.ofNat 32 (l (σ ⟨4096 * b.val + q.val, by omega⟩)).val).toInt ≤ ((Scatter.thiOf (a1Of m)) (ValueIdx.ix1 b)).toInt := by
    intro b q
    rw [tlo_eq, thi_eq]
    exact hT b q
  constructor
  · show (StableHlo.after (hostOps2 (F := Ideal)) (Gen.V5 m (outs m (a1Of m) (d1Of m)) 0) main_v24 : S_.Idx → EReal) = _
    rw [KernelTail.tail_loss, sumsq_value m x hX _ 0 (outs_v0_1 m (a1Of m) (d1Of m) 0), V5_at_v21_1, outs_v21_1,
      ScatterFinal.loss_sum_coe _ (tileQ x l cen σ) (fun cb u v =>
        ScatterFinal.loss_final_coe (Vin1 m) (a1Of m) 0 (fun p => fR x epsR (σ p)) (fun p => l (σ p)) cen hF hLs hCs hT' cb u v)]
    funext j
    show Ideal.div (((∑ t, tileSq x t : ℝ) : EReal) + ((∑ cb, tileQ x l cen σ cb : ℝ) : EReal)) (Ideal.ofBits .f32 0x48000000#32) = _
    rw [lit_131072, add_coe, div_coe _ (by norm_num)]
    unfold tileSq tileQ
    rw [KernelAlg.loss_tiles l cen σ x epsR]
  · funext j
    obtain ⟨k, d, rfl⟩ : ∃ (k : Fin 50000) (d : Fin 256), j = ix2 k d := ⟨j 0, j 1, eq_ix2 j⟩
    show (StableHlo.after (hostOps2 (F := Ideal)) (Gen.V5 m (outs m (a1Of m) (d1Of m)) 0) main_v21_0 : S50000x256.Idx → EReal) (ix2 k d)
      = ((newcR x l cen epsR k d : ℝ) : EReal)
    rw [KernelTail.tail_newc, V5_at_v21_0, outs_v21_0]
    refine (ScatterFinal.newc_final_coe (Vin1 m) (a1Of m) 0 (fun p => fR x epsR (σ p)) (fun p => l (σ p)) cen hF hLs hCs hT' k d).trans ?_
    rw [KernelAlg.newc_sorted l cen σ x epsR k d]

end Cert.KernelIdeal.KernelValue

end
-- ==== Proof.MainRun.lean ====
/-
  The two-region run with its results named.

  From any launch memory with zero counters every weakly fair execution of the program terminates, and in every final
  memory the loss scalar and the array of updated centers hold what the last valuation of the run says — the launch
  contents carried through region 0, the three host stretches, region 1 and the last host stretch, with each region's
  output arrays at what its pipeline's write-backs fold to — while the three arguments hold what they were launched with.
  Region 1's segment record is a parameter: it must be entered from the contents the third host stretch leaves and left at
  the contents after region 1, beside the generator register at some state and nothing owed.
-/
import proofs.«100039_j20426864460160_2_alg».proof.Proof.MainRegion0

noncomputable section

namespace Cert.KernelIdeal.MainRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (a1 : (pcfg1 (F := F)).Adm)
variable (d1 : (c : Dev nD) → Dat τ (Elt F) Unit ℕ (UR sig nD τ) ℕ (cfg1 a1) c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem main_run
    (R1 : Pipeline.RegionSeg (pcfgs (F := F)) (adm a1) (pdats m a1 d1) () defs₀ 𝒱₀ L lv 1)
    (hpre1 : ∀ c : Dev nD, iprop(StableHlo.held (c : Thread nD τ) (Pipeline.ucRefs τ sig) (Gen.V4 m (outs m a1 d1) c) ∗ Rr (F := F) c) ⊢ R1.pre c)
    (hpost1 : ∀ c : Dev nD, R1.post c ⊢ iprop(StableHlo.held (c : Thread nD τ) (Pipeline.ucRefs τ sig) (Gen.V5 m (outs m a1 d1) c) ∗ Rr (F := F) c)) :
    θ_run defs (onTc (τ := τ) (main (F := F))) ⟨m, fun _ => 0, ρ⟩ (fun r => ∀ c : Dev nD,
      r.2.mem ((c.tc : Thread nD τ).loc main_v24) = Gen.V6 m (outs m a1 d1) c main_v24
      ∧ r.2.mem ((c.tc : Thread nD τ).loc main_v21_0) = Gen.V6 m (outs m a1 d1) c main_v21_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) (adm a1) (pdats m a1 d1) () (cellOf_inj (adm a1)) emb₁ defs₀ 𝒱₀ L lv m ρ main
    (Gen.segs m (outs m a1 d1) 𝒱₀ L lv (E (F := F)) () (adm a1) (pdats m a1 d1) (reg0 m a1 d1) R1)
    (fun c Q => by
      rewrite [main_chain c, Seg.run_eq_chain,
        show (Gen.segs m (outs m a1 d1) 𝒱₀ L lv (E (F := F)) () (adm a1) (pdats m a1 d1) (reg0 m a1 d1) R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells (Pipeline.pin (pcfgs (F := F)) (adm a1)) (cellOf_inj (adm a1)))
      (Pipeline.launchToks (Pipeline.pin (pcfgs (F := F)) (adm a1)) (cellOf_inj (adm a1))))
    (hu₀ := ?_)
    (T₀ := fun c => iprop(StableHlo.held (c : Thread nD τ) (Pipeline.ucRefs τ sig) (Gen.V0 m c) ∗ Rr (F := F) c))
    (Tₙ := fun c => StableHlo.held (c : Thread nD τ) (Pipeline.ucRefs τ sig) (Gen.V6 m (outs m a1 d1) c))
    (hch := fun c => ⟨.rfl, .rfl, .rfl, .rfl, hpre1 c, hpost1 c, sep_mono .rfl (by iintro ⟨-, H⟩; iexact H)⟩)
    (hinit := ?_)
    (QY := fun c s => s.mem ((c.tc : Thread nD τ).loc main_v24) = Gen.V6 m (outs m a1 d1) c main_v24
      ∧ s.mem ((c.tc : Thread nD τ).loc main_v21_0) = Gen.V6 m (outs m a1 d1) c main_v21_0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch element is the pipelines' own, and no ghost resource is dealt to the cores
    iintro Hu; imodintro
    isplitl [Hu]
    · iapply (show (ownU (initOf (Pipeline.cells (Pipeline.pin (pcfgs (F := F)) (adm a1)) (cellOf_inj (adm a1)))
          (Pipeline.launchToks (Pipeline.pin (pcfgs (F := F)) (adm a1)) (cellOf_inj (adm a1)))) : sProp 𝕄)
          ⊢ BI.own (emb₁ (initOf (Pipeline.cells (Pipeline.pin (pcfgs (F := F)) (adm a1)) (cellOf_inj (adm a1)))
            (Pipeline.launchToks (Pipeline.pin (pcfgs (F := F)) (adm a1)) (cellOf_inj (adm a1))))) from .rfl)
      iexact Hu
    iapply (show (BI.emp : sProp 𝕄) ⊢ bigSep Finset.univ (fun _ : Dev nD => (BI.emp : sProp 𝕄)) from by rw [BI.bigSep_emp_const])
    iempintro
  · -- the launch, core by core: the unscoped buffers at the launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the two results and the three arguments read off the last valuation
    unfold StableHlo.held
    iintro ⟨Hh, HSI⟩
    ihave Hr := (pointsTo_read_all (Pipeline.ucRefs τ sig) (fun b => ((c : Thread nD τ).1, b)) (Gen.V6 m (outs m a1 d1) c) s') $$ [Hh HSI]
    · isplitl [Hh] <;> iassumption
    icases Hr with ⟨%h, HSI⟩
    imodintro
    isplitr
    · ipureintro
      exact ⟨h (Proc.devRef .tc main_v24) (mem_uc main_v24 (by decide)),
        h (Proc.devRef .tc main_v21_0) (mem_uc main_v21_0 (by decide)),
        (h (Proc.devRef .tc main_arg0) (mem_uc main_arg0 (by decide))).trans (Gen.V6_main_arg0 m (outs m a1 d1) c),
        (h (Proc.devRef .tc main_arg1) (mem_uc main_arg1 (by decide))).trans (Gen.V6_main_arg1 m (outs m a1 d1) c),
        (h (Proc.devRef .tc main_arg2) (mem_uc main_arg2 (by decide))).trans (Gen.V6_main_arg2 m (outs m a1 d1) c)⟩
    · iexact HSI

end Cert.KernelIdeal.MainRun

end
-- ==== Proof.ScatterRunIdeal.lean ====
/-
  The second kernel region's body — the range-skipped one-hot scatter fused with the center update — run once, at a symbolic
  grid point and on any whole buffers: it leaves the tables and its three input blocks as they were, its two accumulators at
  their steps, and each output at what the last batch tile writes (untouched at every other point).  Stated at any float instance.
-/
import proofs.«100039_j20426864460160_2_alg».proof.Proof.Gen.KernelIdeal.Launch
import proofs.«100039_j20426864460160_2_alg».proof.Proof.Gen.KernelIdeal.Skeleton
import proofs.«100039_j20426864460160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterStepIdeal

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole-buffer rectangle, read back whole, is its payload; a load through it reads the contents. -/
theorem read_whole_store {κ : Kind} {sp : Space} {S : Shape} {e : EltTy} (v : View sig κ sp S e) (f : BufTy.Contents (Elt F) v.ty)
    {off : Fin S.rank → ℕ} (h : off = fun _ => 0) (inb : ∀ a, off a + S.size a ≤ S.size a) (p : S.Idx → Elt F e) :
    View.read (Elt F) v (v.writes (Elt F) f [⟨Rect.unit off S.size inb, p⟩]) = p := by
  rw [View.read_writes_eq_canon _ _ _ (fun y => ⟨_, List.mem_singleton_self _, View.mem_set_unit_zero h inb y⟩), View.canon_unit_zero h]
theorem readAt_whole {κ : Kind} {sp : Space} {S : Shape} {e : EltTy} (v : View sig κ sp S e) (f : BufTy.Contents (Elt F) v.ty)
    {off : Fin S.rank → ℕ} (h : off = fun _ => 0) (inb : ∀ a, off a + S.size a ≤ S.size a) :
    View.readAt (Elt F) v (Rect.unit off S.size inb).toLoadRect f = View.read (Elt F) v f := by
  rw [View.readAt_eq_ld, View.ld_unit_zero h]

/-! ## What the kernel's stores leave, read back whole

The kernel's run names the contents of each buffer it may write as the buffer's old contents overwritten, under the
point's conditions, through the whole-buffer rectangle.  Read back whole these are the step functions. -/

theorem cnt_contents_read (i : grid1.Coords) (v9 : View sig .tc .vmem S1000x1 .f32) (f9 : BufTy.Contents (Elt F) v9.ty)
    (lo hi : BitVec 32) (v5 : View sig .tc .vmem S1x4096 .i32) (f5 : BufTy.Contents (Elt F) v5.ty) :
    View.read (Elt F) v9
      (if hc : meetsTile i lo hi then
        v9.writes (Elt F) (if hc : firstTile i then v9.writes (Elt F) f9 [⟨cntRect, k1_pay1⟩] else f9)
          [⟨cntRect, k1_pay3 (k1_pay12 (classLo i) (k1_pay8 (classLo i)
              (View.readAt (Elt F) v9 cntRect.toLoadRect (if hc : firstTile i then v9.writes (Elt F) f9 [⟨cntRect, k1_pay1⟩] else f9))
              (View.readAt (Elt F) v5 lbl0.toLoadRect f5)) (k1_pay9 (classLo i) (View.readAt (Elt F) v5 lbl1.toLoadRect f5))
              (View.readAt (Elt F) v5 lbl2.toLoadRect f5)) (k1_pay13 (classLo i) (View.readAt (Elt F) v5 lbl3.toLoadRect f5))⟩]
      else (if hc : firstTile i then v9.writes (Elt F) f9 [⟨cntRect, k1_pay1⟩] else f9))
    = stepCnt i lo hi (View.read (Elt F) v5 f5) (View.read (Elt F) v9 f9) := by
  unfold stepCnt accCnt resetCnt
  by_cases hM : meetsTile i lo hi <;> by_cases hF : firstTile i
  all_goals simp only [dif_pos, dif_neg, if_pos, if_neg, hM, hF, not_false_eq_true, read_whole_store (S := S1000x1) _ _ zero2,
    readAt_whole (S := S1000x1) _ _ zero2, View.readAt_eq_ld]

theorem sum_contents_read (i : grid1.Coords) (v10 : View sig .tc .vmem S1000x256 .f32) (f10 : BufTy.Contents (Elt F) v10.ty)
    (lo hi : BitVec 32) (v4 : View sig .tc .vmem S4096x256 .bf16) (f4 : BufTy.Contents (Elt F) v4.ty)
    (v5 : View sig .tc .vmem S1x4096 .i32) (f5 : BufTy.Contents (Elt F) v5.ty) :
    View.read (Elt F) v10
      (if hc : meetsTile i lo hi then
        v10.writes (Elt F) (if hc : firstTile i then v10.writes (Elt F) f10 [⟨sumRect, k1_pay2⟩] else f10)
          [⟨sumRect, k1_pay4 (k1_pay14 (classLo i) (k1_pay10 (classLo i)
              (View.readAt (Elt F) v10 sumRect.toLoadRect (if hc : firstTile i then v10.writes (Elt F) f10 [⟨sumRect, k1_pay2⟩] else f10))
              (View.readAt (Elt F) v4 rows0.toLoadRect f4) (View.readAt (Elt F) v5 lbl0.toLoadRect f5)
              (View.readAt (Elt F) v4 rows1.toLoadRect f4) (View.readAt (Elt F) v5 lbl1.toLoadRect f5))
              (View.readAt (Elt F) v4 rows2.toLoadRect f4) (View.readAt (Elt F) v5 lbl2.toLoadRect f5)
              (View.readAt (Elt F) v4 rows3.toLoadRect f4) (View.readAt (Elt F) v5 lbl3.toLoadRect f5))⟩]
      else (if hc : firstTile i then v10.writes (Elt F) f10 [⟨sumRect, k1_pay2⟩] else f10))
    = stepSum i lo hi (View.read (Elt F) v4 f4) (View.read (Elt F) v5 f5) (View.read (Elt F) v10 f10) := by
  unfold stepSum accSum resetSum
  by_cases hM : meetsTile i lo hi <;> by_cases hF : firstTile i
  all_goals simp only [dif_pos, dif_neg, if_pos, if_neg, hM, hF, not_false_eq_true, read_whole_store (S := S1000x256) _ _ zero2,
    readAt_whole (S := S1000x256) _ _ zero2, View.readAt_eq_ld]

theorem newc_contents_read (i : grid1.Coords) (v7 : View sig .tc .vmem S1000x256 .f32) (f7 : BufTy.Contents (Elt F) v7.ty)
    (v6 : View sig .tc .vmem S1000x256 .f32) (f6 : BufTy.Contents (Elt F) v6.ty)
    (v10 : View sig .tc .vmem S1000x256 .f32) (c10 : BufTy.Contents (Elt F) v10.ty)
    (v9 : View sig .tc .vmem S1000x1 .f32) (c9 : BufTy.Contents (Elt F) v9.ty) :
    View.read (Elt F) v7
      (if hc : k1_cond3 i = 1#1 then
        v7.writes (Elt F) f7 [⟨sumRect, k1_pay5 (View.readAt (Elt F) v6 sumRect.toLoadRect f6)
          (View.readAt (Elt F) v10 sumRect.toLoadRect c10) (View.readAt (Elt F) v9 cntRect.toLoadRect c9)⟩]
      else f7)
    = if lastTile i then outNewc (View.read (Elt F) v6 f6) (View.read (Elt F) v10 c10) (View.read (Elt F) v9 c9) else View.read (Elt F) v7 f7 := by
  unfold lastTile outNewc
  by_cases hL : k1_cond3 i = 1#1
  all_goals simp only [dif_pos, dif_neg, if_pos, if_neg, hL, not_false_eq_true, read_whole_store (S := S1000x256) _ _ zero2,
    readAt_whole (S := S1000x256) _ _ zero2, readAt_whole (S := S1000x1) _ _ zero2]

theorem loss_contents_read (i : grid1.Coords) (v8 : View sig .tc .vmem S8x128 .f32) (f8 : BufTy.Contents (Elt F) v8.ty)
    (v6 : View sig .tc .vmem S1000x256 .f32) (f6 : BufTy.Contents (Elt F) v6.ty)
    (v10 : View sig .tc .vmem S1000x256 .f32) (c10 : BufTy.Contents (Elt F) v10.ty)
    (v9 : View sig .tc .vmem S1000x1 .f32) (c9 : BufTy.Contents (Elt F) v9.ty) :
    View.read (Elt F) v8
      (if hc : k1_cond3 i = 1#1 then
        v8.writes (Elt F) f8 [⟨lossRect, k1_pay6 (View.readAt (Elt F) v6 sumRect.toLoadRect f6)
          (View.readAt (Elt F) v10 sumRect.toLoadRect c10) (View.readAt (Elt F) v9 cntRect.toLoadRect c9)⟩]
      else f8)
    = if lastTile i then outLoss (View.read (Elt F) v6 f6) (View.read (Elt F) v10 c10) (View.read (Elt F) v9 c9) else View.read (Elt F) v8 f8 := by
  unfold lastTile outLoss
  by_cases hL : k1_cond3 i = 1#1
  all_goals simp only [dif_pos, dif_neg, if_pos, if_neg, hL, not_false_eq_true, read_whole_store (S := S8x128) _ _ zero2,
    readAt_whole (S := S1000x256) _ _ zero2, readAt_whole (S := S1000x1) _ _ zero2]

/-- The table word through the run's spelling of the scalar load. -/
theorem tblWord_readAt (v : View sig .tc .smem S32 .i32) (f : BufTy.Contents (Elt F) v.ty) (i : grid1.Coords)
    (h : 0 < (cellRect i).shape.numel) :
    View.readAt (Elt F) v (cellRect i).toLoadRect f (Shape.Idx.first h) = tblWord (View.read (Elt F) v f) i := by
  unfold tblWord; rw [View.readAt_eq_ld]

/-! ## The kernel's run at one grid point -/

set_option maxHeartbeats 4000000 in
/-- The kernel on whole buffers — the tables, the three inputs, the two outputs and the two accumulators at known contents —
    runs to its end leaving the tables and the inputs as they were, the accumulators at their steps, and each output at
    what the last batch tile writes (left as it was at every other point). -/
theorem scatter_run (c : Dev nD) (E : Set ℕ) (i : grid1.Coords)
    (arg2 : Memref sig .tc .smem S32 .i32) (harg2 : arg2.IsWhole) (arg3 : Memref sig .tc .smem S32 .i32) (harg3 : arg3.IsWhole)
    (arg4 : Memref sig .tc .vmem S4096x256 .bf16) (harg4 : arg4.IsWhole) (arg5 : Memref sig .tc .vmem S1x4096 .i32) (harg5 : arg5.IsWhole)
    (arg6 : Memref sig .tc .vmem S1000x256 .f32) (harg6 : arg6.IsWhole) (arg7 : Memref sig .tc .vmem S1000x256 .f32) (harg7 : arg7.IsWhole)
    (arg8 : Memref sig .tc .vmem S8x128 .f32) (harg8 : arg8.IsWhole) (arg9 : Memref sig .tc .vmem S1000x1 .f32) (harg9 : arg9.IsWhole)
    (arg10 : Memref sig .tc .vmem S1000x256 .f32) (harg10 : arg10.IsWhole)
    (tlo thi : Vec F S32 .i32) (x4 : Vec F S4096x256 .bf16) (x5 : Vec F S1x4096 .i32) (x6 : Vec F S1000x256 .f32)
    (d7 : Vec F S1000x256 .f32) (d8 : Vec F S8x128 .f32) (d9 : Vec F S1000x1 .f32) (d10 : Vec F S1000x256 .f32)
    (K : PUnit → sProp 𝕄) :
    iprop(owns (c : Thread nD τ) arg2 fullShare tlo ∗ owns (c : Thread nD τ) arg3 fullShare thi
        ∗ owns (c : Thread nD τ) arg4 fullShare x4 ∗ owns (c : Thread nD τ) arg5 fullShare x5 ∗ owns (c : Thread nD τ) arg6 fullShare x6
        ∗ owns (c : Thread nD τ) arg7 fullShare d7 ∗ owns (c : Thread nD τ) arg8 fullShare d8
        ∗ owns (c : Thread nD τ) arg9 fullShare d9 ∗ owns (c : Thread nD τ) arg10 fullShare d10
        ∗ (iprop(owns (c : Thread nD τ) arg2 fullShare tlo ∗ owns (c : Thread nD τ) arg3 fullShare thi
            ∗ owns (c : Thread nD τ) arg4 fullShare x4 ∗ owns (c : Thread nD τ) arg5 fullShare x5 ∗ owns (c : Thread nD τ) arg6 fullShare x6
            ∗ owns (c : Thread nD τ) arg7 fullShare (if lastTile i then outNewc x6 (stepSum i (tblWord tlo i) (tblWord thi i) x4 x5 d10) (stepCnt i (tblWord tlo i) (tblWord thi i) x5 d9) else d7)
            ∗ owns (c : Thread nD τ) arg8 fullShare (if lastTile i then outLoss x6 (stepSum i (tblWord tlo i) (tblWord thi i) x4 x5 d10) (stepCnt i (tblWord tlo i) (tblWord thi i) x5 d9) else d8)
            ∗ owns (c : Thread nD τ) arg9 fullShare (stepCnt i (tblWord tlo i) (tblWord thi i) x5 d9)
            ∗ owns (c : Thread nD τ) arg10 fullShare (stepSum i (tblWord tlo i) (tblWord thi i) x4 x5 d10)) -∗ K ⟨⟩))
      ⊢ wp frame (wpE (defs₀ (F := F)) Variants.none c none) E
          (cc1__scatter_finalize_kernel i arg2 harg2 arg3 harg3 arg4 harg4 arg5 harg5 arg6 harg6 arg7 harg7 arg8 harg8 arg9 harg9 arg10 harg10) K := by
  simp only [cc1__scatter_finalize_kernel_eq_skeleton]; unfold cc1__scatter_finalize_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    refine (newc_contents_read i arg7.view f7 arg6.view f6 arg10.view _ arg9.view _).trans ?_
    refine congrArg₂ (fun a b => if lastTile i then outNewc (View.read (Elt F) arg6.view f6) a b else View.read (Elt F) arg7.view f7) ?_ ?_
    · exact (sum_contents_read i arg10.view f10 _ _ arg4.view f4 arg5.view f5).trans (by rw [tblWord_readAt, tblWord_readAt])
    · exact (cnt_contents_read i arg9.view f9 _ _ arg5.view f5).trans (by rw [tblWord_readAt, tblWord_readAt])
  isplitl [H8]
  · iexists _; isplitr
    swap; · iexact H8
    ipureintro
    sl_unfold_run_names
    refine (loss_contents_read i arg8.view f8 arg6.view f6 arg10.view _ arg9.view _).trans ?_
    refine congrArg₂ (fun a b => if lastTile i then outLoss (View.read (Elt F) arg6.view f6) a b else View.read (Elt F) arg8.view f8) ?_ ?_
    · exact (sum_contents_read i arg10.view f10 _ _ arg4.view f4 arg5.view f5).trans (by rw [tblWord_readAt, tblWord_readAt])
    · exact (cnt_contents_read i arg9.view f9 _ _ arg5.view f5).trans (by rw [tblWord_readAt, tblWord_readAt])
  isplitl [H9]
  · iexists _; isplitr
    swap; · iexact H9
    ipureintro
    sl_unfold_run_names
    refine (cnt_contents_read i arg9.view f9 _ _ arg5.view f5).trans ?_
    rw [tblWord_readAt, tblWord_readAt]
  iexists _; isplitr
  swap; · iexact H10
  ipureintro
  sl_unfold_run_names
  refine (sum_contents_read i arg10.view f10 _ _ arg4.view f4 arg5.view f5).trans ?_
  rw [tblWord_readAt, tblWord_readAt]

end Cert.KernelIdeal.Scatter

end
-- ==== Proof.ScatterObligIdeal.lean ====
/-
  The second kernel region's body obligation: at every grid point, from the invariant (the tables, the accumulators as the
  points before left them) and the five windows' buffers at what they then hold, the kernel's body runs to the invariant at
  the next point, the inputs' buffers at their blocks, and each output's buffer at the written block at a class tile's last
  batch tile and as found at every other point.  Stated at any float instance.
-/
import proofs.«100039_j20426864460160_2_alg».proof.Proof.Gen.KernelIdeal.Launch
import proofs.«100039_j20426864460160_2_alg».proof.Proof.Gen.KernelIdeal.Skeleton
import proofs.«100039_j20426864460160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«100039_j20426864460160_2_alg».proof.Proof.ScatterRunIdeal
import proofs.«100039_j20426864460160_2_alg».proof.Proof.ScatterDataIdeal

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body obligation of the scatter-and-finalise region -/

variable (V : (c : Dev nD) → (b : Ref sig .tc) → Buf (Elt F) ((c : Thread nD τ).loc b)) (a1 : (pcfg1 (F := F)).Adm)

/-- The kernel body at point `t`, on what the pipeline calls it with: the tables, the five windows' current staging buffers, the
    two accumulators. -/
abbrev bodyAt1 (t : Fin (cfg1 a1).N) : Prog (TpuEff nD τ sig (Elt F) Λ₀ .tc) PUnit :=
  cc1__scatter_finalize_kernel (grid1.coords t) (Memref.whole main_v18) (Memref.isWhole_whole _) (Memref.whole main_v19) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (Memref.whole cc1_scratch0) (Memref.isWhole_whole _) (Memref.whole cc1_scratch1) (Memref.isWhole_whole _)

/-- Each input window's buffer holds its block whenever the body is called, fetched there or not. -/
theorem before1_0 (c : Dev nD) (t : Fin (cfg1 a1).N) (d) : (dat1 V a1 c).before 0 t d = blockAt1 V a1 c 0 t :=
  ((dat1 V a1 c).before_in_eq_fetched 0 rfl (fun _ => rfl) (fun _ _ _ => rfl) (fun t => by rw [dat1_after0]; unfold Dat.blockOf blockAt1; rw [dat1_A]; try rfl) t d).trans
    (by unfold Dat.fetched Dat.blockOf blockAt1; rw [dat1_A]; try rfl)
theorem before1_1 (c : Dev nD) (t : Fin (cfg1 a1).N) (d) : (dat1 V a1 c).before 1 t d = blockAt1 V a1 c 1 t :=
  ((dat1 V a1 c).before_in_eq_fetched 1 rfl (fun _ => rfl) (fun _ _ _ => rfl) (fun t => by rw [dat1_after1]; unfold Dat.blockOf blockAt1; rw [dat1_A]; try rfl) t d).trans
    (by unfold Dat.fetched Dat.blockOf blockAt1; rw [dat1_A]; try rfl)
theorem before1_2 (c : Dev nD) (t : Fin (cfg1 a1).N) (d) : (dat1 V a1 c).before 2 t d = blockAt1 V a1 c 2 t :=
  ((dat1 V a1 c).before_in_eq_fetched 2 rfl (fun _ => rfl) (fun _ _ _ => rfl) (fun t => by rw [dat1_after2]; unfold Dat.blockOf blockAt1; rw [dat1_A]; try rfl) t d).trans
    (by unfold Dat.fetched Dat.blockOf blockAt1; rw [dat1_A]; try rfl)

/-- The two output windows are written back exactly at the last batch tile of a class tile, and the printed configuration
    calls them idle at every other point; the first grid point is a first batch tile. -/
theorem flush1_3 : ∀ t : Fin (cfg1 a1).N, ((cfg1 a1).win 3).flush t = decide (lastTile (grid1.coords t)) :=
  (by decide +kernel : ∀ t : Fin grid1.N, Pipeline.Window.flushOf grid1 true cc1_transform_3 t = decide (lastTile (grid1.coords t)))
theorem flush1_4 : ∀ t : Fin (cfg1 a1).N, ((cfg1 a1).win 4).flush t = decide (lastTile (grid1.coords t)) :=
  (by decide +kernel : ∀ t : Fin grid1.N, Pipeline.Window.flushOf grid1 true cc1_transform_4 t = decide (lastTile (grid1.coords t)))
theorem idle1_3 (t : Fin (cfg1 a1).N) : (cfg1 a1).idle 3 ((cfg1 a1).grid.coords t) = !decide (lastTile (grid1.coords t)) := rfl
theorem idle1_4 (t : Fin (cfg1 a1).N) : (cfg1 a1).idle 4 ((cfg1 a1).grid.coords t) = !decide (lastTile (grid1.coords t)) := rfl
theorem first_of_zero : ∀ t : Fin (cfg1 a1).N, t.val = 0 → firstTile (grid1.coords t) :=
  (by decide +kernel : ∀ t : Fin grid1.N, t.val = 0 → firstTile (grid1.coords t))

/-- At a class tile's first batch tile the steps do not read what the accumulators held. -/
theorem stepCnt_first (i : grid1.Coords) (h : firstTile i) (lo hi : BitVec 32) (x5 : Vec F S1x4096 .i32) (d d' : Vec F S1000x1 .f32) :
    stepCnt i lo hi x5 d = stepCnt i lo hi x5 d' := by
  unfold stepCnt resetCnt; simp only [h, if_true]
theorem stepSum_first (i : grid1.Coords) (h : firstTile i) (lo hi : BitVec 32) (x4 : Vec F S4096x256 .bf16) (x5 : Vec F S1x4096 .i32)
    (d d' : Vec F S1000x256 .f32) : stepSum i lo hi x4 x5 d = stepSum i lo hi x4 x5 d' := by
  unfold stepSum resetSum; simp only [h, if_true]

/-- The accumulators one point on. -/
theorem accAt_succ (c : Dev nD) (t : Fin (cfg1 a1).N) :
    accAt V a1 c (t.val + 1)
      = (stepCnt ((cfg1 a1).grid.coords t) (tblWord (tloOf a1) ((cfg1 a1).grid.coords t)) (tblWord (thiOf a1) ((cfg1 a1).grid.coords t))
            (blockAt1 V a1 c 1 t) (accAt V a1 c t.val).1,
          stepSum ((cfg1 a1).grid.coords t) (tblWord (tloOf a1) ((cfg1 a1).grid.coords t)) (tblWord (thiOf a1) ((cfg1 a1).grid.coords t))
            (blockAt1 V a1 c 0 t) (blockAt1 V a1 c 1 t) (accAt V a1 c t.val).2) := by
  rw [accAt, dif_pos t.isLt]

/-- A buffer left at one of two contents according to a decidable fact, as one of two assertions. -/
theorem owns_ite {S : Shape} {e : EltTy} (c : Dev nD) (M : Memref sig .tc .vmem S e) (last : Prop) [Decidable last]
    (X Y : S.Idx → Elt F e) (P : sProp 𝕄) (hY : owns (c : Thread nD τ) M fullShare Y ⊢ P) :
    owns (c : Thread nD τ) M fullShare (if last then X else Y) ⊢ (if last then owns (c : Thread nD τ) M fullShare X else P) := by
  by_cases h : last
  · rw [if_pos h, if_pos h]
  · rw [if_neg h, if_neg h]; exact hY

/-- What the body is called with at point `t`, window by window, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (spec1_0.stage ((cfg1 a1).slots t 0)) fullShare ((dat1 V a1 c).before 0 t d))
    ∗ (∃ d, owns (c : Thread nD τ) (spec1_1.stage ((cfg1 a1).slots t 1)) fullShare ((dat1 V a1 c).before 1 t d))
    ∗ (∃ d, owns (c : Thread nD τ) (spec1_2.stage ((cfg1 a1).slots t 2)) fullShare ((dat1 V a1 c).before 2 t d))
    ∗ (∃ d, owns (c : Thread nD τ) (spec1_3.stage ((cfg1 a1).slots t 3)) fullShare ((dat1 V a1 c).before 3 t d))
    ∗ (∃ d, owns (c : Thread nD τ) (spec1_4.stage ((cfg1 a1).slots t 4)) fullShare ((dat1 V a1 c).before 4 t d)))

/-- and what it returns: the inputs' buffers at their blocks; each output's at the written block at the last batch tile and as
    found at every other point. -/
def bodyPost1 (c : Dev nD) (t : Fin (cfg1 a1).N) : sProp 𝕄 :=
  iprop((dat1 V a1 c).Φ t.succ ∗ (dat1 V a1 c).owesAt () t.succ
    ∗ owns (c : Thread nD τ) (spec1_0.stage ((cfg1 a1).slots t 0)) fullShare ((dat1 V a1 c).after 0 t)
    ∗ owns (c : Thread nD τ) (spec1_1.stage ((cfg1 a1).slots t 1)) fullShare ((dat1 V a1 c).after 1 t)
    ∗ owns (c : Thread nD τ) (spec1_2.stage ((cfg1 a1).slots t 2)) fullShare ((dat1 V a1 c).after 2 t)
    ∗ (if lastTile (grid1.coords t) then owns (c : Thread nD τ) (spec1_3.stage ((cfg1 a1).slots t 3)) fullShare ((dat1 V a1 c).after 3 t)
        else iprop(∃ d, owns (c : Thread nD τ) (spec1_3.stage ((cfg1 a1).slots t 3)) fullShare ((dat1 V a1 c).before 3 t d)))
    ∗ (if lastTile (grid1.coords t) then owns (c : Thread nD τ) (spec1_4.stage ((cfg1 a1).slots t 4)) fullShare ((dat1 V a1 c).after 4 t)
        else iprop(∃ d, owns (c : Thread nD τ) (spec1_4.stage ((cfg1 a1).slots t 4)) fullShare ((dat1 V a1 c).before 4 t d))))

set_option maxHeartbeats 2000000 in
/-- The body at any point: the inputs' buffers hold their blocks and the accumulators what the points before left (anything
    at the first point, which clears them), so the kernel's run applies and leaves the accumulators at the next point's contents. -/
theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1, before1_2]
  rw [show (dat1 V a1 c).owesAt () t.succ = (dat1 V a1 c).owesAt () t.castSucc from rfl,
    dat1_after0, dat1_after1, dat1_after2, dat1_after3, dat1_after4, dat1_Phi, dat1_Phi]
  unfold PhiAt
  simp only [Fin.coe_castSucc, Fin.val_succ]
  iintro ⟨⟨HT0, HT1, Hst, ⟨%d9, %d10, %htr, H9, H10⟩, Hp⟩, Ho, ⟨%e0, H0⟩, ⟨%e1, H1⟩, ⟨%e2, H2⟩, ⟨%e3, H3⟩, ⟨%e4, H4⟩⟩
  iapply (scatter_run (F := F) c Set.univ (grid1.coords t) (Memref.whole main_v18) (Memref.isWhole_whole _) (Memref.whole main_v19) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    (spec1_3.stage ((cfg1 a1).slots t 3)) (hstage1_3 (((cfg1 a1).slots t 3).cast nbuf1_3))
    (spec1_4.stage ((cfg1 a1).slots t 4)) (hstage1_4 (((cfg1 a1).slots t 4).cast nbuf1_4))
    (Memref.whole cc1_scratch0) (Memref.isWhole_whole _) (Memref.whole cc1_scratch1) (Memref.isWhole_whole _)
    (tloOf a1) (thiOf a1)
    (blockAt1 V a1 c 0 t) (blockAt1 V a1 c 1 t) (blockAt1 V a1 c 2 t) ((dat1 V a1 c).before 3 t e3) ((dat1 V a1 c).before 4 t e4) d9 d10
    _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H9]; · iexact H9
  isplitl [H10]; · iexact H10
  iintro ⟨HT0, HT1, H0, H1, H2, H3, H4, H9, H10⟩
  -- the accumulators after the point are the next point's
  have hstep : stepCnt (grid1.coords t) (tblWord (tloOf a1) (grid1.coords t)) (tblWord (thiOf a1) (grid1.coords t)) (blockAt1 V a1 c 1 t) d9
        = (accAt V a1 c (t.val + 1)).1
      ∧ stepSum (grid1.coords t) (tblWord (tloOf a1) (grid1.coords t)) (tblWord (thiOf a1) (grid1.coords t)) (blockAt1 V a1 c 0 t) (blockAt1 V a1 c 1 t) d10
        = (accAt V a1 c (t.val + 1)).2 := by
    have hco : (cfg1 a1).grid.coords t = grid1.coords t := rfl
    rw [accAt_succ, hco]
    by_cases h0 : t.val = 0
    · exact ⟨stepCnt_first _ (first_of_zero a1 t h0) _ _ _ _ _, stepSum_first _ (first_of_zero a1 t h0) _ _ _ _ _ _⟩
    · obtain ⟨h9, h10⟩ := htr h0
      subst h9 h10
      exact ⟨rfl, rfl⟩
  rw [hstep.1, hstep.2]
  isplitl [HT0 HT1 Hst H9 H10 Hp]
  · isplitl [HT0]; · iexact HT0
    isplitl [HT1]; · iexact HT1
    isplitl [Hst]; · iexact Hst
    isplitl [H9 H10]
    · iexists _, _; isplitr
      · ipureintro; intro _; exact ⟨rfl, rfl⟩
      isplitl [H9]; · iexact H9
      iexact H10
    iexact Hp
  isplitl [Ho]; · iexact Ho
  isplitl [H0]; · iexact H0
  isplitl [H1]; · iexact H1
  isplitl [H2]; · iexact H2
  isplitl [H3]
  · iapply (owns_ite c _ (lastTile (grid1.coords t)) _ _ _ (by iintro H; iexists e3; iexact H))
    iexact H3
  iapply (owns_ite c _ (lastTile (grid1.coords t)) _ _ _ (by iintro H; iexists e4; iexact H))
  iexact H4

/-- The pipeline library's body obligation for the scatter-and-finalise region, at every point. -/
theorem body_obligation1 (c : Dev nD) : BodyObligation (dat1 (F := F) V a1 c) (defs₀ (F := F)) Variants.none () Set.univ := fun t => by
  rw [bigSep_W1, bigSep_W1]
  refine (sound_body1 V a1 c t).trans (wp_mono _ _ _ fun _ => ?_)
  unfold bodyPost1
  refine BIClass.sep_mono ?_ (BIClass.sep_mono ?_ (BIClass.sep_mono ?_ (BIClass.sep_mono ?_ (BIClass.sep_mono ?_ (BIClass.sep_mono ?_ ?_)))))
  · iintro H; iexact H
  · iintro H; iexact H
  · iintro H; iexact H
  · iintro H; iexact H
  · iintro H; iexact H
  · by_cases h : lastTile (grid1.coords t)
    · have hi : (cfg1 a1).idle 3 ((cfg1 a1).grid.coords t) = false := by rw [idle1_3 a1 t]; simp [h]
      have hi' : idle1 3 ((pcfg1.gridAt a1.1).coords t) = false := hi
      simp only [hi, hi', h, if_true]; iintro H; iexact H
    · have hi : (cfg1 a1).idle 3 ((cfg1 a1).grid.coords t) = true := by rw [idle1_3 a1 t]; simp [h]
      have hf : ((cfg1 a1).win 3).flush t = false := by rw [flush1_3 a1 t]; simp [h]
      have hi' : idle1 3 ((pcfg1.gridAt a1.1).coords t) = true := hi
      have hf' : (pcfg1.win a1 3).flush t = false := hf
      simp only [hi, hi', h, if_false]
      split
      · iintro H; iexact H
      · rename_i hflush; exact absurd (hf'.symm.trans hflush) Bool.false_ne_true
  · by_cases h : lastTile (grid1.coords t)
    · have hi : (cfg1 a1).idle 4 ((cfg1 a1).grid.coords t) = false := by rw [idle1_4 a1 t]; simp [h]
      have hi' : idle1 4 ((pcfg1.gridAt a1.1).coords t) = false := hi
      simp only [hi, hi', h, if_true]; iintro H; iexact H
    · have hi : (cfg1 a1).idle 4 ((cfg1 a1).grid.coords t) = true := by rw [idle1_4 a1 t]; simp [h]
      have hf : ((cfg1 a1).win 4).flush t = false := by rw [flush1_4 a1 t]; simp [h]
      have hi' : idle1 4 ((pcfg1.gridAt a1.1).coords t) = true := hi
      have hf' : (pcfg1.win a1 4).flush t = false := hf
      simp only [hi, hi', h, if_false]
      split
      · iintro H; iexact H
      · rename_i hflush; exact absurd (hf'.symm.trans hflush) Bool.false_ne_true

end Cert.KernelIdeal.Scatter

end
-- ==== Proof.MainRegion1.lean ====
/-
  Region 1 (the scatter and center update) as a segment of the two-region run, and the run with both regions in place.

  The region is entered with every unscoped buffer of the core at the contents the third host stretch leaves, beside the
  generator register at some state and nothing owed.  Out of the unscoped buffers come its five arrays — the sorted rows, the
  sorted labels, the centers, and the two outputs — and its two prefetched tables, which hold the words the host stretch
  tabulated; the rest bypasses the region.  The tables, the generator register and the scoped buffers no window stages (the
  other region's staging buffers and the two accumulators) make the pipeline's invariant at the first point, where nothing is
  yet said about the accumulators; at the last point the invariant gives them back.  At the exit the three input arrays are
  as they were, the two outputs hold what the pipeline's write-backs fold to, which is what the contents after the region
  hold there, and the tables and every other buffer hold what they held at entry.
-/
import proofs.«100039_j20426864460160_2_alg».proof.Proof.MainRun
import proofs.«100039_j20426864460160_2_alg».proof.Proof.MainTables
import proofs.«100039_j20426864460160_2_alg».proof.Proof.ScatterObligIdeal

noncomputable section

namespace Cert.KernelIdeal.MainRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after the region, at the region's arrays and off them -/

/-- What the two regions leave, at region 1's proof data. -/
abbrev outsOf : Gen.Outs (F := F) := outs m (a1Of m) (d1Of m)

/-- The contents after region 1, read at the core's references. -/
abbrev Vout1 : (c : Dev nD) → (b : Ref sig .tc) → Buf (Elt F) ((c : Thread nD τ).loc b) :=
  fun c b => Gen.V5 m (outsOf m) c b

/-- After the region the array of updated centers holds the first unknown of the last stage, -/
theorem V5_v21_0 (o : Gen.Outs (F := F)) (c : Dev nD) : Gen.V5 m o c main_v21_0 = o 5 main_v21_0 c := by
  simp only [Gen.V5, Function.update_of_ne (StableHlo.devRef_ne_of_ne (by decide) : (Proc.devRef .tc main_v21_0 : DevRef τ sig) ≠ Proc.devRef .tc main_v21_1),
    Function.update_self]
/-- and the array of loss partials the second. -/
theorem V5_v21_1 (o : Gen.Outs (F := F)) (c : Dev nD) : Gen.V5 m o c main_v21_1 = o 5 main_v21_1 c := by
  simp only [Gen.V5, Function.update_self]

/-- Each of the region's arrays holds, after the region, what the pipeline leaves in it: an input's array its entry contents,
    which the region does not change, an output's what its write-backs fold to. -/
theorem hF1 (c : Dev nD) (w : Fin (cfg1 (a1Of m)).W) :
    (d1Of m c).arrAt w (cfg1 (a1Of m)).N = Vout1 m c (Pipeline.arrRef spec1 w) := by
  match w with
  | ⟨0, _⟩ =>
    exact (((d1Of m c).arrAt_in 0 rfl _).trans (Scatter.dat1_A (Vin1 m) (a1Of m) c 0)).trans
      (Gen.V5_of m (outsOf m) c main_v16 (by decide)).symm
  | ⟨1, _⟩ =>
    exact (((d1Of m c).arrAt_in 1 rfl _).trans (Scatter.dat1_A (Vin1 m) (a1Of m) c 1)).trans
      (Gen.V5_of m (outsOf m) c main_v20 (by decide)).symm
  | ⟨2, _⟩ =>
    exact (((d1Of m c).arrAt_in 2 rfl _).trans (Scatter.dat1_A (Vin1 m) (a1Of m) c 2)).trans
      (Gen.V5_of m (outsOf m) c main_arg2 (by decide)).symm
  | ⟨3, _⟩ => exact ((V5_v21_0 m (outsOf m) c).trans (outs_v21_0 m (a1Of m) (d1Of m) c)).symm
  | ⟨4, _⟩ => exact ((V5_v21_1 m (outsOf m) c).trans (outs_v21_1 m (a1Of m) (d1Of m) c)).symm

/-- Every buffer that is none of the region's arrays holds after the region what it held before. -/
theorem hrest1 (c : Dev nD) : ∀ b, b ∉ Finset.univ.image (Pipeline.arrRef spec1) → Vout1 m c b = Vin1 m c b :=
  fun b hb => Gen.V5_of m (outsOf m) c b fun hm => hb (by
    rcases List.mem_cons.mp hm with rfl | hm
    · exact Finset.mem_image.mpr ⟨3, Finset.mem_univ _, rfl⟩
    · rcases List.mem_cons.mp hm with rfl | hm
      · exact Finset.mem_image.mpr ⟨4, Finset.mem_univ _, rfl⟩
      · exact absurd hm List.not_mem_nil)

/-- At region 1's entry the two tables' buffers hold the tables' contents. -/
theorem tables_at_entry (c : Dev nD) : (fun k => Vin1 m c (pre1.ref k)) = (a1Of m).1 :=
  funext fun k => V4_pre m c k

/-! ## The tables and the scoped rest as the invariant states them -/

/-- The two tables held whole at contents `a` are the two tables' memrefs owned at them. -/
theorem prefHeld_tables (c : Dev nD) (a : (pcfg1 (F := F)).Adm) :
    (Pipeline.prefHeld pre1 c (fun _ => fullShare) a.1 : sProp 𝕄)
      = iprop(owns (c : Thread nD τ) Scatter.tblM0 fullShare (Scatter.tloOf a) ∗ owns (c : Thread nD τ) Scatter.tblM1 fullShare (Scatter.thiOf a)) := by
  unfold Pipeline.prefHeld
  rw [show (Finset.univ : Finset (Fin 2)) = insert (0 : Fin 2) {(1 : Fin 2)} from by decide,
    bigSep_insert (by decide), bigSep_singleton]
  simp only [Scatter.tblM0, Scatter.tblM1, owns_whole]
  rfl

/-! ## The region as a segment -/

set_option backward.isDefEq.respectTransparency.types false in
/-- Region 1 over the thread state: entered from every unscoped buffer at the contents the third host stretch leaves, left
    at the contents after the region; beside both, the generator register at some state and nothing owed. -/
def reg1 : Pipeline.RegionSeg (pcfgs (F := F)) (adm (a1Of m)) (pdats m (a1Of m) (d1Of m)) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Scatter.body_obligation1 (Vin1 m) (a1Of m) c).loose
  hwaits := Pipeline.hwaits_of_owed_zero _ _ _ _ L lv 1 fun _ _ => rfl
  pre c := iprop(StableHlo.held (c : Thread nD τ) (Pipeline.ucRefs τ sig) (Gen.V4 m (outsOf m) c) ∗ Rr (F := F) c)
  post c := iprop(StableHlo.held (c : Thread nD τ) (Pipeline.ucRefs τ sig) (Gen.V5 m (outsOf m) c) ∗ Rr (F := F) c)
  X c := iprop(∃ r, prngReg c r)
  Y c := iprop((∃ r, prngReg c r) ∗ Pipeline.prefHeld pre1 c (fun _ => fullShare) (a1Of m).1)
  Z c := Pipeline.unscopedRestP (Ix := Unit) (Name := ℕ) (U := UR sig nD τ) (Lvl := ℕ) pre1 spec1 c (Vin1 m c)
  hentry c := by
    -- the arrays and the tables out of the unscoped buffers; the register for the invariant; the dues as the pipeline states them
    rw [Pipeline.ownSems0_none]
    have hsplit := Pipeline.arrays_of_unscopedBufs (p := 1) (pcfgs (F := F)) (adm (a1Of m)) (pdats m (a1Of m) (d1Of m))
      (launch1 (F := F)).win (launch1 (F := F)).arr_whole c
      ((pdats m (a1Of m) (d1Of m) 1 c).share_full fun _ => rfl) (Vin1 m c) fun _ => rfl
    rw [Pipeline.unscopedBufs_held] at hsplit
    have htabs := Pipeline.unscopedRest_split (Ix := Unit) (Name := ℕ) (U := UR sig nD τ) (Lvl := ℕ) (hp := preFacts1) c (Vin1 m c)
    rw [tables_at_entry m c] at htabs
    replace hsplit := hsplit.trans (sep_mono .rfl (Entails.of_eq htabs))
    iintro ⟨⟨Hub, Hp, HO⟩, -, -⟩
    ihave H := hsplit $$ [Hub]
    · iexact Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant before the first point: the tables, the other region's staging buffers, the accumulators at anything
    show iprop((∃ r, prngReg c r) ∗ Pipeline.prefHeld pre1 c (fun _ => fullShare) (a1Of m).1 ∗ Pipeline.scopedRest spec1 c)
      ⊢ Scatter.PhiAt (Vin1 m) (a1Of m) c 0
    rw [Gen.scopedRest1_eq c, prefHeld_tables]
    unfold Scatter.PhiAt Scatter.otherStaging
    simp only [Scatter.cntM, Scatter.sumM, owns_whole]
    iintro ⟨Hr, ⟨Ht0, Ht1⟩, H1, H2, H3, H4, H5, H6, ⟨%f0, Hc0⟩, ⟨%f1, Hc1⟩⟩
    isplitl [Ht0]; · iexact Ht0
    isplitl [Ht1]; · iexact Ht1
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [Hc0 Hc1]
    · iexists f0; iexists f1
      isplitr; · ipureintro; exact fun h => absurd rfl h
      isplitl [Hc0]; · iexact Hc0
      iexact Hc1
    iexact Hr
  hout c := by
    -- the invariant after the last point gives everything back; what the accumulators hold is forgotten
    rw [Pipeline.ownSems0_none,
      show (pdats m (a1Of m) (d1Of m) 1 c).Φ (Fin.last _) = Scatter.PhiAt (Vin1 m) (a1Of m) c (Fin.last _) from rfl,
      show Pipeline.scopedRest (Pipeline.pin (pcfgs (F := F)) (adm (a1Of m)) 1).spec c = Pipeline.scopedRest spec1 c from rfl,
      Gen.scopedRest1_eq c, prefHeld_tables]
    unfold Scatter.PhiAt Scatter.otherStaging
    simp only [Scatter.cntM, Scatter.sumM, owns_whole]
    iintro ⟨Ht0, Ht1, ⟨H1, H2, H3, H4, H5, H6⟩, ⟨%d9, %d10, -, Hc0, Hc1⟩, Hr⟩
    isplitl [Hr Ht0 Ht1]
    · isplitl [Hr]; · iexact Hr
      isplitl [Ht0]; · iexact Ht0
      iexact Ht1
    isplitr; · iempintro
    isplitl [H1]; · iexact H1
    isplitl [H2]; · iexact H2
    isplitl [H3]; · iexact H3
    isplitl [H4]; · iexact H4
    isplitl [H5]; · iexact H5
    isplitl [H6]; · iexact H6
    isplitl [Hc0]; · iexists d9; iexact Hc0
    iexists d10; iexact Hc1
  hexit c := by
    -- the tables back beside the rest, then the arrays back among the unscoped buffers, at the contents after the region
    have hjoin := Pipeline.unscopedBufs_of_arrays (p := 1) (pcfgs (F := F)) (adm (a1Of m)) (Ix := Unit) (Name := ℕ) (U := UR sig nD τ) (Lvl := ℕ)
      (launch1 (F := F)).win (launch1 (F := F)).arr_whole c (pdats m (a1Of m) (d1Of m))
      ((pdats m (a1Of m) (d1Of m) 1 c).share_full fun _ => rfl)
      (Vin1 m c) (Vout1 m c) ((pdats m (a1Of m) (d1Of m) 1 c).arrAt · (cfg1 (a1Of m)).N) (hF1 m c) (hrest1 m c)
    rw [Pipeline.unscopedBufs_held] at hjoin
    have htabs := Pipeline.unscopedRest_split (Ix := Unit) (Name := ℕ) (U := UR sig nD τ) (Lvl := ℕ) (hp := preFacts1) c (Vin1 m c)
    rw [tables_at_entry m c] at htabs
    replace hjoin := (sep_mono .rfl (Entails.of_eq htabs.symm)).trans hjoin
    iintro ⟨Ha, HO, ⟨HY, Htb⟩, Hrest⟩
    imodintro
    isplitl [Ha Htb Hrest]
    · iapply hjoin
      isplitl [Ha]; · iexact Ha
      isplitl [Htb]; · iexact Htb
      iexact Hrest
    isplitl [HY]; · iexact HY
    unfold Pipeline.Dat.owesAt Pipeline.owesWithin
    icases HO with ⟨%W, -, HO⟩; iexists W; iexact HO

/-! ## The run with both regions in place -/

/-- From any launch memory with zero counters every weakly fair execution of the program terminates; every final memory
    holds the loss scalar and the updated centers as the last valuation says, at the tables' contents the host stretch
    leaves and region 1's proof data at them, and the three arguments as launched. -/
theorem main_run1 :
    θ_run defs (onTc (τ := τ) (main (F := F))) ⟨m, fun _ => 0, ρ⟩ (fun r => ∀ c : Dev nD,
      r.2.mem ((c.tc : Thread nD τ).loc main_v24) = Gen.V6 m (outs m (a1Of m) (d1Of m)) c main_v24
      ∧ r.2.mem ((c.tc : Thread nD τ).loc main_v21_0) = Gen.V6 m (outs m (a1Of m) (d1Of m)) c main_v21_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  main_run m ρ (a1Of m) (d1Of m) (reg1 m) (fun _ => .rfl) (fun _ => .rfl)

end Cert.KernelIdeal.MainRun

end
-- ==== Proof.Assemble.lean ====
/-
  The value claim and the idealized kernel's frame claim, assembled.

  Under the precondition the kernel program's three arguments are real features, class-index label words and real centers.
  The kernel's run ends with its loss scalar and its array of updated centers at what the last contents of the run say, and on
  real data those are the reference's loss and updated centers as real functions of the data; the reference's run, from a
  memory that agrees on the arguments, ends with its two results at the same functions.  Both runs leave their arguments as
  launched.
-/
import proofs.«100039_j20426864460160_2_alg».proof.Defs
import proofs.«100039_j20426864460160_2_alg».proof.Proof.PreDecode
import proofs.«100039_j20426864460160_2_alg».proof.Proof.RefValue
import proofs.«100039_j20426864460160_2_alg».proof.Proof.KernelValue
import proofs.«100039_j20426864460160_2_alg».proof.Proof.MainRegion1

noncomputable section

namespace Cert.Proof.Assemble

open Idealize.ShloMosaic Idealize.ShloMosaic.TcCoe Idealize.SL.Sem Idealize.ShloMosaic.ValueIdx
open CenterSpec

/-- The idealized kernel and the reference, from memories agreeing on the arguments, end with equal results. -/
theorem algebraic [Cert.KernelIdeal.Facts] [Cert.ReferenceIdeal.Facts] [Cert.Pre_finite_inputs.Facts] :
    Cert.algebraic_KernelIdeal_ReferenceIdeal := by
  intro m ρ m' ρ' hpre hagree
  obtain ⟨x, l, cen, hX, hL, hC⟩ := Cert.Proof.PreDecode.pre_decode m hpre
  refine ⟨fun _ => (fun _ => ((lossR x l cen epsR : ℝ) : EReal) : Cert.KernelIdeal.S_.Idx → EReal),
    fun _ => (fun j => ((newcR x l cen epsR (j 0) (j 1) : ℝ) : EReal) : Cert.KernelIdeal.S50000x256.Idx → EReal), ?_, ?_⟩
  · refine (θ_run (Cert.KernelIdeal.defs (F := Ideal)) _ _).mono (fun r h c => ?_) (Cert.KernelIdeal.MainRun.main_run1 (F := Ideal) m ρ)
    obtain ⟨h24, h21, ha0, ha1, ha2⟩ := h c
    obtain ⟨k1, k2⟩ := Cert.KernelIdeal.KernelValue.kernel_results m x l cen hX hL hC c
    exact ⟨h24.trans k1, h21.trans k2, ha0, ha1, ha2⟩
  · exact Cert.ReferenceIdeal.RefValue.ref_run m' ρ' x l cen
      (fun c i d => by rw [(hagree c).1]; exact hX c i d)
      (fun c i => by rw [(hagree c).2.1]; exact hL c i)
      (fun c k d => by rw [(hagree c).2.2]; exact hC c k d)

/-- The idealized kernel runs to the end and leaves its three argument arrays as it found them. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2.2) (Cert.KernelIdeal.MainRun.main_run1 (F := Ideal) m ρ)

end Cert.Proof.Assemble

end
-- ==== Proof.lean ====
/-
  The center-loss kernel against its reference: the claim's five conjuncts.

  The kernel normalises the feature rows (first region), sorts the samples by label on the host, accumulates per-class
  counts and per-class feature sums tile by tile with a one-hot product that is skipped where a batch tile's label range
  misses the class tile, and at each class tile's last batch tile writes the updated centers and that tile's share of the
  loss (second region).  The reference gathers each sample's center, sums the squared distances, and scatter-adds the
  weighted differences.  With every label inside 0 … 49999 and every float finite the two agree over the reals: squares
  expand into sums by class, inside a class the center and the weight are constants of the sum, and counts and per-class
  sums do not see the order of the samples.

  Each kernel program's frame is its run through the two regions and the host stretches between them with the two results
  named, the results forgotten; the reference is a straight line of host operations, none of which writes an argument array;
  the idealization rewrote no operation, so its ledger has no entry; and the value conjunct puts the kernel's run and the
  reference's run side by side at the same two real functions of the data the precondition makes real.
-/
import proofs.«100039_j20426864460160_2_alg».proof.Defs
import proofs.«100039_j20426864460160_2_alg».proof.Proof.Gen.Kernel
import proofs.«100039_j20426864460160_2_alg».proof.Proof.Gen.KernelIdeal
import proofs.«100039_j20426864460160_2_alg».proof.Proof.Gen.ReferenceIdeal
import proofs.«100039_j20426864460160_2_alg».proof.Proof.Gen.Pre_finite_inputs
import proofs.«100039_j20426864460160_2_alg».proof.Proof.RefFrame
import proofs.«100039_j20426864460160_2_alg».proof.Proof.FrameBits
import proofs.«100039_j20426864460160_2_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.FrameBits.frame_k, Cert.Proof.Assemble.frame_ki, Cert.Proof.RefFrame.frame_ri, trivial, Cert.Proof.Assemble.algebraic⟩

end Cert.Proof

end
